-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v114)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v114) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v171) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x15 : Shape := ⟨2, ![100000, 15]⟩
abbrev S2x1600000 : Shape := ⟨2, ![2, 1600000]⟩
abbrev S1600000 : Shape := ⟨1, ![1600000]⟩
abbrev S15x64 : Shape := ⟨2, ![15, 64]⟩
abbrev S64 : Shape := ⟨1, ![64]⟩
abbrev S64x64 : Shape := ⟨2, ![64, 64]⟩
abbrev S256x128 : Shape := ⟨2, ![256, 128]⟩
abbrev S256x64 : Shape := ⟨2, ![256, 64]⟩
abbrev S256 : Shape := ⟨1, ![256]⟩
abbrev S143x14 : Shape := ⟨2, ![143, 14]⟩
abbrev S14 : Shape := ⟨1, ![14]⟩
abbrev S_ : Shape := ⟨0, ![]⟩
abbrev S1x1600000 : Shape := ⟨2, ![1, 1600000]⟩
abbrev S100000 : Shape := ⟨1, ![100000]⟩
abbrev S1600000x1 : Shape := ⟨2, ![1600000, 1]⟩

class Facts : Prop where
  bcast_S_S100000x15 : S_.BroadcastsInDim S100000x15 (![] : Fin 0 → Fin S100000x15.rank)
  reducesTo_S100000x15_S_d0_1 : S100000x15.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S15x64 : S_.BroadcastsInDim S15x64 (![] : Fin 0 → Fin S15x64.rank)
  reducesTo_S15x64_S_d0_1 : S15x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S256x128 : S_.BroadcastsInDim S256x128 (![] : Fin 0 → Fin S256x128.rank)
  reducesTo_S256x128_S_d0_1 : S256x128.ReducesTo [0, 1] S_
  bcast_S_S256x64 : S_.BroadcastsInDim S256x64 (![] : Fin 0 → Fin S256x64.rank)
  reducesTo_S256x64_S_d0_1 : S256x64.ReducesTo [0, 1] S_
  bcast_S_S256 : S_.BroadcastsInDim S256 (![] : Fin 0 → Fin S256.rank)
  reducesTo_S256_S_d0 : S256.ReducesTo [0] S_
  bcast_S_S143x14 : S_.BroadcastsInDim S143x14 (![] : Fin 0 → Fin S143x14.rank)
  reducesTo_S143x14_S_d0_1 : S143x14.ReducesTo [0, 1] S_
  bcast_S_S14 : S_.BroadcastsInDim S14 (![] : Fin 0 → Fin S14.rank)
  reducesTo_S14_S_d0 : S14.ReducesTo [0] S_
  slices_S2x1600000_S1x1600000_1_0 : S2x1600000.Slices ![1, 0] S1x1600000
  shapeCasts_S1x1600000_S1600000 : S1x1600000.ShapeCasts S1600000
  bcast_S_S100000 : S_.BroadcastsInDim S100000 (![] : Fin 0 → Fin S100000.rank)
  bcast_S1600000_S1600000x1_0 : S1600000.BroadcastsInDim S1600000x1 (![0] : Fin 1 → Fin S1600000x1.rank)
  reducesTo_S100000_S_d0 : S100000.ReducesTo [0] S_
  scatter_S100000_S1600000x1_S1600000_n_0_0_1_wf : ScatterDims.WF S100000 S1600000x1 S1600000 [] [0] [0] 1

variable [Facts]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def fn_part6 {F : FTy → Type} [FloatOps F] (main_arg2 : FVec F S1600000 .f32) (main_v98 : IVec S_ 1) (main_v101 : FVec F S100000 .f32) (main_v102 : IVec S1600000x1 32) : IVec S_ 1 :=
  let main_v103 : FVec F S100000 .f32 := (fun x i u => Host.scatterAdd scatter_S100000_S1600000x1_S1600000_n_0_0_1 x i u) main_v101 main_v102 main_arg2
  let main_cst_39 : FVec F S_ .f32 := constant S_ .f32 0x3F800000#32
  let main_v104 : FVec F S100000 .f32 := broadcastInDim S100000 ![] bcast_S_S100000 main_cst_39
  let main_v105 : FVec F S100000 .f32 := addf main_v103 main_v104
  let main_cst_40 : FVec F S_ .f32 := constant S_ .f32 0x00000000#32
  let main_v106 : FVec F S100000 .f32 := broadcastInDim S100000 ![] bcast_S_S100000 main_cst_40
  let main_v107 : IVec S100000 1 := cmpf .ogt main_v105 main_v106
  let main_c_41 : IVec S_ 1 := constantI S_ 1 1#1
  let main_v108 : IVec S_ 1 := (fun x v => Host.reduce IntOp.andi x v reducesTo_S100000_S_d0 h_S_) main_v107 main_c_41
  let main_v109 : IVec S_ 1 := andi main_v98 main_v108
  main_v109

def fn_part5 {F : FTy → Type} [FloatOps F] (main_arg1 : IVec S2x1600000 32) (main_arg2 : FVec F S1600000 .f32) (main_arg19 : FVec F S143x14 .f32) (main_arg20 : FVec F S14 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S143x14 .f32 := Host.absf main_arg19
  let main_cst_34 : FVec F S_ .f32 := constant S_ .f32 0x7F800000#32
  let main_v90 : FVec F S143x14 .f32 := broadcastInDim S143x14 ![] bcast_S_S143x14 main_cst_34
  let main_v91 : IVec S143x14 1 := cmpf .olt main_v89 main_v90
  let main_c_35 : IVec S_ 1 := constantI S_ 1 1#1
  let main_v92 : IVec S_ 1 := (fun x v => Host.reduce IntOp.andi x v reducesTo_S143x14_S_d0_1 h_S_) main_v91 main_c_35
  let main_v93 : IVec S_ 1 := andi main_v88 main_v92
  let main_v94 : FVec F S14 .f32 := Host.absf main_arg20
  let main_cst_36 : FVec F S_ .f32 := constant S_ .f32 0x7F800000#32
  let main_v95 : FVec F S14 .f32 := broadcastInDim S14 ![] bcast_S_S14 main_cst_36
  let main_v96 : IVec S14 1 := cmpf .olt main_v94 main_v95
  let main_c_37 : IVec S_ 1 := constantI S_ 1 1#1
  let main_v97 : IVec S_ 1 := (fun x v => Host.reduce IntOp.andi x v reducesTo_S14_S_d0 h_S_) main_v96 main_c_37
  let main_v98 : IVec S_ 1 := andi main_v93 main_v97
  let main_v99 : IVec S1x1600000 32 := (extractStridedSlice S1x1600000 ![1, 0] · slices_S2x1600000_S1x1600000_1_0) main_arg1
  let main_v100 : IVec S1600000 32 := shapeCast S1600000 main_v99 shapeCasts_S1x1600000_S1600000
  let main_cst_38 : FVec F S_ .f32 := constant S_ .f32 0x00000000#32
  let main_v101 : FVec F S100000 .f32 := broadcastInDim S100000 ![] bcast_S_S100000 main_cst_38
  let main_v102 : IVec S1600000x1 32 := broadcastInDim S1600000x1 ![0] bcast_S1600000_S1600000x1_0 main_v100
  fn_part6 (F := F) main_arg2 main_v98 main_v101 main_v102

def fn_part4 {F : FTy → Type} [FloatOps F] (main_arg1 : IVec S2x1600000 32) (main_arg2 : FVec F S1600000 .f32) (main_arg15 : FVec F S256x64 .f32) (main_arg16 : FVec F S256x64 .f32) (main_arg17 : FVec F S256 .f32) (main_arg18 : FVec F S256 .f32) (main_arg19 : FVec F S143x14 .f32) (main_arg20 : FVec F S14 .f32) (main_v63 : IVec S_ 1) (main_v67 : IVec S_ 1) : IVec S_ 1 :=
  let main_v68 : IVec S_ 1 := andi main_v63 main_v67
  let main_v69 : FVec F S256x64 .f32 := Host.absf main_arg15
  let main_cst_26 : FVec F S_ .f32 := constant S_ .f32 0x7F800000#32
  let main_v70 : FVec F S256x64 .f32 := broadcastInDim S256x64 ![] bcast_S_S256x64 main_cst_26
  let main_v71 : IVec S256x64 1 := cmpf .olt main_v69 main_v70
  let main_c_27 : IVec S_ 1 := constantI S_ 1 1#1
  let main_v72 : IVec S_ 1 := (fun x v => Host.reduce IntOp.andi x v reducesTo_S256x64_S_d0_1 h_S_) main_v71 main_c_27
  let main_v73 : IVec S_ 1 := andi main_v68 main_v72
  let main_v74 : FVec F S256x64 .f32 := Host.absf main_arg16
  let main_cst_28 : FVec F S_ .f32 := constant S_ .f32 0x7F800000#32
  let main_v75 : FVec F S256x64 .f32 := broadcastInDim S256x64 ![] bcast_S_S256x64 main_cst_28
  let main_v76 : IVec S256x64 1 := cmpf .olt main_v74 main_v75
  let main_c_29 : IVec S_ 1 := constantI S_ 1 1#1
  let main_v77 : IVec S_ 1 := (fun x v => Host.reduce IntOp.andi x v reducesTo_S256x64_S_d0_1 h_S_) main_v76 main_c_29
  let main_v78 : IVec S_ 1 := andi main_v73 main_v77
  let main_v79 : FVec F S256 .f32 := Host.absf main_arg17
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256 .f32 := Host.absf main_arg18
  let main_cst_32 : FVec F S_ .f32 := constant S_ .f32 0x7F800000#32
  fn_part5 (F := F) main_arg1 main_arg2 main_arg19 main_arg20 main_v83 main_v84 main_cst_32

def fn_part3 {F : FTy → Type} [FloatOps F] (main_arg1 : IVec S2x1600000 32) (main_arg2 : FVec F S1600000 .f32) (main_arg12 : FVec F S256x64 .f32) (main_arg13 : FVec F S256 .f32) (main_arg14 : FVec F S256 .f32) (main_arg15 : FVec F S256x64 .f32) (main_arg16 : FVec F S256x64 .f32) (main_arg17 : FVec F S256 .f32) (main_arg18 : FVec F S256 .f32) (main_arg19 : FVec F S143x14 .f32) (main_arg20 : FVec F S14 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S256x64 .f32 := Host.absf main_arg12
  let main_cst_20 : FVec F S_ .f32 := constant S_ .f32 0x7F800000#32
  let main_v55 : FVec F S256x64 .f32 := broadcastInDim S256x64 ![] bcast_S_S256x64 main_cst_20
  let main_v56 : IVec S256x64 1 := cmpf .olt main_v54 main_v55
  let main_c_21 : IVec S_ 1 := constantI S_ 1 1#1
  let main_v57 : IVec S_ 1 := (fun x v => Host.reduce IntOp.andi x v reducesTo_S256x64_S_d0_1 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg1 main_arg2 main_arg15 main_arg16 main_arg17 main_arg18 main_arg19 main_arg20 main_v63 main_v67

def fn_part2 {F : FTy → Type} [FloatOps F] (main_arg1 : IVec S2x1600000 32) (main_arg2 : FVec F S1600000 .f32) (main_arg8 : FVec F S64 .f32) (main_arg9 : FVec F S64 .f32) (main_arg10 : FVec F S64 .f32) (main_arg11 : FVec F S256x128 .f32) (main_arg12 : FVec F S256x64 .f32) (main_arg13 : FVec F S256 .f32) (main_arg14 : FVec F S256 .f32) (main_arg15 : FVec F S256x64 .f32) (main_arg16 : FVec F S256x64 .f32) (main_arg17 : FVec F S256 .f32) (main_arg18 : FVec F S256 .f32) (main_arg19 : FVec F S143x14 .f32) (main_arg20 : FVec F S14 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S256x128 .f32 := Host.absf main_arg11
  let main_cst_18 : FVec F S_ .f32 := constant S_ .f32 0x7F800000#32
  let main_v50 : FVec F S256x128 .f32 := broadcastInDim S256x128 ![] bcast_S_S256x128 main_cst_18
  fn_part3 (F := F) main_arg1 main_arg2 main_arg12 main_arg13 main_arg14 main_arg15 main_arg16 main_arg17 main_arg18 main_arg19 main_arg20 main_v48 main_v49 main_v50

def fn_part1 {F : FTy → Type} [FloatOps F] (main_arg1 : IVec S2x1600000 32) (main_arg2 : FVec F S1600000 .f32) (main_arg5 : FVec F S64x64 .f32) (main_arg6 : FVec F S64 .f32) (main_arg7 : FVec F S64 .f32) (main_arg8 : FVec F S64 .f32) (main_arg9 : FVec F S64 .f32) (main_arg10 : FVec F S64 .f32) (main_arg11 : FVec F S256x128 .f32) (main_arg12 : FVec F S256x64 .f32) (main_arg13 : FVec F S256 .f32) (main_arg14 : FVec F S256 .f32) (main_arg15 : FVec F S256x64 .f32) (main_arg16 : FVec F S256x64 .f32) (main_arg17 : FVec F S256 .f32) (main_arg18 : FVec F S256 .f32) (main_arg19 : FVec F S143x14 .f32) (main_arg20 : FVec F S14 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg2 main_arg8 main_arg9 main_arg10 main_arg11 main_arg12 main_arg13 main_arg14 main_arg15 main_arg16 main_arg17 main_arg18 main_arg19 main_arg20 main_v33

def fn {F : FTy → Type} [FloatOps F] (main_arg0 : FVec F S100000x15 .f32) (main_arg1 : IVec S2x1600000 32) (main_arg2 : FVec F S1600000 .f32) (main_arg3 : FVec F S15x64 .f32) (main_arg4 : FVec F S64 .f32) (main_arg5 : FVec F S64x64 .f32) (main_arg6 : FVec F S64 .f32) (main_arg7 : FVec F S64 .f32) (main_arg8 : FVec F S64 .f32) (main_arg9 : FVec F S64 .f32) (main_arg10 : FVec F S64 .f32) (main_arg11 : FVec F S256x128 .f32) (main_arg12 : FVec F S256x64 .f32) (main_arg13 : FVec F S256 .f32) (main_arg14 : FVec F S256 .f32) (main_arg15 : FVec F S256x64 .f32) (main_arg16 : FVec F S256x64 .f32) (main_arg17 : FVec F S256 .f32) (main_arg18 : FVec F S256 .f32) (main_arg19 : FVec F S143x14 .f32) (main_arg20 : FVec F S14 .f32) : IVec S_ 1 :=
  let main_v0 : FVec F S100000x15 .f32 := Host.absf main_arg0
  let main_cst : FVec F S_ .f32 := constant S_ .f32 0x7F800000#32
  let main_v1 : FVec F S100000x15 .f32 := broadcastInDim S100000x15 ![] bcast_S_S100000x15 main_cst
  let main_v2 : IVec S100000x15 1 := cmpf .olt main_v0 main_v1
  let main_c : IVec S_ 1 := constantI S_ 1 1#1
  let main_v3 : IVec S_ 1 := (fun x v => Host.reduce IntOp.andi x v reducesTo_S100000x15_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S15x64 .f32 := Host.absf main_arg3
  let main_cst_2 : FVec F S_ .f32 := constant S_ .f32 0x7F800000#32
  let main_v10 : FVec F S15x64 .f32 := broadcastInDim S15x64 ![] bcast_S_S15x64 main_cst_2
  let main_v11 : IVec S15x64 1 := cmpf .olt main_v9 main_v10
  let main_c_3 : IVec S_ 1 := constantI S_ 1 1#1
  let main_v12 : IVec S_ 1 := (fun x v => Host.reduce IntOp.andi x v reducesTo_S15x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg2 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S100000x15 : Shape := ⟨2, ![100000, 15]⟩
abbrev S2x1600000 : Shape := ⟨2, ![2, 1600000]⟩
abbrev S1600000 : Shape := ⟨1, ![1600000]⟩
abbrev S15x64 : Shape := ⟨2, ![15, 64]⟩
abbrev S64 : Shape := ⟨1, ![64]⟩
abbrev S64x64 : Shape := ⟨2, ![64, 64]⟩
abbrev S256x128 : Shape := ⟨2, ![256, 128]⟩
abbrev S256x64 : Shape := ⟨2, ![256, 64]⟩
abbrev S256 : Shape := ⟨1, ![256]⟩
abbrev S143x14 : Shape := ⟨2, ![143, 14]⟩
abbrev S14 : Shape := ⟨1, ![14]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1600000x15 : Shape := ⟨2, ![1600000, 15]⟩
abbrev S100000x1 : Shape := ⟨2, ![100000, 1]⟩
abbrev S128x256 : Shape := ⟨2, ![128, 256]⟩
abbrev S64x256 : Shape := ⟨2, ![64, 256]⟩
abbrev S1x64 : Shape := ⟨2, ![1, 64]⟩
abbrev S100000x64 : Shape := ⟨2, ![100000, 64]⟩
abbrev S200x64 : Shape := ⟨2, ![200, 64]⟩
abbrev S4000x15 : Shape := ⟨2, ![4000, 15]⟩
abbrev S4000x64 : Shape := ⟨2, ![4000, 64]⟩
abbrev S8x64 : Shape := ⟨2, ![8, 64]⟩
abbrev S25x8x64 : Shape := ⟨3, ![25, 8, 64]⟩
abbrev S25x1x64 : Shape := ⟨3, ![25, 1, 64]⟩
abbrev S25x64 : Shape := ⟨2, ![25, 64]⟩
abbrev S2000x64 : Shape := ⟨2, ![2000, 64]⟩
abbrev S1600000x64 : Shape := ⟨2, ![1600000, 64]⟩
abbrev S1x256 : Shape := ⟨2, ![1, 256]⟩
abbrev S1x14 : Shape := ⟨2, ![1, 14]⟩
abbrev S100000x14 : Shape := ⟨2, ![100000, 14]⟩
abbrev S2000x15 : Shape := ⟨2, ![2000, 15]⟩
abbrev S2000x14 : Shape := ⟨2, ![2000, 14]⟩
abbrev S2000x128 : Shape := ⟨2, ![2000, 128]⟩
abbrev S2000x256 : Shape := ⟨2, ![2000, 256]⟩
abbrev S2000x143 : Shape := ⟨2, ![2000, 143]⟩

abbrev nBuf : Space → Nat
  | .hbm => 161
  | .vmem => 50
  | .smem => 0
  | _ => 0

abbrev hbmTy0_0 (i : Nat) : BufTy := match i % 128 with
  | 0 => ⟨S100000x15, .f32⟩
  | 1 => ⟨S2x1600000, .i32⟩
  | 2 => ⟨S1600000, .f32⟩
  | 3 => ⟨S15x64, .f32⟩
  | 4 => ⟨S64, .f32⟩
  | 5 => ⟨S64x64, .f32⟩
  | 6 => ⟨S64, .f32⟩
  | 7 => ⟨S64, .f32⟩
  | 8 => ⟨S64, .f32⟩
  | 9 => ⟨S64, .f32⟩
  | 10 => ⟨S64, .f32⟩
  | 11 => ⟨S256x128, .f32⟩
  | 12 => ⟨S256x64, .f32⟩
  | 13 => ⟨S256, .f32⟩
  | 14 => ⟨S256, .f32⟩
  | 15 => ⟨S256x64, .f32⟩
  | 16 => ⟨S256x64, .f32⟩
  | 17 => ⟨S256, .f32⟩
  | 18 => ⟨S256, .f32⟩
  | 19 => ⟨S143x14, .f32⟩
  | 20 => ⟨S14, .f32⟩
  | 21 => ⟨S1x1600000, .i32⟩
  | 22 => ⟨S1600000, .i32⟩
  | 23 => ⟨S1x1600000, .i32⟩
  | 24 => ⟨S1600000, .i32⟩
  | 25 => ⟨S_, .f32⟩
  | 26 => ⟨S100000, .f32⟩
  | 27 => ⟨S1600000x1, .i32⟩
  | 28 => ⟨S100000, .f32⟩
  | 29 => ⟨S_, .f32⟩
  | 30 => ⟨S100000, .f32⟩
  | 31 => ⟨S100000, .f32⟩
  | 32 => ⟨S100000, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000, .f32⟩
  | 42 => ⟨S1600000, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000, .f32⟩
  | 52 => ⟨S1600000, .f32⟩
  | 53 => ⟨S100000, .f32⟩
  | 54 => ⟨S1600000x1, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x15, .f32⟩
  | 64 => ⟨S1600000x15, .f32⟩
  | 65 => ⟨S1600000x15, .f32⟩
  | 66 => ⟨S_, .f32⟩
  | 67 => ⟨S100000x15, .f32⟩
  | 68 => ⟨S1600000x1, .i32⟩
  | 69 => ⟨S100000x15, .f32⟩
  | 70 => ⟨S100000x1, .f32⟩
  | 71 => ⟨S100000x15, .f32⟩
  | 72 => ⟨S100000x15, .f32⟩
  | 73 => ⟨S100000x15, .f32⟩
  | 74 => ⟨S15x64, .bf16⟩
  | 75 => ⟨S64x64, .bf16⟩
  | 76 => ⟨S128x256, .f32⟩
  | 77 => ⟨S128x256, .bf16⟩
  | 78 => ⟨S64x256, .f32⟩
  | 79 => ⟨S64x256, .bf16⟩
  | 80 => ⟨S143x14, .bf16⟩
  | 81 => ⟨S1x64, .f32⟩
  | 82 => ⟨S100000x64, .f32⟩
  | 83 => ⟨S200x64, .f32⟩
  | 84 => ⟨S200x64, .f32⟩
  | 85 => ⟨S25x8x64, .f32⟩
  | 86 => ⟨S25x1x64, .f32⟩
  | 87 => ⟨S25x64, .f32⟩
  | 88 => ⟨S25x8x64, .f32⟩
  | 89 => ⟨S25x1x64, .f32⟩
  | 90 => ⟨S25x64, .f32⟩
  | 91 => ⟨S_, .f32⟩
  | 92 => ⟨S64, .f32⟩
  | 93 => ⟨S_, .f32⟩
  | 94 => ⟨S64, .f32⟩
  | 95 => ⟨S_, .f32⟩
  | 96 => ⟨S64, .f32⟩
  | 97 => ⟨S64, .f32⟩
  | 98 => ⟨S_, .f32⟩
  | 99 => ⟨S64, .f32⟩
  | 100 => ⟨S64, .f32⟩
  | 101 => ⟨S64, .f32⟩
  | 102 => ⟨S64, .f32⟩
  | 103 => ⟨S1x64, .f32⟩
  | 104 => ⟨S1x64, .f32⟩
  | 105 => ⟨S1x64, .f32⟩
  | 106 => ⟨S1x64, .f32⟩
  | 107 => ⟨S100000x64, .f32⟩
  | 108 => ⟨S100000x64, .f32⟩
  | 109 => ⟨S1600000x1, .f32⟩
  | 110 => ⟨S_, .i32⟩
  | 111 => ⟨S1600000, .i32⟩
  | 112 => ⟨S1600000, .i1⟩
  | 113 => ⟨S_, .i32⟩
  | 114 => ⟨S1600000, .i32⟩
  | 115 => ⟨S1600000, .i32⟩
  | 116 => ⟨S1600000, .i32⟩
  | 117 => ⟨S1600000x1, .i32⟩
  | 118 => ⟨S1600000x64, .f32⟩
  | 119 => ⟨S1600000x64, .f32⟩
  | 120 => ⟨S1600000x64, .f32⟩
  | 121 => ⟨S_, .f32⟩
  | 122 => ⟨S100000x64, .f32⟩
  | 123 => ⟨S1600000x1, .i32⟩
  | 124 => ⟨S100000x64, .f32⟩
  | 125 => ⟨S100000x1, .f32⟩
  | 126 => ⟨S100000x64, .f32⟩
  | 127 => ⟨S100000x64, .f32⟩
  | _ => ⟨S100000x15, .f32⟩

abbrev hbmTy0_1 (i : Nat) : BufTy := match i % 128 with
  | 0 => ⟨S100000x64, .f32⟩
  | 1 => ⟨S1x64, .f32⟩
  | 2 => ⟨S100000x64, .f32⟩
  | 3 => ⟨S200x64, .f32⟩
  | 4 => ⟨S200x64, .f32⟩
  | 5 => ⟨S25x8x64, .f32⟩
  | 6 => ⟨S25x1x64, .f32⟩
  | 7 => ⟨S25x64, .f32⟩
  | 8 => ⟨S25x8x64, .f32⟩
  | 9 => ⟨S25x1x64, .f32⟩
  | 10 => ⟨S25x64, .f32⟩
  | 11 => ⟨S_, .f32⟩
  | 12 => ⟨S64, .f32⟩
  | 13 => ⟨S_, .f32⟩
  | 14 => ⟨S64, .f32⟩
  | 15 => ⟨S_, .f32⟩
  | 16 => ⟨S64, .f32⟩
  | 17 => ⟨S64, .f32⟩
  | 18 => ⟨S_, .f32⟩
  | 19 => ⟨S64, .f32⟩
  | 20 => ⟨S64, .f32⟩
  | 21 => ⟨S64, .f32⟩
  | 22 => ⟨S64, .f32⟩
  | 23 => ⟨S1x64, .f32⟩
  | 24 => ⟨S1x64, .f32⟩
  | 25 => ⟨S1x64, .f32⟩
  | 26 => ⟨S1x64, .f32⟩
  | 27 => ⟨S1x256, .f32⟩
  | 28 => ⟨S1x256, .f32⟩
  | 29 => ⟨S1x256, .f32⟩
  | 30 => ⟨S1x256, .f32⟩
  | 31 => ⟨S1x14, .f32⟩
  | 32 => ⟨S100000x14, .f32⟩
  | _ => ⟨S100000x15, .f32⟩

abbrev hbmTy (i : Nat) : BufTy := match i / 128 with
  | 0 => hbmTy0_0 i
  | 1 => hbmTy0_1 i
  | _ => ⟨S100000x15, .f32⟩

abbrev bufTy : (tb : Table) → Fin (tcTables nBuf tb) → BufTy
  | .hbm, ⟨i, _⟩ => hbmTy i
  | .local _ .vmem, ⟨0, _⟩ => ⟨S4000x15, .f32⟩
  | .local _ .vmem, ⟨1, _⟩ => ⟨S4000x15, .f32⟩
  | .local _ .vmem, ⟨2, _⟩ => ⟨S15x64, .bf16⟩
  | .local _ .vmem, ⟨3, _⟩ => ⟨S1x64, .f32⟩
  | .local _ .vmem, ⟨4, _⟩ => ⟨S4000x64, .f32⟩
  | .local _ .vmem, ⟨5, _⟩ => ⟨S4000x64, .f32⟩
  | .local _ .vmem, ⟨6, _⟩ => ⟨S8x64, .f32⟩
  | .local _ .vmem, ⟨7, _⟩ => ⟨S8x64, .f32⟩
  | .local _ .vmem, ⟨8, _⟩ => ⟨S8x64, .f32⟩
  | .local _ .vmem, ⟨9, _⟩ => ⟨S8x64, .f32⟩
  | .local _ .vmem, ⟨10, _⟩ => ⟨S2000x64, .f32⟩
  | .local _ .vmem, ⟨11, _⟩ => ⟨S2000x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S64x64, .bf16⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S4000x64, .f32⟩
  | .local _ .vmem, ⟨22, _⟩ => ⟨S4000x64, .f32⟩
  | .local _ .vmem, ⟨23, _⟩ => ⟨S1x64, .f32⟩
  | .local _ .vmem, ⟨24, _⟩ => ⟨S4000x64, .f32⟩
  | .local _ .vmem, ⟨25, _⟩ => ⟨S4000x64, .f32⟩
  | .local _ .vmem, ⟨26, _⟩ => ⟨S8x64, .f32⟩
  | .local _ .vmem, ⟨27, _⟩ => ⟨S8x64, .f32⟩
  | .local _ .vmem, ⟨28, _⟩ => ⟨S8x64, .f32⟩
  | .local _ .vmem, ⟨29, _⟩ => ⟨S8x64, .f32⟩
  | .local _ .vmem, ⟨30, _⟩ => ⟨S2000x64, .f32⟩
  | .local _ .vmem, ⟨31, _⟩ => ⟨S2000x64, .f32⟩
  | .local _ .vmem, ⟨32, _⟩ => ⟨S1x64, .f32⟩
  | .local _ .vmem, ⟨33, _⟩ => ⟨S1x64, .f32⟩
  | .local _ .vmem, ⟨34, _⟩ => ⟨S1x64, .f32⟩
  | .local _ .vmem, ⟨35, _⟩ => ⟨S1x64, .f32⟩
  | .local _ .vmem, ⟨36, _⟩ => ⟨S2000x64, .f32⟩
  | .local _ .vmem, ⟨37, _⟩ => ⟨S2000x64, .f32⟩
  | .local _ .vmem, ⟨38, _⟩ => ⟨S2000x15, .f32⟩
  | .local _ .vmem, ⟨39, _⟩ => ⟨S2000x15, .f32⟩
  | .local _ .vmem, ⟨40, _⟩ => ⟨S128x256, .bf16⟩
  | .local _ .vmem, ⟨41, _⟩ => ⟨S1x256, .f32⟩
  | .local _ .vmem, ⟨42, _⟩ => ⟨S1x256, .f32⟩
  | .local _ .vmem, ⟨43, _⟩ => ⟨S64x256, .bf16⟩
  | .local _ .vmem, ⟨44, _⟩ => ⟨S1x256, .f32⟩
  | .local _ .vmem, ⟨45, _⟩ => ⟨S1x256, .f32⟩
  | .local _ .vmem, ⟨46, _⟩ => ⟨S143x14, .bf16⟩
  | .local _ .vmem, ⟨47, _⟩ => ⟨S1x14, .f32⟩
  | .local _ .vmem, ⟨48, _⟩ => ⟨S2000x14, .f32⟩
  | .local _ .vmem, ⟨49, _⟩ => ⟨S2000x14, .f32⟩
  | _, _ => ⟨S100000x15, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_cst : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst_0 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_c : Ref sig .tc := ⟨.hbm, 33, rfl⟩
abbrev main_v10 : Ref sig .tc := ⟨.hbm, 34, rfl⟩
abbrev main_v11 : Ref sig .tc := ⟨.hbm, 35, rfl⟩
abbrev main_c_1 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_c_2 : Ref sig .tc := ⟨.hbm, 43, rfl⟩
abbrev main_v18 : Ref sig .tc := ⟨.hbm, 44, rfl⟩
abbrev main_v19 : Ref sig .tc := ⟨.hbm, 45, rfl⟩
abbrev main_c_3 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_c_4 : Ref sig .tc := ⟨.hbm, 55, rfl⟩
abbrev main_v28 : Ref sig .tc := ⟨.hbm, 56, rfl⟩
abbrev main_v29 : Ref sig .tc := ⟨.hbm, 57, rfl⟩
abbrev main_c_5 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_6 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52_0 : Ref sig .tc := ⟨.hbm, 82, rfl⟩
abbrev main_v52_1 : Ref sig .tc := ⟨.hbm, 83, rfl⟩
abbrev main_v52_2 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_7 : Ref sig .tc := ⟨.hbm, 91, rfl⟩
abbrev main_v59 : Ref sig .tc := ⟨.hbm, 92, rfl⟩
abbrev main_cst_8 : Ref sig .tc := ⟨.hbm, 93, rfl⟩
abbrev main_v60 : Ref sig .tc := ⟨.hbm, 94, rfl⟩
abbrev main_cst_9 : Ref sig .tc := ⟨.hbm, 95, rfl⟩
abbrev main_v61 : Ref sig .tc := ⟨.hbm, 96, rfl⟩
abbrev main_v62 : Ref sig .tc := ⟨.hbm, 97, rfl⟩
abbrev main_cst_10 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71_0 : Ref sig .tc := ⟨.hbm, 107, rfl⟩
abbrev main_v71_1 : Ref sig .tc := ⟨.hbm, 108, rfl⟩
abbrev main_v72 : Ref sig .tc := ⟨.hbm, 109, rfl⟩
abbrev main_c_11 : Ref sig .tc := ⟨.hbm, 110, rfl⟩
abbrev main_v73 : Ref sig .tc := ⟨.hbm, 111, rfl⟩
abbrev main_v74 : Ref sig .tc := ⟨.hbm, 112, rfl⟩
abbrev main_c_12 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_13 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90_0 : Ref sig .tc := ⟨.hbm, 130, rfl⟩
abbrev main_v90_1 : Ref sig .tc := ⟨.hbm, 131, rfl⟩
abbrev main_v90_2 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_cst_14 : Ref sig .tc := ⟨.hbm, 139, rfl⟩
abbrev main_v97 : Ref sig .tc := ⟨.hbm, 140, rfl⟩
abbrev main_cst_15 : Ref sig .tc := ⟨.hbm, 141, rfl⟩
abbrev main_v98 : Ref sig .tc := ⟨.hbm, 142, rfl⟩
abbrev main_cst_16 : Ref sig .tc := ⟨.hbm, 143, rfl⟩
abbrev main_v99 : Ref sig .tc := ⟨.hbm, 144, rfl⟩
abbrev main_v100 : Ref sig .tc := ⟨.hbm, 145, rfl⟩
abbrev main_cst_17 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg4_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg5_1 : Ref sig .tc := ⟨.vmem, 37, rfl⟩
abbrev cc3_stg6_0 : Ref sig .tc := ⟨.vmem, 38, rfl⟩
abbrev cc3_stg6_1 : Ref sig .tc := ⟨.vmem, 39, rfl⟩
abbrev cc3_stg7_0 : Ref sig .tc := ⟨.vmem, 40, rfl⟩
abbrev cc3_stg8_0 : Ref sig .tc := ⟨.vmem, 41, rfl⟩
abbrev cc3_stg9_0 : Ref sig .tc := ⟨.vmem, 42, rfl⟩
abbrev cc3_stg10_0 : Ref sig .tc := ⟨.vmem, 43, rfl⟩
abbrev cc3_stg11_0 : Ref sig .tc := ⟨.vmem, 44, rfl⟩
abbrev cc3_stg12_0 : Ref sig .tc := ⟨.vmem, 45, rfl⟩
abbrev cc3_stg13_0 : Ref sig .tc := ⟨.vmem, 46, rfl⟩
abbrev cc3_stg14_0 : Ref sig .tc := ⟨.vmem, 47, rfl⟩
abbrev cc3_stg15_0 : Ref sig .tc := ⟨.vmem, 48, rfl⟩
abbrev cc3_stg15_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem6_1 : DmaSem sig := 18
abbrev cc1_sem7_0 : DmaSem sig := 19
abbrev cc1_sem7_1 : DmaSem sig := 20
abbrev cc2_sem0_0 : DmaSem sig := 21
abbrev cc2_sem0_1 : DmaSem sig := 22
abbrev cc2_sem1_0 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem5_1 : DmaSem sig := 37
abbrev cc3_sem6_0 : DmaSem sig := 38
abbrev cc3_sem6_1 : DmaSem sig := 39
abbrev cc3_sem7_0 : DmaSem sig := 40
abbrev cc3_sem8_0 : DmaSem sig := 41
abbrev cc3_sem9_0 : DmaSem sig := 42
abbrev cc3_sem10_0 : DmaSem sig := 43
abbrev cc3_sem11_0 : DmaSem sig := 44
abbrev cc3_sem12_0 : DmaSem sig := 45
abbrev cc3_sem13_0 : DmaSem sig := 46
abbrev cc3_sem14_0 : DmaSem sig := 47
abbrev cc3_sem15_0 : DmaSem sig := 48
abbrev cc3_sem15_1 : DmaSem sig := 49

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x15 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S15x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S8x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S8x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_14 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_15 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S2000x15 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 1 → Memref sig .tc .vmem S128x256 .bf16 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x256 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x256 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S64x256 .bf16 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1x256 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S1x256 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S143x14 .bf16 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 1 → Memref sig .tc .vmem S1x14 .f32 := fun | 0 => Memref.whole cc3_stg14_0 | ⟨_ + 1, h⟩ => absurd h (Nat.not_lt.2 (Nat.le_add_left _ _))
abbrev sem3_14 : Fin 1 → DmaSem sig := fun | 0 => cc3_sem14_0 | ⟨_ + 1, h⟩ => absurd h (Nat.not_lt.2 (Nat.le_add_left _ _))
abbrev reads3_14 : Fin grid3.rank → Bool := ![false]

abbrev stage3_15 : Fin 2 → Memref sig .tc .vmem S2000x14 .f32 := fun | 0 => Memref.whole cc3_stg15_0 | 1 => Memref.whole cc3_stg15_1 | ⟨_ + 2, h⟩ => absurd h (Nat.not_lt.2 (Nat.le_add_left _ _))
abbrev sem3_15 : Fin 2 → DmaSem sig := fun | 0 => cc3_sem15_0 | 1 => cc3_sem15_1 | ⟨_ + 2, h⟩ => absurd h (Nat.not_lt.2 (Nat.le_add_left _ _))
abbrev reads3_15 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x15_0_1 : S1600000x1.BroadcastsInDim S1600000x15 (![0, 1] : Fin 2 → Fin S1600000x15.rank)
  bcast_S_S100000x15 : S_.BroadcastsInDim S100000x15 (![] : Fin 0 → Fin S100000x15.rank)
  bcast_S100000_S100000x1_0 : S100000.BroadcastsInDim S100000x1 (![0] : Fin 1 → Fin S100000x1.rank)
  bcast_S100000x1_S100000x15_0_1 : S100000x1.BroadcastsInDim S100000x15 (![0, 1] : Fin 2 → Fin S100000x15.rank)
  bitsLt_bf16_f32 : FTy.bits .bf16 < FTy.bits .f32
  transposes_S256x128_S128x256_1_0 : S256x128.Transposes [1, 0] S128x256
  transposes_S256x64_S64x256_1_0 : S256x64.Transposes [1, 0] S64x256
  shapeCasts_S64_S1x64 : S64.ShapeCasts S1x64
  inb_S4000x15_S4000x15_0_0 : ∀ a, (![0, 0] : Fin 2 → Nat) a + S4000x15.size a ≤ S4000x15.size a
  h_S4000x15 : 0 < S4000x15.numel
  shapeCasts_S4000x15_S4000x15 : S4000x15.ShapeCasts S4000x15
  inb_S15x64_S15x64_0_0 : ∀ a, (![0, 0] : Fin 2 → Nat) a + S15x64.size a ≤ S15x64.size a
  h_S15x64 : 0 < S15x64.numel
  shapeCasts_S15x64_S15x64 : S15x64.ShapeCasts S15x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  reduces_S4000x64_S64 : S4000x64.Reduces [0] S64
  broadcasts_S1x64_S8x64 : S1x64.Broadcasts S8x64
  inb_S8x64_S8x64_0_0 : ∀ a, (![0, 0] : Fin 2 → Nat) a + S8x64.size a ≤ S8x64.size a
  h_S8x64 : 0 < S8x64.numel
  shapeCasts_S200x64_S25x8x64 : S200x64.ShapeCasts S25x8x64
  slices_S25x8x64_S25x1x64_0_0_0 : S25x8x64.Slices ![0, 0, 0] S25x1x64
  shapeCasts_S25x1x64_S25x64 : S25x1x64.ShapeCasts S25x64
  reducesTo_S25x64_S64_d0 : S25x64.ReducesTo [0] S64
  h_S_ : 0 < S_.numel
  bcast_S_S64 : S_.BroadcastsInDim S64 (![] : Fin 0 → Fin S64.rank)
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  broadcasts_S1x64_S2000x64 : S1x64.Broadcasts S2000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S4000x64_S4000x64 : S4000x64.ShapeCasts S4000x64
  shapeCasts_S256_S1x256 : S256.ShapeCasts S1x256
  shapeCasts_S14_S1x14 : S14.ShapeCasts S1x14
  concatenates_S2000x64_S2000x64_S2000x128_d1 : Shape.Concatenates [S2000x64, S2000x64] S2000x128 1
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  slices_S2000x256_o0_0_S2000x64 : S2000x256.Slices ![0, 0] S2000x64
  slices_S2000x256_o0_128_S2000x64 : S2000x256.Slices ![0, 128] S2000x64
  slices_S2000x256_o0_192_S2000x64 : S2000x256.Slices ![0, 192] S2000x64
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S2000x15_S2000x15_0_0 : ∀ a, (![0, 0] : Fin 2 → Nat) a + S2000x15.size a ≤ S2000x15.size a
  h_S2000x15 : 0 < S2000x15.numel
  concatenates_S2000x64_S2000x64_S2000x15_S2000x143_d1 : Shape.Concatenates [S2000x64, S2000x64, S2000x15] S2000x143 1
  inb_S143x14_S143x14_0_0 : ∀ a, (![0, 0] : Fin 2 → Nat) a + S143x14.size a ≤ S143x14.size a
  h_S143x14 : 0 < S143x14.numel
  shapeCasts_S143x14_S143x14 : S143x14.ShapeCasts S143x14
  inb_S1x14_S1x14_0_0 : ∀ a, (![0, 0] : Fin 2 → Nat) a + S1x14.size a ≤ S1x14.size a
  h_S1x14 : 0 < S1x14.numel
  shapeCasts_S1x14_S1x14 : S1x14.ShapeCasts S1x14
  broadcasts_S1x14_S2000x14 : S1x14.Broadcasts S2000x14
  inb_S2000x14_S2000x14_0_0 : ∀ a, (![0, 0] : Fin 2 → Nat) a + S2000x14.size a ≤ S2000x14.size a
  h_S2000x14 : 0 < S2000x14.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x15_S1600000x1_S1600000x15_1_0_n_n_0_1_115_wf : GatherDims.WF S100000x15 S1600000x1 S1600000x15 [1] [0] [] [0] [] 1 ![1, 15]
  scatter_S100000x15_S1600000x1_S1600000x15_1_0_0_1_wf : ScatterDims.WF S100000x15 S1600000x1 S1600000x15 [1] [0] [0] 1
  dot_S4000x15_S15x64_S4000x64_1_0_0_1_n_n_wf : DotDims.WF S4000x15 S15x64 S4000x64 [1] [0] [0] [1] [] []
  dot_S2000x64_S64x64_S2000x64_1_0_0_1_n_n_wf : DotDims.WF S2000x64 S64x64 S2000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x128_S128x256_S2000x256_1_0_0_1_n_n_wf : DotDims.WF S2000x128 S128x256 S2000x256 [1] [0] [0] [1] [] []
  dot_S2000x64_S64x256_S2000x256_1_0_0_1_n_n_wf : DotDims.WF S2000x64 S64x256 S2000x256 [1] [0] [0] [1] [] []
  dot_S2000x143_S143x14_S2000x14_1_0_0_1_n_n_wf : DotDims.WF S2000x143 S143x14 S2000x14 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x15.size a ≤ S100000x15.size a
  hwx0_0 : ∀ i : grid0.Coords, EltTy.bits .f32 = 32 ∨ (Rect.block (s := S100000x15) S4000x15.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S15x64.size a ≤ S15x64.size a
  hwx0_1 : ∀ i : grid0.Coords, EltTy.bits .bf16 = 32 ∨ (Rect.block (s := S15x64) S15x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x64.size a ≤ S100000x64.size a
  hwx0_3 : ∀ i : grid0.Coords, EltTy.bits .f32 = 32 ∨ (Rect.block (s := S100000x64) S4000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x64.size a ≤ S200x64.size a
  hwx0_4 : ∀ i : grid0.Coords, EltTy.bits .f32 = 32 ∨ (Rect.block (s := S200x64) S8x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x64.size a ≤ S200x64.size a
  hwx0_5 : ∀ i : grid0.Coords, EltTy.bits .f32 = 32 ∨ (Rect.block (s := S200x64) S8x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .bf16 = 32 ∨ (Rect.block (s := S64x64) S64x64.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x64.size a ≤ S100000x64.size a
  hwx1_6 : ∀ i : grid1.Coords, EltTy.bits .f32 = 32 ∨ (Rect.block (s := S100000x64) S2000x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x64.size a ≤ S100000x64.size a
  hwx1_7 : ∀ i : grid1.Coords, EltTy.bits .f32 = 32 ∨ (Rect.block (s := S100000x64) S2000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x64.size a ≤ S100000x64.size a
  hwx2_2 : ∀ i : grid2.Coords, EltTy.bits .f32 = 32 ∨ (Rect.block (s := S100000x64) S4000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8x64.size a ≤ S200x64.size a
  hwx2_3 : ∀ i : grid2.Coords, EltTy.bits .f32 = 32 ∨ (Rect.block (s := S200x64) S8x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S8x64.size a ≤ S200x64.size a
  hwx2_4 : ∀ i : grid2.Coords, EltTy.bits .f32 = 32 ∨ (Rect.block (s := S200x64) S8x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x64.size a ≤ S100000x64.size a
  hwx3_5 : ∀ i : grid3.Coords, EltTy.bits .f32 = 32 ∨ (Rect.block (s := S100000x64) S2000x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x15.size a ≤ S100000x15.size a
  hwx3_6 : ∀ i : grid3.Coords, EltTy.bits .f32 = 32 ∨ (Rect.block (s := S100000x15) S2000x15.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128x256.size a ≤ S128x256.size a
  hwx3_7 : ∀ i : grid3.Coords, EltTy.bits .bf16 = 32 ∨ (Rect.block (s := S128x256) S128x256.size (cc3_transform_7 i) (hinb3_7 i)).WholeWords (EltTy.packing .bf16)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x256.size a ≤ S1x256.size a
  hwx3_8 : ∀ i : grid3.Coords, EltTy.bits .f32 = 32 ∨ (Rect.block (s := S1x256) S1x256.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x256.size a ≤ S1x256.size a
  hwx3_9 : ∀ i : grid3.Coords, EltTy.bits .f32 = 32 ∨ (Rect.block (s := S1x256) S1x256.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S64x256.size a ≤ S64x256.size a
  hwx3_10 : ∀ i : grid3.Coords, EltTy.bits .bf16 = 32 ∨ (Rect.block (s := S64x256) S64x256.size (cc3_transform_10 i) (hinb3_10 i)).WholeWords (EltTy.packing .bf16)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S1x256.size a ≤ S1x256.size a
  hwx3_11 : ∀ i : grid3.Coords, EltTy.bits .f32 = 32 ∨ (Rect.block (s := S1x256) S1x256.size (cc3_transform_11 i) (hinb3_11 i)).WholeWords (EltTy.packing .f32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S1x256.size a ≤ S1x256.size a
  hwx3_12 : ∀ i : grid3.Coords, EltTy.bits .f32 = 32 ∨ (Rect.block (s := S1x256) S1x256.size (cc3_transform_12 i) (hinb3_12 i)).WholeWords (EltTy.packing .f32)
  hstage3_13 : ∀ j, (stage3_13 j).IsWhole
  nbuf3_13 : grid3.bufCount reads3_13 true = 1
  hreads3_13 : ∀ i i' : grid3.Coords, (∀ a, reads3_13 a = true → i a = i' a) → cc3_transform_13 i = cc3_transform_13 i'
  hinb3_13 : ∀ (i : grid3.Coords) a, (cc3_transform_13 i a + 1) * S143x14.size a ≤ S143x14.size a
  hwx3_13 : ∀ i : grid3.Coords, EltTy.bits .bf16 = 32 ∨ (Rect.block (s := S143x14) S143x14.size (cc3_transform_13 i) (hinb3_13 i)).WholeWords (EltTy.packing .bf16)
  hstage3_14 : ∀ j, (stage3_14 j).IsWhole
  nbuf3_14 : grid3.bufCount reads3_14 true = 1
  hreads3_14 : ∀ i i' : grid3.Coords, (∀ a, reads3_14 a = true → i a = i' a) → cc3_transform_14 i = cc3_transform_14 i'
  hinb3_14 : ∀ (i : grid3.Coords) a, (cc3_transform_14 i a + 1) * S1x14.size a ≤ S1x14.size a
  hwx3_14 : ∀ i : grid3.Coords, EltTy.bits .f32 = 32 ∨ (Rect.block (s := S1x14) S1x14.size (cc3_transform_14 i) (hinb3_14 i)).WholeWords (EltTy.packing .f32)
  hstage3_15 : ∀ j, (stage3_15 j).IsWhole
  nbuf3_15 : grid3.bufCount reads3_15 false = 2
  hreads3_15 : ∀ i i' : grid3.Coords, (∀ a, reads3_15 a = true → i a = i' a) → cc3_transform_15 i = cc3_transform_15 i'
  hinb3_15 : ∀ (i : grid3.Coords) a, (cc3_transform_15 i a + 1) * S2000x14.size a ≤ S100000x14.size a
  hwx3_15 : ∀ i : grid3.Coords, EltTy.bits .f32 = 32 ∨ (Rect.block (s := S100000x14) S2000x14.size (cc3_transform_15 i) (hinb3_15 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x15_S1600000x1_S1600000x15_1_0_n_n_0_1_115 : GatherDims S100000x15 S1600000x1 S1600000x15 where
  offsetDims := [1]
  collapsedSliceDims := [0]
  operandBatchingDims := []
  startIndicesBatchingDims := []
  startIndexMap := [0]
  indexVectorDim := 1
  sliceSizes := ![1, 15]
  wf := gather_S100000x15_S1600000x1_S1600000x15_1_0_n_n_0_1_115_wf
def scatter_S100000x15_S1600000x1_S1600000x15_1_0_0_1 : ScatterDims S100000x15 S1600000x1 S1600000x15 where
  updateWindowDims := [1]
  insertedWindowDims := [0]
  scatterDimsToOperandDims := [0]
  indexVectorDim := 1
  wf := scatter_S100000x15_S1600000x1_S1600000x15_1_0_0_1_wf
def dot_S4000x15_S15x64_S4000x64_1_0_0_1_n_n : DotDims S4000x15 S15x64 S4000x64 where
  lhsContracting := [1]
  rhsContracting := [0]
  lhsNonContracting := [0]
  rhsNonContracting := [1]
  lhsBatch := []
  rhsBatch := []
  wf := dot_S4000x15_S15x64_S4000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x64_S64x256_S2000x256_1_0_0_1_n_n : DotDims S2000x64 S64x256 S2000x256 where
  lhsContracting := [1]
  rhsContracting := [0]
  lhsNonContracting := [0]
  rhsNonContracting := [1]
  lhsBatch := []
  rhsBatch := []
  wf := dot_S2000x64_S64x256_S2000x256_1_0_0_1_n_n_wf
def dot_S2000x143_S143x14_S2000x14_1_0_0_1_n_n : DotDims S2000x143 S143x14 S2000x14 where
  lhsContracting := [1]
  rhsContracting := [0]
  lhsNonContracting := [0]
  rhsNonContracting := [1]
  lhsBatch := []
  rhsBatch := []
  wf := dot_S2000x143_S143x14_S2000x14_1_0_0_1_n_n_wf

abbrev win0_0 : Pipeline.Window sig grid0 :=
  Pipeline.Window.ofSpec (Memref.whole main_v43) S4000x15.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v44) S15x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v51) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v52_0) S4000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v52_1) S8x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v52_2) S8x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v52_0) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v67) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v68) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v69) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v70) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v71_0) S2000x64.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v71_1) S2000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v88) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v89) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v90_0) S4000x64.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v90_1) S8x64.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v90_2) S8x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v90_0) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v105) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v106) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v107) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v108) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v71_0) S2000x64.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_arg0) S2000x15.size cc3_transform_6 reads3_6 false false 2 stage3_6 sem3_6
    hrank3 hreads3_6 hinb3_6 nbuf3_6 (Memref.isWhole_whole _) hwx3_6 hstage3_6

abbrev win3_7 : Pipeline.Window sig grid3 :=
  Pipeline.Window.ofSpec (Memref.whole main_v47) S128x256.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v109) S1x256.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v110) S1x256.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v49) S64x256.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v111) S1x256.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_v112) S1x256.size cc3_transform_12 reads3_12 false true 1 stage3_12 sem3_12
    hrank3 hreads3_12 hinb3_12 nbuf3_12 (Memref.isWhole_whole _) hwx3_12 hstage3_12

abbrev win3_13 : Pipeline.Window sig grid3 :=
  Pipeline.Window.ofSpec (Memref.whole main_v50) S143x14.size cc3_transform_13 reads3_13 false true 1 stage3_13 sem3_13
    hrank3 hreads3_13 hinb3_13 nbuf3_13 (Memref.isWhole_whole _) hwx3_13 hstage3_13

abbrev win3_14 : Pipeline.Window sig grid3 :=
  Pipeline.Window.ofSpec (Memref.whole main_v113) S1x14.size cc3_transform_14 reads3_14 false true 1 stage3_14 sem3_14
    hrank3 hreads3_14 hinb3_14 nbuf3_14 (Memref.isWhole_whole _) hwx3_14 hstage3_14

abbrev win3_15 : Pipeline.Window sig grid3 :=
  Pipeline.Window.ofSpec (Memref.whole main_v114) S2000x14.size cc3_transform_15 reads3_15 true false 2 stage3_15 sem3_15
    hrank3 hreads3_15 hinb3_15 nbuf3_15 (Memref.isWhole_whole _) hwx3_15 hstage3_15

abbrev win3 : Fin 16 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | 14 => win3_14 | 15 => win3_15 | ⟨_ + 16, h⟩ => absurd h (Nat.not_lt.2 (Nat.le_add_left _ _))
abbrev spec3 : Fin 16 → Pipeline.WinSpec sig grid3.rank := fun w => (win3 w).toWinSpec

class Facts : Prop extends Facts₀ where

variable [Facts]
-- ==== ReferenceIdeal.lean ====
abbrev S100000x15 : Shape := ⟨2, ![100000, 15]⟩
abbrev S2x1600000 : Shape := ⟨2, ![2, 1600000]⟩
abbrev S1600000 : Shape := ⟨1, ![1600000]⟩
abbrev S15x64 : Shape := ⟨2, ![15, 64]⟩
abbrev S64 : Shape := ⟨1, ![64]⟩
abbrev S64x64 : Shape := ⟨2, ![64, 64]⟩
abbrev S256x128 : Shape := ⟨2, ![256, 128]⟩
abbrev S256x64 : Shape := ⟨2, ![256, 64]⟩
abbrev S256 : Shape := ⟨1, ![256]⟩
abbrev S143x14 : Shape := ⟨2, ![143, 14]⟩
abbrev S14 : Shape := ⟨1, ![14]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S100000x64 : Shape := ⟨2, ![100000, 64]⟩
abbrev S1600000x64 : Shape := ⟨2, ![1600000, 64]⟩
abbrev S100000x1 : Shape := ⟨2, ![100000, 1]⟩
abbrev S1x64 : Shape := ⟨2, ![1, 64]⟩
abbrev S100000x128 : Shape := ⟨2, ![100000, 128]⟩
abbrev S128x256 : Shape := ⟨2, ![128, 256]⟩
abbrev S100000x256 : Shape := ⟨2, ![100000, 256]⟩
abbrev S1x256 : Shape := ⟨2, ![1, 256]⟩
abbrev S64x256 : Shape := ⟨2, ![64, 256]⟩
abbrev S100000x143 : Shape := ⟨2, ![100000, 143]⟩
abbrev S100000x14 : Shape := ⟨2, ![100000, 14]⟩
abbrev S1x14 : Shape := ⟨2, ![1, 14]⟩

abbrev nBuf : Space → Nat
  | .hbm => 269
  | .vmem => 0
  | .smem => 0
  | _ => 0

abbrev hbmTy0_0 (i : Nat) : BufTy := match i % 128 with
  | 0 => ⟨S100000x15, .f32⟩
  | 1 => ⟨S2x1600000, .i32⟩
  | 2 => ⟨S1600000, .f32⟩
  | 3 => ⟨S15x64, .f32⟩
  | 4 => ⟨S64, .f32⟩
  | 5 => ⟨S64x64, .f32⟩
  | 6 => ⟨S64, .f32⟩
  | 7 => ⟨S64, .f32⟩
  | 8 => ⟨S64, .f32⟩
  | 9 => ⟨S64, .f32⟩
  | 10 => ⟨S64, .f32⟩
  | 11 => ⟨S256x128, .f32⟩
  | 12 => ⟨S256x64, .f32⟩
  | 13 => ⟨S256, .f32⟩
  | 14 => ⟨S256, .f32⟩
  | 15 => ⟨S256x64, .f32⟩
  | 16 => ⟨S256x64, .f32⟩
  | 17 => ⟨S256, .f32⟩
  | 18 => ⟨S256, .f32⟩
  | 19 => ⟨S143x14, .f32⟩
  | 20 => ⟨S14, .f32⟩
  | 21 => ⟨S1x1600000, .i32⟩
  | 22 => ⟨S1600000, .i32⟩
  | 23 => ⟨S1x1600000, .i32⟩
  | 24 => ⟨S1600000, .i32⟩
  | 25 => ⟨S_, .f32⟩
  | 26 => ⟨S100000, .f32⟩
  | 27 => ⟨S1600000x1, .i32⟩
  | 28 => ⟨S100000, .f32⟩
  | 29 => ⟨S_, .f32⟩
  | 30 => ⟨S100000, .f32⟩
  | 31 => ⟨S100000, .f32⟩
  | 32 => ⟨S100000, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000, .f32⟩
  | 42 => ⟨S1600000, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000, .f32⟩
  | 52 => ⟨S1600000, .f32⟩
  | 53 => ⟨S100000, .f32⟩
  | 54 => ⟨S100000x64, .f32⟩
  | 55 => ⟨S1600000x1, .f32⟩
  | 56 => ⟨S_, .i32⟩
  | 57 => ⟨S1600000, .i32⟩
  | 58 => ⟨S1600000, .i1⟩
  | 59 => ⟨S_, .i32⟩
  | 60 => ⟨S1600000, .i32⟩
  | 61 => ⟨S1600000, .i32⟩
  | 62 => ⟨S1600000, .i32⟩
  | 63 => ⟨S1600000x1, .i32⟩
  | 64 => ⟨S1600000x64, .f32⟩
  | 65 => ⟨S1600000x64, .f32⟩
  | 66 => ⟨S1600000x64, .f32⟩
  | 67 => ⟨S_, .f32⟩
  | 68 => ⟨S100000x64, .f32⟩
  | 69 => ⟨S1600000x1, .i32⟩
  | 70 => ⟨S100000x64, .f32⟩
  | 71 => ⟨S100000x1, .f32⟩
  | 72 => ⟨S100000x64, .f32⟩
  | 73 => ⟨S100000x64, .f32⟩
  | 74 => ⟨S100000x64, .f32⟩
  | 75 => ⟨S1x64, .f32⟩
  | 76 => ⟨S100000x64, .f32⟩
  | 77 => ⟨S100000x64, .f32⟩
  | 78 => ⟨S_, .f32⟩
  | 79 => ⟨S100000x64, .f32⟩
  | 80 => ⟨S100000x64, .f32⟩
  | 81 => ⟨S_, .f32⟩
  | 82 => ⟨S64, .f32⟩
  | 83 => ⟨S_, .f32⟩
  | 84 => ⟨S64, .f32⟩
  | 85 => ⟨S64, .f32⟩
  | 86 => ⟨S_, .i32⟩
  | 87 => ⟨S_, .f32⟩
  | 88 => ⟨S64, .f32⟩
  | 89 => ⟨S1x64, .f32⟩
  | 90 => ⟨S_, .f32⟩
  | 91 => ⟨S1x64, .f32⟩
  | 92 => ⟨S1x64, .f32⟩
  | 93 => ⟨S100000x64, .f32⟩
  | 94 => ⟨S100000x64, .f32⟩
  | 95 => ⟨S100000x64, .f32⟩
  | 96 => ⟨S_, .f32⟩
  | 97 => ⟨S_, .f32⟩
  | 98 => ⟨S_, .f32⟩
  | 99 => ⟨S_, .f32⟩
  | 100 => ⟨S64, .f32⟩
  | 101 => ⟨S64, .f32⟩
  | 102 => ⟨S64, .f32⟩
  | 103 => ⟨S_, .f32⟩
  | 104 => ⟨S_, .i1⟩
  | 105 => ⟨S_, .f32⟩
  | 106 => ⟨S_, .f32⟩
  | 107 => ⟨S64, .f32⟩
  | 108 => ⟨S64, .f32⟩
  | 109 => ⟨S1x64, .f32⟩
  | 110 => ⟨S100000x64, .f32⟩
  | 111 => ⟨S100000x64, .f32⟩
  | 112 => ⟨S_, .f32⟩
  | 113 => ⟨S64, .f32⟩
  | 114 => ⟨S64, .f32⟩
  | 115 => ⟨S64, .f32⟩
  | 116 => ⟨S1x64, .f32⟩
  | 117 => ⟨S100000x64, .f32⟩
  | 118 => ⟨S100000x64, .f32⟩
  | 119 => ⟨S1x64, .f32⟩
  | 120 => ⟨S100000x64, .f32⟩
  | 121 => ⟨S100000x64, .f32⟩
  | 122 => ⟨S1x64, .f32⟩
  | 123 => ⟨S100000x64, .f32⟩
  | 124 => ⟨S100000x64, .f32⟩
  | 125 => ⟨S100000x64, .f32⟩
  | 126 => ⟨S1600000x1, .f32⟩
  | 127 => ⟨S_, .i32⟩
  | _ => ⟨S100000x15, .f32⟩

abbrev hbmTy0_1 (i : Nat) : BufTy := match i % 128 with
  | 0 => ⟨S1600000, .i32⟩
  | 1 => ⟨S1600000, .i1⟩
  | 2 => ⟨S_, .i32⟩
  | 3 => ⟨S1600000, .i32⟩
  | 4 => ⟨S1600000, .i32⟩
  | 5 => ⟨S1600000, .i32⟩
  | 6 => ⟨S1600000x1, .i32⟩
  | 7 => ⟨S1600000x64, .f32⟩
  | 8 => ⟨S1600000x64, .f32⟩
  | 9 => ⟨S1600000x64, .f32⟩
  | 10 => ⟨S_, .f32⟩
  | 11 => ⟨S100000x64, .f32⟩
  | 12 => ⟨S1600000x1, .i32⟩
  | 13 => ⟨S100000x64, .f32⟩
  | 14 => ⟨S100000x1, .f32⟩
  | 15 => ⟨S100000x64, .f32⟩
  | 16 => ⟨S100000x64, .f32⟩
  | 17 => ⟨S100000x64, .f32⟩
  | 18 => ⟨S1x64, .f32⟩
  | 19 => ⟨S100000x64, .f32⟩
  | 20 => ⟨S100000x64, .f32⟩
  | 21 => ⟨S_, .f32⟩
  | 22 => ⟨S100000x64, .f32⟩
  | 23 => ⟨S100000x64, .f32⟩
  | 24 => ⟨S_, .f32⟩
  | 25 => ⟨S64, .f32⟩
  | 26 => ⟨S_, .f32⟩
  | 27 => ⟨S64, .f32⟩
  | 28 => ⟨S64, .f32⟩
  | 29 => ⟨S_, .i32⟩
  | 30 => ⟨S_, .f32⟩
  | 31 => ⟨S64, .f32⟩
  | 32 => ⟨S1x64, .f32⟩
  | 33 => ⟨S_, .f32⟩
  | 34 => ⟨S1x64, .f32⟩
  | 35 => ⟨S1x64, .f32⟩
  | 36 => ⟨S100000x64, .f32⟩
  | 37 => ⟨S100000x64, .f32⟩
  | 38 => ⟨S100000x64, .f32⟩
  | 39 => ⟨S_, .f32⟩
  | 40 => ⟨S_, .f32⟩
  | 41 => ⟨S_, .f32⟩
  | 42 => ⟨S_, .f32⟩
  | 43 => ⟨S64, .f32⟩
  | 44 => ⟨S64, .f32⟩
  | 45 => ⟨S64, .f32⟩
  | 46 => ⟨S_, .f32⟩
  | 47 => ⟨S_, .i1⟩
  | 48 => ⟨S_, .f32⟩
  | 49 => ⟨S_, .f32⟩
  | 50 => ⟨S64, .f32⟩
  | 51 => ⟨S64, .f32⟩
  | 52 => ⟨S1x64, .f32⟩
  | 53 => ⟨S100000x64, .f32⟩
  | 54 => ⟨S100000x64, .f32⟩
  | 55 => ⟨S_, .f32⟩
  | 56 => ⟨S64, .f32⟩
  | 57 => ⟨S64, .f32⟩
  | 58 => ⟨S64, .f32⟩
  | 59 => ⟨S1x64, .f32⟩
  | 60 => ⟨S100000x64, .f32⟩
  | 61 => ⟨S100000x64, .f32⟩
  | 62 => ⟨S1x64, .f32⟩
  | 63 => ⟨S100000x64, .f32⟩
  | 64 => ⟨S100000x64, .f32⟩
  | 65 => ⟨S1x64, .f32⟩
  | 66 => ⟨S100000x64, .f32⟩
  | 67 => ⟨S100000x64, .f32⟩
  | 68 => ⟨S100000x128, .f32⟩
  | 69 => ⟨S128x256, .f32⟩
  | 70 => ⟨S100000x256, .f32⟩
  | 71 => ⟨S1x256, .f32⟩
  | 72 => ⟨S100000x256, .f32⟩
  | 73 => ⟨S100000x256, .f32⟩
  | 74 => ⟨S1x256, .f32⟩
  | 75 => ⟨S100000x256, .f32⟩
  | 76 => ⟨S100000x256, .f32⟩
  | 77 => ⟨S100000x64, .f32⟩
  | 78 => ⟨S100000x64, .f32⟩
  | 79 => ⟨S100000x64, .f32⟩
  | 80 => ⟨S100000x64, .f32⟩
  | 81 => ⟨S100000x64, .f32⟩
  | 82 => ⟨S100000x64, .f32⟩
  | 83 => ⟨S_, .f32⟩
  | 84 => ⟨S100000x64, .f32⟩
  | 85 => ⟨S100000x64, .f32⟩
  | 86 => ⟨S_, .f32⟩
  | 87 => ⟨S100000x64, .f32⟩
  | 88 => ⟨S100000x64, .f32⟩
  | 89 => ⟨S100000x64, .f32⟩
  | 90 => ⟨S100000x64, .f32⟩
  | 91 => ⟨S100000x64, .f32⟩
  | 92 => ⟨S100000x64, .f32⟩
  | 93 => ⟨S_, .f32⟩
  | 94 => ⟨S100000x64, .f32⟩
  | 95 => ⟨S100000x64, .f32⟩
  | 96 => ⟨S_, .f32⟩
  | 97 => ⟨S100000x64, .f32⟩
  | 98 => ⟨S100000x64, .f32⟩
  | 99 => ⟨S100000x64, .f32⟩
  | 100 => ⟨S100000x64, .f32⟩
  | 101 => ⟨S64x256, .f32⟩
  | 102 => ⟨S100000x256, .f32⟩
  | 103 => ⟨S1x256, .f32⟩
  | 104 => ⟨S100000x256, .f32⟩
  | 105 => ⟨S100000x256, .f32⟩
  | 106 => ⟨S1x256, .f32⟩
  | 107 => ⟨S100000x256, .f32⟩
  | 108 => ⟨S100000x256, .f32⟩
  | 109 => ⟨S100000x64, .f32⟩
  | 110 => ⟨S100000x64, .f32⟩
  | 111 => ⟨S100000x64, .f32⟩
  | 112 => ⟨S100000x64, .f32⟩
  | 113 => ⟨S100000x64, .f32⟩
  | 114 => ⟨S100000x64, .f32⟩
  | 115 => ⟨S_, .f32⟩
  | 116 => ⟨S100000x64, .f32⟩
  | 117 => ⟨S100000x64, .f32⟩
  | 118 => ⟨S_, .f32⟩
  | 119 => ⟨S100000x64, .f32⟩
  | 120 => ⟨S100000x64, .f32⟩
  | 121 => ⟨S100000x64, .f32⟩
  | 122 => ⟨S100000x64, .f32⟩
  | 123 => ⟨S100000x64, .f32⟩
  | 124 => ⟨S100000x64, .f32⟩
  | 125 => ⟨S_, .f32⟩
  | 126 => ⟨S100000x64, .f32⟩
  | 127 => ⟨S100000x64, .f32⟩
  | _ => ⟨S100000x15, .f32⟩

abbrev hbmTy0_2 (i : Nat) : BufTy := match i % 128 with
  | 0 => ⟨S_, .f32⟩
  | 1 => ⟨S100000x64, .f32⟩
  | 2 => ⟨S100000x64, .f32⟩
  | 3 => ⟨S100000x64, .f32⟩
  | 4 => ⟨S100000x64, .f32⟩
  | 5 => ⟨S100000x143, .f32⟩
  | 6 => ⟨S_, .f32⟩
  | 7 => ⟨S100000x143, .f32⟩
  | 8 => ⟨S100000x143, .f32⟩
  | 9 => ⟨S100000x14, .f32⟩
  | 10 => ⟨S1x14, .f32⟩
  | 11 => ⟨S100000x14, .f32⟩
  | 12 => ⟨S100000x14, .f32⟩
  | _ => ⟨S100000x15, .f32⟩

abbrev hbmTy (i : Nat) : BufTy := match i / 128 with
  | 0 => hbmTy0_0 i
  | 1 => hbmTy0_1 i
  | 2 => hbmTy0_2 i
  | _ => ⟨S100000x15, .f32⟩

abbrev bufTy : (tb : Table) → Fin (tcTables nBuf tb) → BufTy
  | .hbm, ⟨i, _⟩ => hbmTy i
  | _, _ => ⟨S100000x15, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_cst : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst_0 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_c : Ref sig .tc := ⟨.hbm, 33, rfl⟩
abbrev main_v10 : Ref sig .tc := ⟨.hbm, 34, rfl⟩
abbrev main_v11 : Ref sig .tc := ⟨.hbm, 35, rfl⟩
abbrev main_c_1 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_c_2 : Ref sig .tc := ⟨.hbm, 43, rfl⟩
abbrev main_v18 : Ref sig .tc := ⟨.hbm, 44, rfl⟩
abbrev main_v19 : Ref sig .tc := ⟨.hbm, 45, rfl⟩
abbrev main_c_3 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_c_4 : Ref sig .tc := ⟨.hbm, 56, rfl⟩
abbrev main_v29 : Ref sig .tc := ⟨.hbm, 57, rfl⟩
abbrev main_v30 : Ref sig .tc := ⟨.hbm, 58, rfl⟩
abbrev main_c_5 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_6 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_call0_cst : Ref sig .tc := ⟨.hbm, 78, rfl⟩
abbrev main_call0_v0 : Ref sig .tc := ⟨.hbm, 79, rfl⟩
abbrev main_v48 : Ref sig .tc := ⟨.hbm, 80, rfl⟩
abbrev main_cst_7 : Ref sig .tc := ⟨.hbm, 81, rfl⟩
abbrev main_v49 : Ref sig .tc := ⟨.hbm, 82, rfl⟩
abbrev main_cst_8 : Ref sig .tc := ⟨.hbm, 83, rfl⟩
abbrev main_v50 : Ref sig .tc := ⟨.hbm, 84, rfl⟩
abbrev main_v51 : Ref sig .tc := ⟨.hbm, 85, rfl⟩
abbrev main_c_9 : Ref sig .tc := ⟨.hbm, 86, rfl⟩
abbrev main_call1_cst : Ref sig .tc := ⟨.hbm, 87, rfl⟩
abbrev main_call1_v0 : Ref sig .tc := ⟨.hbm, 88, rfl⟩
abbrev main_call1_v1 : Ref sig .tc := ⟨.hbm, 89, rfl⟩
abbrev main_call1_cst_0 : Ref sig .tc := ⟨.hbm, 90, rfl⟩
abbrev main_call1_v2 : Ref sig .tc := ⟨.hbm, 91, rfl⟩
abbrev main_call1_v3 : Ref sig .tc := ⟨.hbm, 92, rfl⟩
abbrev main_call1_v4 : Ref sig .tc := ⟨.hbm, 93, rfl⟩
abbrev main_call1_v5 : Ref sig .tc := ⟨.hbm, 94, rfl⟩
abbrev main_call1_v6 : Ref sig .tc := ⟨.hbm, 95, rfl⟩
abbrev main_call1_v7 : Ref sig .tc := ⟨.hbm, 96, rfl⟩
abbrev main_call1_cst_1 : Ref sig .tc := ⟨.hbm, 97, rfl⟩
abbrev main_call1_v8 : Ref sig .tc := ⟨.hbm, 98, rfl⟩
abbrev main_call1_cst_2 : Ref sig .tc := ⟨.hbm, 99, rfl⟩
abbrev main_call1_v9 : Ref sig .tc := ⟨.hbm, 100, rfl⟩
abbrev main_call1_v10 : Ref sig .tc := ⟨.hbm, 101, rfl⟩
abbrev main_call1_v11 : Ref sig .tc := ⟨.hbm, 102, rfl⟩
abbrev main_call1_cst_3 : Ref sig .tc := ⟨.hbm, 103, rfl⟩
abbrev main_call1_v12 : Ref sig .tc := ⟨.hbm, 104, rfl⟩
abbrev main_call1_cst_4 : Ref sig .tc := ⟨.hbm, 105, rfl⟩
abbrev main_call1_call0_v0 : Ref sig .tc := ⟨.hbm, 106, rfl⟩
abbrev main_call1_call0_v1 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_cst_10 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_c_11 : Ref sig .tc := ⟨.hbm, 127, rfl⟩
abbrev main_v70 : Ref sig .tc := ⟨.hbm, 128, rfl⟩
abbrev main_v71 : Ref sig .tc := ⟨.hbm, 129, rfl⟩
abbrev main_c_12 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_cst_13 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_call2_cst : Ref sig .tc := ⟨.hbm, 149, rfl⟩
abbrev main_call2_v0 : Ref sig .tc := ⟨.hbm, 150, rfl⟩
abbrev main_v89 : Ref sig .tc := ⟨.hbm, 151, rfl⟩
abbrev main_cst_14 : Ref sig .tc := ⟨.hbm, 152, rfl⟩
abbrev main_v90 : Ref sig .tc := ⟨.hbm, 153, rfl⟩
abbrev main_cst_15 : Ref sig .tc := ⟨.hbm, 154, rfl⟩
abbrev main_v91 : Ref sig .tc := ⟨.hbm, 155, rfl⟩
abbrev main_v92 : Ref sig .tc := ⟨.hbm, 156, rfl⟩
abbrev main_c_16 : Ref sig .tc := ⟨.hbm, 157, rfl⟩
abbrev main_call3_cst : Ref sig .tc := ⟨.hbm, 158, rfl⟩
abbrev main_call3_v0 : Ref sig .tc := ⟨.hbm, 159, rfl⟩
abbrev main_call3_v1 : Ref sig .tc := ⟨.hbm, 160, rfl⟩
abbrev main_call3_cst_0 : Ref sig .tc := ⟨.hbm, 161, rfl⟩
abbrev main_call3_v2 : Ref sig .tc := ⟨.hbm, 162, rfl⟩
abbrev main_call3_v3 : Ref sig .tc := ⟨.hbm, 163, rfl⟩
abbrev main_call3_v4 : Ref sig .tc := ⟨.hbm, 164, rfl⟩
abbrev main_call3_v5 : Ref sig .tc := ⟨.hbm, 165, rfl⟩
abbrev main_call3_v6 : Ref sig .tc := ⟨.hbm, 166, rfl⟩
abbrev main_call3_v7 : Ref sig .tc := ⟨.hbm, 167, rfl⟩
abbrev main_call3_cst_1 : Ref sig .tc := ⟨.hbm, 168, rfl⟩
abbrev main_call3_v8 : Ref sig .tc := ⟨.hbm, 169, rfl⟩
abbrev main_call3_cst_2 : Ref sig .tc := ⟨.hbm, 170, rfl⟩
abbrev main_call3_v9 : Ref sig .tc := ⟨.hbm, 171, rfl⟩
abbrev main_call3_v10 : Ref sig .tc := ⟨.hbm, 172, rfl⟩
abbrev main_call3_v11 : Ref sig .tc := ⟨.hbm, 173, rfl⟩
abbrev main_call3_cst_3 : Ref sig .tc := ⟨.hbm, 174, rfl⟩
abbrev main_call3_v12 : Ref sig .tc := ⟨.hbm, 175, rfl⟩
abbrev main_call3_cst_4 : Ref sig .tc := ⟨.hbm, 176, rfl⟩
abbrev main_call3_call0_v0 : Ref sig .tc := ⟨.hbm, 177, rfl⟩
abbrev main_call3_call0_v1 : Ref sig .tc := ⟨.hbm, 178, rfl⟩
abbrev main_v93 : Ref sig .tc := ⟨.hbm, 179, rfl⟩
abbrev main_v94 : Ref sig .tc := ⟨.hbm, 180, rfl⟩
abbrev main_v95 : Ref sig .tc := ⟨.hbm, 181, rfl⟩
abbrev main_v96 : Ref sig .tc := ⟨.hbm, 182, rfl⟩
abbrev main_cst_17 : Ref sig .tc := ⟨.hbm, 183, rfl⟩
abbrev main_v97 : Ref sig .tc := ⟨.hbm, 184, rfl⟩
abbrev main_v98 : Ref sig .tc := ⟨.hbm, 185, rfl⟩
abbrev main_v99 : Ref sig .tc := ⟨.hbm, 186, rfl⟩
abbrev main_v100 : Ref sig .tc := ⟨.hbm, 187, rfl⟩
abbrev main_v101 : Ref sig .tc := ⟨.hbm, 188, rfl⟩
abbrev main_v102 : Ref sig .tc := ⟨.hbm, 189, rfl⟩
abbrev main_v103 : Ref sig .tc := ⟨.hbm, 190, rfl⟩
abbrev main_v104 : Ref sig .tc := ⟨.hbm, 191, rfl⟩
abbrev main_v105 : Ref sig .tc := ⟨.hbm, 192, rfl⟩
abbrev main_v106 : Ref sig .tc := ⟨.hbm, 193, rfl⟩
abbrev main_v107 : Ref sig .tc := ⟨.hbm, 194, rfl⟩
abbrev main_v108 : Ref sig .tc := ⟨.hbm, 195, rfl⟩
abbrev main_v109 : Ref sig .tc := ⟨.hbm, 196, rfl⟩
abbrev main_v110 : Ref sig .tc := ⟨.hbm, 197, rfl⟩
abbrev main_v111 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_v115 : Ref sig .tc := ⟨.hbm, 202, rfl⟩
abbrev main_v116 : Ref sig .tc := ⟨.hbm, 203, rfl⟩
abbrev main_v117 : Ref sig .tc := ⟨.hbm, 204, rfl⟩
abbrev main_v118 : Ref sig .tc := ⟨.hbm, 205, rfl⟩
abbrev main_v119 : Ref sig .tc := ⟨.hbm, 206, rfl⟩
abbrev main_v120 : Ref sig .tc := ⟨.hbm, 207, rfl⟩
abbrev main_v121 : Ref sig .tc := ⟨.hbm, 208, rfl⟩
abbrev main_v122 : Ref sig .tc := ⟨.hbm, 209, rfl⟩
abbrev main_v123 : Ref sig .tc := ⟨.hbm, 210, rfl⟩
abbrev main_cst_18 : Ref sig .tc := ⟨.hbm, 211, rfl⟩
abbrev main_v124 : Ref sig .tc := ⟨.hbm, 212, rfl⟩
abbrev main_v125 : Ref sig .tc := ⟨.hbm, 213, rfl⟩
abbrev main_cst_19 : Ref sig .tc := ⟨.hbm, 214, rfl⟩
abbrev main_v126 : Ref sig .tc := ⟨.hbm, 215, rfl⟩
abbrev main_v127 : Ref sig .tc := ⟨.hbm, 216, rfl⟩
abbrev main_v128 : Ref sig .tc := ⟨.hbm, 217, rfl⟩
abbrev main_v129 : Ref sig .tc := ⟨.hbm, 218, rfl⟩
abbrev main_v130 : Ref sig .tc := ⟨.hbm, 219, rfl⟩
abbrev main_v131 : Ref sig .tc := ⟨.hbm, 220, rfl⟩
abbrev main_cst_20 : Ref sig .tc := ⟨.hbm, 221, rfl⟩
abbrev main_v132 : Ref sig .tc := ⟨.hbm, 222, rfl⟩
abbrev main_v133 : Ref sig .tc := ⟨.hbm, 223, rfl⟩
abbrev main_cst_21 : Ref sig .tc := ⟨.hbm, 224, rfl⟩
abbrev main_v134 : Ref sig .tc := ⟨.hbm, 225, rfl⟩
abbrev main_v135 : Ref sig .tc := ⟨.hbm, 226, rfl⟩
abbrev main_v136 : Ref sig .tc := ⟨.hbm, 227, rfl⟩
abbrev main_v137 : Ref sig .tc := ⟨.hbm, 228, rfl⟩
abbrev main_v138 : Ref sig .tc := ⟨.hbm, 229, rfl⟩
abbrev main_v139 : Ref sig .tc := ⟨.hbm, 230, rfl⟩
abbrev main_v140 : Ref sig .tc := ⟨.hbm, 231, rfl⟩
abbrev main_v141 : Ref sig .tc := ⟨.hbm, 232, rfl⟩
abbrev main_v142 : Ref sig .tc := ⟨.hbm, 233, rfl⟩
abbrev main_v143 : Ref sig .tc := ⟨.hbm, 234, rfl⟩
abbrev main_v144 : Ref sig .tc := ⟨.hbm, 235, rfl⟩
abbrev main_v145 : Ref sig .tc := ⟨.hbm, 236, rfl⟩
abbrev main_v146 : Ref sig .tc := ⟨.hbm, 237, rfl⟩
abbrev main_v147 : Ref sig .tc := ⟨.hbm, 238, rfl⟩
abbrev main_v148 : Ref sig .tc := ⟨.hbm, 239, rfl⟩
abbrev main_v149 : Ref sig .tc := ⟨.hbm, 240, rfl⟩
abbrev main_v150 : Ref sig .tc := ⟨.hbm, 241, rfl⟩
abbrev main_v151 : Ref sig .tc := ⟨.hbm, 242, rfl⟩
abbrev main_cst_22 : Ref sig .tc := ⟨.hbm, 243, rfl⟩
abbrev main_v152 : Ref sig .tc := ⟨.hbm, 244, rfl⟩
abbrev main_v153 : Ref sig .tc := ⟨.hbm, 245, rfl⟩
abbrev main_cst_23 : Ref sig .tc := ⟨.hbm, 246, rfl⟩
abbrev main_v154 : Ref sig .tc := ⟨.hbm, 247, rfl⟩
abbrev main_v155 : Ref sig .tc := ⟨.hbm, 248, rfl⟩
abbrev main_v156 : Ref sig .tc := ⟨.hbm, 249, rfl⟩
abbrev main_v157 : Ref sig .tc := ⟨.hbm, 250, rfl⟩
abbrev main_v158 : Ref sig .tc := ⟨.hbm, 251, rfl⟩
abbrev main_v159 : Ref sig .tc := ⟨.hbm, 252, rfl⟩
abbrev main_cst_24 : Ref sig .tc := ⟨.hbm, 253, rfl⟩
abbrev main_v160 : Ref sig .tc := ⟨.hbm, 254, rfl⟩
abbrev main_v161 : Ref sig .tc := ⟨.hbm, 255, rfl⟩
abbrev main_cst_25 : Ref sig .tc := ⟨.hbm, 256, rfl⟩
abbrev main_v162 : Ref sig .tc := ⟨.hbm, 257, rfl⟩
abbrev main_v163 : Ref sig .tc := ⟨.hbm, 258, rfl⟩
abbrev main_v164 : Ref sig .tc := ⟨.hbm, 259, rfl⟩
abbrev main_v165 : Ref sig .tc := ⟨.hbm, 260, rfl⟩
abbrev main_v166 : Ref sig .tc := ⟨.hbm, 261, rfl⟩
abbrev main_call4_cst : Ref sig .tc := ⟨.hbm, 262, rfl⟩
abbrev main_call4_v0 : Ref sig .tc := ⟨.hbm, 263, rfl⟩
abbrev main_v167 : Ref sig .tc := ⟨.hbm, 264, rfl⟩
abbrev main_v168 : Ref sig .tc := ⟨.hbm, 265, rfl⟩
abbrev main_v169 : Ref sig .tc := ⟨.hbm, 266, rfl⟩
abbrev main_v170 : Ref sig .tc := ⟨.hbm, 267, rfl⟩
abbrev main_v171 : Ref sig .tc := ⟨.hbm, 268, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  concatenates_S100000x64_S100000x64_S100000x128_d1 : Shape.Concatenates [S100000x64, S100000x64] S100000x128 1
  transposes_S256x128_S128x256_1_0 : S256x128.Transposes [1, 0] S128x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  slices_S100000x256_S100000x64_0_0 : S100000x256.Slices ![0, 0] S100000x64
  slices_S100000x256_S100000x64_0_64 : S100000x256.Slices ![0, 64] S100000x64
  slices_S100000x256_S100000x64_0_128 : S100000x256.Slices ![0, 128] S100000x64
  slices_S100000x256_S100000x64_0_192 : S100000x256.Slices ![0, 192] S100000x64
  transposes_S256x64_S64x256_1_0 : S256x64.Transposes [1, 0] S64x256
  concatenates_S100000x64_S100000x64_S100000x15_S100000x143_d1 : Shape.Concatenates [S100000x64, S100000x64, S100000x15] S100000x143 1
  bcast_S_S100000x143 : S_.BroadcastsInDim S100000x143 (![] : Fin 0 → Fin S100000x143.rank)
  bcast_S14_S1x14_1 : S14.BroadcastsInDim S1x14 (![1] : Fin 1 → Fin S1x14.rank)
  bcast_S1x14_S100000x14_0_1 : S1x14.BroadcastsInDim S100000x14 (![0, 1] : Fin 2 → Fin S100000x14.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x15_S15x64_S100000x64_1_0_0_1_n_n_wf : DotDims.WF S100000x15 S15x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x128_S128x256_S100000x256_1_0_0_1_n_n_wf : DotDims.WF S100000x128 S128x256 S100000x256 [1] [0] [0] [1] [] []
  dot_S100000x64_S64x256_S100000x256_1_0_0_1_n_n_wf : DotDims.WF S100000x64 S64x256 S100000x256 [1] [0] [0] [1] [] []
  dot_S100000x143_S143x14_S100000x14_1_0_0_1_n_n_wf : DotDims.WF S100000x143 S143x14 S100000x14 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x15_S15x64_S100000x64_1_0_0_1_n_n : DotDims S100000x15 S15x64 S100000x64 where
  lhsContracting := [1]
  rhsContracting := [0]
  lhsNonContracting := [0]
  rhsNonContracting := [1]
  lhsBatch := []
  rhsBatch := []
  wf := dot_S100000x15_S15x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S100000x64_S64x256_S100000x256_1_0_0_1_n_n : DotDims S100000x64 S64x256 S100000x256 where
  lhsContracting := [1]
  rhsContracting := [0]
  lhsNonContracting := [0]
  rhsNonContracting := [1]
  lhsBatch := []
  rhsBatch := []
  wf := dot_S100000x64_S64x256_S100000x256_1_0_0_1_n_n_wf
def dot_S100000x143_S143x14_S100000x14_1_0_0_1_n_n : DotDims S100000x143 S143x14 S100000x14 where
  lhsContracting := [1]
  rhsContracting := [0]
  lhsNonContracting := [0]
  rhsNonContracting := [1]
  lhsBatch := []
  rhsBatch := []
  wf := dot_S100000x143_S143x14_S100000x14_1_0_0_1_n_n_wf

class Facts : Prop extends Facts₀ where

variable [Facts]
-- ==== Proof.RefRunOps.lean ====
/- The reference program's @main as operation tables: per window main_partN of proof/ReferenceIdeal.lean the list ops_partN of its
   host operations in order, each func.call replaced by the callee's operations over that call's buffer record, and the list
   W_partN of the buffers they write, in the same order. -/
import proofs.«181908_j1778116460896_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Window `main_part0`: its 62 operations, in order. -/
abbrev ops_part0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_cst (constant S_ .f32 0x00000000#32),
    StableHlo.unary main_cst main_v4 (broadcastInDim S100000 ![] bcast_S_S100000 : (⟨S_, .f32⟩ : BufTy).Contents (Elt F) → (⟨S100000, .f32⟩ : BufTy).Contents (Elt F)),
    StableHlo.unary main_v3 main_v5 (broadcastInDim S1600000x1 ![0] bcast_S1600000_S1600000x1_0 : (⟨S1600000, .i32⟩ : BufTy).Contents (Elt F) → (⟨S1600000x1, .i32⟩ : BufTy).Contents (Elt F)),
    StableHlo.ternary main_v4 main_v5 main_arg2 main_v6 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_0 (constant S_ .f32 0x3F800000#32),
    StableHlo.unary main_cst_0 main_v7 (broadcastInDim S100000 ![] bcast_S_S100000 : (⟨S_, .f32⟩ : BufTy).Contents (Elt F) → (⟨S100000, .f32⟩ : BufTy).Contents (Elt F)),
    StableHlo.binary main_v6 main_v7 main_v8 (addf : (⟨S100000, .f32⟩ : BufTy).Contents (Elt F) → (⟨S100000, .f32⟩ : BufTy).Contents (Elt F) → (⟨S100000, .f32⟩ : BufTy).Contents (Elt F)),
    StableHlo.unary main_v8 main_v9 (Host.rsqrt : (⟨S100000, .f32⟩ : BufTy).Contents (Elt F) → (⟨S100000, .f32⟩ : BufTy).Contents (Elt F)),
    StableHlo.nullary main_c (constantI S_ 32 0#32),
    StableHlo.unary main_c main_v10 (broadcastInDim S1600000 ![] bcast_S_S1600000 : (⟨S_, .i32⟩ : BufTy).Contents (Elt F) → (⟨S1600000, .i32⟩ : BufTy).Contents (Elt F)),
    StableHlo.binary main_v1 main_v10 main_v11 (cmpi .slt : (⟨S1600000, .i32⟩ : BufTy).Contents (Elt F) → (⟨S1600000, .i32⟩ : BufTy).Contents (Elt F) → (⟨S1600000, .i1⟩ : BufTy).Contents (Elt F)),
    StableHlo.nullary main_c_1 (constantI S_ 32 100000#32),
    StableHlo.unary main_c_1 main_v12 (broadcastInDim S1600000 ![] bcast_S_S1600000 : (⟨S_, .i32⟩ : BufTy).Contents (Elt F) → (⟨S1600000, .i32⟩ : BufTy).Contents (Elt F)),
    StableHlo.binary main_v1 main_v12 main_v13 (addi : (⟨S1600000, .i32⟩ : BufTy).Contents (Elt F) → (⟨S1600000, .i32⟩ : BufTy).Contents (Elt F) → (⟨S1600000, .i32⟩ : BufTy).Contents (Elt F)),
    StableHlo.ternary main_v11 main_v13 main_v1 main_v14 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v14 main_v15 (broadcastInDim S1600000x1 ![0] bcast_S1600000_S1600000x1_0 : (⟨S1600000, .i32⟩ : BufTy).Contents (Elt F) → (⟨S1600000x1, .i32⟩ : BufTy).Contents (Elt F)),
    StableHlo.binary main_v9 main_v15 main_v16 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v16 main_arg2 main_v17 (mulf : (⟨S1600000, .f32⟩ : BufTy).Contents (Elt F) → (⟨S1600000, .f32⟩ : BufTy).Contents (Elt F) → (⟨S1600000, .f32⟩ : BufTy).Contents (Elt F)),
    StableHlo.nullary main_c_2 (constantI S_ 32 0#32),
    StableHlo.unary main_c_2 main_v18 (broadcastInDim S1600000 ![] bcast_S_S1600000 : (⟨S_, .i32⟩ : BufTy).Contents (Elt F) → (⟨S1600000, .i32⟩ : BufTy).Contents (Elt F)),
    StableHlo.binary main_v3 main_v18 main_v19 (cmpi .slt : (⟨S1600000, .i32⟩ : BufTy).Contents (Elt F) → (⟨S1600000, .i32⟩ : BufTy).Contents (Elt F) → (⟨S1600000, .i1⟩ : BufTy).Contents (Elt F)),
    StableHlo.nullary main_c_3 (constantI S_ 32 100000#32),
    StableHlo.unary main_c_3 main_v20 (broadcastInDim S1600000 ![] bcast_S_S1600000 : (⟨S_, .i32⟩ : BufTy).Contents (Elt F) → (⟨S1600000, .i32⟩ : BufTy).Contents (Elt F)),
    StableHlo.binary main_v3 main_v20 main_v21 (addi : (⟨S1600000, .i32⟩ : BufTy).Contents (Elt F) → (⟨S1600000, .i32⟩ : BufTy).Contents (Elt F) → (⟨S1600000, .i32⟩ : BufTy).Contents (Elt F)),
    StableHlo.ternary main_v19 main_v21 main_v3 main_v22 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v22 main_v23 (broadcastInDim S1600000x1 ![0] bcast_S1600000_S1600000x1_0 : (⟨S1600000, .i32⟩ : BufTy).Contents (Elt F) → (⟨S1600000x1, .i32⟩ : BufTy).Contents (Elt F)),
    StableHlo.binary main_v9 main_v23 main_v24 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v17 main_v24 main_v25 (mulf : (⟨S1600000, .f32⟩ : BufTy).Contents (Elt F) → (⟨S1600000, .f32⟩ : BufTy).Contents (Elt F) → (⟨S1600000, .f32⟩ : BufTy).Contents (Elt F)),
    StableHlo.binary main_v9 main_v9 main_v26 (mulf : (⟨S100000, .f32⟩ : BufTy).Contents (Elt F) → (⟨S100000, .f32⟩ : BufTy).Contents (Elt F) → (⟨S100000, .f32⟩ : BufTy).Contents (Elt F)),
    StableHlo.binary main_arg0 main_arg3 main_v27 ((fun l r => Host.dotGeneral dot_S100000x15_S15x64_S100000x64_1_0_0_1_n_n none l r) : (⟨S100000x15, .f32⟩ : BufTy).Contents (Elt F) → (⟨S15x64, .f32⟩ : BufTy).Contents (Elt F) → (⟨S100000x64, .f32⟩ : BufTy).Contents (Elt F)),
    StableHlo.unary main_v25 main_v28 (broadcastInDim S1600000x1 ![0] bcast_S1600000_S1600000x1_0 : (⟨S1600000, .f32⟩ : BufTy).Contents (Elt F) → (⟨S1600000x1, .f32⟩ : BufTy).Contents (Elt F)),
    StableHlo.nullary main_c_4 (constantI S_ 32 0#32),
    StableHlo.unary main_c_4 main_v29 (broadcastInDim S1600000 ![] bcast_S_S1600000 : (⟨S_, .i32⟩ : BufTy).Contents (Elt F) → (⟨S1600000, .i32⟩ : BufTy).Contents (Elt F)),
    StableHlo.binary main_v1 main_v29 main_v30 (cmpi .slt : (⟨S1600000, .i32⟩ : BufTy).Contents (Elt F) → (⟨S1600000, .i32⟩ : BufTy).Contents (Elt F) → (⟨S1600000, .i1⟩ : BufTy).Contents (Elt F)),
    StableHlo.nullary main_c_5 (constantI S_ 32 100000#32),
    StableHlo.unary main_c_5 main_v31 (broadcastInDim S1600000 ![] bcast_S_S1600000 : (⟨S_, .i32⟩ : BufTy).Contents (Elt F) → (⟨S1600000, .i32⟩ : BufTy).Contents (Elt F)),
    StableHlo.binary main_v1 main_v31 main_v32 (addi : (⟨S1600000, .i32⟩ : BufTy).Contents (Elt F) → (⟨S1600000, .i32⟩ : BufTy).Contents (Elt F) → (⟨S1600000, .i32⟩ : BufTy).Contents (Elt F)),
    StableHlo.ternary main_v30 main_v32 main_v1 main_v33 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v33 main_v34 (broadcastInDim S1600000x1 ![0] bcast_S1600000_S1600000x1_0 : (⟨S1600000, .i32⟩ : BufTy).Contents (Elt F) → (⟨S1600000x1, .i32⟩ : BufTy).Contents (Elt F)),
    StableHlo.binary main_v27 main_v34 main_v35 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v28 main_v36 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v36 main_v35 main_v37 (mulf : (⟨S1600000x64, .f32⟩ : BufTy).Contents (Elt F) → (⟨S1600000x64, .f32⟩ : BufTy).Contents (Elt F) → (⟨S1600000x64, .f32⟩ : BufTy).Contents (Elt F)),
    StableHlo.nullary main_cst_6 (constant S_ .f32 0x00000000#32),
    StableHlo.unary main_cst_6 main_v38 (broadcastInDim S100000x64 ![] bcast_S_S100000x64 : (⟨S_, .f32⟩ : BufTy).Contents (Elt F) → (⟨S100000x64, .f32⟩ : BufTy).Contents (Elt F)),
    StableHlo.unary main_v3 main_v39 (broadcastInDim S1600000x1 ![0] bcast_S1600000_S1600000x1_0 : (⟨S1600000, .i32⟩ : BufTy).Contents (Elt F) → (⟨S1600000x1, .i32⟩ : BufTy).Contents (Elt F)),
    StableHlo.ternary main_v38 main_v39 main_v37 main_v40 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_v26 main_v41 (broadcastInDim S100000x1 ![0] bcast_S100000_S100000x1_0 : (⟨S100000, .f32⟩ : BufTy).Contents (Elt F) → (⟨S100000x1, .f32⟩ : BufTy).Contents (Elt F)),
    StableHlo.unary main_v41 main_v42 (broadcastInDim S100000x64 ![0, 1] bcast_S100000x1_S100000x64_0_1 : (⟨S100000x1, .f32⟩ : BufTy).Contents (Elt F) → (⟨S100000x64, .f32⟩ : BufTy).Contents (Elt F)),
    StableHlo.binary main_v42 main_v27 main_v43 (mulf : (⟨S100000x64, .f32⟩ : BufTy).Contents (Elt F) → (⟨S100000x64, .f32⟩ : BufTy).Contents (Elt F) → (⟨S100000x64, .f32⟩ : BufTy).Contents (Elt F)),
    StableHlo.binary main_v40 main_v43 main_v44 (addf : (⟨S100000x64, .f32⟩ : BufTy).Contents (Elt F) → (⟨S100000x64, .f32⟩ : BufTy).Contents (Elt F) → (⟨S100000x64, .f32⟩ : BufTy).Contents (Elt F)),
    StableHlo.unary main_arg4 main_v45 (broadcastInDim S1x64 ![1] bcast_S64_S1x64_1 : (⟨S64, .f32⟩ : BufTy).Contents (Elt F) → (⟨S1x64, .f32⟩ : BufTy).Contents (Elt F)),
    StableHlo.unary main_v45 main_v46 (broadcastInDim S100000x64 ![0, 1] bcast_S1x64_S100000x64_0_1 : (⟨S1x64, .f32⟩ : BufTy).Contents (Elt F) → (⟨S100000x64, .f32⟩ : BufTy).Contents (Elt F)),
    StableHlo.binary main_v44 main_v46 main_v47 (addf : (⟨S100000x64, .f32⟩ : BufTy).Contents (Elt F) → (⟨S100000x64, .f32⟩ : BufTy).Contents (Elt F) → (⟨S100000x64, .f32⟩ : BufTy).Contents (Elt F)),
    StableHlo.TRef.nullary main_call0.cst (constant S_ .f32 0x00000000#32),
    StableHlo.TRef.unary main_call0.cst main_call0.v0 (broadcastInDim S100000x64 ![] bcast_S_S100000x64),
    StableHlo.TRef.binary (.of main_v47 : StableHlo.TRef sig ⟨S100000x64, .f32⟩) main_call0.v0 main_call0.v1 maximumf,
    StableHlo.nullary main_cst_7 (constant S_ .f32 0x00000000#32),
    StableHlo.binary main_v48 main_cst_7 main_v49 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)) ]

/-- Window `main_part1`: its 104 operations, in order. -/
abbrev ops_part1 : List (HloOp τ sig (Elt F)) :=
  [ StableHlo.nullary main_cst_8 (constant S_ .f32 0x47C35000#32),
    StableHlo.unary main_cst_8 main_v50 (broadcastInDim S64 ![] bcast_S_S64 : (⟨S_, .f32⟩ : BufTy).Contents (Elt F) → (⟨S64, .f32⟩ : BufTy).Contents (Elt F)),
    StableHlo.binary main_v49 main_v50 main_v51 (Host.divf : (⟨S64, .f32⟩ : BufTy).Contents (Elt F) → (⟨S64, .f32⟩ : BufTy).Contents (Elt F) → (⟨S64, .f32⟩ : BufTy).Contents (Elt F)),
    StableHlo.nullary main_c_9 (constantI S_ 32 0#32),
    StableHlo.TRef.nullary main_call1.cst (constant S_ .f32 0x00000000#32),
    StableHlo.TRef.binary (.of main_v48 : StableHlo.TRef sig ⟨S100000x64, .f32⟩) main_call1.cst main_call1.v0 (fun x v => Host.reduceAdd x v reducesTo_S100000x64_S64_d0 h_S_),
    StableHlo.TRef.unary main_call1.v0 main_call1.v1 (broadcastInDim S1x64 ![1] bcast_S64_S1x64_1),
    StableHlo.TRef.nullary main_call1.cst_0 (constant S_ .f32 0x47C35000#32),
    StableHlo.TRef.unary main_call1.cst_0 main_call1.v2 (broadcastInDim S1x64 ![] bcast_S_S1x64),
    StableHlo.TRef.binary main_call1.v1 main_call1.v2 main_call1.v3 Host.divf,
    StableHlo.TRef.unary main_call1.v3 main_call1.v4 (broadcastInDim S100000x64 ![0, 1] bcast_S1x64_S100000x64_0_1),
    StableHlo.TRef.binary (.of main_v48 : StableHlo.TRef sig ⟨S100000x64, .f32⟩) main_call1.v4 main_call1.v5 subf,
    StableHlo.TRef.binary main_call1.v5 main_call1.v5 main_call1.v6 mulf,
    StableHlo.TRef.unary (.of main_c_9 : StableHlo.TRef sig ⟨S_, .i32⟩) main_call1.v7 (sitofp .f32),
    StableHlo.TRef.nullary main_call1.cst_1 (constant S_ .f32 0x47C35000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x64_S64_d0 h_S_),
    StableHlo.TRef.unary main_call1.v8 main_call1.v10 (broadcastInDim S64 ![] bcast_S_S64),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S64 ![] bcast_S_S64),
    StableHlo.TRef.ternary main_call1.v12 main_call1.v11 main_call1.call0.v1 main_call1.call0.v2 (fun p a b => select (broadcastInDim S64 ![] bcast_S_S64 p) a b),
    StableHlo.unary main_v51 main_v53 (broadcastInDim S1x64 ![1] bcast_S64_S1x64_1 : (⟨S64, .f32⟩ : BufTy).Contents (Elt F) → (⟨S1x64, .f32⟩ : BufTy).Contents (Elt F)),
    StableHlo.unary main_v53 main_v54 (broadcastInDim S100000x64 ![0, 1] bcast_S1x64_S100000x64_0_1 : (⟨S1x64, .f32⟩ : BufTy).Contents (Elt F) → (⟨S100000x64, .f32⟩ : BufTy).Contents (Elt F)),
    StableHlo.binary main_v48 main_v54 main_v55 (subf : (⟨S100000x64, .f32⟩ : BufTy).Contents (Elt F) → (⟨S100000x64, .f32⟩ : BufTy).Contents (Elt F) → (⟨S100000x64, .f32⟩ : BufTy).Contents (Elt F)),
    StableHlo.nullary main_cst_10 (constant S_ .f32 0x3727C5AC#32),
    StableHlo.unary main_cst_10 main_v56 (broadcastInDim S64 ![] bcast_S_S64 : (⟨S_, .f32⟩ : BufTy).Contents (Elt F) → (⟨S64, .f32⟩ : BufTy).Contents (Elt F)),
    StableHlo.binary main_v52 main_v56 main_v57 (addf : (⟨S64, .f32⟩ : BufTy).Contents (Elt F) → (⟨S64, .f32⟩ : BufTy).Contents (Elt F) → (⟨S64, .f32⟩ : BufTy).Contents (Elt F)),
    StableHlo.unary main_v57 main_v58 (Host.rsqrt : (⟨S64, .f32⟩ : BufTy).Contents (Elt F) → (⟨S64, .f32⟩ : BufTy).Contents (Elt F)),
    StableHlo.unary main_v58 main_v59 (broadcastInDim S1x64 ![1] bcast_S64_S1x64_1 : (⟨S64, .f32⟩ : BufTy).Contents (Elt F) → (⟨S1x64, .f32⟩ : BufTy).Contents (Elt F)),
    StableHlo.unary main_v59 main_v60 (broadcastInDim S100000x64 ![0, 1] bcast_S1x64_S100000x64_0_1 : (⟨S1x64, .f32⟩ : BufTy).Contents (Elt F) → (⟨S100000x64, .f32⟩ : BufTy).Contents (Elt F)),
    StableHlo.binary main_v55 main_v60 main_v61 (mulf : (⟨S100000x64, .f32⟩ : BufTy).Contents (Elt F) → (⟨S100000x64, .f32⟩ : BufTy).Contents (Elt F) → (⟨S100000x64, .f32⟩ : BufTy).Contents (Elt F)),
    StableHlo.unary main_arg7 main_v62 (broadcastInDim S1x64 ![1] bcast_S64_S1x64_1 : (⟨S64, .f32⟩ : BufTy).Contents (Elt F) → (⟨S1x64, .f32⟩ : BufTy).Contents (Elt F)),
    StableHlo.unary main_v62 main_v63 (broadcastInDim S100000x64 ![0, 1] bcast_S1x64_S100000x64_0_1 : (⟨S1x64, .f32⟩ : BufTy).Contents (Elt F) → (⟨S100000x64, .f32⟩ : BufTy).Contents (Elt F)),
    StableHlo.binary main_v61 main_v63 main_v64 (mulf : (⟨S100000x64, .f32⟩ : BufTy).Contents (Elt F) → (⟨S100000x64, .f32⟩ : BufTy).Contents (Elt F) → (⟨S100000x64, .f32⟩ : BufTy).Contents (Elt F)),
    StableHlo.unary main_arg8 main_v65 (broadcastInDim S1x64 ![1] bcast_S64_S1x64_1 : (⟨S64, .f32⟩ : BufTy).Contents (Elt F) → (⟨S1x64, .f32⟩ : BufTy).Contents (Elt F)),
    StableHlo.unary main_v65 main_v66 (broadcastInDim S100000x64 ![0, 1] bcast_S1x64_S100000x64_0_1 : (⟨S1x64, .f32⟩ : BufTy).Contents (Elt F) → (⟨S100000x64, .f32⟩ : BufTy).Contents (Elt F)),
    StableHlo.binary main_v64 main_v66 main_v67 (addf : (⟨S100000x64, .f32⟩ : BufTy).Contents (Elt F) → (⟨S100000x64, .f32⟩ : BufTy).Contents (Elt F) → (⟨S100000x64, .f32⟩ : BufTy).Contents (Elt F)),
    StableHlo.binary main_v67 main_arg5 main_v68 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_v25 main_v69 (broadcastInDim S1600000x1 ![0] bcast_S1600000_S1600000x1_0 : (⟨S1600000, .f32⟩ : BufTy).Contents (Elt F) → (⟨S1600000x1, .f32⟩ : BufTy).Contents (Elt F)),
    StableHlo.nullary main_c_11 (constantI S_ 32 0#32),
    StableHlo.unary main_c_11 main_v70 (broadcastInDim S1600000 ![] bcast_S_S1600000 : (⟨S_, .i32⟩ : BufTy).Contents (Elt F) → (⟨S1600000, .i32⟩ : BufTy).Contents (Elt F)),
    StableHlo.binary main_v1 main_v70 main_v71 (cmpi .slt : (⟨S1600000, .i32⟩ : BufTy).Contents (Elt F) → (⟨S1600000, .i32⟩ : BufTy).Contents (Elt F) → (⟨S1600000, .i1⟩ : BufTy).Contents (Elt F)),
    StableHlo.nullary main_c_12 (constantI S_ 32 100000#32),
    StableHlo.unary main_c_12 main_v72 (broadcastInDim S1600000 ![] bcast_S_S1600000 : (⟨S_, .i32⟩ : BufTy).Contents (Elt F) → (⟨S1600000, .i32⟩ : BufTy).Contents (Elt F)),
    StableHlo.binary main_v1 main_v72 main_v73 (addi : (⟨S1600000, .i32⟩ : BufTy).Contents (Elt F) → (⟨S1600000, .i32⟩ : BufTy).Contents (Elt F) → (⟨S1600000, .i32⟩ : BufTy).Contents (Elt F)),
    StableHlo.ternary main_v71 main_v73 main_v1 main_v74 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v74 main_v75 (broadcastInDim S1600000x1 ![0] bcast_S1600000_S1600000x1_0 : (⟨S1600000, .i32⟩ : BufTy).Contents (Elt F) → (⟨S1600000x1, .i32⟩ : BufTy).Contents (Elt F)),
    StableHlo.binary main_v68 main_v75 main_v76 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v69 main_v77 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v77 main_v76 main_v78 (mulf : (⟨S1600000x64, .f32⟩ : BufTy).Contents (Elt F) → (⟨S1600000x64, .f32⟩ : BufTy).Contents (Elt F) → (⟨S1600000x64, .f32⟩ : BufTy).Contents (Elt F)),
    StableHlo.nullary main_cst_13 (constant S_ .f32 0x00000000#32),
    StableHlo.unary main_cst_13 main_v79 (broadcastInDim S100000x64 ![] bcast_S_S100000x64 : (⟨S_, .f32⟩ : BufTy).Contents (Elt F) → (⟨S100000x64, .f32⟩ : BufTy).Contents (Elt F)),
    StableHlo.unary main_v3 main_v80 (broadcastInDim S1600000x1 ![0] bcast_S1600000_S1600000x1_0 : (⟨S1600000, .i32⟩ : BufTy).Contents (Elt F) → (⟨S1600000x1, .i32⟩ : BufTy).Contents (Elt F)),
    StableHlo.ternary main_v79 main_v80 main_v78 main_v81 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_v26 main_v82 (broadcastInDim S100000x1 ![0] bcast_S100000_S100000x1_0 : (⟨S100000, .f32⟩ : BufTy).Contents (Elt F) → (⟨S100000x1, .f32⟩ : BufTy).Contents (Elt F)),
    StableHlo.unary main_v82 main_v83 (broadcastInDim S100000x64 ![0, 1] bcast_S100000x1_S100000x64_0_1 : (⟨S100000x1, .f32⟩ : BufTy).Contents (Elt F) → (⟨S100000x64, .f32⟩ : BufTy).Contents (Elt F)),
    StableHlo.binary main_v83 main_v68 main_v84 (mulf : (⟨S100000x64, .f32⟩ : BufTy).Contents (Elt F) → (⟨S100000x64, .f32⟩ : BufTy).Contents (Elt F) → (⟨S100000x64, .f32⟩ : BufTy).Contents (Elt F)),
    StableHlo.binary main_v81 main_v84 main_v85 (addf : (⟨S100000x64, .f32⟩ : BufTy).Contents (Elt F) → (⟨S100000x64, .f32⟩ : BufTy).Contents (Elt F) → (⟨S100000x64, .f32⟩ : BufTy).Contents (Elt F)),
    StableHlo.unary main_arg6 main_v86 (broadcastInDim S1x64 ![1] bcast_S64_S1x64_1 : (⟨S64, .f32⟩ : BufTy).Contents (Elt F) → (⟨S1x64, .f32⟩ : BufTy).Contents (Elt F)),
    StableHlo.unary main_v86 main_v87 (broadcastInDim S100000x64 ![0, 1] bcast_S1x64_S100000x64_0_1 : (⟨S1x64, .f32⟩ : BufTy).Contents (Elt F) → (⟨S100000x64, .f32⟩ : BufTy).Contents (Elt F)),
    StableHlo.binary main_v85 main_v87 main_v88 (addf : (⟨S100000x64, .f32⟩ : BufTy).Contents (Elt F) → (⟨S100000x64, .f32⟩ : BufTy).Contents (Elt F) → (⟨S100000x64, .f32⟩ : BufTy).Contents (Elt F)),
    StableHlo.TRef.nullary main_call2.cst (constant S_ .f32 0x00000000#32),
    StableHlo.TRef.unary main_call2.cst main_call2.v0 (broadcastInDim S100000x64 ![] bcast_S_S100000x64),
    StableHlo.TRef.binary (.of main_v88 : StableHlo.TRef sig ⟨S100000x64, .f32⟩) main_call2.v0 main_call2.v1 maximumf,
    StableHlo.nullary main_cst_14 (constant S_ .f32 0x00000000#32),
    StableHlo.binary main_v89 main_cst_14 main_v90 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_15 (constant S_ .f32 0x47C35000#32),
    StableHlo.unary main_cst_15 main_v91 (broadcastInDim S64 ![] bcast_S_S64 : (⟨S_, .f32⟩ : BufTy).Contents (Elt F) → (⟨S64, .f32⟩ : BufTy).Contents (Elt F)),
    StableHlo.binary main_v90 main_v91 main_v92 (Host.divf : (⟨S64, .f32⟩ : BufTy).Contents (Elt F) → (⟨S64, .f32⟩ : BufTy).Contents (Elt F) → (⟨S64, .f32⟩ : BufTy).Contents (Elt F)),
    StableHlo.nullary main_c_16 (constantI S_ 32 0#32),
    StableHlo.TRef.nullary main_call3.cst (constant S_ .f32 0x00000000#32),
    StableHlo.TRef.binary (.of main_v89 : StableHlo.TRef sig ⟨S100000x64, .f32⟩) main_call3.cst main_call3.v0 (fun x v => Host.reduceAdd x v reducesTo_S100000x64_S64_d0 h_S_),
    StableHlo.TRef.unary main_call3.v0 main_call3.v1 (broadcastInDim S1x64 ![1] bcast_S64_S1x64_1),
    StableHlo.TRef.nullary main_call3.cst_0 (constant S_ .f32 0x47C35000#32),
    StableHlo.TRef.unary main_call3.cst_0 main_call3.v2 (broadcastInDim S1x64 ![] bcast_S_S1x64),
    StableHlo.TRef.binary main_call3.v1 main_call3.v2 main_call3.v3 Host.divf,
    StableHlo.TRef.unary main_call3.v3 main_call3.v4 (broadcastInDim S100000x64 ![0, 1] bcast_S1x64_S100000x64_0_1),
    StableHlo.TRef.binary (.of main_v89 : StableHlo.TRef sig ⟨S100000x64, .f32⟩) main_call3.v4 main_call3.v5 subf,
    StableHlo.TRef.binary main_call3.v5 main_call3.v5 main_call3.v6 mulf,
    StableHlo.TRef.unary (.of main_c_16 : StableHlo.TRef sig ⟨S_, .i32⟩) main_call3.v7 (sitofp .f32),
    StableHlo.TRef.nullary main_call3.cst_1 (constant S_ .f32 0x47C35000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S100000x64_S64_d0 h_S_),
    StableHlo.TRef.unary main_call3.v8 main_call3.v10 (broadcastInDim S64 ![] bcast_S_S64),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S64 ![] bcast_S_S64),
    StableHlo.TRef.ternary main_call3.v12 main_call3.v11 main_call3.call0.v1 main_call3.call0.v2 (fun p a b => select (broadcastInDim S64 ![] bcast_S_S64 p) a b),
    StableHlo.unary main_v92 main_v94 (broadcastInDim S1x64 ![1] bcast_S64_S1x64_1 : (⟨S64, .f32⟩ : BufTy).Contents (Elt F) → (⟨S1x64, .f32⟩ : BufTy).Contents (Elt F)),
    StableHlo.unary main_v94 main_v95 (broadcastInDim S100000x64 ![0, 1] bcast_S1x64_S100000x64_0_1 : (⟨S1x64, .f32⟩ : BufTy).Contents (Elt F) → (⟨S100000x64, .f32⟩ : BufTy).Contents (Elt F)),
    StableHlo.binary main_v89 main_v95 main_v96 (subf : (⟨S100000x64, .f32⟩ : BufTy).Contents (Elt F) → (⟨S100000x64, .f32⟩ : BufTy).Contents (Elt F) → (⟨S100000x64, .f32⟩ : BufTy).Contents (Elt F)),
    StableHlo.nullary main_cst_17 (constant S_ .f32 0x3727C5AC#32),
    StableHlo.unary main_cst_17 main_v97 (broadcastInDim S64 ![] bcast_S_S64 : (⟨S_, .f32⟩ : BufTy).Contents (Elt F) → (⟨S64, .f32⟩ : BufTy).Contents (Elt F)),
    StableHlo.binary main_v93 main_v97 main_v98 (addf : (⟨S64, .f32⟩ : BufTy).Contents (Elt F) → (⟨S64, .f32⟩ : BufTy).Contents (Elt F) → (⟨S64, .f32⟩ : BufTy).Contents (Elt F)),
    StableHlo.unary main_v98 main_v99 (Host.rsqrt : (⟨S64, .f32⟩ : BufTy).Contents (Elt F) → (⟨S64, .f32⟩ : BufTy).Contents (Elt F)) ]

/-- Window `main_part2`: its 60 operations, in order. -/
abbrev ops_part2 : List (HloOp τ sig (Elt F)) :=
  [ StableHlo.unary main_v99 main_v100 (broadcastInDim S1x64 ![1] bcast_S64_S1x64_1 : (⟨S64, .f32⟩ : BufTy).Contents (Elt F) → (⟨S1x64, .f32⟩ : BufTy).Contents (Elt F)),
    StableHlo.unary main_v100 main_v101 (broadcastInDim S100000x64 ![0, 1] bcast_S1x64_S100000x64_0_1 : (⟨S1x64, .f32⟩ : BufTy).Contents (Elt F) → (⟨S100000x64, .f32⟩ : BufTy).Contents (Elt F)),
    StableHlo.binary main_v96 main_v101 main_v102 (mulf : (⟨S100000x64, .f32⟩ : BufTy).Contents (Elt F) → (⟨S100000x64, .f32⟩ : BufTy).Contents (Elt F) → (⟨S100000x64, .f32⟩ : BufTy).Contents (Elt F)),
    StableHlo.unary main_arg9 main_v103 (broadcastInDim S1x64 ![1] bcast_S64_S1x64_1 : (⟨S64, .f32⟩ : BufTy).Contents (Elt F) → (⟨S1x64, .f32⟩ : BufTy).Contents (Elt F)),
    StableHlo.unary main_v103 main_v104 (broadcastInDim S100000x64 ![0, 1] bcast_S1x64_S100000x64_0_1 : (⟨S1x64, .f32⟩ : BufTy).Contents (Elt F) → (⟨S100000x64, .f32⟩ : BufTy).Contents (Elt F)),
    StableHlo.binary main_v102 main_v104 main_v105 (mulf : (⟨S100000x64, .f32⟩ : BufTy).Contents (Elt F) → (⟨S100000x64, .f32⟩ : BufTy).Contents (Elt F) → (⟨S100000x64, .f32⟩ : BufTy).Contents (Elt F)),
    StableHlo.unary main_arg10 main_v106 (broadcastInDim S1x64 ![1] bcast_S64_S1x64_1 : (⟨S64, .f32⟩ : BufTy).Contents (Elt F) → (⟨S1x64, .f32⟩ : BufTy).Contents (Elt F)),
    StableHlo.unary main_v106 main_v107 (broadcastInDim S100000x64 ![0, 1] bcast_S1x64_S100000x64_0_1 : (⟨S1x64, .f32⟩ : BufTy).Contents (Elt F) → (⟨S100000x64, .f32⟩ : BufTy).Contents (Elt F)),
    StableHlo.binary main_v105 main_v107 main_v108 (addf : (⟨S100000x64, .f32⟩ : BufTy).Contents (Elt F) → (⟨S100000x64, .f32⟩ : BufTy).Contents (Elt F) → (⟨S100000x64, .f32⟩ : BufTy).Contents (Elt F)),
    StableHlo.binary main_v67 main_v108 main_v109 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    StableHlo.unary main_arg11 main_v110 ((transpose S128x256 [1, 0] · transposes_S256x128_S128x256_1_0) : (⟨S256x128, .f32⟩ : BufTy).Contents (Elt F) → (⟨S128x256, .f32⟩ : BufTy).Contents (Elt F)),
    StableHlo.binary main_v109 main_v110 main_v111 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    StableHlo.unary main_arg13 main_v112 (broadcastInDim S1x256 ![1] bcast_S256_S1x256_1 : (⟨S256, .f32⟩ : BufTy).Contents (Elt F) → (⟨S1x256, .f32⟩ : BufTy).Contents (Elt F)),
    StableHlo.unary main_v112 main_v113 (broadcastInDim S100000x256 ![0, 1] bcast_S1x256_S100000x256_0_1 : (⟨S1x256, .f32⟩ : BufTy).Contents (Elt F) → (⟨S100000x256, .f32⟩ : BufTy).Contents (Elt F)),
    StableHlo.binary main_v111 main_v113 main_v114 (addf : (⟨S100000x256, .f32⟩ : BufTy).Contents (Elt F) → (⟨S100000x256, .f32⟩ : BufTy).Contents (Elt F) → (⟨S100000x256, .f32⟩ : BufTy).Contents (Elt F)),
    StableHlo.unary main_arg14 main_v115 (broadcastInDim S1x256 ![1] bcast_S256_S1x256_1 : (⟨S256, .f32⟩ : BufTy).Contents (Elt F) → (⟨S1x256, .f32⟩ : BufTy).Contents (Elt F)),
    StableHlo.unary main_v115 main_v116 (broadcastInDim S100000x256 ![0, 1] bcast_S1x256_S100000x256_0_1 : (⟨S1x256, .f32⟩ : BufTy).Contents (Elt F) → (⟨S100000x256, .f32⟩ : BufTy).Contents (Elt F)),
    StableHlo.binary main_v114 main_v116 main_v117 (addf : (⟨S100000x256, .f32⟩ : BufTy).Contents (Elt F) → (⟨S100000x256, .f32⟩ : BufTy).Contents (Elt F) → (⟨S100000x256, .f32⟩ : BufTy).Contents (Elt F)),
    StableHlo.unary main_v117 main_v118 ((extractStridedSlice S100000x64 ![0, 0] · slices_S100000x256_S100000x64_0_0) : (⟨S100000x256, .f32⟩ : BufTy).Contents (Elt F) → (⟨S100000x64, .f32⟩ : BufTy).Contents (Elt F)),
    StableHlo.unary main_v117 main_v119 ((extractStridedSlice S100000x64 ![0, 64] · slices_S100000x256_S100000x64_0_64) : (⟨S100000x256, .f32⟩ : BufTy).Contents (Elt F) → (⟨S100000x64, .f32⟩ : BufTy).Contents (Elt F)),
    StableHlo.unary main_v117 main_v120 ((extractStridedSlice S100000x64 ![0, 128] · slices_S100000x256_S100000x64_0_128) : (⟨S100000x256, .f32⟩ : BufTy).Contents (Elt F) → (⟨S100000x64, .f32⟩ : BufTy).Contents (Elt F)),
    StableHlo.unary main_v117 main_v121 ((extractStridedSlice S100000x64 ![0, 192] · slices_S100000x256_S100000x64_0_192) : (⟨S100000x256, .f32⟩ : BufTy).Contents (Elt F) → (⟨S100000x64, .f32⟩ : BufTy).Contents (Elt F)),
    StableHlo.unary main_v118 main_v122 (Host.negf : (⟨S100000x64, .f32⟩ : BufTy).Contents (Elt F) → (⟨S100000x64, .f32⟩ : BufTy).Contents (Elt F)),
    StableHlo.unary main_v122 main_v123 (Host.exp : (⟨S100000x64, .f32⟩ : BufTy).Contents (Elt F) → (⟨S100000x64, .f32⟩ : BufTy).Contents (Elt F)),
    StableHlo.nullary main_cst_18 (constant S_ .f32 0x3F800000#32),
    StableHlo.unary main_cst_18 main_v124 (broadcastInDim S100000x64 ![] bcast_S_S100000x64 : (⟨S_, .f32⟩ : BufTy).Contents (Elt F) → (⟨S100000x64, .f32⟩ : BufTy).Contents (Elt F)),
    StableHlo.binary main_v124 main_v123 main_v125 (addf : (⟨S100000x64, .f32⟩ : BufTy).Contents (Elt F) → (⟨S100000x64, .f32⟩ : BufTy).Contents (Elt F) → (⟨S100000x64, .f32⟩ : BufTy).Contents (Elt F)),
    StableHlo.nullary main_cst_19 (constant S_ .f32 0x3F800000#32),
    StableHlo.unary main_cst_19 main_v126 (broadcastInDim S100000x64 ![] bcast_S_S100000x64 : (⟨S_, .f32⟩ : BufTy).Contents (Elt F) → (⟨S100000x64, .f32⟩ : BufTy).Contents (Elt F)),
    StableHlo.binary main_v126 main_v125 main_v127 (Host.divf : (⟨S100000x64, .f32⟩ : BufTy).Contents (Elt F) → (⟨S100000x64, .f32⟩ : BufTy).Contents (Elt F) → (⟨S100000x64, .f32⟩ : BufTy).Contents (Elt F)),
    StableHlo.unary main_v120 main_v128 (Host.tanh : (⟨S100000x64, .f32⟩ : BufTy).Contents (Elt F) → (⟨S100000x64, .f32⟩ : BufTy).Contents (Elt F)),
    StableHlo.binary main_v127 main_v128 main_v129 (mulf : (⟨S100000x64, .f32⟩ : BufTy).Contents (Elt F) → (⟨S100000x64, .f32⟩ : BufTy).Contents (Elt F) → (⟨S100000x64, .f32⟩ : BufTy).Contents (Elt F)),
    StableHlo.unary main_v121 main_v130 (Host.negf : (⟨S100000x64, .f32⟩ : BufTy).Contents (Elt F) → (⟨S100000x64, .f32⟩ : BufTy).Contents (Elt F)),
    StableHlo.unary main_v130 main_v131 (Host.exp : (⟨S100000x64, .f32⟩ : BufTy).Contents (Elt F) → (⟨S100000x64, .f32⟩ : BufTy).Contents (Elt F)),
    StableHlo.nullary main_cst_20 (constant S_ .f32 0x3F800000#32),
    StableHlo.unary main_cst_20 main_v132 (broadcastInDim S100000x64 ![] bcast_S_S100000x64 : (⟨S_, .f32⟩ : BufTy).Contents (Elt F) → (⟨S100000x64, .f32⟩ : BufTy).Contents (Elt F)),
    StableHlo.binary main_v132 main_v131 main_v133 (addf : (⟨S100000x64, .f32⟩ : BufTy).Contents (Elt F) → (⟨S100000x64, .f32⟩ : BufTy).Contents (Elt F) → (⟨S100000x64, .f32⟩ : BufTy).Contents (Elt F)),
    StableHlo.nullary main_cst_21 (constant S_ .f32 0x3F800000#32),
    StableHlo.unary main_cst_21 main_v134 (broadcastInDim S100000x64 ![] bcast_S_S100000x64 : (⟨S_, .f32⟩ : BufTy).Contents (Elt F) → (⟨S100000x64, .f32⟩ : BufTy).Contents (Elt F)),
    StableHlo.binary main_v134 main_v133 main_v135 (Host.divf : (⟨S100000x64, .f32⟩ : BufTy).Contents (Elt F) → (⟨S100000x64, .f32⟩ : BufTy).Contents (Elt F) → (⟨S100000x64, .f32⟩ : BufTy).Contents (Elt F)),
    StableHlo.unary main_v129 main_v136 (Host.tanh : (⟨S100000x64, .f32⟩ : BufTy).Contents (Elt F) → (⟨S100000x64, .f32⟩ : BufTy).Contents (Elt F)),
    StableHlo.binary main_v135 main_v136 main_v137 (mulf : (⟨S100000x64, .f32⟩ : BufTy).Contents (Elt F) → (⟨S100000x64, .f32⟩ : BufTy).Contents (Elt F) → (⟨S100000x64, .f32⟩ : BufTy).Contents (Elt F)),
    StableHlo.unary main_arg15 main_v138 ((transpose S64x256 [1, 0] · transposes_S256x64_S64x256_1_0) : (⟨S256x64, .f32⟩ : BufTy).Contents (Elt F) → (⟨S64x256, .f32⟩ : BufTy).Contents (Elt F)),
    StableHlo.binary main_v137 main_v138 main_v139 ((fun l r => Host.dotGeneral dot_S100000x64_S64x256_S100000x256_1_0_0_1_n_n none l r) : (⟨S100000x64, .f32⟩ : BufTy).Contents (Elt F) → (⟨S64x256, .f32⟩ : BufTy).Contents (Elt F) → (⟨S100000x256, .f32⟩ : BufTy).Contents (Elt F)),
    StableHlo.unary main_arg17 main_v140 (broadcastInDim S1x256 ![1] bcast_S256_S1x256_1 : (⟨S256, .f32⟩ : BufTy).Contents (Elt F) → (⟨S1x256, .f32⟩ : BufTy).Contents (Elt F)),
    StableHlo.unary main_v140 main_v141 (broadcastInDim S100000x256 ![0, 1] bcast_S1x256_S100000x256_0_1 : (⟨S1x256, .f32⟩ : BufTy).Contents (Elt F) → (⟨S100000x256, .f32⟩ : BufTy).Contents (Elt F)),
    StableHlo.binary main_v139 main_v141 main_v142 (addf : (⟨S100000x256, .f32⟩ : BufTy).Contents (Elt F) → (⟨S100000x256, .f32⟩ : BufTy).Contents (Elt F) → (⟨S100000x256, .f32⟩ : BufTy).Contents (Elt F)),
    StableHlo.unary main_arg18 main_v143 (broadcastInDim S1x256 ![1] bcast_S256_S1x256_1 : (⟨S256, .f32⟩ : BufTy).Contents (Elt F) → (⟨S1x256, .f32⟩ : BufTy).Contents (Elt F)),
    StableHlo.unary main_v143 main_v144 (broadcastInDim S100000x256 ![0, 1] bcast_S1x256_S100000x256_0_1 : (⟨S1x256, .f32⟩ : BufTy).Contents (Elt F) → (⟨S100000x256, .f32⟩ : BufTy).Contents (Elt F)),
    StableHlo.binary main_v142 main_v144 main_v145 (addf : (⟨S100000x256, .f32⟩ : BufTy).Contents (Elt F) → (⟨S100000x256, .f32⟩ : BufTy).Contents (Elt F) → (⟨S100000x256, .f32⟩ : BufTy).Contents (Elt F)),
    StableHlo.unary main_v145 main_v146 ((extractStridedSlice S100000x64 ![0, 0] · slices_S100000x256_S100000x64_0_0) : (⟨S100000x256, .f32⟩ : BufTy).Contents (Elt F) → (⟨S100000x64, .f32⟩ : BufTy).Contents (Elt F)),
    StableHlo.unary main_v145 main_v147 ((extractStridedSlice S100000x64 ![0, 64] · slices_S100000x256_S100000x64_0_64) : (⟨S100000x256, .f32⟩ : BufTy).Contents (Elt F) → (⟨S100000x64, .f32⟩ : BufTy).Contents (Elt F)),
    StableHlo.unary main_v145 main_v148 ((extractStridedSlice S100000x64 ![0, 128] · slices_S100000x256_S100000x64_0_128) : (⟨S100000x256, .f32⟩ : BufTy).Contents (Elt F) → (⟨S100000x64, .f32⟩ : BufTy).Contents (Elt F)),
    StableHlo.unary main_v145 main_v149 ((extractStridedSlice S100000x64 ![0, 192] · slices_S100000x256_S100000x64_0_192) : (⟨S100000x256, .f32⟩ : BufTy).Contents (Elt F) → (⟨S100000x64, .f32⟩ : BufTy).Contents (Elt F)),
    StableHlo.unary main_v146 main_v150 (Host.negf : (⟨S100000x64, .f32⟩ : BufTy).Contents (Elt F) → (⟨S100000x64, .f32⟩ : BufTy).Contents (Elt F)),
    StableHlo.unary main_v150 main_v151 (Host.exp : (⟨S100000x64, .f32⟩ : BufTy).Contents (Elt F) → (⟨S100000x64, .f32⟩ : BufTy).Contents (Elt F)),
    StableHlo.nullary main_cst_22 (constant S_ .f32 0x3F800000#32),
    StableHlo.unary main_cst_22 main_v152 (broadcastInDim S100000x64 ![] bcast_S_S100000x64 : (⟨S_, .f32⟩ : BufTy).Contents (Elt F) → (⟨S100000x64, .f32⟩ : BufTy).Contents (Elt F)),
    StableHlo.binary main_v152 main_v151 main_v153 (addf : (⟨S100000x64, .f32⟩ : BufTy).Contents (Elt F) → (⟨S100000x64, .f32⟩ : BufTy).Contents (Elt F) → (⟨S100000x64, .f32⟩ : BufTy).Contents (Elt F)),
    StableHlo.nullary main_cst_23 (constant S_ .f32 0x3F800000#32) ]

/-- Window `main_part3`: its 22 operations, in order. -/
abbrev ops_part3 : List (HloOp τ sig (Elt F)) :=
  [ StableHlo.unary main_cst_23 main_v154 (broadcastInDim S100000x64 ![] bcast_S_S100000x64 : (⟨S_, .f32⟩ : BufTy).Contents (Elt F) → (⟨S100000x64, .f32⟩ : BufTy).Contents (Elt F)),
    StableHlo.binary main_v154 main_v153 main_v155 (Host.divf : (⟨S100000x64, .f32⟩ : BufTy).Contents (Elt F) → (⟨S100000x64, .f32⟩ : BufTy).Contents (Elt F) → (⟨S100000x64, .f32⟩ : BufTy).Contents (Elt F)),
    StableHlo.unary main_v148 main_v156 (Host.tanh : (⟨S100000x64, .f32⟩ : BufTy).Contents (Elt F) → (⟨S100000x64, .f32⟩ : BufTy).Contents (Elt F)),
    StableHlo.binary main_v155 main_v156 main_v157 (mulf : (⟨S100000x64, .f32⟩ : BufTy).Contents (Elt F) → (⟨S100000x64, .f32⟩ : BufTy).Contents (Elt F) → (⟨S100000x64, .f32⟩ : BufTy).Contents (Elt F)),
    StableHlo.unary main_v149 main_v158 (Host.negf : (⟨S100000x64, .f32⟩ : BufTy).Contents (Elt F) → (⟨S100000x64, .f32⟩ : BufTy).Contents (Elt F)),
    StableHlo.unary main_v158 main_v159 (Host.exp : (⟨S100000x64, .f32⟩ : BufTy).Contents (Elt F) → (⟨S100000x64, .f32⟩ : BufTy).Contents (Elt F)),
    StableHlo.nullary main_cst_24 (constant S_ .f32 0x3F800000#32),
    StableHlo.unary main_cst_24 main_v160 (broadcastInDim S100000x64 ![] bcast_S_S100000x64 : (⟨S_, .f32⟩ : BufTy).Contents (Elt F) → (⟨S100000x64, .f32⟩ : BufTy).Contents (Elt F)),
    StableHlo.binary main_v160 main_v159 main_v161 (addf : (⟨S100000x64, .f32⟩ : BufTy).Contents (Elt F) → (⟨S100000x64, .f32⟩ : BufTy).Contents (Elt F) → (⟨S100000x64, .f32⟩ : BufTy).Contents (Elt F)),
    StableHlo.nullary main_cst_25 (constant S_ .f32 0x3F800000#32),
    StableHlo.unary main_cst_25 main_v162 (broadcastInDim S100000x64 ![] bcast_S_S100000x64 : (⟨S_, .f32⟩ : BufTy).Contents (Elt F) → (⟨S100000x64, .f32⟩ : BufTy).Contents (Elt F)),
    StableHlo.binary main_v162 main_v161 main_v163 (Host.divf : (⟨S100000x64, .f32⟩ : BufTy).Contents (Elt F) → (⟨S100000x64, .f32⟩ : BufTy).Contents (Elt F) → (⟨S100000x64, .f32⟩ : BufTy).Contents (Elt F)),
    StableHlo.unary main_v157 main_v164 (Host.tanh : (⟨S100000x64, .f32⟩ : BufTy).Contents (Elt F) → (⟨S100000x64, .f32⟩ : BufTy).Contents (Elt F)),
    StableHlo.binary main_v163 main_v164 main_v165 (mulf : (⟨S100000x64, .f32⟩ : BufTy).Contents (Elt F) → (⟨S100000x64, .f32⟩ : BufTy).Contents (Elt F) → (⟨S100000x64, .f32⟩ : BufTy).Contents (Elt F)),
    StableHlo.nary ![main_v137, main_v165, main_arg0] main_v166 (fun u => concatenate S100000x143 1 [⟨S100000x64, u 0⟩, ⟨S100000x64, u 1⟩, ⟨S100000x15, u 2⟩] concatenates_S100000x64_S100000x64_S100000x15_S100000x143_d1),
    StableHlo.TRef.nullary main_call4.cst (constant S_ .f32 0x00000000#32),
    StableHlo.TRef.unary main_call4.cst main_call4.v0 (broadcastInDim S100000x143 ![] bcast_S_S100000x143),
    StableHlo.TRef.binary (.of main_v166 : StableHlo.TRef sig ⟨S100000x143, .f32⟩) main_call4.v0 main_call4.v1 maximumf,
    StableHlo.binary main_v167 main_arg19 main_v168 ((fun l r => Host.dotGeneral dot_S100000x143_S143x14_S100000x14_1_0_0_1_n_n none l r) : (⟨S100000x143, .f32⟩ : BufTy).Contents (Elt F) → (⟨S143x14, .f32⟩ : BufTy).Contents (Elt F) → (⟨S100000x14, .f32⟩ : BufTy).Contents (Elt F)),
    StableHlo.unary main_arg20 main_v169 (broadcastInDim S1x14 ![1] bcast_S14_S1x14_1 : (⟨S14, .f32⟩ : BufTy).Contents (Elt F) → (⟨S1x14, .f32⟩ : BufTy).Contents (Elt F)),
    StableHlo.unary main_v169 main_v170 (broadcastInDim S100000x14 ![0, 1] bcast_S1x14_S100000x14_0_1 : (⟨S1x14, .f32⟩ : BufTy).Contents (Elt F) → (⟨S100000x14, .f32⟩ : BufTy).Contents (Elt F)),
    StableHlo.binary main_v168 main_v170 main_v171 (addf : (⟨S100000x14, .f32⟩ : BufTy).Contents (Elt F) → (⟨S100000x14, .f32⟩ : BufTy).Contents (Elt F) → (⟨S100000x14, .f32⟩ : BufTy).Contents (Elt F)) ]

/-- The buffers window `main_part0`'s operations write, in order. -/
abbrev W_part0 : List (Ref sig .tc) :=
  [main_v0, main_v1, main_v2, main_v3, main_cst, main_v4, main_v5, main_v6, main_cst_0, main_v7, main_v8, main_v9, main_c, main_v10, main_v11, main_c_1, main_v12, main_v13, main_v14, main_v15, main_v16, main_v17, main_c_2, main_v18, main_v19, main_c_3, main_v20, main_v21, main_v22, main_v23, main_v24, main_v25, main_v26, main_v27, main_v28, main_c_4, main_v29, main_v30, main_c_5, main_v31, main_v32, main_v33, main_v34, main_v35, main_v36, main_v37, main_cst_6, main_v38, main_v39, main_v40, main_v41, main_v42, main_v43, main_v44, main_v45, main_v46, main_v47, main_call0_cst, main_call0_v0, main_v48, main_cst_7, main_v49]

/-- The buffers window `main_part1`'s operations write, in order. -/
abbrev W_part1 : List (Ref sig .tc) :=
  [main_cst_8, main_v50, main_v51, main_c_9, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v52, main_v53, main_v54, main_v55, main_cst_10, main_v56, main_v57, main_v58, main_v59, main_v60, main_v61, main_v62, main_v63, main_v64, main_v65, main_v66, main_v67, main_v68, main_v69, main_c_11, main_v70, main_v71, main_c_12, main_v72, main_v73, main_v74, main_v75, main_v76, main_v77, main_v78, main_cst_13, main_v79, main_v80, main_v81, main_v82, main_v83, main_v84, main_v85, main_v86, main_v87, main_v88, main_call2_cst, main_call2_v0, main_v89, main_cst_14, main_v90, main_cst_15, main_v91, main_v92, main_c_16, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v93, main_v94, main_v95, main_v96, main_cst_17, main_v97, main_v98, main_v99]

/-- The buffers window `main_part2`'s operations write, in order. -/
abbrev W_part2 : List (Ref sig .tc) :=
  [main_v100, main_v101, main_v102, main_v103, main_v104, main_v105, main_v106, main_v107, main_v108, main_v109, main_v110, main_v111, main_v112, main_v113, main_v114, main_v115, main_v116, main_v117, main_v118, main_v119, main_v120, main_v121, main_v122, main_v123, main_cst_18, main_v124, main_v125, main_cst_19, main_v126, main_v127, main_v128, main_v129, main_v130, main_v131, main_cst_20, main_v132, main_v133, main_cst_21, main_v134, main_v135, main_v136, main_v137, main_v138, main_v139, main_v140, main_v141, main_v142, main_v143, main_v144, main_v145, main_v146, main_v147, main_v148, main_v149, main_v150, main_v151, main_cst_22, main_v152, main_v153, main_cst_23]

/-- The buffers window `main_part3`'s operations write, in order. -/
abbrev W_part3 : List (Ref sig .tc) :=
  [main_v154, main_v155, main_v156, main_v157, main_v158, main_v159, main_cst_24, main_v160, main_v161, main_cst_25, main_v162, main_v163, main_v164, main_v165, main_v166, main_call4_cst, main_call4_v0, main_v167, main_v168, main_v169, main_v170, main_v171]

end Cert.ReferenceIdeal.RefRun

end
-- ==== Proof.RefRunA.lean ====
/- The reference program's @main is a straight line of host operations, and its run.

   The program text sequences four windows main_part0 … main_part3; five of their statements are calls of module-local
   functions (relu twice, _var twice — which itself calls _where —, relu_0). A call is the callee's body over the call's
   buffer record, so unfolding the callees' definitions at their call sites and reassociating the sequencing turns each
   window into one chain of single operations: exactly the list ops_partN of RefRunOps.lean. Concatenating the four lists
   gives @main as seq ops, and the library's run of such a line (run_seq) then says: from any memory with zero counters every
   weakly fair execution of @main terminates, and every TensorCore buffer ends at the fold of the operations' results over
   the launch contents. -/
import proofs.«181908_j1778116460896_2_alg».proof.Proof.RefRunOps
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 248 operations, in order: the four windows' lists one after the other. -/
abbrev ops : List (HloOp τ sig (Elt F)) :=
  ops_part0 ++ (ops_part1 ++ (ops_part2 ++ ops_part3))

/-! ## Each window is the line of its operations

A window without a call is literally the chain that seq unfolds to. A window with calls becomes that chain once the
callees' bodies are unfolded where they are called and the nested sequencing is reassociated (each callee body is itself a
chain ending in the return of the unit, which the reassociation absorbs). -/

set_option maxRecDepth 8192 in
theorem main_part0_eq (c : Dev nD) : main_part0 (F := F) c = seq ops_part0 := by
  simp only [main_part0, fn_relu.body, seq, bind_assoc, pure_bind]
  rfl

set_option maxRecDepth 8192 in
theorem main_part1_eq (c : Dev nD) : main_part1 (F := F) c = seq ops_part1 := by
  simp only [main_part1, fn_relu.body, fn_var.body, fn_where.body, seq, bind_assoc, pure_bind]
  rfl

set_option maxRecDepth 8192 in
theorem main_part2_eq (c : Dev nD) : main_part2 (F := F) c = seq ops_part2 := rfl

set_option maxRecDepth 8192 in
theorem main_part3_eq (c : Dev nD) : main_part3 (F := F) c = seq ops_part3 := by
  simp only [main_part3, fn_relu_0.body, seq, bind_assoc, pure_bind]

/-- @main is the line of all its operations: it runs the four windows in order, and a line of a concatenation is the
    lines run one after the other (seq_append). -/
theorem main_eq (c : Dev nD) : main (F := F) c = seq ops := by
  rw [show (ops : List (HloOp τ sig (Elt F))) = ops_part0 ++ (ops_part1 ++ (ops_part2 ++ ops_part3)) from rfl,
    seq_append, seq_append, seq_append,
    ← main_part0_eq c, ← main_part1_eq c, ← main_part2_eq c, ← main_part3_eq c]
  rfl

/-! ## The side conditions of the run -/

/-- The reference's signature scopes no TensorCore buffer. -/
theorem scopedRefs_eq : (Finset.univ.filter fun b : Ref sig .tc => b.isScoped) = ∅ := by decide
/-- The reference's signature scopes no semaphore. -/
theorem scopedSems_eq : (Finset.univ.filter fun sm : SemLoc sig => sm.isScoped .tc) = ∅ := by decide

/-! Every operation touches TensorCore references only: each entry of a list is one of the builders, and each builder's
    buffers are TensorCore references by construction. -/

set_option maxRecDepth 8192 in
theorem ops_part0_sub : (ops_part0 : List (HloOp τ sig (Elt F))).Forall fun op => op.bufs ⊆ tcRefs τ sig := by
  simp only [ops_part0, List.Forall, nullary_bufs_sub, unary_bufs_sub, binary_bufs_sub, ternary_bufs_sub, reshape_bufs_sub,
    nary_bufs_sub, and_self]

set_option maxRecDepth 8192 in
theorem ops_part1_sub : (ops_part1 : List (HloOp τ sig (Elt F))).Forall fun op => op.bufs ⊆ tcRefs τ sig := by
  simp only [ops_part1, List.Forall, nullary_bufs_sub, unary_bufs_sub, binary_bufs_sub, ternary_bufs_sub, reshape_bufs_sub,
    nary_bufs_sub, and_self]

set_option maxRecDepth 8192 in
theorem ops_part2_sub : (ops_part2 : List (HloOp τ sig (Elt F))).Forall fun op => op.bufs ⊆ tcRefs τ sig := by
  simp only [ops_part2, List.Forall, nullary_bufs_sub, unary_bufs_sub, binary_bufs_sub, ternary_bufs_sub, reshape_bufs_sub,
    nary_bufs_sub, and_self]

set_option maxRecDepth 8192 in
theorem ops_part3_sub : (ops_part3 : List (HloOp τ sig (Elt F))).Forall fun op => op.bufs ⊆ tcRefs τ sig := by
  simp only [ops_part3, List.Forall, nullary_bufs_sub, unary_bufs_sub, binary_bufs_sub, ternary_bufs_sub, reshape_bufs_sub,
    nary_bufs_sub, and_self]

/-- A property of every operation of each window is a property of every operation of @main. -/
theorem forall_ops {p : HloOp τ sig (Elt F) → Prop} (h0 : (ops_part0 (F := F)).Forall p) (h1 : (ops_part1 (F := F)).Forall p)
    (h2 : (ops_part2 (F := F)).Forall p) (h3 : (ops_part3 (F := F)).Forall p) : (ops (F := F)).Forall p := by
  rw [List.forall_iff_forall_mem] at h0 h1 h2 h3 ⊢
  intro op h
  rcases List.mem_append.mp h with h | h
  · exact h0 op h
  rcases List.mem_append.mp h with h | h
  · exact h1 op h
  rcases List.mem_append.mp h with h | h
  · exact h2 op h
  · exact h3 op h

theorem ops_sub : (ops : List (HloOp τ sig (Elt F))).Forall fun op => op.bufs ⊆ tcRefs τ sig :=
  forall_ops ops_part0_sub ops_part1_sub ops_part2_sub ops_part3_sub

/-! ## The run -/

/-- On every device, for any float values, from any memory with zero counters: every weakly fair execution of @main
    terminates, and every final state has each TensorCore buffer at the fold of the operations' results over the launch
    contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ

end Cert.ReferenceIdeal.RefRun

end
-- ==== Proof.LibReadBack.lean ====
/- Reading a straight line of host operations back, one operation at a time.

   Let ops be a line of operations and W the list of the buffers they write, operation by operation (Writes ops W: the k-th
   operation writes exactly the k-th buffer of W). Write R for the contents after the whole line from contents V.
   * A buffer that W does not list keeps its contents: R r = V r (after_keep).
   * Splitting the line at position k, R = (the rest from k on) after (the first k operations) (after_take_drop); so a buffer
     not written from position k on holds in R what it held after the first k operations (after_eq_take), and a buffer not
     written after position k holds in R what operation k left there (after_eq_result).
   * Hence, when every buffer is written at most once and every operand is written before it is read — a program in
     single-assignment form —, the final contents satisfy the program's own equations: if operation k is y = f(x), x is not
     written from k on and y is not written after k, then R y = f (R x) (readback_unary; likewise for the other builders).
   The side conditions are memberships in a literal list of references, decided by computation. -/
import Idealize.ShloMosaic.Lib.StableHlo.Run
import Idealize.ShloMosaic.Lib.Pipeline.Frame

noncomputable section

namespace Cert.ReadBack

open Idealize.ShloMosaic Idealize.ShloMosaic.StableHlo

variable {τ : Topo} {sig : RefSig} {Val : EltTy → Type}

/-- The k-th operation of ops writes exactly the k-th buffer of W. -/
abbrev Writes (ops : List (HloOp τ sig Val)) (W : List (Ref sig .tc)) : Prop :=
  List.Forall₂ (fun op r => op.writes = {Proc.devRef (τ := τ) .tc r}) ops W

theorem Writes.append {o₁ o₂ : List (HloOp τ sig Val)} {w₁ w₂ : List (Ref sig .tc)}
    (h₁ : Writes o₁ w₁) (h₂ : Writes o₂ w₂) : Writes (o₁ ++ o₂) (w₁ ++ w₂) := by
  induction h₁ with
  | nil => exact h₂
  | cons h _ ih => exact List.Forall₂.cons h ih

/-- A buffer the line does not write keeps its contents. -/
theorem after_keep {ops : List (HloOp τ sig Val)} {W : List (Ref sig .tc)} (h : Writes ops W) :
    ∀ (V : Valuation τ sig Val) {r : Ref sig .tc}, r ∉ W → after ops V (Proc.devRef .tc r) = V (Proc.devRef .tc r) := by
  induction h with
  | nil => intro V r _; rfl
  | @cons op w ops W hw _ ih =>
    intro V r hr
    have hne : r ≠ w := fun e => hr (List.mem_cons.mpr (Or.inl e))
    rw [after_cons, ih _ (fun hm => hr (List.mem_cons_of_mem _ hm)),
      op.result_of_not_mem V (by rw [hw, Finset.mem_singleton]; exact devRef_ne_of_ne hne)]

/-- The line run from V is its part from position k on, run from what the first k operations leave. -/
theorem after_take_drop (ops : List (HloOp τ sig Val)) (k : Nat) (V : Valuation τ sig Val) :
    after ops V = after (ops.drop k) (after (ops.take k) V) := by
  conv_lhs => rw [← List.take_append_drop k ops]
  exact after_append _ _ _

/-- A buffer not written from position k on holds at the end what it held after the first k operations. -/
theorem after_eq_take {ops : List (HloOp τ sig Val)} {W : List (Ref sig .tc)} (h : Writes ops W)
    (V : Valuation τ sig Val) (k : Nat) {r : Ref sig .tc} (hr : r ∉ W.drop k) :
    after ops V (Proc.devRef .tc r) = after (ops.take k) V (Proc.devRef .tc r) := by
  rw [after_take_drop ops k V]
  exact after_keep (List.forall₂_drop k h) _ hr

/-- A buffer not written after position k holds at the end what operation k left there. -/
theorem after_eq_result {ops : List (HloOp τ sig Val)} {W : List (Ref sig .tc)} (h : Writes ops W)
    (V : Valuation τ sig Val) (k : Nat) {op : HloOp τ sig Val} (hop : ops[k]? = some op)
    {r : Ref sig .tc} (hr : r ∉ W.drop (k + 1)) :
    after ops V (Proc.devRef .tc r) = op.result (after (ops.take k) V) (Proc.devRef .tc r) := by
  obtain ⟨hk, rfl⟩ := List.getElem?_eq_some_iff.mp hop
  rw [after_take_drop ops k V, List.drop_eq_getElem_cons hk, after_cons]
  exact after_keep (List.forall₂_drop (k + 1) h) _ hr

/-! ## The program's equations hold of the final contents -/

section Builders

variable {ops : List (HloOp τ sig Val)} {W : List (Ref sig .tc)} (h : Writes ops W) (V : Valuation τ sig Val) (k : Nat)
variable {x a b c y : Ref sig .tc}

include h

/-- Operation k is the constant y = v, y not written afterwards: the final y is v. -/
theorem readback_nullary {v : y.ty.Contents Val} {hy}
    (hop : ops[k]? = some (nullary (τ := τ) y v hy)) (hy' : y ∉ W.drop (k + 1)) :
    after ops V (Proc.devRef .tc y) = v := by
  rw [after_eq_result h V k hop hy', nullary_result]

/-- Operation k is y = f x, x not written from k on, y not written afterwards: the final y is f of the final x. -/
theorem readback_unary {f : x.ty.Contents Val → y.ty.Contents Val} {hx hy}
    (hop : ops[k]? = some (unary (τ := τ) x y f hx hy)) (hx' : x ∉ W.drop k) (hy' : y ∉ W.drop (k + 1)) :
    after ops V (Proc.devRef .tc y) = f (after ops V (Proc.devRef .tc x)) := by
  rw [after_eq_result h V k hop hy', unary_result, after_eq_take h V k hx']

/-- Operation k is y = f a b. -/
theorem readback_binary {f : a.ty.Contents Val → b.ty.Contents Val → y.ty.Contents Val} {ha hb hy}
    (hop : ops[k]? = some (binary (τ := τ) a b y f ha hb hy)) (ha' : a ∉ W.drop k) (hb' : b ∉ W.drop k)
    (hy' : y ∉ W.drop (k + 1)) :
    after ops V (Proc.devRef .tc y) = f (after ops V (Proc.devRef .tc a)) (after ops V (Proc.devRef .tc b)) := by
  rw [after_eq_result h V k hop hy', binary_result, after_eq_take h V k ha', after_eq_take h V k hb']

/-- Operation k is y = f c a b. -/
theorem readback_ternary {f : c.ty.Contents Val → a.ty.Contents Val → b.ty.Contents Val → y.ty.Contents Val} {hc ha hb hy}
    (hop : ops[k]? = some (ternary (τ := τ) c a b y f hc ha hb hy)) (hc' : c ∉ W.drop k) (ha' : a ∉ W.drop k)
    (hb' : b ∉ W.drop k) (hy' : y ∉ W.drop (k + 1)) :
    after ops V (Proc.devRef .tc y)
      = f (after ops V (Proc.devRef .tc c)) (after ops V (Proc.devRef .tc a)) (after ops V (Proc.devRef .tc b)) := by
  rw [after_eq_result h V k hop hy', ternary_result, after_eq_take h V k hc', after_eq_take h V k ha',
    after_eq_take h V k hb']

/-- Operation k is the reshape y = x. -/
theorem readback_reshape {he : x.ty.elt = y.ty.elt} {hn : x.ty.shape.ShapeCasts y.ty.shape} {hx hy}
    (hop : ops[k]? = some (reshape (τ := τ) (Val := Val) x y he hn hx hy)) (hx' : x ∉ W.drop k)
    (hy' : y ∉ W.drop (k + 1)) :
    after ops V (Proc.devRef .tc y) = fun i => he ▸ shapeCast y.ty.shape (after ops V (Proc.devRef .tc x)) hn i := by
  rw [after_eq_result h V k hop hy', reshape_result, after_eq_take h V k hx']

/-- Operation k is y = f of a family xs of operands. -/
theorem readback_nary {n : Nat} {xs : Fin n → Ref sig .tc} {f : ((j : Fin n) → (xs j).ty.Contents Val) → y.ty.Contents Val}
    {hxs hy} (hop : ops[k]? = some (nary (τ := τ) xs y f hxs hy)) (hxs' : ∀ j, xs j ∉ W.drop k)
    (hy' : y ∉ W.drop (k + 1)) :
    after ops V (Proc.devRef .tc y) = f (fun j => after ops V (Proc.devRef .tc (xs j))) := by
  rw [after_eq_result h V k hop hy', nary_result]
  congr 1
  funext j
  exact (after_eq_take h V k (hxs' j)).symm

end Builders

end Cert.ReadBack

end
-- ==== Proof.RefRunB.lean ====
/- The reference program's run, read back.

   RefRunA gives: every execution of @main terminates with each buffer at the fold R = after ops V of the 248 operations over
   the launch contents V. Here:
   * the operations write, one each and in order, exactly the buffers W lists (ops_writes), and W lists no argument of
     @main, so the 21 arguments end unchanged;
   * the statement run: the result buffer main_v171 ends at R main_v171 and the arguments unchanged;
   * the program is in single-assignment form (W has no repetition and every operand is written before it is read), so R
     satisfies the program's own equations, one per operation, by the read-back lemmas of LibReadBack: the operation at
     position k of ops (= the position of its result in W; the windows start at 0, 62, 166, 226) gives
     R y = f (R x …). The last stretch of the program is read back below as worked instances. -/
import proofs.«181908_j1778116460896_2_alg».proof.Proof.RefRunA
import proofs.«181908_j1778116460896_2_alg».proof.Proof.LibReadBack

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReadBack

variable {F : FTy → Type} [FloatOps F]

/-- The buffers @main's 248 operations write, in order. -/
abbrev W : List (Ref sig .tc) :=
  W_part0 ++ (W_part1 ++ (W_part2 ++ W_part3))

/-! ## Which operation writes which buffer

Each builder writes its result buffer and nothing else, by definition; so the claim is one computation per list entry. -/

set_option maxRecDepth 8192 in
theorem ops_part0_writes : Writes (τ := τ) (ops_part0 (F := F)) W_part0 := by
  repeat (first | exact List.Forall₂.nil | refine List.Forall₂.cons rfl ?_)

set_option maxRecDepth 8192 in
theorem ops_part1_writes : Writes (τ := τ) (ops_part1 (F := F)) W_part1 := by
  repeat (first | exact List.Forall₂.nil | refine List.Forall₂.cons rfl ?_)

set_option maxRecDepth 8192 in
theorem ops_part2_writes : Writes (τ := τ) (ops_part2 (F := F)) W_part2 := by
  repeat (first | exact List.Forall₂.nil | refine List.Forall₂.cons rfl ?_)

set_option maxRecDepth 8192 in
theorem ops_part3_writes : Writes (τ := τ) (ops_part3 (F := F)) W_part3 := by
  repeat (first | exact List.Forall₂.nil | refine List.Forall₂.cons rfl ?_)

theorem ops_writes : Writes (τ := τ) (ops (F := F)) W :=
  ops_part0_writes.append (ops_part1_writes.append (ops_part2_writes.append ops_part3_writes))

/-- A buffer no operation writes holds at the end what the launch put there. -/
theorem arg_keep (m : (ℓ : Loc nD τ sig) → Buf (Elt F) ℓ) (c : Dev nD) {b : Ref sig .tc} (hb : b ∉ W) :
    after ops (launchContents m c) (Proc.devRef .tc b) = m ((c.tc : Thread nD τ).loc b) :=
  after_keep ops_writes _ hb

/-! ## The run -/

set_option maxRecDepth 8192 in
/-- On every device, for any float values, from any memory with zero counters: every weakly fair execution of @main
    terminates with the result buffer at the operations' fold over the launch contents and the 21 arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v171) = after ops (launchContents m c) (Proc.devRef .tc main_v171)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  (θ_run defs _ _).mono (fun _ h c => ⟨h c main_v171,
      (h c main_arg0).trans (arg_keep m c (by decide)), (h c main_arg1).trans (arg_keep m c (by decide)), (h c main_arg2).trans (arg_keep m c (by decide)),
      (h c main_arg3).trans (arg_keep m c (by decide)), (h c main_arg4).trans (arg_keep m c (by decide)), (h c main_arg5).trans (arg_keep m c (by decide)),
      (h c main_arg6).trans (arg_keep m c (by decide)), (h c main_arg7).trans (arg_keep m c (by decide)), (h c main_arg8).trans (arg_keep m c (by decide)),
      (h c main_arg9).trans (arg_keep m c (by decide)), (h c main_arg10).trans (arg_keep m c (by decide)), (h c main_arg11).trans (arg_keep m c (by decide)),
      (h c main_arg12).trans (arg_keep m c (by decide)), (h c main_arg13).trans (arg_keep m c (by decide)), (h c main_arg14).trans (arg_keep m c (by decide)),
      (h c main_arg15).trans (arg_keep m c (by decide)), (h c main_arg16).trans (arg_keep m c (by decide)), (h c main_arg17).trans (arg_keep m c (by decide)),
      (h c main_arg18).trans (arg_keep m c (by decide)), (h c main_arg19).trans (arg_keep m c (by decide)), (h c main_arg20).trans (arg_keep m c (by decide))⟩)
    (run_all m ρ)

/-! ## Reading the result back: the program's last operations

With R = after ops V: the result is the sum of a matrix product and a broadcast bias; the product's left factor is the
rectified concatenation. Each line is the operation at the stated position of ops. -/

section ReadBack

variable (V : Valuation τ sig (Elt F))

set_option maxRecDepth 8192 in
/-- Operation 247: main_v171 = main_v168 + main_v170. -/
theorem R_main_v171 :
    after ops V (Proc.devRef .tc main_v171)
      = addf (after ops V (Proc.devRef .tc main_v168)) (after ops V (Proc.devRef .tc main_v170)) :=
  readback_binary ops_writes V 247 (a := main_v168) (b := main_v170) (y := main_v171) rfl (by decide) (by decide) (by decide)

set_option maxRecDepth 8192 in
/-- Operation 246: main_v170 is main_v169 broadcast along the rows. -/
theorem R_main_v170 :
    after ops V (Proc.devRef .tc main_v170)
      = broadcastInDim S100000x14 ![0, 1] bcast_S1x14_S100000x14_0_1 (after ops V (Proc.devRef .tc main_v169)) :=
  readback_unary ops_writes V 246 (x := main_v169) (y := main_v170) rfl (by decide) (by decide)

set_option maxRecDepth 8192 in
/-- Operation 245: main_v169 is the bias main_arg20 as a row. -/
theorem R_main_v169 :
    after ops V (Proc.devRef .tc main_v169)
      = broadcastInDim S1x14 ![1] bcast_S14_S1x14_1 (after ops V (Proc.devRef .tc main_arg20)) :=
  readback_unary ops_writes V 245 (x := main_arg20) (y := main_v169) rfl (by decide) (by decide)

set_option maxRecDepth 8192 in
/-- Operation 244: main_v168 = main_v167 · main_arg19. -/
theorem R_main_v168 :
    after ops V (Proc.devRef .tc main_v168)
      = Host.dotGeneral dot_S100000x143_S143x14_S100000x14_1_0_0_1_n_n none (after ops V (Proc.devRef .tc main_v167))
          (after ops V (Proc.devRef .tc main_arg19)) :=
  readback_binary ops_writes V 244 (a := main_v167) (b := main_arg19) (y := main_v168) rfl (by decide) (by decide) (by decide)

set_option maxRecDepth 8192 in
/-- Operation 243 (the last of relu_0's body at its call): main_v167 = max(main_v166, 0-broadcast). -/
theorem R_main_v167 :
    after ops V (Proc.devRef .tc main_v167)
      = maximumf (after ops V (Proc.devRef .tc main_v166)) (after ops V (Proc.devRef .tc main_call4_v0)) :=
  readback_binary ops_writes V 243 (a := main_v166) (b := main_call4_v0) (y := main_v167) rfl (by decide) (by decide) (by decide)

end ReadBack

end Cert.ReferenceIdeal.RefRun

end
-- ==== Proof.Frames.lean ====
/-
  The four claims that need no value: each program's frame (every weakly fair execution terminates, nothing
  faults, the argument arrays end as launched) and the idealization's preservation. The two kernel programs' frames
  are the generated frame certificates; the reference has no kernel, and its frame is its run — every buffer ends at
  the fold of its 248 host operations over the launch contents, and no operation writes an argument — with the
  result dropped. The ideal pass rewrote no operation of the kernel, so preservation states nothing.
-/
import proofs.«181908_j1778116460896_2_alg».proof.Defs
import proofs.«181908_j1778116460896_2_alg».proof.Proof.Gen.Kernel
import proofs.«181908_j1778116460896_2_alg».proof.Proof.Gen.Kernel.Frame
import proofs.«181908_j1778116460896_2_alg».proof.Proof.Gen.KernelIdeal
import proofs.«181908_j1778116460896_2_alg».proof.Proof.Gen.KernelIdeal.Frame
import proofs.«181908_j1778116460896_2_alg».proof.Proof.Gen.ReferenceIdeal
import proofs.«181908_j1778116460896_2_alg».proof.Proof.Gen.Pre_finite_inputs
import proofs.«181908_j1778116460896_2_alg».proof.Proof.RefRunB

noncomputable section

namespace Cert.Proof.Frames

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run (Cert.ReferenceIdeal.defs (F := Ideal)) _ _).mono (fun _ h c => (h c).2) (Cert.ReferenceIdeal.RefRun.run (F := Ideal) m ρ)

theorem preserves : Cert.preserves_Kernel_KernelIdeal := trivial

end Cert.Proof.Frames

end
-- ==== Proof.KerRun.lean ====
/-
  The idealized kernel program's run WITH ITS RESULT NAMED. The program is four grid regions among stretches of host
  operations; the contents of every unscoped buffer at the boundaries between them form a fold from the launch
  memory (the frame module's `W0 … W8`: a stretch applies its host operations, a region replaces its windows'
  arrays by what its write-backs leave). Every weakly fair execution terminates, nothing faults, and the final
  memory is the last boundary's contents `W8` on every unscoped buffer — in particular the result array is
  `W8` at the result buffer, and each argument array is as launched.
-/
import proofs.«181908_j1778116460896_2_alg».proof.Proof.Gen.KernelIdeal.Frame

set_option maxRecDepth 16384

noncomputable section

namespace Cert.KernelIdeal.KerRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the last
    boundary's contents of the result buffer, and the twenty-one argument arrays end as launched. -/
theorem run : θ_run defs (onTc (τ := τ) (main (F := F))) ⟨m, fun _ => 0, ρ⟩ (fun r => ∀ c : Dev nD,
      r.2.mem ((c.tc : Thread nD τ).loc main_v114) = W8 m ρ c (Proc.devRef .tc main_v114)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v114 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c),
       (h c _ (mem_uc main_arg17 (by decide))).trans (W8_main_arg17 m ρ c),
       (h c _ (mem_uc main_arg18 (by decide))).trans (W8_main_arg18 m ρ c),
       (h c _ (mem_uc main_arg19 (by decide))).trans (W8_main_arg19 m ρ c),
       (h c _ (mem_uc main_arg20 (by decide))).trans (W8_main_arg20 m ρ c)⟩)

end Cert.KernelIdeal.KerRun

end
-- ==== Proof.KKeep.lean ====
/-
  Which buffer each host operation of the kernel program's four stretches writes, in order. A buffer a stretch does
  not write holds after the stretch what it held before: this is how a region's input that an earlier stretch or an
  earlier region produced is traced back to where it was written.
-/
import proofs.«181908_j1778116460896_2_alg».proof.Proof.Gen.KernelIdeal.Launch
import proofs.«181908_j1778116460896_2_alg».proof.Proof.LibReadBack

set_option maxRecDepth 16384

noncomputable section

namespace Cert.KernelIdeal.Keep

open Idealize.ShloMosaic Idealize.SL.Sem Idealize.ShloMosaic.StableHlo
open Cert.KernelIdeal Cert.KernelIdeal.Gen Cert.ReadBack

variable {F : FTy → Type} [FloatOps F]

/-- The buffers the first stretch's 61 operations write. -/
abbrev wl0 : List (Ref sig .tc) :=
  [main_v0, main_v1, main_v2, main_v3, main_cst, main_v4, main_v5, main_v6, main_cst_0, main_v7, main_v8, main_v9, main_c, main_v10,
   main_v11, main_c_1, main_v12, main_v13, main_v14, main_v15, main_v16, main_v17, main_c_2, main_v18, main_v19, main_c_3, main_v20,
   main_v21, main_v22, main_v23, main_v24, main_v25, main_v26, main_v27, main_c_4, main_v28, main_v29, main_c_5, main_v30, main_v31,
   main_v32, main_v33, main_v34, main_v35, main_v36, main_cst_6, main_v37, main_v38, main_v39, main_v40, main_v41, main_v42, main_v43,
   main_v44, main_v45, main_v46, main_v47, main_v48, main_v49, main_v50, main_v51]

/-- The buffers the second stretch's 22 operations write. -/
abbrev wl1 : List (Ref sig .tc) :=
  [main_v53, main_v54, main_v55, main_v56, main_v57, main_v58, main_cst_7, main_v59, main_cst_8, main_v60, main_cst_9, main_v61,
   main_v62, main_cst_10, main_v63, main_v64, main_v65, main_v66, main_v67, main_v68, main_v69, main_v70]

/-- The buffers the third stretch's 21 operations write. -/
abbrev wl2 : List (Ref sig .tc) :=
  [main_v72, main_c_11, main_v73, main_v74, main_c_12, main_v75, main_v76, main_v77, main_v78, main_v79, main_v80, main_v81,
   main_cst_13, main_v82, main_v83, main_v84, main_v85, main_v86, main_v87, main_v88, main_v89]

/-- The buffers the fourth stretch's 27 operations write. -/
abbrev wl3 : List (Ref sig .tc) :=
  [main_v91, main_v92, main_v93, main_v94, main_v95, main_v96, main_cst_14, main_v97, main_cst_15, main_v98, main_cst_16, main_v99,
   main_v100, main_cst_17, main_v101, main_v102, main_v103, main_v104, main_v105, main_v106, main_v107, main_v108, main_v109,
   main_v110, main_v111, main_v112, main_v113]

theorem writes0 : Writes (τ := τ) (hostOps0 (F := F)) wl0 := by
  repeat (first | exact List.Forall₂.nil | refine List.Forall₂.cons rfl ?_)
theorem writes1 : Writes (τ := τ) (hostOps1 (F := F)) wl1 := by
  repeat (first | exact List.Forall₂.nil | refine List.Forall₂.cons rfl ?_)
theorem writes2 : Writes (τ := τ) (hostOps2 (F := F)) wl2 := by
  repeat (first | exact List.Forall₂.nil | refine List.Forall₂.cons rfl ?_)
theorem writes3 : Writes (τ := τ) (hostOps3 (F := F)) wl3 := by
  repeat (first | exact List.Forall₂.nil | refine List.Forall₂.cons rfl ?_)

/-- A buffer the first stretch does not write keeps its contents. -/
theorem keep0 (W : Valuation τ sig (Elt F)) {r : Ref sig .tc} (hr : r ∉ wl0) :
    after (hostOps0 (F := F)) W (Proc.devRef .tc r) = W (Proc.devRef .tc r) := after_keep writes0 W hr
theorem keep1 (W : Valuation τ sig (Elt F)) {r : Ref sig .tc} (hr : r ∉ wl1) :
    after (hostOps1 (F := F)) W (Proc.devRef .tc r) = W (Proc.devRef .tc r) := after_keep writes1 W hr
theorem keep2 (W : Valuation τ sig (Elt F)) {r : Ref sig .tc} (hr : r ∉ wl2) :
    after (hostOps2 (F := F)) W (Proc.devRef .tc r) = W (Proc.devRef .tc r) := after_keep writes2 W hr
theorem keep3 (W : Valuation τ sig (Elt F)) {r : Ref sig .tc} (hr : r ∉ wl3) :
    after (hostOps3 (F := F)) W (Proc.devRef .tc r) = W (Proc.devRef .tc r) := after_keep writes3 W hr

end Cert.KernelIdeal.Keep

end
-- ==== Proof.KTrace.lean ====
/-
  Where each buffer that a later stretch or region reads was produced. The buffer contents at the eight boundaries
  of the kernel program form a fold (`W0 … W8`): a host stretch changes only the buffers it writes, a region only its
  windows' arrays. So the edge normalisers and index words the first stretch computed are still there when the third
  stretch reads them, the weights it cast are there when the regions read them, a region's output is there when a
  later region reads it, and an argument nobody writes holds the launch memory throughout.
-/
import proofs.«181908_j1778116460896_2_alg».proof.Proof.Gen.KernelIdeal.Frame
import proofs.«181908_j1778116460896_2_alg».proof.Proof.KKeep

set_option maxRecDepth 16384

noncomputable section

namespace Cert.KernelIdeal.Trace

open Idealize.ShloMosaic Idealize.ShloMosaic.TcCoe Idealize.SL.Sem
open Cert.KernelIdeal Cert.KernelIdeal.Gen Cert.KernelIdeal.Keep

variable {F : FTy → Type} [FloatOps F]
variable (m : (ℓ : Loc nD τ sig) → Buf (Elt F) ℓ) (ρ : Dev nD → PrngReg)

/-! ## One step of the fold, for a buffer the step leaves alone -/

theorem step01 (c : Dev nD) {b : Ref sig .tc} (hb : b ∉ wl0) : W1 m ρ c (Proc.devRef .tc b) = W0 m ρ c (Proc.devRef .tc b) :=
  keep0 (W0 m ρ c) hb
theorem step12 (c : Dev nD) (b : Ref sig .tc) (hb : ∀ w, Pipeline.arrRef spec0 w ≠ b) : W2 m ρ c (Proc.devRef .tc b) = W1 m ρ c (Proc.devRef .tc b) :=
  W2_of_ne m ρ c b hb
theorem step23 (c : Dev nD) {b : Ref sig .tc} (hb : b ∉ wl1) : W3 m ρ c (Proc.devRef .tc b) = W2 m ρ c (Proc.devRef .tc b) :=
  keep1 (W2 m ρ c) hb
theorem step34 (c : Dev nD) (b : Ref sig .tc) (hb : ∀ w, Pipeline.arrRef spec1 w ≠ b) : W4 m ρ c (Proc.devRef .tc b) = W3 m ρ c (Proc.devRef .tc b) :=
  W4_of_ne m ρ c b hb
theorem step45 (c : Dev nD) {b : Ref sig .tc} (hb : b ∉ wl2) : W5 m ρ c (Proc.devRef .tc b) = W4 m ρ c (Proc.devRef .tc b) :=
  keep2 (W4 m ρ c) hb
theorem step56 (c : Dev nD) (b : Ref sig .tc) (hb : ∀ w, Pipeline.arrRef spec2 w ≠ b) : W6 m ρ c (Proc.devRef .tc b) = W5 m ρ c (Proc.devRef .tc b) :=
  W6_of_ne m ρ c b hb
theorem step67 (c : Dev nD) {b : Ref sig .tc} (hb : b ∉ wl3) : W7 m ρ c (Proc.devRef .tc b) = W6 m ρ c (Proc.devRef .tc b) :=
  keep3 (W6 m ρ c) hb

/-- At the launch every buffer holds the launch memory. -/
theorem at0 (c : Dev nD) (b : Ref sig .tc) : W0 m ρ c (Proc.devRef .tc b) = m ((c : Thread nD τ).loc b) := rfl

/-! ## The first stretch's results, where they are read later -/

/-- A buffer the first stretch wrote that nothing later touches, when the third stretch reads it (boundary 4). -/
theorem to4 (c : Dev nD) (b : Ref sig .tc) (h0 : ∀ w, Pipeline.arrRef spec0 w ≠ b) (h1 : b ∉ wl1) (h2 : ∀ w, Pipeline.arrRef spec1 w ≠ b) :
    W4 m ρ c (Proc.devRef .tc b) = W1 m ρ c (Proc.devRef .tc b) :=
  (step34 m ρ c b h2).trans ((step23 m ρ c h1).trans (step12 m ρ c b h0))

/-- The same when the second region reads it (boundary 3). -/
theorem to3 (c : Dev nD) (b : Ref sig .tc) (h0 : ∀ w, Pipeline.arrRef spec0 w ≠ b) (h1 : b ∉ wl1) :
    W3 m ρ c (Proc.devRef .tc b) = W1 m ρ c (Proc.devRef .tc b) :=
  (step23 m ρ c h1).trans (step12 m ρ c b h0)

/-- The same when the last region reads it (boundary 7). -/
theorem to7 (c : Dev nD) (b : Ref sig .tc) (h0 : ∀ w, Pipeline.arrRef spec0 w ≠ b) (h1 : b ∉ wl1) (h2 : ∀ w, Pipeline.arrRef spec1 w ≠ b)
    (h3 : b ∉ wl2) (h4 : ∀ w, Pipeline.arrRef spec2 w ≠ b) (h5 : b ∉ wl3) :
    W7 m ρ c (Proc.devRef .tc b) = W1 m ρ c (Proc.devRef .tc b) :=
  (step67 m ρ c h5).trans ((step56 m ρ c b h4).trans ((step45 m ρ c h3).trans (to4 m ρ c b h0 h1 h2)))

/-! ## Arguments nobody writes -/

theorem arg2 (c : Dev nD) (b : Ref sig .tc) (h : b ∉ wl0) (h0 : ∀ w, Pipeline.arrRef spec0 w ≠ b) :
    W2 m ρ c (Proc.devRef .tc b) = m ((c : Thread nD τ).loc b) :=
  (step12 m ρ c b h0).trans (step01 m ρ c h)

theorem arg4 (c : Dev nD) (b : Ref sig .tc) (h : b ∉ wl0) (h0 : ∀ w, Pipeline.arrRef spec0 w ≠ b) (h1 : b ∉ wl1) (h2 : ∀ w, Pipeline.arrRef spec1 w ≠ b) :
    W4 m ρ c (Proc.devRef .tc b) = m ((c : Thread nD τ).loc b) :=
  (step34 m ρ c b h2).trans ((step23 m ρ c h1).trans (arg2 m ρ c b h h0))

theorem arg6 (c : Dev nD) (b : Ref sig .tc) (h : b ∉ wl0) (h0 : ∀ w, Pipeline.arrRef spec0 w ≠ b) (h1 : b ∉ wl1) (h2 : ∀ w, Pipeline.arrRef spec1 w ≠ b)
    (h3 : b ∉ wl2) (h4 : ∀ w, Pipeline.arrRef spec2 w ≠ b) :
    W6 m ρ c (Proc.devRef .tc b) = m ((c : Thread nD τ).loc b) :=
  (step56 m ρ c b h4).trans ((step45 m ρ c h3).trans (arg4 m ρ c b h h0 h1 h2))

theorem arg7 (c : Dev nD) (b : Ref sig .tc) (h : b ∉ wl0) (h0 : ∀ w, Pipeline.arrRef spec0 w ≠ b) (h1 : b ∉ wl1) (h2 : ∀ w, Pipeline.arrRef spec1 w ≠ b)
    (h3 : b ∉ wl2) (h4 : ∀ w, Pipeline.arrRef spec2 w ≠ b) (h5 : b ∉ wl3) :
    W7 m ρ c (Proc.devRef .tc b) = m ((c : Thread nD τ).loc b) :=
  (step67 m ρ c h5).trans (arg6 m ρ c b h h0 h1 h2 h3 h4)

/-! ## The regions' outputs, where they are read later -/

/-- The first region's output arrays when the second stretch and the second region read them. -/
theorem out0_at2 (c : Dev nD) (w : Fin cfg0.W) : W2 m ρ c (Proc.devRef .tc (Pipeline.arrRef spec0 w)) = (dat0 (V1 m ρ) c).arrAt w cfg0.N :=
  W2_arr m ρ c w
theorem out1_at4 (c : Dev nD) (w : Fin cfg1.W) : W4 m ρ c (Proc.devRef .tc (Pipeline.arrRef spec1 w)) = (dat1 (V3 m ρ) c).arrAt w cfg1.N :=
  W4_arr m ρ c w
theorem out2_at6 (c : Dev nD) (w : Fin cfg2.W) : W6 m ρ c (Proc.devRef .tc (Pipeline.arrRef spec2 w)) = (dat2 (V5 m ρ) c).arrAt w cfg2.N :=
  W6_arr m ρ c w
theorem out3_at8 (c : Dev nD) (w : Fin cfg3.W) : W8 m ρ c (Proc.devRef .tc (Pipeline.arrRef spec3 w)) = (dat3 (V7 m ρ) c).arrAt w cfg3.N :=
  W8_arr m ρ c w

end Cert.KernelIdeal.Trace

end
-- ==== Proof.K0Payload.lean ====
/-
  The first region's body at one element. Its block of the aggregated features is a 4000 × 15 tile `x`, the weight a
  15 × 64 matrix `w`, the bias a 1 × 64 row `b`. At the ideal values a change of float format is the identity and the
  matrix product into a zero accumulator is the plain sum, so the stored activation at row `p`, column `q` is
  `max (∑ k, x p k * w k q + b 0 q) 0`; the two statistics the body also stores are, in every one of their eight rows,
  the column's sum of the activations over the tile's 4000 rows, and of their squares.
-/
import proofs.«181908_j1778116460896_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Layer1

open Idealize.ShloMosaic Idealize.ShloMosaic.ValueIdx Cert.KernelIdeal Cert.KernelIdeal.Gen

/-- The contraction record of the tile's product: rows of `x` against columns of `w` over the 15 features. -/
abbrev D := dot_S4000x15_S15x64_S4000x64_1_0_0_1_n_n

theorem lhs_row (i : S4000x64.Idx) (q : D.contr.Idx) : (D.lhsIdx i q 0).val = (i 0).val := by
  unfold DotDims.lhsIdx
  rw [dif_neg (show ¬(0 : Fin S4000x15.rank) ∈ D.lhsBatch by decide), dif_pos (show (0 : Fin S4000x15.rank) ∈ D.lhsNonContracting by decide)]
  rfl
theorem lhs_feat (i : S4000x64.Idx) (q : D.contr.Idx) : (D.lhsIdx i q 1).val = (q ⟨0, by decide⟩).val :=
  D.lhsIdx_val_of_single rfl i q
theorem rhs_feat (i : S4000x64.Idx) (q : D.contr.Idx) : (D.rhsIdx i q 0).val = (q ⟨0, by decide⟩).val :=
  D.rhsIdx_val_of_single rfl i q
theorem rhs_col (i : S4000x64.Idx) (q : D.contr.Idx) : (D.rhsIdx i q 1).val = (i 1).val := by
  unfold DotDims.rhsIdx
  rw [dif_neg (show ¬(1 : Fin S15x64.rank) ∈ D.rhsBatch by decide), dif_pos (show (1 : Fin S15x64.rank) ∈ D.rhsNonContracting by decide)]
  rfl

/-- The tile's product into a zero accumulator, at row `p` and column `q`: the sum over the 15 features. -/
theorem product_apply (x : FVec Ideal S4000x15 .bf16) (w : FVec Ideal S15x64 .bf16) (p : Fin 4000) (q : Fin 64) :
    matmul D none x w (constant S4000x64 .f32 0x00000000#32) (ix2 p q) = ∑ k : Fin 15, x (ix2 p k) * w (ix2 k q) := by
  show FloatOps.matmul D none x w (constant S4000x64 .f32 0x00000000#32) (ix2 p q) = _
  rw [Ideal.matmul_constant_zero_apply, ← Equiv.sum_comp (contrEquiv1 D 15 rfl rfl).symm]
  refine Finset.sum_congr rfl fun k _ => ?_
  have hk := contrEquiv1_symm_val D 15 rfl rfl k
  have el : D.lhsIdx (ix2 p q) ((contrEquiv1 D 15 rfl rfl).symm k) = ix2 p k := funext fun a => Fin.ext (by
    match a with
    | ⟨0, _⟩ => exact lhs_row _ _
    | ⟨1, _⟩ => exact (lhs_feat _ _).trans hk)
  have er : D.rhsIdx (ix2 p q) ((contrEquiv1 D 15 rfl rfl).symm k) = ix2 k q := funext fun a => Fin.ext (by
    match a with
    | ⟨0, _⟩ => exact (rhs_feat _ _).trans hk
    | ⟨1, _⟩ => exact rhs_col _ _)
  rw [el, er]

/-- The bias row spread over the tile's rows reads the row's entry of the column. -/
theorem bias_apply (b : FVec Ideal S1x64 .f32) (p : Fin 4000) (q : Fin 64) :
    broadcastTo S4000x64 b broadcasts_S1x64_S4000x64 (ix2 p q) = b (ix2 0 q) :=
  broadcastTo_apply b _ (ix2 p q) (ix2 0 q) (fun a => by
    match a with
    | ⟨0, _⟩ => rfl
    | ⟨1, _⟩ => rfl)

/-- The stored activation at row `p`, column `q` of the tile. -/
theorem activation_apply (x : Vec Ideal S4000x15 .f32) (w : Vec Ideal S15x64 .bf16) (b : Vec Ideal S1x64 .f32) (p : Fin 4000) (q : Fin 64) :
    k0_pay1 (F := Ideal) x w b (ix2 p q) = max ((∑ k : Fin 15, x (ix2 p k) * w (ix2 k q)) + b (ix2 0 q)) 0 := by
  unfold k0_pay1
  simp only [shapeCast_self]
  rw [maximumf_apply, addf_apply, product_apply, bias_apply, broadcast_apply]
  simp only [truncf_apply]
  show max _ (Ideal.ofBits .f32 0x00000000#32) = _
  rw [Ideal.ofBits_zero_f32]

/-- The tile index that reduces to column `q` at row `k` is `(k, q)`. -/
theorem lift_col (q : Fin 64) (k : Fin (S4000x64.size 0)) : reduces_S4000x64_S64.lift (ix1 q) k = ix2 (n0 := 4000) (n1 := 64) k q := by
  funext a
  apply Fin.ext
  match a with
  | ⟨0, _⟩ => rfl
  | ⟨1, _⟩ => rfl

/-- A column's sum over the tile's 4000 rows, laid out as the body lays it out: reduced over the row axis, given a
    leading unit axis, spread over eight rows. Every one of the eight rows reads the column's sum. -/
theorem colsum_apply (a : FVec Ideal S4000x64 .f32) (hacc : (0x00000000#32 : BitVec 32) = 0x00000000#32) (r : Fin 8) (q : Fin 64) :
    broadcastTo S8x64 (shapeCast S1x64 (shapeCast S1x64 (multiReduction .add [0] S64 a 0x00000000#32 reduces_S4000x64_S64 (.inl rfl) hacc)
      shapeCasts_S64_S1x64) shapeCasts_S1x64_S1x64) broadcasts_S1x64_S8x64 (ix2 r q) = ∑ p : Fin 4000, a (ix2 p q) := by
  rw [shapeCast_self]
  refine (broadcastTo_apply _ _ (ix2 r q) (ix2 0 q) (fun a => by
    match a with
    | ⟨0, _⟩ => rfl
    | ⟨1, _⟩ => rfl)).trans ?_
  refine (shapeCast_addUnit_apply ![64] _ _ (ix2 0 q)).trans ?_
  have e : (fun a : Fin 1 => (ix2 (n0 := 1) (n1 := 64) 0 q) a.succ) = ix1 q := funext fun a => by
    match a with
    | ⟨0, _⟩ => rfl
  rw [e]
  refine (Ideal.multiReduction_add_single a 0x00000000#32 reduces_S4000x64_S64 (.inl rfl) hacc (ix1 q)).trans ?_
  exact Finset.sum_congr rfl fun k _ => congrArg a (lift_col q k)

/-- The first statistic at any of its eight rows: the column's sum of the tile's activations. -/
theorem sum_apply (x : Vec Ideal S4000x15 .f32) (w : Vec Ideal S15x64 .bf16) (b : Vec Ideal S1x64 .f32) (r : Fin 8) (q : Fin 64) :
    k0_pay2 (F := Ideal) x w b (ix2 r q) = ∑ p : Fin 4000, k0_pay1 (F := Ideal) x w b (ix2 p q) := by
  unfold k0_pay2
  exact colsum_apply _ rfl r q

/-- The second statistic at any of its eight rows: the column's sum of the squares of the tile's activations. -/
theorem sumsq_apply (x : Vec Ideal S4000x15 .f32) (w : Vec Ideal S15x64 .bf16) (b : Vec Ideal S1x64 .f32) (r : Fin 8) (q : Fin 64) :
    k0_pay3 (F := Ideal) x w b (ix2 r q) = ∑ p : Fin 4000, k0_pay1 (F := Ideal) x w b (ix2 p q) * k0_pay1 (F := Ideal) x w b (ix2 p q) := by
  unfold k0_pay3
  exact colsum_apply _ rfl r q

end Cert.KernelIdeal.Layer1

end
-- ==== Proof.K0Arrays.lean ====
/-
  The first region's three output arrays as functions of the arrays it finds. The region runs its body at 25 grid
  points; point `t` reads rows `4000 t … 4000 t + 3999` of the aggregated features (the weight and the bias whole) and
  writes rows `4000 t …` of the activations and rows `8 t … 8 t + 7` of each statistic. The blocks tile their arrays,
  so after the run the activation array is `max (x · w + b) 0` row by row, and row `r` of each statistic holds, per
  column, the sum over the rows of tile `r / 8` of the activations, and of their squares.
-/
import proofs.«181908_j1778116460896_2_alg».proof.Proof.Gen.KernelIdeal.Frame
import proofs.«181908_j1778116460896_2_alg».proof.Proof.K0Payload

set_option maxRecDepth 16384

noncomputable section

namespace Cert.KernelIdeal.Layer1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The activation at row `p`, column `q`. -/
def actAt (x : S100000x15.Idx → EReal) (w : S15x64.Idx → EReal) (b : S1x64.Idx → EReal) (p : Fin 100000) (q : Fin 64) : EReal :=
  max ((∑ k : Fin 15, x (ix2 p k) * w (ix2 k q)) + b (ix2 0 q)) 0

/-- The activation array. -/
def act (x : S100000x15.Idx → EReal) (w : S15x64.Idx → EReal) (b : S1x64.Idx → EReal) : S100000x64.Idx → EReal :=
  fun i => actAt x w b ⟨(i 0).val, (i 0).isLt⟩ ⟨(i 1).val, (i 1).isLt⟩

/-- Row `r` of a statistic: per column, the sum of `a` over the 4000 rows of tile `r / 8`. -/
def tileSum (a : S100000x64.Idx → EReal) : S200x64.Idx → EReal :=
  fun i => ∑ r : Fin 4000, a (ix2 ⟨4000 * ((i 0).val / 8) + r.val, by have := (i 0).isLt; change (i 0).val < 200 at this; omega⟩ ⟨(i 1).val, (i 1).isLt⟩)

/-- The printed index maps over the grid: the row-tiled windows move with the point, the others stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The feature block at point `t` is rows `4000 t …` of the feature array. -/
theorem feat_apply (c : Dev nD) (t : Fin cfg0.N) (x : S4000x15.Idx) (k : S100000x15.Idx)
    (hk0 : (k 0).val = 4000 * t.val + (x 0).val) (hk1 : (k 1).val = (x 1).val) :
    (iblk0 V c 0 t : Vec Ideal S4000x15 .f32) x = (V c main_v43 : S100000x15.Idx → EReal) k := by
  obtain ⟨h0, h1, -⟩ := idx_facts t
  unfold iblk0
  rw [View.read_apply]
  show V c main_v43 _ = V c main_v43 _
  congr 1
  funext a
  apply Fin.ext
  match a with
  | ⟨0, _⟩ => show win0_0.index t 0 * 4000 + 1 * (x 0).val = (k 0).val; rw [h0, hk0]; omega
  | ⟨1, _⟩ => show win0_0.index t 1 * 15 + 1 * (x 1).val = (k 1).val; rw [h1, hk1]; omega

/-- The weight block at every point is the weight array. -/
theorem weight_apply (c : Dev nD) (t : Fin cfg0.N) (x : S15x64.Idx) :
    (iblk0 V c 1 t : Vec Ideal S15x64 .bf16) x = (V c main_v44 : S15x64.Idx → EReal) x := by
  obtain ⟨-, -, h0, h1, -⟩ := idx_facts t
  unfold iblk0
  rw [View.read_apply]
  show V c main_v44 _ = V c main_v44 _
  congr 1
  funext a
  apply Fin.ext
  match a with
  | ⟨0, _⟩ => show win0_1.index t 0 * 15 + 1 * (x 0).val = (x 0).val; rw [h0]; omega
  | ⟨1, _⟩ => show win0_1.index t 1 * 64 + 1 * (x 1).val = (x 1).val; rw [h1]; omega

/-- The bias block at every point is the bias row. -/
theorem bias_blk_apply (c : Dev nD) (t : Fin cfg0.N) (x : S1x64.Idx) :
    (iblk0 V c 2 t : Vec Ideal S1x64 .f32) x = (V c main_v51 : S1x64.Idx → EReal) x := by
  obtain ⟨-, -, -, -, h0, h1, -⟩ := idx_facts t
  unfold iblk0
  rw [View.read_apply]
  show V c main_v51 _ = V c main_v51 _
  congr 1
  funext a
  apply Fin.ext
  match a with
  | ⟨0, _⟩ => show win0_2.index t 0 * 1 + 1 * (x 0).val = (x 0).val; rw [h0]; omega
  | ⟨1, _⟩ => show win0_2.index t 1 * 64 + 1 * (x 1).val = (x 1).val; rw [h1]; omega

theorem lt_N (t : Fin cfg0.N) : t.val < 25 := lt_of_lt_of_eq t.isLt (show cfg0.N = 25 from N_0)

/-- The body's activation at point `t`, tile row `p`, column `q` is the array's activation at row `4000 t + p`. -/
theorem pay_at (c : Dev nD) (t : Fin cfg0.N) (p : Fin 4000) (q : Fin 64) :
    k0_pay1 (F := Ideal) (iblk0 V c 0 t) (iblk0 V c 1 t) (iblk0 V c 2 t) (ix2 p q)
      = actAt (V c main_v43) (V c main_v44) (V c main_v51) ⟨4000 * t.val + p.val, by have := lt_N t; omega⟩ q := by
  refine (activation_apply _ _ _ p q).trans ?_
  unfold actAt
  congr 1
  congr 1
  · refine Finset.sum_congr rfl fun k _ => ?_
    rw [feat_apply V c t (ix2 p k) (ix2 ⟨4000 * t.val + p.val, by have := lt_N t; omega⟩ k) rfl rfl, weight_apply V c t (ix2 k q)]
  · exact bias_blk_apply V c t (ix2 0 q)

/-- WHAT POINT `t` WRITES BACK to the activation array is block `t` of the activation array's function. -/
theorem flushed_act (c : Dev nD) (t : Fin cfg0.N) :
    (dat0 V c).flushed 3 t = ((cfg0.win 3).blk t).view.read (Elt Ideal) (act (V c main_v43) (V c main_v44) (V c main_v51)) := by
  obtain ⟨-, -, -, -, -, -, h0, h1, -⟩ := idx_facts t
  show (cfg0.win 3).cut (grid0.coords t) ((dat0 V c).after 3 t) = _
  rw [after0_3]
  unfold out0_3
  rw [View.canon_unit_zero hz]
  simp only [View.ld_unit_zero (S := S4000x15) hz, View.ld_unit_zero (S := S15x64) hz, View.ld_unit_zero (S := S1x64) hz]
  funext j
  obtain ⟨p, q, rfl⟩ : ∃ (p : Fin 4000) (q : Fin 64), j = ix2 p q := ⟨j 0, j 1, eq_ix2 j⟩
  show k0_pay1 (F := Ideal) (iblk0 V c 0 t) (iblk0 V c 1 t) (iblk0 V c 2 t) (ix2 p q)
    = act (V c main_v43) (V c main_v44) (V c main_v51) (((cfg0.win 3).blk t).view.emb (ix2 p q))
  rw [pay_at]
  unfold act
  congr 1
  · apply Fin.ext
    show 4000 * t.val + p.val = win0_3.index t 0 * 4000 + 1 * p.val
    rw [h0]; omega
  · apply Fin.ext
    show q.val = win0_3.index t 1 * 64 + 1 * q.val
    rw [h1]; omega

/-- WHAT POINT `t` WRITES BACK to a statistic whose body stores the column sums of `f` of the activations. -/
theorem flushed_stat (c : Dev nD) (t : Fin cfg0.N) (w : Fin cfg0.W) (f : EReal → EReal)
    (pay : Vec Ideal S4000x15 .f32 → Vec Ideal S15x64 .bf16 → Vec Ideal S1x64 .f32 → FVec Ideal S8x64 .f32)
    (hpay : ∀ x wt b (r : Fin 8) (q : Fin 64), pay x wt b (ix2 r q) = ∑ p : Fin 4000, f (k0_pay1 (F := Ideal) x wt b (ix2 p q)))
    (emb : S8x64.Idx → S200x64.Idx) (h0 : ∀ r q, (emb (ix2 r q) 0).val = 8 * t.val + r.val) (h1 : ∀ r q, (emb (ix2 r q) 1).val = q.val)
    (r : Fin 8) (q : Fin 64) :
    pay (iblk0 V c 0 t) (iblk0 V c 1 t) (iblk0 V c 2 t) (ix2 r q)
      = tileSum (fun i => f (act (V c main_v43) (V c main_v44) (V c main_v51) i)) (emb (ix2 r q)) := by
  rw [hpay]
  unfold tileSum
  refine Finset.sum_congr rfl fun p _ => ?_
  rw [pay_at]
  unfold act
  congr 2
  · apply Fin.ext
    show 4000 * t.val + p.val = 4000 * ((emb (ix2 r q) 0).val / 8) + p.val
    rw [h0]; have := r.isLt; omega
  · apply Fin.ext
    show q.val = (emb (ix2 r q) 1).val
    rw [h1]

/-- The activation array's function, for the statistics' statements. -/
abbrev actV (c : Dev nD) : S100000x64.Idx → EReal := act (V c main_v43) (V c main_v44) (V c main_v51)

/-- WHAT POINT `t` WRITES BACK to the first statistic: block `t` of the tile sums of the activations. -/
theorem flushed_sum (c : Dev nD) (t : Fin cfg0.N) :
    (dat0 V c).flushed 4 t = ((cfg0.win 4).blk t).view.read (Elt Ideal) (tileSum (fun i => actV V c i)) := by
  obtain ⟨-, -, -, -, -, -, -, -, h0, h1, -⟩ := idx_facts t
  show (cfg0.win 4).cut (grid0.coords t) ((dat0 V c).after 4 t) = _
  rw [after0_4]
  unfold out0_4
  rw [View.canon_unit_zero hz]
  simp only [View.ld_unit_zero (S := S4000x15) hz, View.ld_unit_zero (S := S15x64) hz, View.ld_unit_zero (S := S1x64) hz]
  funext j
  obtain ⟨r, q, rfl⟩ : ∃ (r : Fin 8) (q : Fin 64), j = ix2 r q := ⟨j 0, j 1, eq_ix2 j⟩
  exact flushed_stat V c t 4 (fun x => x) k0_pay2 (fun x wt b r q => sum_apply x wt b r q) (((cfg0.win 4).blk t).view.emb)
    (fun r q => by show win0_4.index t 0 * 8 + 1 * r.val = _; rw [h0]; omega)
    (fun r q => by show win0_4.index t 1 * 64 + 1 * q.val = _; rw [h1]; omega) r q

/-- WHAT POINT `t` WRITES BACK to the second statistic: block `t` of the tile sums of the squared activations. -/
theorem flushed_sumsq (c : Dev nD) (t : Fin cfg0.N) :
    (dat0 V c).flushed 5 t = ((cfg0.win 5).blk t).view.read (Elt Ideal) (tileSum (fun i => actV V c i * actV V c i)) := by
  obtain ⟨-, -, -, -, -, -, -, -, -, -, h0, h1⟩ := idx_facts t
  show (cfg0.win 5).cut (grid0.coords t) ((dat0 V c).after 5 t) = _
  rw [after0_5]
  unfold out0_5
  rw [View.canon_unit_zero hz]
  simp only [View.ld_unit_zero (S := S4000x15) hz, View.ld_unit_zero (S := S15x64) hz, View.ld_unit_zero (S := S1x64) hz]
  funext j
  obtain ⟨r, q, rfl⟩ : ∃ (r : Fin 8) (q : Fin 64), j = ix2 r q := ⟨j 0, j 1, eq_ix2 j⟩
  exact flushed_stat V c t 5 (fun x => x * x) k0_pay3 (fun x wt b r q => sumsq_apply x wt b r q) (((cfg0.win 5).blk t).view.emb)
    (fun r q => by show win0_5.index t 0 * 8 + 1 * r.val = _; rw [h0]; omega)
    (fun r q => by show win0_5.index t 1 * 64 + 1 * q.val = _; rw [h1]; omega) r q

/-- An index of the activation array is in point `t`'s block iff each coordinate is in the block's range. -/
theorem mem_act (t : Fin cfg0.N) (i : S100000x64.Idx) :
    i ∈ ((cfg0.win 3).blk t).view.set ↔ ∀ a : Fin 2, win0_3.index t a * S4000x64.size a ≤ (i a).val ∧ (i a).val < win0_3.index t a * S4000x64.size a + S4000x64.size a := by
  show i ∈ ((View.whole main_v52_0).slice (win0_3.rect t)).set ↔ _
  rw [View.set_slice_whole, Rect.mem_set_unit]
  exact Iff.rfl
theorem mem_sum (t : Fin cfg0.N) (i : S200x64.Idx) :
    i ∈ ((cfg0.win 4).blk t).view.set ↔ ∀ a : Fin 2, win0_4.index t a * S8x64.size a ≤ (i a).val ∧ (i a).val < win0_4.index t a * S8x64.size a + S8x64.size a := by
  show i ∈ ((View.whole main_v52_1).slice (win0_4.rect t)).set ↔ _
  rw [View.set_slice_whole, Rect.mem_set_unit]
  exact Iff.rfl
theorem mem_sumsq (t : Fin cfg0.N) (i : S200x64.Idx) :
    i ∈ ((cfg0.win 5).blk t).view.set ↔ ∀ a : Fin 2, win0_5.index t a * S8x64.size a ≤ (i a).val ∧ (i a).val < win0_5.index t a * S8x64.size a + S8x64.size a := by
  show i ∈ ((View.whole main_v52_2).slice (win0_5.rect t)).set ↔ _
  rw [View.set_slice_whole, Rect.mem_set_unit]
  exact Iff.rfl

/-- The point whose blocks hold array row `n` of a window tiled by `s` rows. -/
def pointOf (s n : Nat) (h : n / s < 25) : Fin cfg0.N := ⟨n / s, lt_of_lt_of_eq h (show cfg0.N = 25 from N_0).symm⟩

/-- THE ACTIVATION ARRAY after the region: the 25 row blocks tile it. -/
theorem final_act (c : Dev nD) : (dat0 V c).arrAt 3 cfg0.N = actV V c :=
  (dat0 V c).arrAt_eq_of_cover 3 _ (fun t _ => flushed_act V c t) fun i => by
    have hi0 : (i 0).val < 100000 := (i 0).isLt
    have hi1 : (i 1).val < 64 := (i 1).isLt
    refine ⟨pointOf 4000 (i 0).val (by omega), flush0_3 _, ?_⟩
    obtain ⟨-, -, -, -, -, -, h0, h1, -⟩ := idx_facts (pointOf 4000 (i 0).val (by omega))
    rw [mem_act]
    intro a
    match a with
    | ⟨0, _⟩ =>
      show win0_3.index _ 0 * 4000 ≤ (i 0).val ∧ (i 0).val < win0_3.index _ 0 * 4000 + 4000
      rw [h0]; show (i 0).val / 4000 * 4000 ≤ (i 0).val ∧ (i 0).val < (i 0).val / 4000 * 4000 + 4000; omega
    | ⟨1, _⟩ =>
      show win0_3.index _ 1 * 64 ≤ (i 1).val ∧ (i 1).val < win0_3.index _ 1 * 64 + 64
      rw [h1]; omega

/-- THE FIRST STATISTIC after the region: row `r` holds the column sums of the activations over tile `r / 8`. -/
theorem final_sum (c : Dev nD) : (dat0 V c).arrAt 4 cfg0.N = tileSum (fun i => actV V c i) :=
  (dat0 V c).arrAt_eq_of_cover 4 _ (fun t _ => flushed_sum V c t) fun i => by
    have hi0 : (i 0).val < 200 := (i 0).isLt
    have hi1 : (i 1).val < 64 := (i 1).isLt
    refine ⟨pointOf 8 (i 0).val (by omega), flush0_4 _, ?_⟩
    obtain ⟨-, -, -, -, -, -, -, -, h0, h1, -⟩ := idx_facts (pointOf 8 (i 0).val (by omega))
    rw [mem_sum]
    intro a
    match a with
    | ⟨0, _⟩ =>
      show win0_4.index _ 0 * 8 ≤ (i 0).val ∧ (i 0).val < win0_4.index _ 0 * 8 + 8
      rw [h0]; show (i 0).val / 8 * 8 ≤ (i 0).val ∧ (i 0).val < (i 0).val / 8 * 8 + 8; omega
    | ⟨1, _⟩ =>
      show win0_4.index _ 1 * 64 ≤ (i 1).val ∧ (i 1).val < win0_4.index _ 1 * 64 + 64
      rw [h1]; omega

/-- THE SECOND STATISTIC after the region: the same of the squared activations. -/
theorem final_sumsq (c : Dev nD) : (dat0 V c).arrAt 5 cfg0.N = tileSum (fun i => actV V c i * actV V c i) :=
  (dat0 V c).arrAt_eq_of_cover 5 _ (fun t _ => flushed_sumsq V c t) fun i => by
    have hi0 : (i 0).val < 200 := (i 0).isLt
    have hi1 : (i 1).val < 64 := (i 1).isLt
    refine ⟨pointOf 8 (i 0).val (by omega), flush0_5 _, ?_⟩
    obtain ⟨-, -, -, -, -, -, -, -, -, -, h0, h1⟩ := idx_facts (pointOf 8 (i 0).val (by omega))
    rw [mem_sumsq]
    intro a
    match a with
    | ⟨0, _⟩ =>
      show win0_5.index _ 0 * 8 ≤ (i 0).val ∧ (i 0).val < win0_5.index _ 0 * 8 + 8
      rw [h0]; show (i 0).val / 8 * 8 ≤ (i 0).val ∧ (i 0).val < (i 0).val / 8 * 8 + 8; omega
    | ⟨1, _⟩ =>
      show win0_5.index _ 1 * 64 ≤ (i 1).val ∧ (i 1).val < win0_5.index _ 1 * 64 + 64
      rw [h1]; omega

end Cert.KernelIdeal.Layer1

end
-- ==== Proof.Spec.lean ====
/-
  The graph normalisation both programs compute from the edge list, as plain mathematics over the argument arrays.
  An edge `e` goes from node `src e` to node `dst e` (rows 0 and 1 of the index array, 32-bit words read signed) with
  weight `ew e`. A node's degree is one (its self-loop) plus the weights of the edges whose destination word IS the
  node (an out-of-range destination lands nowhere); `dinv` is the degree's inverse square root. Where an edge's endpoint
  is used to READ a node's value the word is first wrapped (a negative word has the node count added) and then clamped
  into the node range. The edge's normaliser is `dinv (src) * ew * dinv (dst)`; a node's own normaliser is `dinv²`.
  One graph-convolution step sends node features `y` to `∑ (edges into i) nrm e * y (src e) + dinv2 i * y i`.
-/
import Idealize.ShloMosaic.PureOps.Ideal
import Idealize.ShloMosaic.Lib.ValueIdx

noncomputable section

namespace Cert.Spec

open Idealize.ShloMosaic Idealize.ShloMosaic.ValueIdx

/-- A node word as the programs wrap it before reading a node's value: a negative word has 100000 added. -/
def wrap (b : BitVec 32) : BitVec 32 := Scalar.select (IntOp.cmpi .slt b 0#32) (IntOp.addi b 100000#32) b

/-- The node a word reads: the word as a signed integer, clamped into the node range. -/
def rowOf (b : BitVec 32) : Fin 100000 := ⟨min b.toInt.toNat 99999, by omega⟩

variable (ei : (⟨2, ![2, 1600000]⟩ : Shape).Idx → BitVec 32) (ew : (⟨1, ![1600000]⟩ : Shape).Idx → EReal)

/-- Edge `e`'s source word. -/
def src (e : Fin 1600000) : BitVec 32 := ei (ix2 0 e)
/-- Edge `e`'s destination word. -/
def dst (e : Fin 1600000) : BitVec 32 := ei (ix2 1 e)

/-- The edges that land on node `i`: those whose destination word, read signed, is `i`. -/
def into (i : Fin 100000) : Finset (Fin 1600000) := Finset.univ.filter (fun e => (dst ei e).toInt = (i.val : ℤ))

/-- Node `i`'s degree: the weights of the edges landing on it, plus one. -/
def deg (i : Fin 100000) : EReal := (∑ e ∈ into ei i, ew (ix1 e)) + 1
/-- Its inverse square root. -/
def dinv (i : Fin 100000) : EReal := Ideal.rsqrt (deg ei ew i)
/-- A node's own normaliser. -/
def dinv2 (i : Fin 100000) : EReal := dinv ei ew i * dinv ei ew i
/-- The node an edge reads features from. -/
def from_ (e : Fin 1600000) : Fin 100000 := rowOf (wrap (src ei e))
/-- An edge's normaliser. -/
def nrm (e : Fin 1600000) : EReal := dinv ei ew (rowOf (wrap (src ei e))) * ew (ix1 e) * dinv ei ew (rowOf (wrap (dst ei e)))

/-- One graph-convolution step on `C`-wide node features `y`, at node `i`, feature `k`: zero plus what the edges
    landing on `i` bring, plus the node's own share. -/
def conv {C : Nat} (y : (⟨2, ![100000, C]⟩ : Shape).Idx → EReal) (i : Fin 100000) (k : Fin C) : EReal :=
  (0 + ∑ e ∈ into ei i, nrm ei ew e * y (ix2 (from_ ei e) k)) + dinv2 ei ew i * y (ix2 i k)

end Cert.Spec

end
-- ==== Proof.LibScatterGatherAt.lean ====
/-
  UNTRUSTED — the host's accumulating float scatter and the host's gather READ AT AN INDEX, at the ideal instance
  (floats are extended reals), for the dimension numbers of a segment sum and of a row lookup.

  A scatter whose scatter indices are a column `idx : [E, 1]` of row numbers, whose updates are either scalars `[E]` into a
  flat array `[N]` or rows `[E, C]` into a table `[N, C]` (window axis 1, inserted axis 0, scatter axis 0, index vector
  axis 1), is a SEGMENT SUM: element `i` (resp. `(i, k)`) of the result is the operand's element plus the sum of the updates
  `e` (resp. `(e, k)`) over the `e` whose start index, read as a signed integer, IS `i`. A start index outside `[0, N)`
  equals no `i`, so its update is dropped: the scatter does not clamp.

  A gather with the transposed dimension numbers (offset axis 1, collapsed axis 0, start index map axis 0, index vector axis 1,
  slice sizes `[1]` resp. `[1, C]`) is a ROW LOOKUP: element `e` (resp. `(e, k)`) of the result is the operand at row
  `gatherRow idx e` — the start index read as a signed integer and CLAMPED into `[0, N − 1]`.

  Every statement is over natural-number extents `N E C` and an arbitrary record `d` of dimension numbers whose fields have the
  values above (hypotheses a caller closes by `rfl`), with indices built from coordinates (`ix1`, `ix2`).
-/
import Idealize.ShloMosaic.PureOps.Ideal
import Idealize.ShloMosaic.Lib.ValueIdx
import Idealize.ShloMosaic.PureOps.Ideal.Laws

noncomputable section

open scoped BigOperators

namespace Cert.Lib.ScatterGatherAt

open Idealize.ShloMosaic Idealize.ShloMosaic.ValueIdx

section RowScatter
variable {N E C w : Nat}

/-- The dimension numbers of a scatter of rows `[E, C]` into a table `[N, C]` at the row numbers `[E, 1]`: the updates' axis 1
    is the window axis, the operand's axis 0 is inserted, the one start-index component goes to operand axis 0. -/
abbrev rowsDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ :=
  { updateWindowDims := [1], insertedWindowDims := [0], scatterDimsToOperandDims := [0], indexVectorDim := 1, wf := wf }

/-- On the row axis the window of update `(e, k')` starts at the start index `idx[e, 0]` read as a signed integer. -/
theorem rows_start0 (wf : ScatterDims.WF ⟨2, ![N, C]⟩ ⟨2, ![E, 1]⟩ ⟨2, ![E, C]⟩ [1] [0] [0] 1)
    (idx : IVec ⟨2, ![E, 1]⟩ w) (e : Fin E) (k' : Fin C) :
    (rowsDims N E C wf).start (ix2 e k') idx 0 = (idx (ix2 e 0)).toInt := by
  unfold ScatterDims.start
  rw [dif_pos (List.mem_singleton.mpr rfl)]
  congr 2
  funext b
  refine Fin.ext ?_
  match b with
  | ⟨0, _⟩ => rfl
  | ⟨1, _⟩ => rfl

/-- On the column axis the window starts at 0: no start-index component goes to it. -/
theorem rows_start1 (wf : ScatterDims.WF ⟨2, ![N, C]⟩ ⟨2, ![E, 1]⟩ ⟨2, ![E, C]⟩ [1] [0] [0] 1)
    (idx : IVec ⟨2, ![E, 1]⟩ w) (e : Fin E) (k' : Fin C) :
    (rowsDims N E C wf).start (ix2 e k') idx 1 = 0 := by
  unfold ScatterDims.start
  have h : (1 : Fin 2) ∉ (rowsDims N E C wf).scatterDimsToOperandDims := (by decide : (1 : Fin 2) ∉ ([0] : List (Fin 2)))
  rw [dif_neg h]

/-- The row axis is inserted: the window coordinate on it is 0. -/
theorem rows_window0 (wf : ScatterDims.WF ⟨2, ![N, C]⟩ ⟨2, ![E, 1]⟩ ⟨2, ![E, C]⟩ [1] [0] [0] 1)
    (e : Fin E) (k' : Fin C) :
    (rowsDims N E C wf).window (ix2 e k') 0 = 0 := by
  unfold ScatterDims.window
  have h : (0 : Fin 2) ∉ (rowsDims N E C wf).sKept := (by decide : (0 : Fin 2) ∉ ([1] : List (Fin 2)))
  rw [dif_neg h]

/-- On the column axis the window coordinate of update `(e, k')` is `k'`. -/
theorem rows_window1 (wf : ScatterDims.WF ⟨2, ![N, C]⟩ ⟨2, ![E, 1]⟩ ⟨2, ![E, C]⟩ [1] [0] [0] 1)
    (e : Fin E) (k' : Fin C) :
    (rowsDims N E C wf).window (ix2 e k') 1 = k'.val := by
  unfold ScatterDims.window
  have h : (1 : Fin 2) ∈ (rowsDims N E C wf).sKept := (by decide : (1 : Fin 2) ∈ ([1] : List (Fin 2)))
  rw [dif_pos h]
  rfl

/-- Update `(e, k')` lands at element `(i, k)` exactly when it is in column `k` and its start index, read as a signed
    integer, is `i` (so a start index that is negative or at least `N` lands nowhere). -/
theorem rows_resultIdx_iff (wf : ScatterDims.WF ⟨2, ![N, C]⟩ ⟨2, ![E, 1]⟩ ⟨2, ![E, C]⟩ [1] [0] [0] 1)
    (idx : IVec ⟨2, ![E, 1]⟩ w) (e : Fin E) (k' : Fin C) (i : Fin N) (k : Fin C) :
    (rowsDims N E C wf).resultIdx? (ix2 e k') idx = some (ix2 i k) ↔
      k' = k ∧ (idx (ix2 e 0)).toInt = (i.val : ℤ) := by
  unfold ScatterDims.resultIdx?
  constructor
  · intro h
    split at h
    · rename_i hb
      have h' := Option.some.inj h
      have h0 : ((rowsDims N E C wf).start (ix2 e k') idx 0 + ((rowsDims N E C wf).window (ix2 e k') 0 : ℕ)).toNat = i.val :=
        congrArg (fun f => (f 0).val) h'
      have h1 : ((rowsDims N E C wf).start (ix2 e k') idx 1 + ((rowsDims N E C wf).window (ix2 e k') 1 : ℕ)).toNat = k.val :=
        congrArg (fun f => (f 1).val) h'
      have hb0 : 0 ≤ (rowsDims N E C wf).start (ix2 e k') idx 0 + ((rowsDims N E C wf).window (ix2 e k') 0 : ℕ) ∧
          (rowsDims N E C wf).start (ix2 e k') idx 0 + ((rowsDims N E C wf).window (ix2 e k') 0 : ℕ) < (N : ℤ) := hb 0
      rw [rows_start0, rows_window0] at h0 hb0
      rw [rows_start1, rows_window1] at h1
      refine ⟨Fin.ext ?_, ?_⟩
      · omega
      · omega
    · exact absurd h (by simp)
  · rintro ⟨rfl, hi⟩
    have hN : i.val < N := i.isLt
    have hC : k'.val < C := k'.isLt
    rw [dif_pos]
    · congr 1
      funext a
      refine Fin.ext ?_
      match a with
      | ⟨0, _⟩ =>
        show ((rowsDims N E C wf).start (ix2 e k') idx 0 + ((rowsDims N E C wf).window (ix2 e k') 0 : ℕ)).toNat = i.val
        rw [rows_start0, rows_window0]; omega
      | ⟨1, _⟩ =>
        show ((rowsDims N E C wf).start (ix2 e k') idx 1 + ((rowsDims N E C wf).window (ix2 e k') 1 : ℕ)).toNat = k'.val
        rw [rows_start1, rows_window1]; omega
    · intro a
      match a with
      | ⟨0, _⟩ =>
        show 0 ≤ (rowsDims N E C wf).start (ix2 e k') idx 0 + ((rowsDims N E C wf).window (ix2 e k') 0 : ℕ) ∧
          (rowsDims N E C wf).start (ix2 e k') idx 0 + ((rowsDims N E C wf).window (ix2 e k') 0 : ℕ) < (N : ℤ)
        rw [rows_start0, rows_window0]; omega
      | ⟨1, _⟩ =>
        show 0 ≤ (rowsDims N E C wf).start (ix2 e k') idx 1 + ((rowsDims N E C wf).window (ix2 e k') 1 : ℕ) ∧
          (rowsDims N E C wf).start (ix2 e k') idx 1 + ((rowsDims N E C wf).window (ix2 e k') 1 : ℕ) < (C : ℤ)
        rw [rows_start1, rows_window1]; omega

end RowScatter

section RowScatterSum
variable {N E C w : Nat}

/-- The updates landing at `(i, k)`, summed: the sum over the update rows `e` whose start index is `i` of their entry in
    column `k` (the sum over the pairs `(e, k')` splits by coordinates, and only `k' = k` contributes). -/
theorem rows_sum {M : Type*} [AddCommMonoid M]
    (wf : ScatterDims.WF ⟨2, ![N, C]⟩ ⟨2, ![E, 1]⟩ ⟨2, ![E, C]⟩ [1] [0] [0] 1)
    (idx : IVec ⟨2, ![E, 1]⟩ w) (upd : (⟨2, ![E, C]⟩ : Shape).Idx → M) (i : Fin N) (k : Fin C) :
    ∑ j ∈ Finset.univ.filter (fun j => (rowsDims N E C wf).resultIdx? j idx = some (ix2 i k)), upd j
      = ∑ e ∈ Finset.univ.filter (fun e : Fin E => (idx (ix2 e 0)).toInt = (i.val : ℤ)), upd (ix2 e k) := by
  rw [Finset.sum_filter, Finset.sum_filter, sum_idx2]
  refine Finset.sum_congr rfl fun e _ => ?_
  simp only [rows_resultIdx_iff]
  by_cases hQ : (idx (ix2 e 0)).toInt = (i.val : ℤ)
  · simp [hQ]
  · simp [hQ]

/-- THE ROW SCATTER READ AT `(i, k)`: the operand's element plus the sum, over the update rows `e` whose start index
    `idx[e, 0]` read as a signed integer is `i`, of `upd[e, k]` — a segment sum of rows. -/
theorem scatterRows_apply (d : ScatterDims ⟨2, ![N, C]⟩ ⟨2, ![E, 1]⟩ ⟨2, ![E, C]⟩)
    (hw : d.updateWindowDims = [1]) (hi : d.insertedWindowDims = [0]) (hs : d.scatterDimsToOperandDims = [0])
    (hv : d.indexVectorDim = 1)
    (x : (⟨2, ![N, C]⟩ : Shape).Idx → EReal) (idx : IVec ⟨2, ![E, 1]⟩ w) (upd : (⟨2, ![E, C]⟩ : Shape).Idx → EReal)
    (i : Fin N) (k : Fin C) :
    Ideal.hostScatterAdd d x idx upd (ix2 i k)
      = x (ix2 i k) + ∑ e ∈ Finset.univ.filter (fun e : Fin E => (idx (ix2 e 0)).toInt = (i.val : ℤ)), upd (ix2 e k) := by
  obtain ⟨uw, iw, sd, iv, wf⟩ := d
  dsimp only at hw hi hs hv
  subst hw hi hs hv
  unfold Ideal.hostScatterAdd
  rw [← rows_sum wf idx upd i k]

/-- The same for the program's `Host.scatterAdd` at the ideal instance, where it is that exact sum. -/
theorem hostScatterAdd_rows_apply {φ : FTy} (d : ScatterDims ⟨2, ![N, C]⟩ ⟨2, ![E, 1]⟩ ⟨2, ![E, C]⟩)
    (hw : d.updateWindowDims = [1]) (hi : d.insertedWindowDims = [0]) (hs : d.scatterDimsToOperandDims = [0])
    (hv : d.indexVectorDim = 1)
    (x : FVec Ideal ⟨2, ![N, C]⟩ φ) (idx : IVec ⟨2, ![E, 1]⟩ w) (upd : FVec Ideal ⟨2, ![E, C]⟩ φ)
    (i : Fin N) (k : Fin C) :
    Host.scatterAdd d x idx upd (ix2 i k)
      = x (ix2 i k) + ∑ e ∈ Finset.univ.filter (fun e : Fin E => (idx (ix2 e 0)).toInt = (i.val : ℤ)), upd (ix2 e k) :=
  scatterRows_apply d hw hi hs hv x idx upd i k

end RowScatterSum

section Scatter1
variable {N E w : Nat}

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of a scatter of scalars `[E]` into a flat array `[N]` at the positions `[E, 1]`: no window axis, the
    operand's axis 0 inserted, the one start-index component goes to operand axis 0. -/
abbrev flatDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ :=
  { updateWindowDims := [], insertedWindowDims := [0], scatterDimsToOperandDims := [0], indexVectorDim := 1, wf := wf }

/-- The window of update `e` starts at the start index `idx[e, 0]` read as a signed integer. -/
theorem flat_start0 (wf : ScatterDims.WF ⟨1, ![N]⟩ ⟨2, ![E, 1]⟩ ⟨1, ![E]⟩ [] [0] [0] 1)
    (idx : IVec ⟨2, ![E, 1]⟩ w) (e : Fin E) :
    (flatDims N E wf).start (ix1 e) idx 0 = (idx (ix2 e 0)).toInt := by
  unfold ScatterDims.start
  rw [dif_pos (List.mem_singleton.mpr rfl)]
  congr 2
  funext b
  refine Fin.ext ?_
  match b with
  | ⟨0, _⟩ => rfl
  | ⟨1, _⟩ => rfl

/-- The one operand axis is inserted: the window coordinate on it is 0. -/
theorem flat_window0 (wf : ScatterDims.WF ⟨1, ![N]⟩ ⟨2, ![E, 1]⟩ ⟨1, ![E]⟩ [] [0] [0] 1) (e : Fin E) :
    (flatDims N E wf).window (ix1 e) 0 = 0 := by
  unfold ScatterDims.window
  have h : (0 : Fin 1) ∉ (flatDims N E wf).sKept := (by decide : (0 : Fin 1) ∉ ([] : List (Fin 1)))
  rw [dif_neg h]

/-- Update `e` lands at element `i` exactly when its start index, read as a signed integer, is `i`. -/
theorem flat_resultIdx_iff (wf : ScatterDims.WF ⟨1, ![N]⟩ ⟨2, ![E, 1]⟩ ⟨1, ![E]⟩ [] [0] [0] 1)
    (idx : IVec ⟨2, ![E, 1]⟩ w) (e : Fin E) (i : Fin N) :
    (flatDims N E wf).resultIdx? (ix1 e) idx = some (ix1 i) ↔ (idx (ix2 e 0)).toInt = (i.val : ℤ) := by
  unfold ScatterDims.resultIdx?
  constructor
  · intro h
    split at h
    · rename_i hb
      have h' := Option.some.inj h
      have h0 : ((flatDims N E wf).start (ix1 e) idx 0 + ((flatDims N E wf).window (ix1 e) 0 : ℕ)).toNat = i.val :=
        congrArg (fun f => (f 0).val) h'
      have hb0 : 0 ≤ (flatDims N E wf).start (ix1 e) idx 0 + ((flatDims N E wf).window (ix1 e) 0 : ℕ) ∧
          (flatDims N E wf).start (ix1 e) idx 0 + ((flatDims N E wf).window (ix1 e) 0 : ℕ) < (N : ℤ) := hb 0
      rw [flat_start0, flat_window0] at h0 hb0
      omega
    · exact absurd h (by simp)
  · intro hi
    have hN : i.val < N := i.isLt
    rw [dif_pos]
    · congr 1
      funext a
      refine Fin.ext ?_
      match a with
      | ⟨0, _⟩ =>
        show ((flatDims N E wf).start (ix1 e) idx 0 + ((flatDims N E wf).window (ix1 e) 0 : ℕ)).toNat = i.val
        rw [flat_start0, flat_window0]; omega
    · intro a
      match a with
      | ⟨0, _⟩ =>
        show 0 ≤ (flatDims N E wf).start (ix1 e) idx 0 + ((flatDims N E wf).window (ix1 e) 0 : ℕ) ∧
          (flatDims N E wf).start (ix1 e) idx 0 + ((flatDims N E wf).window (ix1 e) 0 : ℕ) < (N : ℤ)
        rw [flat_start0, flat_window0]; omega

/-- The updates landing at `i`, summed: the sum of the updates `e` whose start index is `i`. -/
theorem flat_sum {M : Type*} [AddCommMonoid M]
    (wf : ScatterDims.WF ⟨1, ![N]⟩ ⟨2, ![E, 1]⟩ ⟨1, ![E]⟩ [] [0] [0] 1)
    (idx : IVec ⟨2, ![E, 1]⟩ w) (upd : (⟨1, ![E]⟩ : Shape).Idx → M) (i : Fin N) :
    ∑ j ∈ Finset.univ.filter (fun j => (flatDims N E wf).resultIdx? j idx = some (ix1 i)), upd j
      = ∑ e ∈ Finset.univ.filter (fun e : Fin E => (idx (ix2 e 0)).toInt = (i.val : ℤ)), upd (ix1 e) := by
  rw [Finset.sum_filter, Finset.sum_filter, sum_idx1]
  refine Finset.sum_congr rfl fun e _ => ?_
  simp only [flat_resultIdx_iff]

/-- THE FLAT SCATTER READ AT `i`: the operand's element plus the sum of the updates `e` whose start index `idx[e, 0]`
    read as a signed integer is `i` — a segment sum of scalars. -/
theorem scatter1_apply (d : ScatterDims ⟨1, ![N]⟩ ⟨2, ![E, 1]⟩ ⟨1, ![E]⟩)
    (hw : d.updateWindowDims = []) (hi : d.insertedWindowDims = [0]) (hs : d.scatterDimsToOperandDims = [0])
    (hv : d.indexVectorDim = 1)
    (x : (⟨1, ![N]⟩ : Shape).Idx → EReal) (idx : IVec ⟨2, ![E, 1]⟩ w) (upd : (⟨1, ![E]⟩ : Shape).Idx → EReal)
    (i : Fin N) :
    Ideal.hostScatterAdd d x idx upd (ix1 i)
      = x (ix1 i) + ∑ e ∈ Finset.univ.filter (fun e : Fin E => (idx (ix2 e 0)).toInt = (i.val : ℤ)), upd (ix1 e) := by
  obtain ⟨uw, iw, sd, iv, wf⟩ := d
  dsimp only at hw hi hs hv
  subst hw hi hs hv
  unfold Ideal.hostScatterAdd
  rw [← flat_sum wf idx upd i]

/-- The same for the program's `Host.scatterAdd` at the ideal instance, where it is that exact sum. -/
theorem hostScatterAdd_flat_apply {φ : FTy} (d : ScatterDims ⟨1, ![N]⟩ ⟨2, ![E, 1]⟩ ⟨1, ![E]⟩)
    (hw : d.updateWindowDims = []) (hi : d.insertedWindowDims = [0]) (hs : d.scatterDimsToOperandDims = [0])
    (hv : d.indexVectorDim = 1)
    (x : FVec Ideal ⟨1, ![N]⟩ φ) (idx : IVec ⟨2, ![E, 1]⟩ w) (upd : FVec Ideal ⟨1, ![E]⟩ φ) (i : Fin N) :
    Host.scatterAdd d x idx upd (ix1 i)
      = x (ix1 i) + ∑ e ∈ Finset.univ.filter (fun e : Fin E => (idx (ix2 e 0)).toInt = (i.val : ℤ)), upd (ix1 e) :=
  scatter1_apply d hw hi hs hv x idx upd i

end Scatter1

section Gathers
variable {N E C w : Nat} {α : Type}

/-- The row a gather reads for start index `e`: the word `idx[e, 0]` read as a signed integer and clamped into
    `[0, N − 1]`. -/
def gatherRow (hN : 0 < N) (idx : IVec ⟨2, ![E, 1]⟩ w) (e : Fin E) : Fin N :=
  ⟨min (idx (ix2 e 0)).toInt.toNat (N - 1), by omega⟩

/-- Its value as a natural number. -/
theorem gatherRow_val (hN : 0 < N) (idx : IVec ⟨2, ![E, 1]⟩ w) (e : Fin E) :
    (gatherRow hN idx e).val = min (idx (ix2 e 0)).toInt.toNat (N - 1) := rfl

/-- An in-range start index is read as it is. -/
theorem gatherRow_of_toInt (hN : 0 < N) (idx : IVec ⟨2, ![E, 1]⟩ w) (e : Fin E) (i : Fin N)
    (h : (idx (ix2 e 0)).toInt = (i.val : ℤ)) : gatherRow hN idx e = i := by
  refine Fin.ext ?_
  rw [gatherRow_val, h]
  have := i.isLt
  omega

/-- The dimension numbers of a lookup `x[idx]` in a flat array `[N]` at the positions `[E, 1]`: no offset axis, operand axis 0
    collapsed and named by the one start-index component, slices of one element. -/
abbrev takeFlatDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The dimension numbers of a lookup of rows `x[idx, :]` in a table `[N, C]` at the row numbers `[E, 1]`: the result's axis 1
    is the offset axis, operand axis 0 is collapsed and named by the one start-index component, slices of one whole row. -/
abbrev takeRowsDims (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The flat lookup at `e` reads the operand at the clamped start index. -/
theorem takeFlat_apply (hN : 0 < N) (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (takeFlatDims N E wf) x idx (ix1 e) = x (ix1 (gatherRow hN idx e)) := by
  unfold Host.gather
  refine congrArg x ?_
  funext a
  refine Fin.ext ?_
  match a with
  | ⟨0, _⟩ =>
    show (takeFlatDims N E wf).start (ix1 e) idx 0 + (takeFlatDims N E wf).batchCoord (ix1 e) 0
      + (takeFlatDims N E wf).offCoord (ix1 e) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (takeFlatDims N E wf).startIndexMap from List.mem_singleton.mpr rfl)]
    have hsi : (takeFlatDims N E wf).siIdx (ix1 e) ⟨List.idxOf (0 : Fin 1) (takeFlatDims N E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl

/-- The row lookup at `(e, k)` reads the operand at the clamped start index's row, column `k`: on the row axis the clamped
    start, no batching and no offset; on the column axis start 0, no batching, offset `k`. -/
theorem takeRows_apply (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (takeRowsDims N E C wf) x idx (ix2 e k) = x (ix2 (gatherRow hN idx e) k) := by
  unfold Host.gather
  refine congrArg x ?_
  funext a
  refine Fin.ext ?_
  match a with
  | ⟨0, _⟩ =>
    show (takeRowsDims N E C wf).start (ix2 e k) idx 0 + (takeRowsDims N E C wf).batchCoord (ix2 e k) 0
      + (takeRowsDims N E C wf).offCoord (ix2 e k) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (takeRowsDims N E C wf).startIndexMap from List.mem_singleton.mpr rfl)]
    have hsi : (takeRowsDims N E C wf).siIdx (ix2 e k) ⟨List.idxOf (0 : Fin 2) (takeRowsDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (takeRowsDims N E C wf).start (ix2 e k) idx 1 + (takeRowsDims N E C wf).batchCoord (ix2 e k) 1
      + (takeRowsDims N E C wf).offCoord (ix2 e k) 1 = k.val
    rw [GatherDims.batchCoord_eq_zero _ _ _ List.not_mem_nil]
    have hs : (takeRowsDims N E C wf).start (ix2 e k) idx 1 = 0 := by
      unfold GatherDims.start
      have h : (1 : Fin 2) ∉ (takeRowsDims N E C wf).startIndexMap := (by decide : (1 : Fin 2) ∉ ([0] : List (Fin 2)))
      rw [dif_neg h]
    have ho : (takeRowsDims N E C wf).offCoord (ix2 e k) 1 = k.val := by
      unfold GatherDims.offCoord
      have h : (1 : Fin 2) ∈ (takeRowsDims N E C wf).sKept := (by decide : (1 : Fin 2) ∈ ([1] : List (Fin 2)))
      rw [dif_pos h]
      rfl
    rw [hs, ho]; omega

/-- THE FLAT GATHER READ AT `e`: the operand at position `gatherRow idx e`, the start index `idx[e, 0]` read as a signed
    integer and clamped into `[0, N − 1]`. -/
theorem gather1_apply (hN : 0 < N) (d : GatherDims ⟨1, ![N]⟩ ⟨2, ![E, 1]⟩ ⟨1, ![E]⟩)
    (hod : d.offsetDims = []) (hcd : d.collapsedSliceDims = [0]) (hob : d.operandBatchingDims = [])
    (hsb : d.startIndicesBatchingDims = []) (hsm : d.startIndexMap = [0]) (hv : d.indexVectorDim = 1)
    (hss : d.sliceSizes = ![1])
    (x : (⟨1, ![N]⟩ : Shape).Idx → α) (idx : IVec ⟨2, ![E, 1]⟩ w) (e : Fin E) :
    Host.gather d x idx (ix1 e) = x (ix1 (gatherRow hN idx e)) := by
  obtain ⟨od, cd, ob, sb, sm, iv, ss, wf⟩ := d
  dsimp only at hod hcd hob hsb hsm hv hss
  subst hod hcd hob hsb hsm hv hss
  exact takeFlat_apply hN wf x idx e

/-- THE ROW GATHER READ AT `(e, k)`: the operand at row `gatherRow idx e` — the SAME clamped row as the flat gather's —,
    column `k`. -/
theorem gatherRows_apply (hN : 0 < N) (d : GatherDims ⟨2, ![N, C]⟩ ⟨2, ![E, 1]⟩ ⟨2, ![E, C]⟩)
    (hod : d.offsetDims = [1]) (hcd : d.collapsedSliceDims = [0]) (hob : d.operandBatchingDims = [])
    (hsb : d.startIndicesBatchingDims = []) (hsm : d.startIndexMap = [0]) (hv : d.indexVectorDim = 1)
    (hss : d.sliceSizes = ![1, C])
    (x : (⟨2, ![N, C]⟩ : Shape).Idx → α) (idx : IVec ⟨2, ![E, 1]⟩ w) (e : Fin E) (k : Fin C) :
    Host.gather d x idx (ix2 e k) = x (ix2 (gatherRow hN idx e) k) := by
  obtain ⟨od, cd, ob, sb, sm, iv, ss, wf⟩ := d
  dsimp only at hod hcd hob hsb hsm hv hss
  subst hod hcd hob hsb hsm hv hss
  exact takeRows_apply hN wf x idx e k

end Gathers

end Cert.Lib.ScatterGatherAt

end
-- ==== Proof.KHost0.lean ====
/-
  The first host stretch of the kernel program, read at an index.

  Before its first grid region the program runs 61 host operations on the argument arrays. They are in
  single-assignment form, so the contents after the stretch satisfy the operations' own equations, one per operation.
  Read at an index these equations say: the degree buffer holds, per node, one plus the weights of the edges whose
  destination word is the node; the next buffer its inverse square root; an edge's normaliser is the product of the
  inverse square roots at its two wrapped and clamped endpoints and of its weight; and the aggregated feature table is
  one graph-convolution step of the node features. The remaining operations only change a float format (the identity
  on extended reals), transpose a weight, or add a unit axis to the bias.
-/
import proofs.«181908_j1778116460896_2_alg».proof.Proof.Gen.KernelIdeal.Launch
import proofs.«181908_j1778116460896_2_alg».proof.Proof.Spec
import proofs.«181908_j1778116460896_2_alg».proof.Proof.LibScatterGatherAt
import proofs.«181908_j1778116460896_2_alg».proof.Proof.LibReadBack
import Idealize.ShloMosaic.Lib.ValueIdx
import Idealize.ShloMosaic.Lib.ValueLayout
import Idealize.ShloMosaic.Lib.Pipeline.Value
import Idealize.ShloMosaic.PureOps.Ideal.Laws

set_option maxRecDepth 8192

noncomputable section

namespace Cert.KernelIdeal.Host0

open Idealize.ShloMosaic Idealize.ShloMosaic.TcCoe Idealize.ShloMosaic.ValueIdx Idealize.ShloMosaic.StableHlo
open Idealize.SL.Sem
open Cert.KernelIdeal Cert.KernelIdeal.Gen
open Cert.ReadBack Cert.Lib.ScatterGatherAt

/-- The buffers the 61 operations write, in order: each operation writes exactly one, and none is an argument. -/
abbrev Wl : List (Ref sig .tc) :=
  [main_v0, main_v1, main_v2, main_v3, main_cst, main_v4, main_v5, main_v6, main_cst_0, main_v7, main_v8, main_v9,
   main_c, main_v10, main_v11, main_c_1, main_v12, main_v13, main_v14, main_v15, main_v16, main_v17,
   main_c_2, main_v18, main_v19, main_c_3, main_v20, main_v21, main_v22, main_v23, main_v24, main_v25, main_v26, main_v27,
   main_c_4, main_v28, main_v29, main_c_5, main_v30, main_v31, main_v32, main_v33, main_v34, main_v35, main_v36,
   main_cst_6, main_v37, main_v38, main_v39, main_v40, main_v41, main_v42, main_v43,
   main_v44, main_v45, main_v46, main_v47, main_v48, main_v49, main_v50, main_v51]

/-- Operation `k` of the stretch writes buffer `k` of the list and nothing else. -/
theorem writes : Writes (τ := τ) (hostOps0 (F := Ideal)) Wl := by
  repeat (first | exact List.Forall₂.nil | refine List.Forall₂.cons rfl ?_)

variable (W : Valuation τ sig (Elt Ideal))

/-- The contents of buffer `b` after the stretch. -/
def A (b : Ref sig .tc) : (Proc.devRef (τ := τ) .tc b).ty.Contents (Elt Ideal) :=
  StableHlo.after (hostOps0 (F := Ideal)) W (Proc.devRef .tc b)

/-- By definition. -/
theorem A_def (b : Ref sig .tc) : A W b = StableHlo.after (hostOps0 (F := Ideal)) W (Proc.devRef .tc b) := rfl

/-- The edge list: two rows of 32-bit words. -/
abbrev ei : S2x1600000.Idx → BitVec 32 := W ↑main_arg1
/-- The edge weights. -/
abbrev ew : S1600000.Idx → EReal := W ↑main_arg2
/-- The node features. -/
abbrev xf : S100000x15.Idx → EReal := W ↑main_arg0

/-- A buffer the stretch does not write holds what it held before. -/
theorem keep {b : Ref sig .tc} (hb : b ∉ Wl) : A W b = W (Proc.devRef .tc b) := after_keep writes W hb

/-- The word `0x3F800000` is the float one. -/
theorem ofBits_one_f32 : Ideal.ofBits .f32 0x3F800000#32 = 1 := by
  simp [Ideal.ofBits, Ideal.ieee]
  rw [← EReal.coe_mul]; norm_num

/-! ## Pointwise operations read at an index -/

/-- The host's inverse square root of an array, at an index, is the ideal inverse square root of the entry. -/
theorem hostRsqrt_at {s : Shape} {φ : FTy} (x : FVec Ideal s φ) (j : s.Idx) : Host.rsqrt x j = Ideal.rsqrt (x j) := rfl

/-- An integer comparison of two arrays, at an index, compares the entries. -/
theorem cmpi_at {s : Shape} {w : Nat} (p : CmpIPredicate) (x y : IVec s w) (j : s.Idx) :
    cmpi p x y j = IntOp.cmpi p (x j) (y j) := rfl

/-- An integer sum of two arrays, at an index, adds the entries. -/
theorem addi_at {s : Shape} {w : Nat} (x y : IVec s w) (j : s.Idx) : addi x y j = IntOp.addi (x j) (y j) := rfl

/-! ## The two rows of the edge list -/

/-- Row 0 of the edge list, kept as a 1 × E array. -/
theorem v0_at (e : Fin 1600000) : (A W main_v0 : S1x1600000.Idx → BitVec 32) (ix2 0 e) = ei W (ix2 0 e) := by
  rw [show A W main_v0 = extractStridedSlice S1x1600000 ![0, 0] (A W main_arg1) slices_S2x1600000_S1x1600000_0_0 from
    readback_unary writes W 0 (x := main_arg1) (y := main_v0) rfl (by decide) (by decide)]
  rw [keep W (b := main_arg1) (by decide)]
  exact extractStridedSlice_apply _ _ _ (ix2 0 e) (ix2 0 e) (fun a => by
    match a with
    | ⟨0, _⟩ => rfl
    | ⟨1, _⟩ => exact (Nat.zero_add _).symm)

/-- Row 1 of the edge list, kept as a 1 × E array. -/
theorem v2_at (e : Fin 1600000) : (A W main_v2 : S1x1600000.Idx → BitVec 32) (ix2 0 e) = ei W (ix2 1 e) := by
  rw [show A W main_v2 = extractStridedSlice S1x1600000 ![1, 0] (A W main_arg1) slices_S2x1600000_S1x1600000_1_0 from
    readback_unary writes W 2 (x := main_arg1) (y := main_v2) rfl (by decide) (by decide)]
  rw [keep W (b := main_arg1) (by decide)]
  exact extractStridedSlice_apply _ _ _ (ix2 0 e) (ix2 1 e) (fun a => by
    match a with
    | ⟨0, _⟩ => rfl
    | ⟨1, _⟩ => exact (Nat.zero_add _).symm)

/-- Dropping the unit axis of a 1 × E array reads row 0. -/
theorem dropUnit_at {α : Type} (v : S1x1600000.Idx → α) (h : S1x1600000.ShapeCasts S1600000) (e : Fin 1600000) :
    shapeCast S1600000 v h (ix1 e) = v (ix2 0 e) := by
  refine (shapeCast_dropUnit_apply ![1600000] v h (ix1 e)).trans (congrArg v ?_)
  funext a
  match a with
  | ⟨0, _⟩ => rfl
  | ⟨1, _⟩ => rfl

/-- The source words, one per edge. -/
theorem v1_at (e : Fin 1600000) : (A W main_v1 : S1600000.Idx → BitVec 32) (ix1 e) = Cert.Spec.src (ei W) e := by
  rw [show A W main_v1 = shapeCast S1600000 (A W main_v0) shapeCasts_S1x1600000_S1600000 from
    readback_reshape writes W 1 (x := main_v0) (y := main_v1) rfl (by decide) (by decide)]
  exact (dropUnit_at _ _ e).trans (v0_at W e)

/-- The destination words, one per edge. -/
theorem v3_at (e : Fin 1600000) : (A W main_v3 : S1600000.Idx → BitVec 32) (ix1 e) = Cert.Spec.dst (ei W) e := by
  rw [show A W main_v3 = shapeCast S1600000 (A W main_v2) shapeCasts_S1x1600000_S1600000 from
    readback_reshape writes W 3 (x := main_v2) (y := main_v3) rfl (by decide) (by decide)]
  exact (dropUnit_at _ _ e).trans (v2_at W e)

/-- A column of E entries, as an E × 1 array, reads its entry. -/
theorem col_at {α : Type} (v : S1600000.Idx → α) (e : Fin 1600000) :
    broadcastInDim S1600000x1 ![0] bcast_S1600000_S1600000x1_0 v (ix2 e 0) = v (ix1 e) :=
  broadcastInDim_apply _ _ v (ix2 e 0) (ix1 e) (fun a => by
    match a with
    | ⟨0, _⟩ => rfl)

/-- A scalar spread over an array reads the scalar. -/
theorem splat_at {α : Type} {t : Shape} (h : S_.BroadcastsInDim t ![]) (v : S_.Idx → α) (j : t.Idx) :
    broadcastInDim t ![] h v j = v ix0 :=
  broadcastInDim_apply _ _ v j ix0 (fun a => a.elim0)

/-! ## The degree, its inverse square root, and the node's own normaliser -/

/-- The float zero spread over the nodes. -/
theorem v4_at (i : Fin 100000) : (A W main_v4 : S100000.Idx → EReal) (ix1 i) = (0 : EReal) := by
  rw [show A W main_v4 = broadcastInDim S100000 ![] bcast_S_S100000 (A W main_cst) from
    readback_unary writes W 5 (x := main_cst) (y := main_v4) rfl (by decide) (by decide)]
  rw [show A W main_cst = constant (F := Ideal) S_ .f32 0x00000000#32 from
    readback_nullary writes W 4 (y := main_cst) rfl (by decide)]
  exact (splat_at _ _ _).trans Ideal.ofBits_zero_f32

/-- The float one spread over the nodes. -/
theorem v7_at (i : Fin 100000) : (A W main_v7 : S100000.Idx → EReal) (ix1 i) = (1 : EReal) := by
  rw [show A W main_v7 = broadcastInDim S100000 ![] bcast_S_S100000 (A W main_cst_0) from
    readback_unary writes W 9 (x := main_cst_0) (y := main_v7) rfl (by decide) (by decide)]
  rw [show A W main_cst_0 = constant (F := Ideal) S_ .f32 0x3F800000#32 from
    readback_nullary writes W 8 (y := main_cst_0) rfl (by decide)]
  exact (splat_at _ _ _).trans ofBits_one_f32

/-- The destination words as a column: the positions the weights are summed at. -/
theorem v5_at (e : Fin 1600000) : (A W main_v5 : S1600000x1.Idx → BitVec 32) (ix2 e 0) = Cert.Spec.dst (ei W) e := by
  rw [show A W main_v5 = broadcastInDim S1600000x1 ![0] bcast_S1600000_S1600000x1_0 (A W main_v3) from
    readback_unary writes W 6 (x := main_v3) (y := main_v5) rfl (by decide) (by decide)]
  exact (col_at _ e).trans (v3_at W e)

/-- The weights summed per destination node: the sum over the edges landing on the node. -/
theorem v6_at (i : Fin 100000) :
    (A W main_v6 : S100000.Idx → EReal) (ix1 i) = 0 + ∑ e ∈ Cert.Spec.into (ei W) i, ew W (ix1 e) := by
  rw [show A W main_v6 = Host.scatterAdd (F := Ideal) scatter_S100000_S1600000x1_S1600000_n_0_0_1 (A W main_v4) (A W main_v5) (A W main_arg2) from
    readback_ternary writes W 7 (c := main_v4) (a := main_v5) (b := main_arg2) (y := main_v6) rfl (by decide) (by decide) (by decide) (by decide)]
  rw [hostScatterAdd_flat_apply scatter_S100000_S1600000x1_S1600000_n_0_0_1 rfl rfl rfl rfl, v4_at, keep W (b := main_arg2) (by decide)]
  unfold Cert.Spec.into
  simp only [v5_at]

/-- THE DEGREE: one plus the weights of the edges landing on the node. -/
theorem deg_eq (i : Fin 100000) : (A W main_v8 : S100000.Idx → EReal) (ix1 i) = Cert.Spec.deg (ei W) (ew W) i := by
  rw [show A W main_v8 = addf (F := Ideal) (A W main_v6) (A W main_v7) from
    readback_binary writes W 10 (a := main_v6) (b := main_v7) (y := main_v8) rfl (by decide) (by decide) (by decide)]
  rw [addf_apply, v6_at, v7_at, zero_add]
  rfl

/-- THE INVERSE SQUARE ROOT of the degree. -/
theorem dinv_eq (i : Fin 100000) : (A W main_v9 : S100000.Idx → EReal) (ix1 i) = Cert.Spec.dinv (ei W) (ew W) i := by
  rw [show A W main_v9 = Host.rsqrt (F := Ideal) (A W main_v8) from
    readback_unary writes W 11 (x := main_v8) (y := main_v9) rfl (by decide) (by decide)]
  rw [hostRsqrt_at, deg_eq]
  rfl

/-- THE NODE'S OWN NORMALISER: the inverse square root squared. -/
theorem dinv2_eq (i : Fin 100000) : (A W main_v26 : S100000.Idx → EReal) (ix1 i) = Cert.Spec.dinv2 (ei W) (ew W) i := by
  rw [show A W main_v26 = mulf (F := Ideal) (A W main_v9) (A W main_v9) from
    readback_binary writes W 32 (a := main_v9) (b := main_v9) (y := main_v26) rfl (by decide) (by decide) (by decide)]
  rw [mulf_apply, dinv_eq]
  rfl

/-! ## The wrapped endpoint words, and the edges' normaliser -/

/-- The integer zero spread over the edges (first copy). -/
theorem v10_at (e : Fin 1600000) : (A W main_v10 : S1600000.Idx → BitVec 32) (ix1 e) = 0#32 := by
  rw [show A W main_v10 = broadcastInDim S1600000 ![] bcast_S_S1600000 (A W main_c) from
    readback_unary writes W 13 (x := main_c) (y := main_v10) rfl (by decide) (by decide)]
  rw [show A W main_c = constantI S_ 32 0#32 from readback_nullary writes W 12 (y := main_c) rfl (by decide)]
  exact splat_at _ _ _

/-- The node count spread over the edges (first copy). -/
theorem v12_at (e : Fin 1600000) : (A W main_v12 : S1600000.Idx → BitVec 32) (ix1 e) = 100000#32 := by
  rw [show A W main_v12 = broadcastInDim S1600000 ![] bcast_S_S1600000 (A W main_c_1) from
    readback_unary writes W 16 (x := main_c_1) (y := main_v12) rfl (by decide) (by decide)]
  rw [show A W main_c_1 = constantI S_ 32 100000#32 from readback_nullary writes W 15 (y := main_c_1) rfl (by decide)]
  exact splat_at _ _ _

/-- The source words wrapped: a negative word has the node count added. -/
theorem v14_at (e : Fin 1600000) :
    (A W main_v14 : S1600000.Idx → BitVec 32) (ix1 e) = Cert.Spec.wrap (Cert.Spec.src (ei W) e) := by
  rw [show A W main_v14 = select (A W main_v11) (A W main_v13) (A W main_v1) from
    readback_ternary writes W 18 (c := main_v11) (a := main_v13) (b := main_v1) (y := main_v14) rfl (by decide) (by decide) (by decide) (by decide)]
  rw [show A W main_v11 = cmpi .slt (A W main_v1) (A W main_v10) from
    readback_binary writes W 14 (a := main_v1) (b := main_v10) (y := main_v11) rfl (by decide) (by decide) (by decide)]
  rw [show A W main_v13 = addi (A W main_v1) (A W main_v12) from
    readback_binary writes W 17 (a := main_v1) (b := main_v12) (y := main_v13) rfl (by decide) (by decide) (by decide)]
  rw [select_apply, cmpi_at, addi_at, v1_at, v10_at, v12_at]
  rfl

/-- The wrapped source words as a column. -/
theorem v15_at (e : Fin 1600000) :
    (A W main_v15 : S1600000x1.Idx → BitVec 32) (ix2 e 0) = Cert.Spec.wrap (Cert.Spec.src (ei W) e) := by
  rw [show A W main_v15 = broadcastInDim S1600000x1 ![0] bcast_S1600000_S1600000x1_0 (A W main_v14) from
    readback_unary writes W 19 (x := main_v14) (y := main_v15) rfl (by decide) (by decide)]
  exact (col_at _ e).trans (v14_at W e)

/-- The inverse square root of the degree, read at each edge's wrapped and clamped source. -/
theorem v16_at (e : Fin 1600000) :
    (A W main_v16 : S1600000.Idx → EReal) (ix1 e)
      = Cert.Spec.dinv (ei W) (ew W) (Cert.Spec.rowOf (Cert.Spec.wrap (Cert.Spec.src (ei W) e))) := by
  rw [show A W main_v16 = Host.gather gather_S100000_S1600000x1_S1600000_n_0_n_n_0_1_1 (A W main_v9) (A W main_v15) from
    readback_binary writes W 20 (a := main_v9) (b := main_v15) (y := main_v16) rfl (by decide) (by decide) (by decide)]
  rw [gather1_apply (by decide) gather_S100000_S1600000x1_S1600000_n_0_n_n_0_1_1 rfl rfl rfl rfl rfl rfl rfl]
  rw [show gatherRow (by decide) (A W main_v15) e = Cert.Spec.rowOf (Cert.Spec.wrap (Cert.Spec.src (ei W) e)) from
    Fin.ext (by rw [gatherRow_val, v15_at]; rfl)]
  exact dinv_eq W _

/-- The integer zero spread over the edges (second copy). -/
theorem v18_at (e : Fin 1600000) : (A W main_v18 : S1600000.Idx → BitVec 32) (ix1 e) = 0#32 := by
  rw [show A W main_v18 = broadcastInDim S1600000 ![] bcast_S_S1600000 (A W main_c_2) from
    readback_unary writes W 23 (x := main_c_2) (y := main_v18) rfl (by decide) (by decide)]
  rw [show A W main_c_2 = constantI S_ 32 0#32 from readback_nullary writes W 22 (y := main_c_2) rfl (by decide)]
  exact splat_at _ _ _

/-- The node count spread over the edges (second copy). -/
theorem v20_at (e : Fin 1600000) : (A W main_v20 : S1600000.Idx → BitVec 32) (ix1 e) = 100000#32 := by
  rw [show A W main_v20 = broadcastInDim S1600000 ![] bcast_S_S1600000 (A W main_c_3) from
    readback_unary writes W 26 (x := main_c_3) (y := main_v20) rfl (by decide) (by decide)]
  rw [show A W main_c_3 = constantI S_ 32 100000#32 from readback_nullary writes W 25 (y := main_c_3) rfl (by decide)]
  exact splat_at _ _ _

/-- The destination words wrapped. -/
theorem v22_at (e : Fin 1600000) :
    (A W main_v22 : S1600000.Idx → BitVec 32) (ix1 e) = Cert.Spec.wrap (Cert.Spec.dst (ei W) e) := by
  rw [show A W main_v22 = select (A W main_v19) (A W main_v21) (A W main_v3) from
    readback_ternary writes W 28 (c := main_v19) (a := main_v21) (b := main_v3) (y := main_v22) rfl (by decide) (by decide) (by decide) (by decide)]
  rw [show A W main_v19 = cmpi .slt (A W main_v3) (A W main_v18) from
    readback_binary writes W 24 (a := main_v3) (b := main_v18) (y := main_v19) rfl (by decide) (by decide) (by decide)]
  rw [show A W main_v21 = addi (A W main_v3) (A W main_v20) from
    readback_binary writes W 27 (a := main_v3) (b := main_v20) (y := main_v21) rfl (by decide) (by decide) (by decide)]
  rw [select_apply, cmpi_at, addi_at, v3_at, v18_at, v20_at]
  rfl

/-- The wrapped destination words as a column. -/
theorem v23_at (e : Fin 1600000) :
    (A W main_v23 : S1600000x1.Idx → BitVec 32) (ix2 e 0) = Cert.Spec.wrap (Cert.Spec.dst (ei W) e) := by
  rw [show A W main_v23 = broadcastInDim S1600000x1 ![0] bcast_S1600000_S1600000x1_0 (A W main_v22) from
    readback_unary writes W 29 (x := main_v22) (y := main_v23) rfl (by decide) (by decide)]
  exact (col_at _ e).trans (v22_at W e)

/-- The inverse square root of the degree, read at each edge's wrapped and clamped destination. -/
theorem v24_at (e : Fin 1600000) :
    (A W main_v24 : S1600000.Idx → EReal) (ix1 e)
      = Cert.Spec.dinv (ei W) (ew W) (Cert.Spec.rowOf (Cert.Spec.wrap (Cert.Spec.dst (ei W) e))) := by
  rw [show A W main_v24 = Host.gather gather_S100000_S1600000x1_S1600000_n_0_n_n_0_1_1 (A W main_v9) (A W main_v23) from
    readback_binary writes W 30 (a := main_v9) (b := main_v23) (y := main_v24) rfl (by decide) (by decide) (by decide)]
  rw [gather1_apply (by decide) gather_S100000_S1600000x1_S1600000_n_0_n_n_0_1_1 rfl rfl rfl rfl rfl rfl rfl]
  rw [show gatherRow (by decide) (A W main_v23) e = Cert.Spec.rowOf (Cert.Spec.wrap (Cert.Spec.dst (ei W) e)) from
    Fin.ext (by rw [gatherRow_val, v23_at]; rfl)]
  exact dinv_eq W _

/-- THE EDGE'S NORMALISER: the inverse square roots at its two endpoints times its weight. -/
theorem nrm_eq (e : Fin 1600000) : (A W main_v25 : S1600000.Idx → EReal) (ix1 e) = Cert.Spec.nrm (ei W) (ew W) e := by
  rw [show A W main_v25 = mulf (F := Ideal) (A W main_v17) (A W main_v24) from
    readback_binary writes W 31 (a := main_v17) (b := main_v24) (y := main_v25) rfl (by decide) (by decide) (by decide)]
  rw [show A W main_v17 = mulf (F := Ideal) (A W main_v16) (A W main_arg2) from
    readback_binary writes W 21 (a := main_v16) (b := main_arg2) (y := main_v17) rfl (by decide) (by decide) (by decide)]
  rw [mulf_apply, mulf_apply, v16_at, v24_at, keep W (b := main_arg2) (by decide)]
  rfl

/-! ## The aggregated feature table: one graph-convolution step -/

/-- The integer zero spread over the edges (third copy). -/
theorem v28_at (e : Fin 1600000) : (A W main_v28 : S1600000.Idx → BitVec 32) (ix1 e) = 0#32 := by
  rw [show A W main_v28 = broadcastInDim S1600000 ![] bcast_S_S1600000 (A W main_c_4) from
    readback_unary writes W 35 (x := main_c_4) (y := main_v28) rfl (by decide) (by decide)]
  rw [show A W main_c_4 = constantI S_ 32 0#32 from readback_nullary writes W 34 (y := main_c_4) rfl (by decide)]
  exact splat_at _ _ _

/-- The node count spread over the edges (third copy). -/
theorem v30_at (e : Fin 1600000) : (A W main_v30 : S1600000.Idx → BitVec 32) (ix1 e) = 100000#32 := by
  rw [show A W main_v30 = broadcastInDim S1600000 ![] bcast_S_S1600000 (A W main_c_5) from
    readback_unary writes W 38 (x := main_c_5) (y := main_v30) rfl (by decide) (by decide)]
  rw [show A W main_c_5 = constantI S_ 32 100000#32 from readback_nullary writes W 37 (y := main_c_5) rfl (by decide)]
  exact splat_at _ _ _

/-- The source words wrapped again, for the feature lookup. -/
theorem v32_at (e : Fin 1600000) :
    (A W main_v32 : S1600000.Idx → BitVec 32) (ix1 e) = Cert.Spec.wrap (Cert.Spec.src (ei W) e) := by
  rw [show A W main_v32 = select (A W main_v29) (A W main_v31) (A W main_v1) from
    readback_ternary writes W 40 (c := main_v29) (a := main_v31) (b := main_v1) (y := main_v32) rfl (by decide) (by decide) (by decide) (by decide)]
  rw [show A W main_v29 = cmpi .slt (A W main_v1) (A W main_v28) from
    readback_binary writes W 36 (a := main_v1) (b := main_v28) (y := main_v29) rfl (by decide) (by decide) (by decide)]
  rw [show A W main_v31 = addi (A W main_v1) (A W main_v30) from
    readback_binary writes W 39 (a := main_v1) (b := main_v30) (y := main_v31) rfl (by decide) (by decide) (by decide)]
  rw [select_apply, cmpi_at, addi_at, v1_at, v28_at, v30_at]
  rfl

/-- The wrapped source words of the feature lookup, as a column. -/
theorem v33_at (e : Fin 1600000) :
    (A W main_v33 : S1600000x1.Idx → BitVec 32) (ix2 e 0) = Cert.Spec.wrap (Cert.Spec.src (ei W) e) := by
  rw [show A W main_v33 = broadcastInDim S1600000x1 ![0] bcast_S1600000_S1600000x1_0 (A W main_v32) from
    readback_unary writes W 41 (x := main_v32) (y := main_v33) rfl (by decide) (by decide)]
  exact (col_at _ e).trans (v32_at W e)

/-- The features of each edge's source node: row `from_ e` of the feature table. -/
theorem v34_at (e : Fin 1600000) (k : Fin 15) :
    (A W main_v34 : S1600000x15.Idx → EReal) (ix2 e k) = xf W (ix2 (Cert.Spec.from_ (ei W) e) k) := by
  rw [show A W main_v34 = Host.gather gather_S100000x15_S1600000x1_S1600000x15_1_0_n_n_0_1_115 (A W main_arg0) (A W main_v33) from
    readback_binary writes W 42 (a := main_arg0) (b := main_v33) (y := main_v34) rfl (by decide) (by decide) (by decide)]
  rw [gatherRows_apply (by decide) gather_S100000x15_S1600000x1_S1600000x15_1_0_n_n_0_1_115 rfl rfl rfl rfl rfl rfl rfl]
  rw [show gatherRow (by decide) (A W main_v33) e = Cert.Spec.from_ (ei W) e from
    Fin.ext (by rw [gatherRow_val, v33_at]; rfl)]
  rw [keep W (b := main_arg0) (by decide)]

/-- The edges' normaliser as a column. -/
theorem v27_at (e : Fin 1600000) : (A W main_v27 : S1600000x1.Idx → EReal) (ix2 e 0) = Cert.Spec.nrm (ei W) (ew W) e := by
  rw [show A W main_v27 = broadcastInDim S1600000x1 ![0] bcast_S1600000_S1600000x1_0 (A W main_v25) from
    readback_unary writes W 33 (x := main_v25) (y := main_v27) rfl (by decide) (by decide)]
  exact (col_at _ e).trans (nrm_eq W e)

/-- The normaliser spread over the 15 features of its edge. -/
theorem v35_at (e : Fin 1600000) (k : Fin 15) :
    (A W main_v35 : S1600000x15.Idx → EReal) (ix2 e k) = Cert.Spec.nrm (ei W) (ew W) e := by
  rw [show A W main_v35 = broadcastInDim S1600000x15 ![0, 1] bcast_S1600000x1_S1600000x15_0_1 (A W main_v27) from
    readback_unary writes W 43 (x := main_v27) (y := main_v35) rfl (by decide) (by decide)]
  refine (broadcastInDim_apply _ _ _ (ix2 e k) (ix2 e 0) (fun a => ?_)).trans (v27_at W e)
  match a with
  | ⟨0, _⟩ => rfl
  | ⟨1, _⟩ => rfl

/-- What each edge brings: its normaliser times its source node's features. -/
theorem v36_at (e : Fin 1600000) (k : Fin 15) :
    (A W main_v36 : S1600000x15.Idx → EReal) (ix2 e k)
      = Cert.Spec.nrm (ei W) (ew W) e * xf W (ix2 (Cert.Spec.from_ (ei W) e) k) := by
  rw [show A W main_v36 = mulf (F := Ideal) (A W main_v35) (A W main_v34) from
    readback_binary writes W 44 (a := main_v35) (b := main_v34) (y := main_v36) rfl (by decide) (by decide) (by decide)]
  rw [mulf_apply, v35_at, v34_at]

/-- The float zero spread over the feature table. -/
theorem v37_at (i : Fin 100000) (k : Fin 15) : (A W main_v37 : S100000x15.Idx → EReal) (ix2 i k) = (0 : EReal) := by
  rw [show A W main_v37 = broadcastInDim S100000x15 ![] bcast_S_S100000x15 (A W main_cst_6) from
    readback_unary writes W 46 (x := main_cst_6) (y := main_v37) rfl (by decide) (by decide)]
  rw [show A W main_cst_6 = constant (F := Ideal) S_ .f32 0x00000000#32 from
    readback_nullary writes W 45 (y := main_cst_6) rfl (by decide)]
  exact (splat_at _ _ _).trans Ideal.ofBits_zero_f32

/-- The destination words as a column, again: the rows the edges' contributions are summed at. -/
theorem v38_at (e : Fin 1600000) : (A W main_v38 : S1600000x1.Idx → BitVec 32) (ix2 e 0) = Cert.Spec.dst (ei W) e := by
  rw [show A W main_v38 = broadcastInDim S1600000x1 ![0] bcast_S1600000_S1600000x1_0 (A W main_v3) from
    readback_unary writes W 47 (x := main_v3) (y := main_v38) rfl (by decide) (by decide)]
  exact (col_at _ e).trans (v3_at W e)

/-- The contributions summed per destination node. -/
theorem v39_at (i : Fin 100000) (k : Fin 15) :
    (A W main_v39 : S100000x15.Idx → EReal) (ix2 i k)
      = 0 + ∑ e ∈ Cert.Spec.into (ei W) i, Cert.Spec.nrm (ei W) (ew W) e * xf W (ix2 (Cert.Spec.from_ (ei W) e) k) := by
  rw [show A W main_v39 = Host.scatterAdd (F := Ideal) scatter_S100000x15_S1600000x1_S1600000x15_1_0_0_1 (A W main_v37) (A W main_v38) (A W main_v36) from
    readback_ternary writes W 48 (c := main_v37) (a := main_v38) (b := main_v36) (y := main_v39) rfl (by decide) (by decide) (by decide) (by decide)]
  rw [hostScatterAdd_rows_apply scatter_S100000x15_S1600000x1_S1600000x15_1_0_0_1 rfl rfl rfl rfl, v37_at]
  unfold Cert.Spec.into
  simp only [v38_at, v36_at]

/-- The node's own normaliser spread over its 15 features. -/
theorem v41_at (i : Fin 100000) (k : Fin 15) :
    (A W main_v41 : S100000x15.Idx → EReal) (ix2 i k) = Cert.Spec.dinv2 (ei W) (ew W) i := by
  rw [show A W main_v41 = broadcastInDim S100000x15 ![0, 1] bcast_S100000x1_S100000x15_0_1 (A W main_v40) from
    readback_unary writes W 50 (x := main_v40) (y := main_v41) rfl (by decide) (by decide)]
  rw [show A W main_v40 = broadcastInDim S100000x1 ![0] bcast_S100000_S100000x1_0 (A W main_v26) from
    readback_unary writes W 49 (x := main_v26) (y := main_v40) rfl (by decide) (by decide)]
  refine (broadcastInDim_apply _ _ _ (ix2 i k) (ix2 i 0) (fun a => ?_)).trans ?_
  · match a with
    | ⟨0, _⟩ => rfl
    | ⟨1, _⟩ => rfl
  refine (broadcastInDim_apply _ _ _ (ix2 i 0) (ix1 i) (fun a => ?_)).trans (dinv2_eq W i)
  match a with
  | ⟨0, _⟩ => rfl

/-- THE AGGREGATED FEATURES: one graph-convolution step of the node features. -/
theorem aggx_eq (i : Fin 100000) (k : Fin 15) :
    (A W main_v43 : S100000x15.Idx → EReal) (ix2 i k) = Cert.Spec.conv (ei W) (ew W) (xf W) i k := by
  rw [show A W main_v43 = addf (F := Ideal) (A W main_v39) (A W main_v42) from
    readback_binary writes W 52 (a := main_v39) (b := main_v42) (y := main_v43) rfl (by decide) (by decide) (by decide)]
  rw [show A W main_v42 = mulf (F := Ideal) (A W main_v41) (A W main_arg0) from
    readback_binary writes W 51 (a := main_v41) (b := main_arg0) (y := main_v42) rfl (by decide) (by decide) (by decide)]
  rw [addf_apply, mulf_apply, v39_at, v41_at, keep W (b := main_arg0) (by decide)]
  rfl

/-! ## The operands the regions read unchanged: format changes, transposes, a unit axis -/

/-- The first layer's weight: a change of float format is the identity on extended reals. -/
theorem w1_eq : (A W main_v44 : S15x64.Idx → EReal) = W ↑main_arg3 := by
  rw [show A W main_v44 = truncf (F := Ideal) .bf16 (A W main_arg3) bitsLt_bf16_f32 from
    readback_unary writes W 53 (x := main_arg3) (y := main_v44) rfl (by decide) (by decide)]
  rw [keep W (b := main_arg3) (by decide)]
  rfl

/-- The second layer's weight. -/
theorem w2_eq : (A W main_v45 : S64x64.Idx → EReal) = W ↑main_arg5 := by
  rw [show A W main_v45 = truncf (F := Ideal) .bf16 (A W main_arg5) bitsLt_bf16_f32 from
    readback_unary writes W 54 (x := main_arg5) (y := main_v45) rfl (by decide) (by decide)]
  rw [keep W (b := main_arg5) (by decide)]
  rfl

/-- The last layer's weight. -/
theorem wl_eq : (A W main_v50 : S143x14.Idx → EReal) = W ↑main_arg19 := by
  rw [show A W main_v50 = truncf (F := Ideal) .bf16 (A W main_arg19) bitsLt_bf16_f32 from
    readback_unary writes W 59 (x := main_arg19) (y := main_v50) rfl (by decide) (by decide)]
  rw [keep W (b := main_arg19) (by decide)]
  rfl

/-- The first recurrent input weight, transposed. -/
theorem wih1_eq (k : Fin 128) (j : Fin 256) :
    (A W main_v47 : S128x256.Idx → EReal) (ix2 k j) = (W ↑main_arg11 : S256x128.Idx → EReal) (ix2 j k) := by
  rw [show A W main_v47 = truncf (F := Ideal) .bf16 (A W main_v46) bitsLt_bf16_f32 from
    readback_unary writes W 56 (x := main_v46) (y := main_v47) rfl (by decide) (by decide)]
  rw [show A W main_v46 = transpose S128x256 [1, 0] (A W main_arg11) transposes_S256x128_S128x256_1_0 from
    readback_unary writes W 55 (x := main_arg11) (y := main_v46) rfl (by decide) (by decide)]
  rw [truncf_apply, keep W (b := main_arg11) (by decide)]
  exact transpose_apply _ _ _ (ix2 k j) (ix2 j k) (fun b => by
    match b with
    | ⟨0, _⟩ => rfl
    | ⟨1, _⟩ => rfl)

/-- The second recurrent input weight, transposed. -/
theorem wih2_eq (k : Fin 64) (j : Fin 256) :
    (A W main_v49 : S64x256.Idx → EReal) (ix2 k j) = (W ↑main_arg15 : S256x64.Idx → EReal) (ix2 j k) := by
  rw [show A W main_v49 = truncf (F := Ideal) .bf16 (A W main_v48) bitsLt_bf16_f32 from
    readback_unary writes W 58 (x := main_v48) (y := main_v49) rfl (by decide) (by decide)]
  rw [show A W main_v48 = transpose S64x256 [1, 0] (A W main_arg15) transposes_S256x64_S64x256_1_0 from
    readback_unary writes W 57 (x := main_arg15) (y := main_v48) rfl (by decide) (by decide)]
  rw [truncf_apply, keep W (b := main_arg15) (by decide)]
  exact transpose_apply _ _ _ (ix2 k j) (ix2 j k) (fun b => by
    match b with
    | ⟨0, _⟩ => rfl
    | ⟨1, _⟩ => rfl)

/-- The first layer's bias as a 1 × 64 row. -/
theorem b1_eq (q : Fin 64) : (A W main_v51 : S1x64.Idx → EReal) (ix2 0 q) = (W ↑main_arg4 : S64.Idx → EReal) (ix1 q) := by
  rw [show A W main_v51 = shapeCast S1x64 (A W main_arg4) shapeCasts_S64_S1x64 from
    readback_reshape writes W 60 (x := main_arg4) (y := main_v51) rfl (by decide) (by decide)]
  rw [keep W (b := main_arg4) (by decide)]
  refine (shapeCast_addUnit_apply ![64] _ _ (ix2 0 q)).trans (congrArg _ ?_)
  funext a
  match a with
  | ⟨0, _⟩ => rfl

end Cert.KernelIdeal.Host0

end
-- ==== Proof.SpecHead.lean ====
/-
  The network's head on ONE node's row, as plain mathematics. A row `r` of `n` features meets the gate weights
  (given transposed: feature × gate) and two bias rows to give 256 gate pre-activations; from a zero state the
  recurrent step keeps the input gate (columns 0…63), the cell candidate (128…191) and the output gate (192…255):
  the new hidden entry is `σ(o) · tanh(σ(i) · tanh(ĉ))`. Two hidden rows and the node's 15 input features are laid
  side by side, clipped below at zero and read out through a 143 × 14 weight plus a bias.
-/
import Idealize.ShloMosaic.PureOps.Ideal

noncomputable section

namespace Cert.Spec

open Idealize.ShloMosaic

/-- One entry normalised by its column's mean and variance, scaled and shifted (ε the programs' own constant, kept
    as its word). -/
def normOf (a mu var gamma beta : EReal) : EReal :=
  (a - mu) * Ideal.rsqrt (var + Ideal.ofBits .f32 0x3727C5AC#32) * gamma + beta

/-- A row's 256 gate pre-activations. -/
def gates {n : Nat} (r : Fin n → EReal) (wt : Fin n → Fin 256 → EReal) (b b' : Fin 256 → EReal) (j : Fin 256) : EReal :=
  ((∑ k : Fin n, r k * wt k j) + b j) + b' j

/-- The hidden row after one recurrent step from a zero state. -/
def hidden (g : Fin 256 → EReal) (q : Fin 64) : EReal :=
  Ideal.logistic (g ⟨192 + q.val, by omega⟩)
    * Ideal.tanh (Ideal.logistic (g ⟨q.val, by omega⟩) * Ideal.tanh (g ⟨128 + q.val, by omega⟩))

/-- Two 64-wide rows side by side. -/
def join2 (u v : Fin 64 → EReal) (k : Fin 128) : EReal :=
  if h : k.val < 64 then u ⟨k.val, h⟩ else v ⟨k.val - 64, by omega⟩

/-- Two 64-wide rows and a 15-wide row side by side. -/
def join3 (u v : Fin 64 → EReal) (x : Fin 15 → EReal) (k : Fin 143) : EReal :=
  if h : k.val < 64 then u ⟨k.val, h⟩ else if h2 : k.val < 128 then v ⟨k.val - 64, by omega⟩ else x ⟨k.val - 128, by omega⟩

/-- The read-out of a 143-wide feature row. -/
def readout (f : Fin 143 → EReal) (wl : Fin 143 → Fin 14 → EReal) (bl : Fin 14 → EReal) (o : Fin 14) : EReal :=
  (∑ k : Fin 143, max (f k) 0 * wl k o) + bl o

/-- THE HEAD on one node: from the node's first-layer normalised row `h1`, its second-layer activation row `a2` with
    that layer's column statistics, scale and shift, the two gate weights (transposed) with their bias rows, the
    node's input features `x` and the read-out weight and bias, the node's 14 outputs. -/
def headRow (h1 a2 mu var gamma beta : Fin 64 → EReal) (wt1 : Fin 128 → Fin 256 → EReal) (b1 b1' : Fin 256 → EReal)
    (wt2 : Fin 64 → Fin 256 → EReal) (b2 b2' : Fin 256 → EReal) (x : Fin 15 → EReal)
    (wl : Fin 143 → Fin 14 → EReal) (bl : Fin 14 → EReal) (o : Fin 14) : EReal :=
  readout
    (join3 (hidden (gates (join2 h1 (fun q => normOf (a2 q) (mu q) (var q) (gamma q) (beta q))) wt1 b1 b1'))
      (hidden (gates (hidden (gates (join2 h1 (fun q => normOf (a2 q) (mu q) (var q) (gamma q) (beta q))) wt1 b1 b1')) wt2 b2 b2'))
      x)
    wl bl o

end Cert.Spec

end
-- ==== Proof.SpecNet.lean ====
/-
  The whole network as plain mathematics over the argument arrays, with the three places where the two programs
  spell a value differently left as parameters: the first layer's activation `a1` (features aggregated over the graph
  and then multiplied by the weight, or multiplied and then aggregated), a column's mean over the 100000 nodes
  (summed tile by tile, or at once) and a column's variance (mean square minus squared mean, or mean squared
  deviation). From `a1` and its column statistics the first layer's normalised activations `h1`; their product with
  the second weight; one graph-convolution step, bias and clip for `a2`; and the head on every node.
-/
import proofs.«181908_j1778116460896_2_alg».proof.Proof.Spec
import proofs.«181908_j1778116460896_2_alg».proof.Proof.SpecHead

noncomputable section

namespace Cert.Spec

open Idealize.ShloMosaic Idealize.ShloMosaic.ValueIdx

/-- The node count as the programs' divisor. -/
abbrev nodes : EReal := ((100000 : ℝ) : EReal)

variable (ei : (⟨2, ![2, 1600000]⟩ : Shape).Idx → BitVec 32) (ew : (⟨1, ![1600000]⟩ : Shape).Idx → EReal)
  (x : (⟨2, ![100000, 15]⟩ : Shape).Idx → EReal) (W1 : (⟨2, ![15, 64]⟩ : Shape).Idx → EReal) (b1 : (⟨1, ![64]⟩ : Shape).Idx → EReal)

/-- The first layer's activation, the features aggregated first: `max ((conv x) · W1 + b1) 0`. -/
def a1K (n : Fin 100000) (q : Fin 64) : EReal :=
  max ((∑ k : Fin 15, conv ei ew x n k * W1 (ix2 k q)) + b1 (ix1 q)) 0

/-- The first layer's activation, the features multiplied first: `max (conv (x · W1) + b1) 0`. -/
def a1R (n : Fin 100000) (q : Fin 64) : EReal :=
  max (conv ei ew (fun j : (⟨2, ![100000, 64]⟩ : Shape).Idx =>
    ∑ k : Fin 15, x (ix2 ⟨(j 0).val, (j 0).isLt⟩ k) * W1 (ix2 k ⟨(j 1).val, (j 1).isLt⟩)) n q + b1 (ix1 q)) 0

/-- A column's mean, summed over 25 tiles of 4000 nodes. -/
def meanK (a : Fin 100000 → Fin 64 → EReal) (q : Fin 64) : EReal :=
  Ideal.div (0 + ∑ t : Fin 25, ∑ r : Fin 4000, a ⟨4000 * t.val + r.val, by omega⟩ q) nodes

/-- A column's variance as mean square minus squared mean, the squares summed tile by tile. -/
def varK (a : Fin 100000 → Fin 64 → EReal) (q : Fin 64) : EReal :=
  Ideal.div (0 + ∑ t : Fin 25, ∑ r : Fin 4000, a ⟨4000 * t.val + r.val, by omega⟩ q * a ⟨4000 * t.val + r.val, by omega⟩ q) nodes
    - meanK a q * meanK a q

/-- A column's mean, summed at once. -/
def meanR (a : Fin 100000 → Fin 64 → EReal) (q : Fin 64) : EReal :=
  Ideal.div (0 + ∑ n : Fin 100000, a n q) nodes

/-- A column's variance as the mean squared deviation. -/
def varR (a : Fin 100000 → Fin 64 → EReal) (q : Fin 64) : EReal :=
  Ideal.div (0 + ∑ n : Fin 100000, (a n q - meanR a q) * (a n q - meanR a q)) nodes

section Net

variable (a1 : Fin 100000 → Fin 64 → EReal) (mean var : (Fin 100000 → Fin 64 → EReal) → Fin 64 → EReal)
  (g1 be1 : (⟨1, ![64]⟩ : Shape).Idx → EReal) (W2 : (⟨2, ![64, 64]⟩ : Shape).Idx → EReal) (b2 g2 be2 : (⟨1, ![64]⟩ : Shape).Idx → EReal)
  (Wih1 : (⟨2, ![256, 128]⟩ : Shape).Idx → EReal) (bih1 bhh1 : (⟨1, ![256]⟩ : Shape).Idx → EReal)
  (Wih2 : (⟨2, ![256, 64]⟩ : Shape).Idx → EReal) (bih2 bhh2 : (⟨1, ![256]⟩ : Shape).Idx → EReal)
  (Wl : (⟨2, ![143, 14]⟩ : Shape).Idx → EReal) (bl : (⟨1, ![14]⟩ : Shape).Idx → EReal)

/-- The first layer's normalised activations. -/
def h1 (n : Fin 100000) (q : Fin 64) : EReal :=
  normOf (a1 n q) (mean a1 q) (var a1 q) (g1 (ix1 q)) (be1 (ix1 q))

/-- Their product with the second weight. -/
def xw2 (n : Fin 100000) (q : Fin 64) : EReal :=
  ∑ k : Fin 64, h1 a1 mean var g1 be1 n k * W2 (ix2 k q)

/-- The second layer's activation: one graph-convolution step on that product, bias, clip. -/
def a2 (n : Fin 100000) (q : Fin 64) : EReal :=
  max (conv ei ew (fun j : (⟨2, ![100000, 64]⟩ : Shape).Idx =>
    xw2 a1 mean var g1 be1 W2 ⟨(j 0).val, (j 0).isLt⟩ ⟨(j 1).val, (j 1).isLt⟩) n q + b2 (ix1 q)) 0

/-- THE NETWORK's output at node `n`, output `o`. -/
def net (n : Fin 100000) (o : Fin 14) : EReal :=
  headRow (h1 a1 mean var g1 be1 n) (a2 ei ew a1 mean var g1 be1 W2 b2 n)
    (mean (a2 ei ew a1 mean var g1 be1 W2 b2)) (var (a2 ei ew a1 mean var g1 be1 W2 b2))
    (fun q => g2 (ix1 q)) (fun q => be2 (ix1 q))
    (fun k j => Wih1 (ix2 j k)) (fun j => bih1 (ix1 j)) (fun j => bhh1 (ix1 j))
    (fun k j => Wih2 (ix2 j k)) (fun j => bih2 (ix1 j)) (fun j => bhh2 (ix1 j))
    (fun k => x (ix2 n k)) (fun k o => Wl (ix2 k o)) (fun o => bl (ix1 o)) o

end Net

end Cert.Spec

end
-- ==== Proof.KChain1.lean ====
/-
  The kernel program's buffers at the fold's boundaries as functions of the ARGUMENTS, part 1: what the first grid
  region leaves. The region finds the graph-aggregated features (one convolution step on the input features), the
  first weight and the first bias; so its activation array is the first layer's activation in the
  aggregate-then-multiply form, and row `r` of each statistic holds, per column, the sum over tile `r / 8` of the
  activations, and of their squares.
-/
import proofs.«181908_j1778116460896_2_alg».proof.Proof.KTrace
import proofs.«181908_j1778116460896_2_alg».proof.Proof.K0Arrays
import proofs.«181908_j1778116460896_2_alg».proof.Proof.KHost0
import proofs.«181908_j1778116460896_2_alg».proof.Proof.SpecNet

set_option maxRecDepth 16384

noncomputable section

namespace Cert.KernelIdeal.Chain

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg) (c : Dev nD)

/-! The argument arrays, by the names the mathematics uses. -/
abbrev aEi : S2x1600000.Idx → BitVec 32 := m ((c : Thread nD τ).loc main_arg1)
abbrev aEw : S1600000.Idx → EReal := m ((c : Thread nD τ).loc main_arg2)
abbrev aX : S100000x15.Idx → EReal := m ((c : Thread nD τ).loc main_arg0)
abbrev aW1 : S15x64.Idx → EReal := m ((c : Thread nD τ).loc main_arg3)
abbrev aB1 : S64.Idx → EReal := m ((c : Thread nD τ).loc main_arg4)

/-- The first layer's activation in the kernel's form, of the arguments. -/
abbrev a1 : Fin 100000 → Fin 64 → EReal := Cert.Spec.a1K (aEi m c) (aEw m c) (aX m c) (aW1 m c) (aB1 m c)

/-- The features the first region finds are one convolution step on the input features. -/
theorem aggx_at (n : Fin 100000) (k : Fin 15) :
    (V1 m ρ c main_v43 : S100000x15.Idx → EReal) (ix2 n k) = Cert.Spec.conv (aEi m c) (aEw m c) (aX m c) n k :=
  Host0.aggx_eq (W0 m ρ c) n k

/-- The weight it finds is the first weight. -/
theorem w1_at (i : S15x64.Idx) : (V1 m ρ c main_v44 : S15x64.Idx → EReal) i = aW1 m c i :=
  congrFun (Host0.w1_eq (W0 m ρ c)) i

/-- The bias row it finds is the first bias. -/
theorem b1_at (q : Fin 64) : (V1 m ρ c main_v51 : S1x64.Idx → EReal) (ix2 0 q) = aB1 m c (ix1 q) :=
  Host0.b1_eq (W0 m ρ c) q

/-- The region's activation function at node `n`, column `q`. -/
theorem act_at (n : Fin 100000) (q : Fin 64) : Layer1.actV (V1 m ρ) c (ix2 n q) = a1 m c n q := by
  show Layer1.actAt (V1 m ρ c main_v43) (V1 m ρ c main_v44) (V1 m ρ c main_v51) n q = _
  show _ = Cert.Spec.a1K (aEi m c) (aEw m c) (aX m c) (aW1 m c) (aB1 m c) n q
  unfold Layer1.actAt Cert.Spec.a1K
  rw [b1_at]
  refine congrArg (fun s : EReal => max (s + aB1 m c (ix1 q)) 0) ?_
  exact Finset.sum_congr rfl fun k _ => by rw [aggx_at, w1_at]

/-- THE ACTIVATION ARRAY after the first region. -/
theorem a1_at (n : Fin 100000) (q : Fin 64) :
    (W2 m ρ c (Proc.devRef .tc main_v52_0) : S100000x64.Idx → EReal) (ix2 n q) = a1 m c n q := by
  have h : (W2 m ρ c (Proc.devRef .tc main_v52_0) : S100000x64.Idx → EReal) = Layer1.actV (V1 m ρ) c :=
    (Trace.out0_at2 m ρ c 3).trans (Layer1.final_act (V1 m ρ) c)
  rw [h, act_at]

/-- THE FIRST STATISTIC after the first region: row `r` holds the column sums of the activations over tile `r / 8`. -/
theorem sum1_at (r : Fin 200) (q : Fin 64) :
    @Eq EReal ((W2 m ρ c (Proc.devRef .tc main_v52_1) : S200x64.Idx → EReal) (ix2 r q))
      (∑ p : Fin 4000, a1 m c ⟨4000 * (r.val / 8) + p.val, by have := r.isLt; omega⟩ q) := by
  have h : (W2 m ρ c (Proc.devRef .tc main_v52_1) : S200x64.Idx → EReal) = Layer1.tileSum (fun i => Layer1.actV (V1 m ρ) c i) :=
    (Trace.out0_at2 m ρ c 4).trans (Layer1.final_sum (V1 m ρ) c)
  rw [h]
  unfold Layer1.tileSum
  exact Finset.sum_congr rfl fun p _ => act_at m ρ c _ q

/-- THE SECOND STATISTIC after the first region: the same of the squared activations. -/
theorem sumsq1_at (r : Fin 200) (q : Fin 64) :
    @Eq EReal ((W2 m ρ c (Proc.devRef .tc main_v52_2) : S200x64.Idx → EReal) (ix2 r q))
      (∑ p : Fin 4000, a1 m c ⟨4000 * (r.val / 8) + p.val, by have := r.isLt; omega⟩ q * a1 m c ⟨4000 * (r.val / 8) + p.val, by have := r.isLt; omega⟩ q) := by
  have h : (W2 m ρ c (Proc.devRef .tc main_v52_2) : S200x64.Idx → EReal)
      = Layer1.tileSum (fun i => Layer1.actV (V1 m ρ) c i * Layer1.actV (V1 m ρ) c i) :=
    (Trace.out0_at2 m ρ c 5).trans (Layer1.final_sumsq (V1 m ρ) c)
  rw [h]
  unfold Layer1.tileSum
  exact Finset.sum_congr rfl fun p _ => congrArg₂ (fun a b : EReal => a * b) (act_at m ρ c _ q) (act_at m ρ c _ q)

end Cert.KernelIdeal.Chain

end
-- ==== Proof.K1Payload.lean ====
/-
  The second region's body at one element. Its block of activations is a 2000 × 64 tile `a`; the column statistics
  (mean `mu`, variance `var`), the scale `gamma` and the shift `beta` are 1 × 64 rows, the next layer's weight a 64 × 64
  matrix `w`. The normalised activation at row `p`, column `q` is `(a p q - mu q) * rsqrt (var q + ε) * gamma q + beta q`
  (ε the body's own constant, kept as its word), and the body also stores its product with `w`: the sum over the 64
  columns, into a zero accumulator, a change of float format being the identity at the ideal values.
-/
import proofs.«181908_j1778116460896_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Norm1

open Idealize.ShloMosaic Idealize.ShloMosaic.ValueIdx Cert.KernelIdeal Cert.KernelIdeal.Gen

/-- The contraction record of the tile's product with the next layer's weight. -/
abbrev D := dot_S2000x64_S64x64_S2000x64_1_0_0_1_n_n

theorem lhs_row (i : S2000x64.Idx) (q : D.contr.Idx) : (D.lhsIdx i q 0).val = (i 0).val := by
  unfold DotDims.lhsIdx
  rw [dif_neg (show ¬(0 : Fin S2000x64.rank) ∈ D.lhsBatch by decide), dif_pos (show (0 : Fin S2000x64.rank) ∈ D.lhsNonContracting by decide)]
  rfl
theorem lhs_feat (i : S2000x64.Idx) (q : D.contr.Idx) : (D.lhsIdx i q 1).val = (q ⟨0, by decide⟩).val :=
  D.lhsIdx_val_of_single rfl i q
theorem rhs_feat (i : S2000x64.Idx) (q : D.contr.Idx) : (D.rhsIdx i q 0).val = (q ⟨0, by decide⟩).val :=
  D.rhsIdx_val_of_single rfl i q
theorem rhs_col (i : S2000x64.Idx) (q : D.contr.Idx) : (D.rhsIdx i q 1).val = (i 1).val := by
  unfold DotDims.rhsIdx
  rw [dif_neg (show ¬(1 : Fin S64x64.rank) ∈ D.rhsBatch by decide), dif_pos (show (1 : Fin S64x64.rank) ∈ D.rhsNonContracting by decide)]
  rfl

/-- The tile's product into a zero accumulator, at row `p` and column `q`: the sum over the 64 columns of the left factor. -/
theorem product_apply (x : FVec Ideal S2000x64 .bf16) (w : FVec Ideal S64x64 .bf16) (p : Fin 2000) (q : Fin 64) :
    matmul D none x w (constant S2000x64 .f32 0x00000000#32) (ix2 p q) = ∑ k : Fin 64, x (ix2 p k) * w (ix2 k q) := by
  show FloatOps.matmul D none x w (constant S2000x64 .f32 0x00000000#32) (ix2 p q) = _
  rw [Ideal.matmul_constant_zero_apply, ← Equiv.sum_comp (contrEquiv1 D 64 rfl rfl).symm]
  refine Finset.sum_congr rfl fun k _ => ?_
  have hk := contrEquiv1_symm_val D 64 rfl rfl k
  have el : D.lhsIdx (ix2 p q) ((contrEquiv1 D 64 rfl rfl).symm k) = ix2 p k := funext fun a => Fin.ext (by
    match a with
    | ⟨0, _⟩ => exact lhs_row _ _
    | ⟨1, _⟩ => exact (lhs_feat _ _).trans hk)
  have er : D.rhsIdx (ix2 p q) ((contrEquiv1 D 64 rfl rfl).symm k) = ix2 k q := funext fun a => Fin.ext (by
    match a with
    | ⟨0, _⟩ => exact (rhs_feat _ _).trans hk
    | ⟨1, _⟩ => exact rhs_col _ _)
  rw [el, er]

/-- A 1 × 64 row spread over the tile's rows reads the row's entry of the column. -/
theorem row_apply (b : FVec Ideal S1x64 .f32) (p : Fin 2000) (q : Fin 64) :
    broadcastTo S2000x64 b broadcasts_S1x64_S2000x64 (ix2 p q) = b (ix2 0 q) :=
  broadcastTo_apply b _ (ix2 p q) (ix2 0 q) (fun a => by
    match a with
    | ⟨0, _⟩ => rfl
    | ⟨1, _⟩ => rfl)

/-- The normalisation of one entry `a` by the column's statistics, scale and shift. -/
def normOf (a mu var gamma beta : EReal) : EReal :=
  (a - mu) * Ideal.rsqrt (var + Ideal.ofBits .f32 0x3727C5AC#32) * gamma + beta

/-- The stored normalised activation at row `p`, column `q` of the tile. -/
theorem norm_apply (a : Vec Ideal S2000x64 .f32) (var mu gamma beta : Vec Ideal S1x64 .f32) (p : Fin 2000) (q : Fin 64) :
    k1_pay1 (F := Ideal) a var mu gamma beta (ix2 p q)
      = normOf (a (ix2 p q)) (mu (ix2 0 q)) (var (ix2 0 q)) (gamma (ix2 0 q)) (beta (ix2 0 q)) := by
  unfold k1_pay1
  simp only [shapeCast_self]
  rw [addf_apply, mulf_apply, mulf_apply, subf_apply, row_apply, row_apply, row_apply, row_apply]
  rfl

/-- The stored product at row `p`, column `q`: the normalised row against the weight's column. -/
theorem next_apply (a : Vec Ideal S2000x64 .f32) (var mu gamma beta : Vec Ideal S1x64 .f32) (w : Vec Ideal S64x64 .bf16) (p : Fin 2000) (q : Fin 64) :
    k1_pay2 (F := Ideal) a var mu gamma beta w (ix2 p q)
      = ∑ k : Fin 64, k1_pay1 (F := Ideal) a var mu gamma beta (ix2 p k) * w (ix2 k q) := by
  unfold k1_pay2
  simp only [shapeCast_self]
  rw [product_apply]
  rfl

end Cert.KernelIdeal.Norm1

end
-- ==== Proof.K1Arrays.lean ====
/-
  The second region's two output arrays as functions of the arrays it finds. The region runs its body at 50 grid
  points; point `t` reads rows `2000 t … 2000 t + 1999` of the activations (the four statistic rows and the weight whole)
  and writes the same rows of the normalised activations and of their product with the weight. The blocks tile the
  arrays, so after the run the first output is the normalisation row by row, and the second its product with the
  weight, row by row.
-/
import proofs.«181908_j1778116460896_2_alg».proof.Proof.Gen.KernelIdeal.Frame
import proofs.«181908_j1778116460896_2_alg».proof.Proof.K1Payload

set_option maxRecDepth 16384

noncomputable section

namespace Cert.KernelIdeal.Norm1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

theorem lt_N (t : Fin cfg1.N) : t.val < 50 := lt_of_lt_of_eq t.isLt (show cfg1.N = 50 from N_1)

/-- The point whose blocks hold array row `n`. -/
def pointOf (n : Nat) (h : n / 2000 < 50) : Fin cfg1.N := ⟨n / 2000, lt_of_lt_of_eq h (show cfg1.N = 50 from N_1).symm⟩

/-! The printed index maps over the grid: the row-tiled windows move with the point, the others stay. -/
theorem idx_a : ∀ t : Fin cfg1.N, win1_0.index t (0 : Fin 2) = t.val ∧ win1_0.index t (1 : Fin 2) = 0 :=
  (by decide +kernel : ∀ t : Fin grid1.N, _)
theorem idx_mu : ∀ t : Fin cfg1.N, win1_1.index t (0 : Fin 2) = 0 ∧ win1_1.index t (1 : Fin 2) = 0 :=
  (by decide +kernel : ∀ t : Fin grid1.N, _)
theorem idx_var : ∀ t : Fin cfg1.N, win1_2.index t (0 : Fin 2) = 0 ∧ win1_2.index t (1 : Fin 2) = 0 :=
  (by decide +kernel : ∀ t : Fin grid1.N, _)
theorem idx_gamma : ∀ t : Fin cfg1.N, win1_3.index t (0 : Fin 2) = 0 ∧ win1_3.index t (1 : Fin 2) = 0 :=
  (by decide +kernel : ∀ t : Fin grid1.N, _)
theorem idx_beta : ∀ t : Fin cfg1.N, win1_4.index t (0 : Fin 2) = 0 ∧ win1_4.index t (1 : Fin 2) = 0 :=
  (by decide +kernel : ∀ t : Fin grid1.N, _)
theorem idx_w : ∀ t : Fin cfg1.N, win1_5.index t (0 : Fin 2) = 0 ∧ win1_5.index t (1 : Fin 2) = 0 :=
  (by decide +kernel : ∀ t : Fin grid1.N, _)
theorem idx_h : ∀ t : Fin cfg1.N, win1_6.index t (0 : Fin 2) = t.val ∧ win1_6.index t (1 : Fin 2) = 0 :=
  (by decide +kernel : ∀ t : Fin grid1.N, _)
theorem idx_xw : ∀ t : Fin cfg1.N, win1_7.index t (0 : Fin 2) = t.val ∧ win1_7.index t (1 : Fin 2) = 0 :=
  (by decide +kernel : ∀ t : Fin grid1.N, _)

/-- The activation block at point `t` is rows `2000 t …` of the activation array. -/
theorem a_apply (c : Dev nD) (t : Fin cfg1.N) (x : S2000x64.Idx) (k : S100000x64.Idx)
    (hk0 : (k 0).val = 2000 * t.val + (x 0).val) (hk1 : (k 1).val = (x 1).val) :
    (iblk1 V c 0 t : Vec Ideal S2000x64 .f32) x = (V c main_v52_0 : S100000x64.Idx → EReal) k := by
  obtain ⟨h0, h1⟩ := idx_a t
  unfold iblk1
  rw [View.read_apply]
  show V c main_v52_0 _ = V c main_v52_0 _
  congr 1
  funext a
  apply Fin.ext
  match a with
  | ⟨0, _⟩ => show win1_0.index t 0 * 2000 + 1 * (x 0).val = (k 0).val; rw [h0, hk0]; omega
  | ⟨1, _⟩ => show win1_0.index t 1 * 64 + 1 * (x 1).val = (k 1).val; rw [h1, hk1]; omega

/-- The mean row's block at every point is the mean row. -/
theorem mu_apply (c : Dev nD) (t : Fin cfg1.N) (x : S1x64.Idx) :
    (iblk1 V c 1 t : Vec Ideal S1x64 .f32) x = (V c main_v67 : S1x64.Idx → EReal) x := by
  obtain ⟨h0, h1⟩ := idx_mu t
  unfold iblk1
  rw [View.read_apply]
  show V c main_v67 _ = V c main_v67 _
  congr 1
  funext a
  apply Fin.ext
  match a with
  | ⟨0, _⟩ => show win1_1.index t 0 * 1 + 1 * (x 0).val = (x 0).val; rw [h0]; omega
  | ⟨1, _⟩ => show win1_1.index t 1 * 64 + 1 * (x 1).val = (x 1).val; rw [h1]; omega

/-- The variance row's block at every point is the variance row. -/
theorem var_apply (c : Dev nD) (t : Fin cfg1.N) (x : S1x64.Idx) :
    (iblk1 V c 2 t : Vec Ideal S1x64 .f32) x = (V c main_v68 : S1x64.Idx → EReal) x := by
  obtain ⟨h0, h1⟩ := idx_var t
  unfold iblk1
  rw [View.read_apply]
  show V c main_v68 _ = V c main_v68 _
  congr 1
  funext a
  apply Fin.ext
  match a with
  | ⟨0, _⟩ => show win1_2.index t 0 * 1 + 1 * (x 0).val = (x 0).val; rw [h0]; omega
  | ⟨1, _⟩ => show win1_2.index t 1 * 64 + 1 * (x 1).val = (x 1).val; rw [h1]; omega

/-- The scale row's block at every point is the scale row. -/
theorem gamma_apply (c : Dev nD) (t : Fin cfg1.N) (x : S1x64.Idx) :
    (iblk1 V c 3 t : Vec Ideal S1x64 .f32) x = (V c main_v69 : S1x64.Idx → EReal) x := by
  obtain ⟨h0, h1⟩ := idx_gamma t
  unfold iblk1
  rw [View.read_apply]
  show V c main_v69 _ = V c main_v69 _
  congr 1
  funext a
  apply Fin.ext
  match a with
  | ⟨0, _⟩ => show win1_3.index t 0 * 1 + 1 * (x 0).val = (x 0).val; rw [h0]; omega
  | ⟨1, _⟩ => show win1_3.index t 1 * 64 + 1 * (x 1).val = (x 1).val; rw [h1]; omega

/-- The shift row's block at every point is the shift row. -/
theorem beta_apply (c : Dev nD) (t : Fin cfg1.N) (x : S1x64.Idx) :
    (iblk1 V c 4 t : Vec Ideal S1x64 .f32) x = (V c main_v70 : S1x64.Idx → EReal) x := by
  obtain ⟨h0, h1⟩ := idx_beta t
  unfold iblk1
  rw [View.read_apply]
  show V c main_v70 _ = V c main_v70 _
  congr 1
  funext a
  apply Fin.ext
  match a with
  | ⟨0, _⟩ => show win1_4.index t 0 * 1 + 1 * (x 0).val = (x 0).val; rw [h0]; omega
  | ⟨1, _⟩ => show win1_4.index t 1 * 64 + 1 * (x 1).val = (x 1).val; rw [h1]; omega

/-- The weight block at every point is the weight array. -/
theorem w_apply (c : Dev nD) (t : Fin cfg1.N) (x : S64x64.Idx) :
    (iblk1 V c 5 t : Vec Ideal S64x64 .bf16) x = (V c main_v45 : S64x64.Idx → EReal) x := by
  obtain ⟨h0, h1⟩ := idx_w t
  unfold iblk1
  rw [View.read_apply]
  show V c main_v45 _ = V c main_v45 _
  congr 1
  funext a
  apply Fin.ext
  match a with
  | ⟨0, _⟩ => show win1_5.index t 0 * 64 + 1 * (x 0).val = (x 0).val; rw [h0]; omega
  | ⟨1, _⟩ => show win1_5.index t 1 * 64 + 1 * (x 1).val = (x 1).val; rw [h1]; omega

/-- The normalised activation at row `p`, column `q` of the whole array. -/
def normAt (a : S100000x64.Idx → EReal) (mu var gamma beta : S1x64.Idx → EReal) (p : Fin 100000) (q : Fin 64) : EReal :=
  normOf (a (ix2 p q)) (mu (ix2 0 q)) (var (ix2 0 q)) (gamma (ix2 0 q)) (beta (ix2 0 q))

/-- The normalised activation array, of the arrays the region finds. -/
def normV (c : Dev nD) : S100000x64.Idx → EReal :=
  fun i => normAt (V c main_v52_0) (V c main_v67) (V c main_v68) (V c main_v69) (V c main_v70) ⟨(i 0).val, (i 0).isLt⟩ ⟨(i 1).val, (i 1).isLt⟩

/-- Its product with the weight, row by row. -/
def nextV (c : Dev nD) : S100000x64.Idx → EReal :=
  fun i => ∑ k : Fin 64, normAt (V c main_v52_0) (V c main_v67) (V c main_v68) (V c main_v69) (V c main_v70) ⟨(i 0).val, (i 0).isLt⟩ k
    * (V c main_v45 : S64x64.Idx → EReal) (ix2 k ⟨(i 1).val, (i 1).isLt⟩)

/-- The body's normalised activation at point `t`, tile row `p`, column `q` is the array's at row `2000 t + p`. -/
theorem norm_at (c : Dev nD) (t : Fin cfg1.N) (p : Fin 2000) (q : Fin 64) :
    k1_pay1 (F := Ideal) (iblk1 V c 0 t) (iblk1 V c 2 t) (iblk1 V c 1 t) (iblk1 V c 3 t) (iblk1 V c 4 t) (ix2 p q)
      = normAt (V c main_v52_0) (V c main_v67) (V c main_v68) (V c main_v69) (V c main_v70) ⟨2000 * t.val + p.val, by have := lt_N t; omega⟩ q := by
  refine (norm_apply _ _ _ _ _ p q).trans ?_
  unfold normAt
  rw [a_apply V c t (ix2 p q) (ix2 ⟨2000 * t.val + p.val, by have := lt_N t; omega⟩ q) rfl rfl,
    mu_apply V c t (ix2 0 q), var_apply V c t (ix2 0 q), gamma_apply V c t (ix2 0 q), beta_apply V c t (ix2 0 q)]

/-- The body's product at point `t`, tile row `p`, column `q`. -/
theorem next_at (c : Dev nD) (t : Fin cfg1.N) (p : Fin 2000) (q : Fin 64) :
    k1_pay2 (F := Ideal) (iblk1 V c 0 t) (iblk1 V c 2 t) (iblk1 V c 1 t) (iblk1 V c 3 t) (iblk1 V c 4 t) (iblk1 V c 5 t) (ix2 p q)
      = ∑ k : Fin 64, normAt (V c main_v52_0) (V c main_v67) (V c main_v68) (V c main_v69) (V c main_v70) ⟨2000 * t.val + p.val, by have := lt_N t; omega⟩ k
          * (V c main_v45 : S64x64.Idx → EReal) (ix2 k q) := by
  refine (next_apply _ _ _ _ _ _ p q).trans ?_
  refine Finset.sum_congr rfl fun k _ => ?_
  rw [norm_at V c t p k, w_apply V c t (ix2 k q)]

/-- WHAT POINT `t` WRITES BACK to the first output is block `t` of the normalised activations. -/
theorem flushed_h (c : Dev nD) (t : Fin cfg1.N) :
    (dat1 V c).flushed 6 t = ((cfg1.win 6).blk t).view.read (Elt Ideal) (normV V c) := by
  obtain ⟨h0, h1⟩ := idx_h t
  show (cfg1.win 6).cut (grid1.coords t) ((dat1 V c).after 6 t) = _
  rw [after1_6]
  unfold out1_6
  rw [View.canon_unit_zero hz]
  simp only [View.ld_unit_zero (S := S2000x64) hz, View.ld_unit_zero (S := S1x64) hz, View.ld_unit_zero (S := S64x64) hz]
  funext j
  obtain ⟨p, q, rfl⟩ : ∃ (p : Fin 2000) (q : Fin 64), j = ix2 p q := ⟨j 0, j 1, eq_ix2 j⟩
  show k1_pay1 (F := Ideal) (iblk1 V c 0 t) (iblk1 V c 2 t) (iblk1 V c 1 t) (iblk1 V c 3 t) (iblk1 V c 4 t) (ix2 p q) = normV V c (((cfg1.win 6).blk t).view.emb (ix2 p q))
  rw [norm_at]
  unfold normV
  congr 1
  · apply Fin.ext
    show 2000 * t.val + p.val = win1_6.index t 0 * 2000 + 1 * p.val
    rw [h0]; omega
  · apply Fin.ext
    show q.val = win1_6.index t 1 * 64 + 1 * q.val
    rw [h1]; omega

theorem mem_h (t : Fin cfg1.N) (i : S100000x64.Idx) :
    i ∈ ((cfg1.win 6).blk t).view.set ↔ ∀ a : Fin 2, win1_6.index t a * S2000x64.size a ≤ (i a).val ∧ (i a).val < win1_6.index t a * S2000x64.size a + S2000x64.size a := by
  show i ∈ ((View.whole main_v71_0).slice (win1_6.rect t)).set ↔ _
  rw [View.set_slice_whole, Rect.mem_set_unit]
  exact Iff.rfl

/-- THE NORMALISED ACTIVATIONS after the region: the 50 row blocks tile the array. -/
theorem final_h (c : Dev nD) : (dat1 V c).arrAt 6 cfg1.N = normV V c :=
  (dat1 V c).arrAt_eq_of_cover 6 _ (fun t _ => flushed_h V c t) fun i => by
    have hi0 : (i 0).val < 100000 := (i 0).isLt
    have hi1 : (i 1).val < 64 := (i 1).isLt
    refine ⟨pointOf (i 0).val (by omega), flush1_6 _, ?_⟩
    obtain ⟨h0, h1⟩ := idx_h (pointOf (i 0).val (by omega))
    rw [mem_h]
    intro a
    match a with
    | ⟨0, _⟩ =>
      show win1_6.index _ 0 * 2000 ≤ (i 0).val ∧ (i 0).val < win1_6.index _ 0 * 2000 + 2000
      rw [h0]; show (i 0).val / 2000 * 2000 ≤ (i 0).val ∧ (i 0).val < (i 0).val / 2000 * 2000 + 2000; omega
    | ⟨1, _⟩ =>
      show win1_6.index _ 1 * 64 ≤ (i 1).val ∧ (i 1).val < win1_6.index _ 1 * 64 + 64
      rw [h1]; omega

/-- WHAT POINT `t` WRITES BACK to the second output is block `t` of the product with the weight. -/
theorem flushed_xw (c : Dev nD) (t : Fin cfg1.N) :
    (dat1 V c).flushed 7 t = ((cfg1.win 7).blk t).view.read (Elt Ideal) (nextV V c) := by
  obtain ⟨h0, h1⟩ := idx_xw t
  show (cfg1.win 7).cut (grid1.coords t) ((dat1 V c).after 7 t) = _
  rw [after1_7]
  unfold out1_7
  rw [View.canon_unit_zero hz]
  simp only [View.ld_unit_zero (S := S2000x64) hz, View.ld_unit_zero (S := S1x64) hz, View.ld_unit_zero (S := S64x64) hz]
  funext j
  obtain ⟨p, q, rfl⟩ : ∃ (p : Fin 2000) (q : Fin 64), j = ix2 p q := ⟨j 0, j 1, eq_ix2 j⟩
  show k1_pay2 (F := Ideal) (iblk1 V c 0 t) (iblk1 V c 2 t) (iblk1 V c 1 t) (iblk1 V c 3 t) (iblk1 V c 4 t) (iblk1 V c 5 t) (ix2 p q) = nextV V c (((cfg1.win 7).blk t).view.emb (ix2 p q))
  rw [next_at]
  unfold nextV
  have e0 : (⟨2000 * t.val + p.val, by have := lt_N t; omega⟩ : Fin 100000)
      = ⟨((((cfg1.win 7).blk t).view.emb (ix2 p q)) 0).val, ((((cfg1.win 7).blk t).view.emb (ix2 p q)) 0).isLt⟩ :=
    Fin.ext (by show 2000 * t.val + p.val = win1_7.index t 0 * 2000 + 1 * p.val; rw [h0]; omega)
  have e1 : q = ⟨((((cfg1.win 7).blk t).view.emb (ix2 p q)) 1).val, ((((cfg1.win 7).blk t).view.emb (ix2 p q)) 1).isLt⟩ :=
    Fin.ext (by show q.val = win1_7.index t 1 * 64 + 1 * q.val; rw [h1]; omega)
  rw [← e0, ← e1]

theorem mem_xw (t : Fin cfg1.N) (i : S100000x64.Idx) :
    i ∈ ((cfg1.win 7).blk t).view.set ↔ ∀ a : Fin 2, win1_7.index t a * S2000x64.size a ≤ (i a).val ∧ (i a).val < win1_7.index t a * S2000x64.size a + S2000x64.size a := by
  show i ∈ ((View.whole main_v71_1).slice (win1_7.rect t)).set ↔ _
  rw [View.set_slice_whole, Rect.mem_set_unit]
  exact Iff.rfl

/-- THE PRODUCT WITH THE WEIGHT after the region: the 50 row blocks tile the array. -/
theorem final_xw (c : Dev nD) : (dat1 V c).arrAt 7 cfg1.N = nextV V c :=
  (dat1 V c).arrAt_eq_of_cover 7 _ (fun t _ => flushed_xw V c t) fun i => by
    have hi0 : (i 0).val < 100000 := (i 0).isLt
    have hi1 : (i 1).val < 64 := (i 1).isLt
    refine ⟨pointOf (i 0).val (by omega), flush1_7 _, ?_⟩
    obtain ⟨h0, h1⟩ := idx_xw (pointOf (i 0).val (by omega))
    rw [mem_xw]
    intro a
    match a with
    | ⟨0, _⟩ =>
      show win1_7.index _ 0 * 2000 ≤ (i 0).val ∧ (i 0).val < win1_7.index _ 0 * 2000 + 2000
      rw [h0]; show (i 0).val / 2000 * 2000 ≤ (i 0).val ∧ (i 0).val < (i 0).val / 2000 * 2000 + 2000; omega
    | ⟨1, _⟩ =>
      show win1_7.index _ 1 * 64 ≤ (i 1).val ∧ (i 1).val < win1_7.index _ 1 * 64 + 64
      rw [h1]; omega

end Cert.KernelIdeal.Norm1

end
-- ==== Proof.KHostStats.lean ====
/-
  UNTRUSTED — the batch statistics the host computes between two kernels, READ AT AN INDEX at the ideal instance.

  A kernel leaves, per statistic, a `[200, 64]` array: 25 tiles of 8 rows, the 8 rows of tile `t` all holding tile `t`'s
  value for each of the 64 columns. The host reads row `8 t` of every tile (reshape to `[25, 8, 64]`, slice `[0:25, 0:1, 0:64]`,
  reshape to `[25, 64]`), sums the 25 rows (a reduction by addition from 0 over axis 0), divides by the constant 100000 and
  sets the `[64]` result as a row `[1, 64]`. Here: the sum at column `q` is `∑ t < 25, X (8 t, q)`; the mean row at `(0, q)` is
  that sum divided by 100000; the variance row is the second statistic's quotient minus the square of the mean; and a `[64]`
  array set as a row reads its entry.
-/
import proofs.«181908_j1778116460896_2_alg».proof.KernelIdeal
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.HostStats

open Idealize.ShloMosaic Idealize.ShloMosaic.ValueIdx
open Cert.KernelIdeal

/-- The f32 pattern `0x47C35000` is 100000. -/
theorem ofBits_n : Ideal.ofBits .f32 0x47C35000#32 = ((100000 : ℝ) : EReal) := by
  simp [Ideal.ofBits, Ideal.ieee, -EReal.coe_mul]; norm_num

/-- The index that reduces to column `q` at row `t` of a `[25, 64]` array is `(t, q)`. -/
theorem lift_col (hR : S25x64.Reduces [0] S64) (q : Fin 64) (t : Fin (S25x64.size 0)) :
    hR.lift (ix1 q) t = ix2 (n0 := 25) (n1 := 64) t q := by
  funext a
  apply Fin.ext
  match a with
  | ⟨0, _⟩ => rfl
  | ⟨1, _⟩ => rfl

/-- THE TILE SUM AT COLUMN `q`: the sum over the 25 tiles of the statistic's entry in the tile's first row, `X (8 t, q)` (the
    reduction starts from the constant 0, which adds nothing). -/
theorem tileSum_apply (hc1 : S200x64.ShapeCasts S25x8x64) (hs : S25x8x64.Slices ![0, 0, 0] S25x1x64)
    (hc2 : S25x1x64.ShapeCasts S25x64) (hr : S25x64.ReducesTo [0] S64) (hu : 0 < S_.numel)
    (X : FVec Ideal S200x64 .f32) (q : Fin 64) :
    Host.reduceAdd (shapeCast S25x64 (extractStridedSlice S25x1x64 ![0, 0, 0] (shapeCast S25x8x64 X hc1) hs) hc2)
        (constant S_ .f32 0x00000000#32) hr hu (ix1 q)
      = ∑ t : Fin 25, X (ix2 (⟨8 * t.val, by omega⟩ : Fin 200) q) := by
  have hR : S25x64.Reduces [0] S64 := by decide
  unfold Host.reduceAdd
  rw [Ideal.hostReduceAdd_def, Ideal.hostReduceAdd_single hr hR]
  have h0 : constant (F := Ideal) S_ .f32 0x00000000#32 (Shape.Idx.first hu) = (0 : EReal) := Ideal.ofBits_zero_f32
  rw [h0, zero_add]
  refine Finset.sum_congr rfl fun t _ => ?_
  have ht : t.val < 25 := t.isLt
  rw [lift_col hR q t]
  refine (shapeCast_apply _ hc2 (ix2 t q) (ix3 t (0 : Fin 1) q) ?_).trans ?_
  · rw [Shape.rowMajor_val_three, Shape.rowMajor_val_two]
    show (t.val * 1 + 0) * 64 + q.val = t.val * 64 + q.val
    omega
  refine (extractStridedSlice_apply ![0, 0, 0] _ hs (ix3 t (0 : Fin 1) q) (ix3 t (0 : Fin 8) q) ?_).trans ?_
  · intro a
    match a with
    | ⟨0, _⟩ => show t.val = 0 + t.val; omega
    | ⟨1, _⟩ => rfl
    | ⟨2, _⟩ => show q.val = 0 + q.val; omega
  exact shapeCast_apply X hc1 (ix3 t (0 : Fin 8) q) (ix2 (⟨8 * t.val, by omega⟩ : Fin 200) q) (by
    rw [Shape.rowMajor_val_two, Shape.rowMajor_val_three]
    show 8 * t.val * 64 + q.val = (t.val * 8 + 0) * 64 + q.val
    omega)

/-- A `[64]` row set as `[1, 64]`, read at `(0, q)`. -/
theorem row_apply {α : Type} (hc : S64.ShapeCasts S1x64) (x : S64.Idx → α) (q : Fin 64) :
    shapeCast S1x64 x hc (ix2 (0 : Fin 1) q) = x (ix1 q) := shapeCast_a_1a_apply x hc 0 q

/-- THE MEAN ROW AT `(0, q)`: the column's sum divided by 100000. -/
theorem mean_apply (hc : S64.ShapeCasts S1x64) (hb : S_.BroadcastsInDim S64 (![] : Fin 0 → Fin S64.rank))
    (S : FVec Ideal S64 .f32) (q : Fin 64) :
    shapeCast S1x64 (Host.divf S (broadcastInDim S64 ![] hb (constant S_ .f32 0x47C35000#32))) hc (ix2 (0 : Fin 1) q)
      = Ideal.div (S (ix1 q)) ((100000 : ℝ) : EReal) := by
  rw [row_apply]
  show Ideal.div (S (ix1 q)) (Ideal.ofBits .f32 0x47C35000#32) = _
  rw [ofBits_n]

/-- THE VARIANCE ROW AT `(0, q)`: the column's sum of squares divided by 100000, minus the square of the mean. -/
theorem var_apply (hc : S64.ShapeCasts S1x64) (hb : S_.BroadcastsInDim S64 (![] : Fin 0 → Fin S64.rank))
    (S2 M : FVec Ideal S64 .f32) (q : Fin 64) :
    shapeCast S1x64 (subf (Host.divf S2 (broadcastInDim S64 ![] hb (constant S_ .f32 0x47C35000#32))) (mulf M M)) hc
        (ix2 (0 : Fin 1) q)
      = Ideal.div (S2 (ix1 q)) ((100000 : ℝ) : EReal) - M (ix1 q) * M (ix1 q) := by
  rw [row_apply]
  show Ideal.div (S2 (ix1 q)) (Ideal.ofBits .f32 0x47C35000#32) - M (ix1 q) * M (ix1 q) = _
  rw [ofBits_n]

variable [Cert.KernelIdeal.Facts]
open Cert.KernelIdeal.Facts₀ Cert.KernelIdeal.Facts

/-- The row of tile sums of a statistic array, as the host computes it. -/
def sumRow (X : FVec Ideal S200x64 .f32) : FVec Ideal S64 .f32 :=
  Host.reduceAdd (shapeCast S25x64 (extractStridedSlice S25x1x64 ![0, 0, 0] (shapeCast S25x8x64 X shapeCasts_S200x64_S25x8x64)
      slices_S25x8x64_S25x1x64_0_0_0) shapeCasts_S25x1x64_S25x64)
    (constant S_ .f32 0x00000000#32) reducesTo_S25x64_S64_d0 h_S_

/-- The divisor 100000 spread over the 64 columns. -/
def nRow : FVec Ideal S64 .f32 := broadcastInDim S64 ![] bcast_S_S64 (constant S_ .f32 0x47C35000#32)

/-- The row of tile sums at column `q`: `∑ t < 25, X (8 t, q)`. -/
theorem sumRow_apply (X : FVec Ideal S200x64 .f32) (q : Fin 64) :
    sumRow X (ix1 q) = ∑ t : Fin 25, X (ix2 (⟨8 * t.val, by omega⟩ : Fin 200) q) :=
  tileSum_apply _ _ _ _ _ X q

/-- The mean row of a statistic at `(0, q)`: its tile sums' total divided by 100000. -/
theorem meanRow_apply (X : FVec Ideal S200x64 .f32) (q : Fin 64) :
    shapeCast S1x64 (Host.divf (sumRow X) nRow) shapeCasts_S64_S1x64 (ix2 (0 : Fin 1) q)
      = Ideal.div (∑ t : Fin 25, X (ix2 (⟨8 * t.val, by omega⟩ : Fin 200) q)) ((100000 : ℝ) : EReal) := by
  unfold nRow
  rw [mean_apply, sumRow_apply]

/-- The variance row at `(0, q)`: the second statistic's total divided by 100000, minus the square of the mean. -/
theorem varRow_apply (X1 X2 : FVec Ideal S200x64 .f32) (q : Fin 64) :
    shapeCast S1x64 (subf (Host.divf (sumRow X2) nRow) (mulf (Host.divf (sumRow X1) nRow) (Host.divf (sumRow X1) nRow)))
        shapeCasts_S64_S1x64 (ix2 (0 : Fin 1) q)
      = Ideal.div (∑ t : Fin 25, X2 (ix2 (⟨8 * t.val, by omega⟩ : Fin 200) q)) ((100000 : ℝ) : EReal)
        - shapeCast S1x64 (Host.divf (sumRow X1) nRow) shapeCasts_S64_S1x64 (ix2 (0 : Fin 1) q)
          * shapeCast S1x64 (Host.divf (sumRow X1) nRow) shapeCasts_S64_S1x64 (ix2 (0 : Fin 1) q) := by
  rw [row_apply shapeCasts_S64_S1x64 (Host.divf (sumRow X1) nRow) q]
  unfold nRow
  rw [var_apply, sumRow_apply]

end Cert.KernelIdeal.HostStats

end
-- ==== Proof.KHost1.lean ====
/-
  UNTRUSTED — the host operations between the first and the second kernel, READ AT AN INDEX at the ideal instance.

  From the first kernel's two statistic arrays (per tile and column: the sum of the activations, and the sum of their squares;
  each a `[200, 64]` array whose rows `8 t … 8 t + 7` hold tile `t`'s values) the host computes the batch-normalisation rows:
  the mean row `[1, 64]` — the 25 tile sums added up and divided by 100000 — and the variance row — the same for the squares,
  minus the square of the mean; and it sets the scale and shift vectors as rows `[1, 64]`. For ARBITRARY contents `W` at the
  stretch's entry, the contents `A b` after the stretch satisfy: the mean row at `(0, q)` is `(∑ t < 25, S₁ (8 t, q)) / 100000`, the
  variance row is `(∑ t < 25, S₂ (8 t, q)) / 100000 − mean²`, and the scale and shift rows read the vectors' entries.
-/
import proofs.«181908_j1778116460896_2_alg».proof.Proof.Gen.KernelIdeal.Launch
import proofs.«181908_j1778116460896_2_alg».proof.Proof.KHostStats
import Idealize.ShloMosaic.Lib.StableHlo.Run

set_option maxRecDepth 3404

noncomputable section

open scoped BigOperators

namespace Cert.KernelIdeal.Host1

open Idealize.ShloMosaic Idealize.ShloMosaic.TcCoe Idealize.ShloMosaic.ValueIdx Idealize.ShloMosaic.StableHlo
open Cert.KernelIdeal Cert.KernelIdeal.Gen Cert.KernelIdeal.HostStats

variable [Cert.KernelIdeal.Facts]
open Cert.KernelIdeal.Facts₀

variable (W : Valuation τ sig (Elt Ideal))

/-- The contents of TensorCore buffer `b` after the stretch, from the contents `W` at its entry. -/
abbrev A (b : Ref sig .tc) : (Proc.devRef (τ := τ) .tc b).ty.Contents (Elt Ideal) :=
  StableHlo.after (hostOps1 (F := Ideal)) W (Proc.devRef .tc b)

/-- The mean row is the first statistic's tile sums divided by the divisor row, set as a row. -/
theorem term_mean : (A W main_v67 : S1x64.Idx → EReal)
    = shapeCast S1x64 (Host.divf (sumRow (W main_v52_1)) nRow) Facts₀.shapeCasts_S64_S1x64 := by
  show StableHlo.after hostOps1 W (Proc.devRef .tc main_v67) = _
  after_results_simp
  rfl

/-- The variance row is the second statistic's quotient minus the square of the mean vector, set as a row. -/
theorem term_var : (A W main_v68 : S1x64.Idx → EReal)
    = shapeCast S1x64 (subf (Host.divf (sumRow (W main_v52_2)) nRow)
        (mulf (Host.divf (sumRow (W main_v52_1)) nRow) (Host.divf (sumRow (W main_v52_1)) nRow))) Facts₀.shapeCasts_S64_S1x64 := by
  show StableHlo.after hostOps1 W (Proc.devRef .tc main_v68) = _
  after_results_simp
  rfl

/-- The scale row is the scale vector set as a row. -/
theorem term_gamma : (A W main_v69 : S1x64.Idx → EReal) = shapeCast S1x64 (W main_arg7 : S64.Idx → EReal) Facts₀.shapeCasts_S64_S1x64 := by
  show StableHlo.after hostOps1 W (Proc.devRef .tc main_v69) = _
  after_results_simp
  rfl

/-- The shift row is the shift vector set as a row. -/
theorem term_beta : (A W main_v70 : S1x64.Idx → EReal) = shapeCast S1x64 (W main_arg8 : S64.Idx → EReal) Facts₀.shapeCasts_S64_S1x64 := by
  show StableHlo.after hostOps1 W (Proc.devRef .tc main_v70) = _
  after_results_simp
  rfl

/-- THE MEAN ROW AT `(0, q)`: the sum over the 25 tiles of the first statistic's entry `(8 t, q)`, divided by 100000. -/
theorem mean_eq (q : Fin 64) :
    (A W main_v67 : S1x64.Idx → EReal) (ix2 (0 : Fin 1) q)
      = Ideal.div (∑ t : Fin 25, (W main_v52_1 : S200x64.Idx → EReal) (ix2 (⟨8 * t.val, by omega⟩ : Fin 200) q))
          ((100000 : ℝ) : EReal) := by
  rw [term_mean, meanRow_apply]

/-- THE VARIANCE ROW AT `(0, q)`: the sum over the 25 tiles of the second statistic's entry `(8 t, q)`, divided by 100000,
    minus the square of the mean row's entry (the first statistic's sum divided by 100000). -/
theorem var_eq (q : Fin 64) :
    (A W main_v68 : S1x64.Idx → EReal) (ix2 (0 : Fin 1) q)
      = Ideal.div (∑ t : Fin 25, (W main_v52_2 : S200x64.Idx → EReal) (ix2 (⟨8 * t.val, by omega⟩ : Fin 200) q))
          ((100000 : ℝ) : EReal)
        - Ideal.div (∑ t : Fin 25, (W main_v52_1 : S200x64.Idx → EReal) (ix2 (⟨8 * t.val, by omega⟩ : Fin 200) q))
            ((100000 : ℝ) : EReal)
          * Ideal.div (∑ t : Fin 25, (W main_v52_1 : S200x64.Idx → EReal) (ix2 (⟨8 * t.val, by omega⟩ : Fin 200) q))
            ((100000 : ℝ) : EReal) := by
  rw [term_var, varRow_apply, meanRow_apply]

/-- The same with the mean row's entry named: if the mean row at `(0, q)` is `μ`, the variance row there is the second
    statistic's quotient minus `μ²`. -/
theorem var_eq_of_mean (q : Fin 64) (μ : EReal) (hμ : (A W main_v67 : S1x64.Idx → EReal) (ix2 (0 : Fin 1) q) = μ) :
    (A W main_v68 : S1x64.Idx → EReal) (ix2 (0 : Fin 1) q)
      = Ideal.div (∑ t : Fin 25, (W main_v52_2 : S200x64.Idx → EReal) (ix2 (⟨8 * t.val, by omega⟩ : Fin 200) q))
          ((100000 : ℝ) : EReal) - μ * μ := by
  rw [var_eq, ← hμ, mean_eq]

/-- THE SCALE ROW AT `(0, q)`: the scale vector's entry `q`. -/
theorem gamma_eq (q : Fin 64) :
    (A W main_v69 : S1x64.Idx → EReal) (ix2 (0 : Fin 1) q) = (W main_arg7 : S64.Idx → EReal) (ix1 q) := by
  rw [term_gamma, row_apply]

/-- THE SHIFT ROW AT `(0, q)`: the shift vector's entry `q`. -/
theorem beta_eq (q : Fin 64) :
    (A W main_v70 : S1x64.Idx → EReal) (ix2 (0 : Fin 1) q) = (W main_arg8 : S64.Idx → EReal) (ix1 q) := by
  rw [term_beta, row_apply]

end Cert.KernelIdeal.Host1

end
-- ==== Proof.KChain2.lean ====
/-
  The kernel program's buffers as functions of the arguments, part 2: the second host stretch and the second region.
  The stretch adds up each statistic's 25 tile rows and divides by the node count: the column mean and variance of the
  first layer's activations, tile by tile; it also lays the first scale and shift as rows. The second region finds
  these with the activations and the second weight, so it leaves the first layer's normalised activations and their
  product with the second weight.
-/
import proofs.«181908_j1778116460896_2_alg».proof.Proof.KChain1
import proofs.«181908_j1778116460896_2_alg».proof.Proof.K1Arrays
import proofs.«181908_j1778116460896_2_alg».proof.Proof.KHost1

set_option maxRecDepth 16384

noncomputable section

namespace Cert.KernelIdeal.Chain

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg) (c : Dev nD)

abbrev aG1 : S64.Idx → EReal := m ((c : Thread nD τ).loc main_arg7)
abbrev aBe1 : S64.Idx → EReal := m ((c : Thread nD τ).loc main_arg8)
abbrev aW2 : S64x64.Idx → EReal := m ((c : Thread nD τ).loc main_arg5)

/-- Tile `t`'s statistic row `8 t` sums tile `t`. -/
theorem tile_row (t : Fin 25) (p : Fin 4000) (h : 4000 * (8 * t.val / 8) + p.val < 100000) :
    (⟨4000 * (8 * t.val / 8) + p.val, h⟩ : Fin 100000) = ⟨4000 * t.val + p.val, by omega⟩ :=
  Fin.ext (by show 4000 * (8 * t.val / 8) + p.val = 4000 * t.val + p.val; omega)

/-- THE MEAN ROW the second region finds: the column mean of the first layer's activations, tile by tile. -/
theorem mean1_at (q : Fin 64) :
    @Eq EReal ((W3 m ρ c (Proc.devRef .tc main_v67) : S1x64.Idx → EReal) (ix2 (0 : Fin 1) q)) (Cert.Spec.meanK (a1 m c) q) := by
  refine (Host1.mean_eq (W2 m ρ c) q).trans ?_
  unfold Cert.Spec.meanK
  rw [zero_add]
  refine congrArg (fun s : EReal => Ideal.div s Cert.Spec.nodes) ?_
  refine Finset.sum_congr rfl fun t _ => ?_
  refine (sum1_at m ρ c ⟨8 * t.val, by omega⟩ q).trans ?_
  exact Finset.sum_congr rfl fun p _ => by rw [tile_row]

/-- THE VARIANCE ROW the second region finds: mean square minus squared mean, the squares summed tile by tile. -/
theorem var1_at (q : Fin 64) :
    @Eq EReal ((W3 m ρ c (Proc.devRef .tc main_v68) : S1x64.Idx → EReal) (ix2 (0 : Fin 1) q)) (Cert.Spec.varK (a1 m c) q) := by
  refine (Host1.var_eq_of_mean (W2 m ρ c) q (Cert.Spec.meanK (a1 m c) q) (mean1_at m ρ c q)).trans ?_
  unfold Cert.Spec.varK
  rw [zero_add]
  refine congrArg (fun s : EReal => Ideal.div s Cert.Spec.nodes - Cert.Spec.meanK (a1 m c) q * Cert.Spec.meanK (a1 m c) q) ?_
  refine Finset.sum_congr rfl fun t _ => ?_
  refine (sumsq1_at m ρ c ⟨8 * t.val, by omega⟩ q).trans ?_
  exact Finset.sum_congr rfl fun p _ => by rw [tile_row]

/-- The scale row the second region finds is the first scale. -/
theorem g1_at (q : Fin 64) : @Eq EReal ((W3 m ρ c (Proc.devRef .tc main_v69) : S1x64.Idx → EReal) (ix2 (0 : Fin 1) q)) (aG1 m c (ix1 q)) := by
  refine (Host1.gamma_eq (W2 m ρ c) q).trans ?_
  rw [Trace.arg2 m ρ c main_arg7 (by decide) (by decide)]

/-- The shift row the second region finds is the first shift. -/
theorem be1_at (q : Fin 64) : @Eq EReal ((W3 m ρ c (Proc.devRef .tc main_v70) : S1x64.Idx → EReal) (ix2 (0 : Fin 1) q)) (aBe1 m c (ix1 q)) := by
  refine (Host1.beta_eq (W2 m ρ c) q).trans ?_
  rw [Trace.arg2 m ρ c main_arg8 (by decide) (by decide)]

/-- The activations the second region finds are the first region's. -/
theorem a1_at3 (n : Fin 100000) (q : Fin 64) :
    (W3 m ρ c (Proc.devRef .tc main_v52_0) : S100000x64.Idx → EReal) (ix2 n q) = a1 m c n q := by
  rw [Trace.step23 m ρ c (b := main_v52_0) (by decide)]
  exact a1_at m ρ c n q

/-- The weight the second region finds is the second weight. -/
theorem w2_at (i : S64x64.Idx) : (W3 m ρ c (Proc.devRef .tc main_v45) : S64x64.Idx → EReal) i = aW2 m c i := by
  rw [Trace.to3 m ρ c main_v45 (by decide) (by decide)]
  exact congrFun (Host0.w2_eq (W0 m ρ c)) i

/-- The region's normalisation of one entry is the shared one. -/
theorem normOf_eq (a mu var gamma beta : EReal) : Norm1.normOf a mu var gamma beta = Cert.Spec.normOf a mu var gamma beta := rfl

/-- The first layer's normalised activations, in the kernel's form, of the arguments. -/
abbrev h1 : Fin 100000 → Fin 64 → EReal := Cert.Spec.h1 (a1 m c) Cert.Spec.meanK Cert.Spec.varK (aG1 m c) (aBe1 m c)

/-- The second region's normalisation at node `n`, column `q`. -/
theorem norm_at' (n : Fin 100000) (q : Fin 64) :
    Norm1.normAt (V3 m ρ c main_v52_0) (V3 m ρ c main_v67) (V3 m ρ c main_v68) (V3 m ρ c main_v69) (V3 m ρ c main_v70) n q = h1 m c n q := by
  show Norm1.normOf _ _ _ _ _ = Cert.Spec.normOf _ _ _ _ _
  rw [normOf_eq]
  exact congr (congr (congr (congr (congrArg Cert.Spec.normOf (a1_at3 m ρ c n q)) (mean1_at m ρ c q)) (var1_at m ρ c q)) (g1_at m ρ c q)) (be1_at m ρ c q)

/-- THE NORMALISED ACTIVATIONS after the second region. -/
theorem h1_at (n : Fin 100000) (q : Fin 64) :
    (W4 m ρ c (Proc.devRef .tc main_v71_0) : S100000x64.Idx → EReal) (ix2 n q) = h1 m c n q := by
  have h : (W4 m ρ c (Proc.devRef .tc main_v71_0) : S100000x64.Idx → EReal) = Norm1.normV (V3 m ρ) c :=
    (Trace.out1_at4 m ρ c 6).trans (Norm1.final_h (V3 m ρ) c)
  rw [h]
  exact norm_at' m ρ c n q

/-- THEIR PRODUCT WITH THE SECOND WEIGHT after the second region. -/
theorem xw2_at (n : Fin 100000) (q : Fin 64) :
    @Eq EReal ((W4 m ρ c (Proc.devRef .tc main_v71_1) : S100000x64.Idx → EReal) (ix2 n q))
      (Cert.Spec.xw2 (a1 m c) Cert.Spec.meanK Cert.Spec.varK (aG1 m c) (aBe1 m c) (aW2 m c) n q) := by
  have h : (W4 m ρ c (Proc.devRef .tc main_v71_1) : S100000x64.Idx → EReal) = Norm1.nextV (V3 m ρ) c :=
    (Trace.out1_at4 m ρ c 7).trans (Norm1.final_xw (V3 m ρ) c)
  rw [h]
  show (∑ k : Fin 64, Norm1.normAt (V3 m ρ c main_v52_0) (V3 m ρ c main_v67) (V3 m ρ c main_v68) (V3 m ρ c main_v69) (V3 m ρ c main_v70) n k
      * (V3 m ρ c main_v45 : S64x64.Idx → EReal) (ix2 k q) : EReal) = _
  unfold Cert.Spec.xw2
  exact Finset.sum_congr rfl fun k _ => congrArg₂ (fun a b : EReal => a * b) (norm_at' m ρ c n k) (w2_at m ρ c (ix2 k q))

end Cert.KernelIdeal.Chain

end
-- ==== Proof.K2Payload.lean ====
/-
  The third region's body at one element. Its block of the pre-activations is a 4000 × 64 tile `g`, the bias a
  1 × 64 row `b`. The stored activation at row `p`, column `q` is `max (g p q + b 0 q) 0`; the two statistics the
  body also stores are, in every one of their eight rows, the column's sum of the activations over the tile's 4000
  rows, and of their squares.
-/
import proofs.«181908_j1778116460896_2_alg».proof.Proof.Gen.KernelIdeal.Skeleton
import proofs.«181908_j1778116460896_2_alg».proof.Proof.K0Payload

noncomputable section

namespace Cert.KernelIdeal.Layer2Act

open Idealize.ShloMosaic Idealize.ShloMosaic.ValueIdx Cert.KernelIdeal Cert.KernelIdeal.Gen

/-- The stored activation at row `p`, column `q` of the tile: the pre-activation plus the column's bias, cut at zero. -/
theorem activation_apply (g : Vec Ideal S4000x64 .f32) (b : Vec Ideal S1x64 .f32) (p : Fin 4000) (q : Fin 64) :
    k2_pay1 (F := Ideal) g b (ix2 p q) = max (g (ix2 p q) + b (ix2 0 q)) 0 := by
  unfold k2_pay1
  simp only [shapeCast_self]
  rw [maximumf_apply, addf_apply, Cert.KernelIdeal.Layer1.bias_apply, broadcast_apply]
  show max _ (Ideal.ofBits .f32 0x00000000#32) = _
  rw [Ideal.ofBits_zero_f32]

/-- The first statistic at any of its eight rows: the column's sum of the tile's activations. -/
theorem sum_apply (g : Vec Ideal S4000x64 .f32) (b : Vec Ideal S1x64 .f32) (r : Fin 8) (q : Fin 64) :
    k2_pay2 (F := Ideal) g b (ix2 r q) = ∑ p : Fin 4000, k2_pay1 (F := Ideal) g b (ix2 p q) := by
  unfold k2_pay2
  exact Cert.KernelIdeal.Layer1.colsum_apply _ rfl r q

/-- The second statistic at any of its eight rows: the column's sum of the squares of the tile's activations. -/
theorem sumsq_apply (g : Vec Ideal S4000x64 .f32) (b : Vec Ideal S1x64 .f32) (r : Fin 8) (q : Fin 64) :
    k2_pay3 (F := Ideal) g b (ix2 r q)
      = ∑ p : Fin 4000, k2_pay1 (F := Ideal) g b (ix2 p q) * k2_pay1 (F := Ideal) g b (ix2 p q) := by
  unfold k2_pay3
  exact Cert.KernelIdeal.Layer1.colsum_apply _ rfl r q

end Cert.KernelIdeal.Layer2Act

end
-- ==== Proof.K2Arrays.lean ====
/-
  The third region's three output arrays as functions of the arrays it finds. The region runs its body at 25 grid
  points; point `t` reads rows `4000 t … 4000 t + 3999` of the pre-activations (the bias row whole) and writes rows
  `4000 t …` of the activations and rows `8 t … 8 t + 7` of each statistic. The blocks tile their arrays, so after the
  run the activation array is `max (g + b) 0` entry by entry, and row `r` of each statistic holds, per column, the sum
  over the rows of tile `r / 8` of the activations, and of their squares.
-/
import proofs.«181908_j1778116460896_2_alg».proof.Proof.Gen.KernelIdeal.Frame
import proofs.«181908_j1778116460896_2_alg».proof.Proof.K2Payload
import proofs.«181908_j1778116460896_2_alg».proof.Proof.K0Arrays

set_option maxRecDepth 16384

noncomputable section

namespace Cert.KernelIdeal.Layer2Act

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open Cert.KernelIdeal.Layer1 (tileSum)

variable (V : (c : Dev nD) → (b : Ref sig .tc) → Buf (Elt Ideal) ((c : Thread nD τ).loc b))

theorem hz : (![0, 0] : Fin 2 → Nat) = fun _ => 0 := funext fun a => by fin_cases a <;> rfl

/-- The activation at row `p`, column `q`: the pre-activation plus the column's bias, cut at zero. -/
def reluAt (g : S100000x64.Idx → EReal) (b : S1x64.Idx → EReal) (p : Fin 100000) (q : Fin 64) : EReal :=
  max (g (ix2 p q) + b (ix2 0 q)) 0

/-- The activation array. -/
def relu (g : S100000x64.Idx → EReal) (b : S1x64.Idx → EReal) : S100000x64.Idx → EReal :=
  fun i => reluAt g b ⟨(i 0).val, (i 0).isLt⟩ ⟨(i 1).val, (i 1).isLt⟩

/-- The activation array's function of the arrays the region finds. -/
abbrev reluV (c : Dev nD) : S100000x64.Idx → EReal := relu (V c main_v88) (V c main_v89)

/-- The printed index maps over the grid: the row-tiled windows move with the point, the bias row stays. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- The pre-activation block at point `t` is rows `4000 t …` of the pre-activation array. -/
theorem pre_apply (c : Dev nD) (t : Fin cfg2.N) (x : S4000x64.Idx) (k : S100000x64.Idx)
    (hk0 : (k 0).val = 4000 * t.val + (x 0).val) (hk1 : (k 1).val = (x 1).val) :
    (iblk2 V c 0 t : Vec Ideal S4000x64 .f32) x = (V c main_v88 : S100000x64.Idx → EReal) k := by
  obtain ⟨h0, h1, -⟩ := idx_facts t
  unfold iblk2
  rw [View.read_apply]
  show V c main_v88 _ = V c main_v88 _
  congr 1
  funext a
  apply Fin.ext
  match a with
  | ⟨0, _⟩ => show win2_0.index t 0 * 4000 + 1 * (x 0).val = (k 0).val; rw [h0, hk0]; omega
  | ⟨1, _⟩ => show win2_0.index t 1 * 64 + 1 * (x 1).val = (k 1).val; rw [h1, hk1]; omega

/-- The bias block at every point is the bias row. -/
theorem bias_blk_apply (c : Dev nD) (t : Fin cfg2.N) (x : S1x64.Idx) :
    (iblk2 V c 1 t : Vec Ideal S1x64 .f32) x = (V c main_v89 : S1x64.Idx → EReal) x := by
  obtain ⟨-, -, h0, h1, -⟩ := idx_facts t
  unfold iblk2
  rw [View.read_apply]
  show V c main_v89 _ = V c main_v89 _
  congr 1
  funext a
  apply Fin.ext
  match a with
  | ⟨0, _⟩ => show win2_1.index t 0 * 1 + 1 * (x 0).val = (x 0).val; rw [h0]; omega
  | ⟨1, _⟩ => show win2_1.index t 1 * 64 + 1 * (x 1).val = (x 1).val; rw [h1]; omega

theorem lt_N (t : Fin cfg2.N) : t.val < 25 := lt_of_lt_of_eq t.isLt (show cfg2.N = 25 from N_2)

/-- The body's activation at point `t`, tile row `p`, column `q` is the array's activation at row `4000 t + p`. -/
theorem pay_at (c : Dev nD) (t : Fin cfg2.N) (p : Fin 4000) (q : Fin 64) :
    k2_pay1 (F := Ideal) (iblk2 V c 0 t) (iblk2 V c 1 t) (ix2 p q)
      = reluAt (V c main_v88) (V c main_v89) ⟨4000 * t.val + p.val, by have := lt_N t; omega⟩ q := by
  refine (activation_apply _ _ p q).trans ?_
  unfold reluAt
  congr 1
  congr 1
  · exact pre_apply V c t (ix2 p q) (ix2 ⟨4000 * t.val + p.val, by have := lt_N t; omega⟩ q) rfl rfl
  · exact bias_blk_apply V c t (ix2 0 q)

/-- WHAT POINT `t` WRITES BACK to the activation array is block `t` of the activation array's function. -/
theorem flushed_act (c : Dev nD) (t : Fin cfg2.N) :
    (dat2 V c).flushed 2 t = ((cfg2.win 2).blk t).view.read (Elt Ideal) (reluV V c) := by
  obtain ⟨-, -, -, -, h0, h1, -⟩ := idx_facts t
  show (cfg2.win 2).cut (grid2.coords t) ((dat2 V c).after 2 t) = _
  rw [after2_2]
  unfold out2_2
  rw [View.canon_unit_zero hz]
  simp only [View.ld_unit_zero (S := S4000x64) hz, View.ld_unit_zero (S := S1x64) hz]
  funext j
  obtain ⟨p, q, rfl⟩ : ∃ (p : Fin 4000) (q : Fin 64), j = ix2 p q := ⟨j 0, j 1, eq_ix2 j⟩
  show k2_pay1 (F := Ideal) (iblk2 V c 0 t) (iblk2 V c 1 t) (ix2 p q)
    = relu (V c main_v88) (V c main_v89) (((cfg2.win 2).blk t).view.emb (ix2 p q))
  rw [pay_at]
  unfold relu
  congr 1
  · apply Fin.ext
    show 4000 * t.val + p.val = win2_2.index t 0 * 4000 + 1 * p.val
    rw [h0]; omega
  · apply Fin.ext
    show q.val = win2_2.index t 1 * 64 + 1 * q.val
    rw [h1]; omega

/-- WHAT POINT `t` WRITES BACK to a statistic whose body stores the column sums of `f` of the activations. -/
theorem flushed_stat (c : Dev nD) (t : Fin cfg2.N) (f : EReal → EReal)
    (pay : Vec Ideal S4000x64 .f32 → Vec Ideal S1x64 .f32 → FVec Ideal S8x64 .f32)
    (hpay : ∀ g b (r : Fin 8) (q : Fin 64), pay g b (ix2 r q) = ∑ p : Fin 4000, f (k2_pay1 (F := Ideal) g b (ix2 p q)))
    (emb : S8x64.Idx → S200x64.Idx) (h0 : ∀ r q, (emb (ix2 r q) 0).val = 8 * t.val + r.val) (h1 : ∀ r q, (emb (ix2 r q) 1).val = q.val)
    (r : Fin 8) (q : Fin 64) :
    pay (iblk2 V c 0 t) (iblk2 V c 1 t) (ix2 r q)
      = tileSum (fun i => f (relu (V c main_v88) (V c main_v89) i)) (emb (ix2 r q)) := by
  rw [hpay]
  unfold tileSum
  refine Finset.sum_congr rfl fun p _ => ?_
  rw [pay_at]
  unfold relu
  congr 2
  · apply Fin.ext
    show 4000 * t.val + p.val = 4000 * ((emb (ix2 r q) 0).val / 8) + p.val
    rw [h0]; have := r.isLt; omega
  · apply Fin.ext
    show q.val = (emb (ix2 r q) 1).val
    rw [h1]

/-- WHAT POINT `t` WRITES BACK to the first statistic: block `t` of the tile sums of the activations. -/
theorem flushed_sum (c : Dev nD) (t : Fin cfg2.N) :
    (dat2 V c).flushed 3 t = ((cfg2.win 3).blk t).view.read (Elt Ideal) (tileSum (fun i => reluV V c i)) := by
  obtain ⟨-, -, -, -, -, -, h0, h1, -⟩ := idx_facts t
  show (cfg2.win 3).cut (grid2.coords t) ((dat2 V c).after 3 t) = _
  rw [after2_3]
  unfold out2_3
  rw [View.canon_unit_zero hz]
  simp only [View.ld_unit_zero (S := S4000x64) hz, View.ld_unit_zero (S := S1x64) hz]
  funext j
  obtain ⟨r, q, rfl⟩ : ∃ (r : Fin 8) (q : Fin 64), j = ix2 r q := ⟨j 0, j 1, eq_ix2 j⟩
  exact flushed_stat V c t (fun x => x) k2_pay2 (fun g b r q => sum_apply g b r q) (((cfg2.win 3).blk t).view.emb)
    (fun r q => by show win2_3.index t 0 * 8 + 1 * r.val = _; rw [h0]; omega)
    (fun r q => by show win2_3.index t 1 * 64 + 1 * q.val = _; rw [h1]; omega) r q

/-- WHAT POINT `t` WRITES BACK to the second statistic: block `t` of the tile sums of the squared activations. -/
theorem flushed_sumsq (c : Dev nD) (t : Fin cfg2.N) :
    (dat2 V c).flushed 4 t = ((cfg2.win 4).blk t).view.read (Elt Ideal) (tileSum (fun i => reluV V c i * reluV V c i)) := by
  obtain ⟨-, -, -, -, -, -, -, -, h0, h1⟩ := idx_facts t
  show (cfg2.win 4).cut (grid2.coords t) ((dat2 V c).after 4 t) = _
  rw [after2_4]
  unfold out2_4
  rw [View.canon_unit_zero hz]
  simp only [View.ld_unit_zero (S := S4000x64) hz, View.ld_unit_zero (S := S1x64) hz]
  funext j
  obtain ⟨r, q, rfl⟩ : ∃ (r : Fin 8) (q : Fin 64), j = ix2 r q := ⟨j 0, j 1, eq_ix2 j⟩
  exact flushed_stat V c t (fun x => x * x) k2_pay3 (fun g b r q => sumsq_apply g b r q) (((cfg2.win 4).blk t).view.emb)
    (fun r q => by show win2_4.index t 0 * 8 + 1 * r.val = _; rw [h0]; omega)
    (fun r q => by show win2_4.index t 1 * 64 + 1 * q.val = _; rw [h1]; omega) r q

/-- An index of the activation array is in point `t`'s block iff each coordinate is in the block's range. -/
theorem mem_act (t : Fin cfg2.N) (i : S100000x64.Idx) :
    i ∈ ((cfg2.win 2).blk t).view.set ↔ ∀ a : Fin 2, win2_2.index t a * S4000x64.size a ≤ (i a).val ∧ (i a).val < win2_2.index t a * S4000x64.size a + S4000x64.size a := by
  show i ∈ ((View.whole main_v90_0).slice (win2_2.rect t)).set ↔ _
  rw [View.set_slice_whole, Rect.mem_set_unit]
  exact Iff.rfl
theorem mem_sum (t : Fin cfg2.N) (i : S200x64.Idx) :
    i ∈ ((cfg2.win 3).blk t).view.set ↔ ∀ a : Fin 2, win2_3.index t a * S8x64.size a ≤ (i a).val ∧ (i a).val < win2_3.index t a * S8x64.size a + S8x64.size a := by
  show i ∈ ((View.whole main_v90_1).slice (win2_3.rect t)).set ↔ _
  rw [View.set_slice_whole, Rect.mem_set_unit]
  exact Iff.rfl
theorem mem_sumsq (t : Fin cfg2.N) (i : S200x64.Idx) :
    i ∈ ((cfg2.win 4).blk t).view.set ↔ ∀ a : Fin 2, win2_4.index t a * S8x64.size a ≤ (i a).val ∧ (i a).val < win2_4.index t a * S8x64.size a + S8x64.size a := by
  show i ∈ ((View.whole main_v90_2).slice (win2_4.rect t)).set ↔ _
  rw [View.set_slice_whole, Rect.mem_set_unit]
  exact Iff.rfl

/-- The point whose blocks hold array row `n` of a window tiled by `s` rows. -/
def pointOf (s n : Nat) (h : n / s < 25) : Fin cfg2.N := ⟨n / s, lt_of_lt_of_eq h (show cfg2.N = 25 from N_2).symm⟩

/-- THE ACTIVATION ARRAY after the region: the 25 row blocks tile it. -/
theorem final_act (c : Dev nD) : (dat2 V c).arrAt 2 cfg2.N = reluV V c :=
  (dat2 V c).arrAt_eq_of_cover 2 _ (fun t _ => flushed_act V c t) fun i => by
    have hi0 : (i 0).val < 100000 := (i 0).isLt
    have hi1 : (i 1).val < 64 := (i 1).isLt
    refine ⟨pointOf 4000 (i 0).val (by omega), flush2_2 _, ?_⟩
    obtain ⟨-, -, -, -, h0, h1, -⟩ := idx_facts (pointOf 4000 (i 0).val (by omega))
    rw [mem_act]
    intro a
    match a with
    | ⟨0, _⟩ =>
      show win2_2.index _ 0 * 4000 ≤ (i 0).val ∧ (i 0).val < win2_2.index _ 0 * 4000 + 4000
      rw [h0]; show (i 0).val / 4000 * 4000 ≤ (i 0).val ∧ (i 0).val < (i 0).val / 4000 * 4000 + 4000; omega
    | ⟨1, _⟩ =>
      show win2_2.index _ 1 * 64 ≤ (i 1).val ∧ (i 1).val < win2_2.index _ 1 * 64 + 64
      rw [h1]; omega

/-- THE FIRST STATISTIC after the region: row `r` holds the column sums of the activations over tile `r / 8`. -/
theorem final_sum (c : Dev nD) : (dat2 V c).arrAt 3 cfg2.N = tileSum (fun i => reluV V c i) :=
  (dat2 V c).arrAt_eq_of_cover 3 _ (fun t _ => flushed_sum V c t) fun i => by
    have hi0 : (i 0).val < 200 := (i 0).isLt
    have hi1 : (i 1).val < 64 := (i 1).isLt
    refine ⟨pointOf 8 (i 0).val (by omega), flush2_3 _, ?_⟩
    obtain ⟨-, -, -, -, -, -, h0, h1, -⟩ := idx_facts (pointOf 8 (i 0).val (by omega))
    rw [mem_sum]
    intro a
    match a with
    | ⟨0, _⟩ =>
      show win2_3.index _ 0 * 8 ≤ (i 0).val ∧ (i 0).val < win2_3.index _ 0 * 8 + 8
      rw [h0]; show (i 0).val / 8 * 8 ≤ (i 0).val ∧ (i 0).val < (i 0).val / 8 * 8 + 8; omega
    | ⟨1, _⟩ =>
      show win2_3.index _ 1 * 64 ≤ (i 1).val ∧ (i 1).val < win2_3.index _ 1 * 64 + 64
      rw [h1]; omega

/-- THE SECOND STATISTIC after the region: the same of the squared activations. -/
theorem final_sumsq (c : Dev nD) : (dat2 V c).arrAt 4 cfg2.N = tileSum (fun i => reluV V c i * reluV V c i) :=
  (dat2 V c).arrAt_eq_of_cover 4 _ (fun t _ => flushed_sumsq V c t) fun i => by
    have hi0 : (i 0).val < 200 := (i 0).isLt
    have hi1 : (i 1).val < 64 := (i 1).isLt
    refine ⟨pointOf 8 (i 0).val (by omega), flush2_4 _, ?_⟩
    obtain ⟨-, -, -, -, -, -, -, -, h0, h1⟩ := idx_facts (pointOf 8 (i 0).val (by omega))
    rw [mem_sumsq]
    intro a
    match a with
    | ⟨0, _⟩ =>
      show win2_4.index _ 0 * 8 ≤ (i 0).val ∧ (i 0).val < win2_4.index _ 0 * 8 + 8
      rw [h0]; show (i 0).val / 8 * 8 ≤ (i 0).val ∧ (i 0).val < (i 0).val / 8 * 8 + 8; omega
    | ⟨1, _⟩ =>
      show win2_4.index _ 1 * 64 ≤ (i 1).val ∧ (i 1).val < win2_4.index _ 1 * 64 + 64
      rw [h1]; omega

end Cert.KernelIdeal.Layer2Act

end
-- ==== Proof.KHost2.lean ====
/-
  UNTRUSTED — the host operations between the second and the third kernel, READ AT AN INDEX at the ideal instance: the second
  graph-convolution step.

  The stretch takes the second kernel's product `Y : [100000, 64]` and the buffers the first stretch left — the edges'
  normalisers `[1600000]`, the nodes' own normalisers `[100000]`, the raw source and destination words `[1600000]` — and computes,
  for node `i` and feature `q`: zero, plus the sum over the edges `e` whose destination word (read as a signed integer) is `i` of
  the edge's normaliser times `Y` at the row the source word names (the word wrapped — a negative word has the node count added —
  and clamped into the node range: the gather clamps, the scatter does not), plus the node's own normaliser times `Y (i, q)`.
  The row read is `Cert.Spec.rowOf (Cert.Spec.wrap w)` of the raw source word `w`. It also sets a bias vector as a row `[1, 64]`.
  All of it for ARBITRARY contents `W` at the stretch's entry.
-/
import proofs.«181908_j1778116460896_2_alg».proof.Proof.Gen.KernelIdeal.Launch
import proofs.«181908_j1778116460896_2_alg».proof.Proof.LibScatterGatherAt
import proofs.«181908_j1778116460896_2_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 3404

noncomputable section

open scoped BigOperators

namespace Cert.KernelIdeal.Host2

open Idealize.ShloMosaic Idealize.ShloMosaic.TcCoe Idealize.ShloMosaic.ValueIdx Idealize.ShloMosaic.StableHlo
open Cert.Lib.ScatterGatherAt
open Cert.KernelIdeal Cert.KernelIdeal.Gen

section Broadcasts
variable {α : Type} {n C : Nat}

/-- A vector `[n]` set as a column `[n, 1]` reads, at `(e, u)`, the vector at `e`. -/
theorem col_apply (hn : n ≠ 1) (hb : (⟨1, ![n]⟩ : Shape).BroadcastsInDim ⟨2, ![n, 1]⟩ (![0] : Fin 1 → Fin 2))
    (x : (⟨1, ![n]⟩ : Shape).Idx → α) (e : Fin n) (u : Fin 1) :
    broadcastInDim ⟨2, ![n, 1]⟩ ![0] hb x (ix2 e u) = x (ix1 e) :=
  broadcastInDim_apply ![0] hb x (ix2 e u) (ix1 e) (by
    intro a
    match a with
    | ⟨0, _⟩ =>
      show e.val = if n = 1 then 0 else e.val
      rw [if_neg hn])

/-- A column `[n, 1]` spread over `C` columns reads, at `(e, q)`, the column at `(e, 0)`. -/
theorem wide_apply (hn : n ≠ 1) (hb : (⟨2, ![n, 1]⟩ : Shape).BroadcastsInDim ⟨2, ![n, C]⟩ (![0, 1] : Fin 2 → Fin 2))
    (y : (⟨2, ![n, 1]⟩ : Shape).Idx → α) (e : Fin n) (q : Fin C) :
    broadcastInDim ⟨2, ![n, C]⟩ ![0, 1] hb y (ix2 e q) = y (ix2 e (0 : Fin 1)) :=
  broadcastInDim_apply ![0, 1] hb y (ix2 e q) (ix2 e (0 : Fin 1)) (by
    intro a
    match a with
    | ⟨0, _⟩ =>
      show e.val = if n = 1 then 0 else e.val
      rw [if_neg hn]
    | ⟨1, _⟩ =>
      show (0 : ℕ) = if (1 : ℕ) = 1 then 0 else q.val
      rw [if_pos rfl])

end Broadcasts

/-- The row a gather reads is the specification's: the start index clamped into the node range. -/
theorem gatherRow_eq_rowOf (hN : 0 < 100000) (idx : IVec S1600000x1 32) (e : Fin 1600000) :
    gatherRow (N := 100000) hN idx e = Cert.Spec.rowOf (idx (ix2 e 0)) := Fin.ext rfl

/-- ONE GRAPH-CONVOLUTION STEP AT `(i, q)`, as the host computes it, for any arrays: zero plus the sum over the edges landing on
    `i` of the edge normaliser times `Y` at the wrapped, clamped source row, plus the node's own normaliser times `Y (i, q)`. The
    scatter is a segment sum, the gather a row lookup, the two broadcasts read a column, and the wrap is computed word by word. -/
theorem conv_apply (dS : ScatterDims S100000x64 S1600000x1 S1600000x64)
    (hw : dS.updateWindowDims = [1]) (hi : dS.insertedWindowDims = [0]) (hs : dS.scatterDimsToOperandDims = [0])
    (hv : dS.indexVectorDim = 1)
    (dG : GatherDims S100000x64 S1600000x1 S1600000x64)
    (hod : dG.offsetDims = [1]) (hcd : dG.collapsedSliceDims = [0]) (hob : dG.operandBatchingDims = [])
    (hsb : dG.startIndicesBatchingDims = []) (hsm : dG.startIndexMap = [0]) (hgv : dG.indexVectorDim = 1)
    (hss : dG.sliceSizes = ![1, 64])
    (hb0 : S_.BroadcastsInDim S100000x64 (![] : Fin 0 → Fin S100000x64.rank))
    (hbc : S1600000.BroadcastsInDim S1600000x1 (![0] : Fin 1 → Fin S1600000x1.rank))
    (hbw : S1600000x1.BroadcastsInDim S1600000x64 (![0, 1] : Fin 2 → Fin S1600000x64.rank))
    (hb1 : S_.BroadcastsInDim S1600000 (![] : Fin 0 → Fin S1600000.rank))
    (hbn1 : S100000.BroadcastsInDim S100000x1 (![0] : Fin 1 → Fin S100000x1.rank))
    (hbn : S100000x1.BroadcastsInDim S100000x64 (![0, 1] : Fin 2 → Fin S100000x64.rank))
    (v1 v3 : IVec S1600000 32) (v25 : FVec Ideal S1600000 .f32) (v26 : FVec Ideal S100000 .f32)
    (Y : FVec Ideal S100000x64 .f32) (i : Fin 100000) (q : Fin 64) :
    addf
        (Host.scatterAdd dS (broadcastInDim S100000x64 ![] hb0 (constant S_ .f32 0x00000000#32))
          (broadcastInDim S1600000x1 ![0] hbc v3)
          (mulf (broadcastInDim S1600000x64 ![0, 1] hbw (broadcastInDim S1600000x1 ![0] hbc v25))
            (Host.gather dG Y
              (broadcastInDim S1600000x1 ![0] hbc
                (select (cmpi .slt v1 (broadcastInDim S1600000 ![] hb1 (constantI S_ 32 0#32)))
                  (addi v1 (broadcastInDim S1600000 ![] hb1 (constantI S_ 32 100000#32))) v1)))))
        (mulf (broadcastInDim S100000x64 ![0, 1] hbn (broadcastInDim S100000x1 ![0] hbn1 v26)) Y) (ix2 i q)
      = (0 + ∑ e ∈ Finset.univ.filter (fun e : Fin 1600000 => (v3 (ix1 e)).toInt = (i.val : ℤ)),
            v25 (ix1 e) * Y (ix2 (Cert.Spec.rowOf (Cert.Spec.wrap (v1 (ix1 e)))) q))
        + v26 (ix1 i) * Y (ix2 i q) := by
  rw [addf_apply, hostScatterAdd_rows_apply dS hw hi hs hv, mulf_apply,
    wide_apply (by decide) hbn, col_apply (by decide) hbn1]
  have hZ : broadcastInDim S100000x64 ![] hb0 (constant (F := Ideal) S_ .f32 0x00000000#32) (ix2 i q) = (0 : EReal) :=
    Ideal.ofBits_zero_f32
  have hF : Finset.univ.filter (fun e : Fin 1600000 =>
        (broadcastInDim S1600000x1 ![0] hbc v3 (ix2 e 0)).toInt = (i.val : ℤ))
      = Finset.univ.filter (fun e : Fin 1600000 => (v3 (ix1 e)).toInt = (i.val : ℤ)) :=
    Finset.filter_congr fun e _ => by rw [col_apply (by decide) hbc]
  rw [hZ, hF]
  refine congrArg (fun s => (0 + s) + v26 (ix1 i) * Y (ix2 i q)) (Finset.sum_congr rfl fun e _ => ?_)
  rw [mulf_apply, wide_apply (by decide) hbw, col_apply (by decide) hbc,
    gatherRows_apply (by decide) dG hod hcd hob hsb hsm hgv hss, gatherRow_eq_rowOf, col_apply (by decide) hbc]
  rfl

variable [Cert.KernelIdeal.Facts]

variable (W : Valuation τ sig (Elt Ideal))

/-- The step's result as one term over the entry contents. -/
theorem term_conv : (StableHlo.after (hostOps2 (F := Ideal)) W (Proc.devRef .tc main_v88) : S100000x64.Idx → EReal)
    = addf (F := Ideal)
        (Host.scatterAdd scatter_S100000x64_S1600000x1_S1600000x64_1_0_0_1
          (broadcastInDim S100000x64 ![] Facts₀.bcast_S_S100000x64 (constant (F := Ideal) S_ .f32 0x00000000#32))
          (broadcastInDim S1600000x1 ![0] Facts₀.bcast_S1600000_S1600000x1_0 (W main_v3 : IVec S1600000 32))
          (mulf (broadcastInDim S1600000x64 ![0, 1] Facts₀.bcast_S1600000x1_S1600000x64_0_1
              (broadcastInDim S1600000x1 ![0] Facts₀.bcast_S1600000_S1600000x1_0 (W main_v25 : FVec Ideal S1600000 .f32)))
            (Host.gather gather_S100000x64_S1600000x1_S1600000x64_1_0_n_n_0_1_164 (W main_v71_1 : FVec Ideal S100000x64 .f32)
              (broadcastInDim S1600000x1 ![0] Facts₀.bcast_S1600000_S1600000x1_0
                (select (cmpi .slt (W main_v1 : IVec S1600000 32)
                    (broadcastInDim S1600000 ![] Facts₀.bcast_S_S1600000 (constantI S_ 32 0#32)))
                  (addi (W main_v1 : IVec S1600000 32)
                    (broadcastInDim S1600000 ![] Facts₀.bcast_S_S1600000 (constantI S_ 32 100000#32)))
                  (W main_v1 : IVec S1600000 32))))))
        (mulf (broadcastInDim S100000x64 ![0, 1] Facts₀.bcast_S100000x1_S100000x64_0_1
            (broadcastInDim S100000x1 ![0] Facts₀.bcast_S100000_S100000x1_0 (W main_v26 : FVec Ideal S100000 .f32)))
          (W main_v71_1 : FVec Ideal S100000x64 .f32)) := by
  show StableHlo.after hostOps2 W (Proc.devRef .tc main_v88) = _
  after_results_simp

/-- The bias row is the bias vector set as a row. -/
theorem term_b2 : (StableHlo.after (hostOps2 (F := Ideal)) W (Proc.devRef .tc main_v89) : S1x64.Idx → EReal) = shapeCast S1x64 (W main_arg6 : S64.Idx → EReal) Facts₀.shapeCasts_S64_S1x64 := by
  show StableHlo.after hostOps2 W (Proc.devRef .tc main_v89) = _
  after_results_simp
  rfl

/-- THE SECOND GRAPH-CONVOLUTION STEP AT `(i, q)`. Name the five buffers the step reads at its entry — the raw source words `v1`, the
    raw destination words `v3`, the edges' normalisers `v25`, the nodes' own normalisers `v26`, the product `Y` —; then the result
    at `(i, q)` is zero plus the sum, over the edges whose destination word is `i`, of the edge's normaliser times `Y` at the
    wrapped and clamped source row, plus the node's own normaliser times `Y (i, q)`. -/
theorem conv2_eq (v1 v3 : IVec S1600000 32) (v25 : FVec Ideal S1600000 .f32) (v26 : FVec Ideal S100000 .f32)
    (Y : FVec Ideal S100000x64 .f32)
    (h1 : (W main_v1 : IVec S1600000 32) = v1) (h3 : (W main_v3 : IVec S1600000 32) = v3)
    (h25 : (W main_v25 : FVec Ideal S1600000 .f32) = v25) (h26 : (W main_v26 : FVec Ideal S100000 .f32) = v26)
    (hY : (W main_v71_1 : FVec Ideal S100000x64 .f32) = Y) (i : Fin 100000) (q : Fin 64) :
    (StableHlo.after (hostOps2 (F := Ideal)) W (Proc.devRef .tc main_v88) : S100000x64.Idx → EReal) (ix2 i q)
      = (0 + ∑ e ∈ Finset.univ.filter (fun e : Fin 1600000 => (v3 (ix1 e)).toInt = (i.val : ℤ)),
            v25 (ix1 e) * Y (ix2 (Cert.Spec.rowOf (Cert.Spec.wrap (v1 (ix1 e)))) q))
        + v26 (ix1 i) * Y (ix2 i q) := by
  subst h1 h3 h25 h26 hY
  rw [term_conv]
  exact conv_apply _ rfl rfl rfl rfl _ rfl rfl rfl rfl rfl rfl rfl _ _ _ _ _ _ _ _ _ _ _ i q

/-- THE BIAS ROW AT `(0, q)`: the bias vector's entry `q`. -/
theorem b2_eq (q : Fin 64) :
    (StableHlo.after (hostOps2 (F := Ideal)) W (Proc.devRef .tc main_v89) : S1x64.Idx → EReal) (ix2 (0 : Fin 1) q) = (W main_arg6 : S64.Idx → EReal) (ix1 q) := by
  rw [term_b2]
  exact shapeCast_a_1a_apply _ _ 0 q

end Cert.KernelIdeal.Host2

end
-- ==== Proof.KChain3.lean ====
/-
  The kernel program's buffers as functions of the arguments, part 3: the third host stretch and the third region.
  The stretch takes one graph-convolution step on the second region's product, with the edge normalisers and index
  words the first stretch left; the third region adds the second bias and clips, and stores the per-tile column sums
  of the result and of its square.
-/
import proofs.«181908_j1778116460896_2_alg».proof.Proof.KChain2
import proofs.«181908_j1778116460896_2_alg».proof.Proof.K2Arrays
import proofs.«181908_j1778116460896_2_alg».proof.Proof.KHost2

set_option maxRecDepth 16384

noncomputable section

namespace Cert.KernelIdeal.Chain

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg) (c : Dev nD)

abbrev aB2 : S64.Idx → EReal := m ((c : Thread nD τ).loc main_arg6)

/-- The second region's product, of the arguments. -/
abbrev xw2 : Fin 100000 → Fin 64 → EReal := Cert.Spec.xw2 (a1 m c) Cert.Spec.meanK Cert.Spec.varK (aG1 m c) (aBe1 m c) (aW2 m c)

/-- The second layer's activation, of the arguments. -/
abbrev a2 : Fin 100000 → Fin 64 → EReal :=
  Cert.Spec.a2 (aEi m c) (aEw m c) (a1 m c) Cert.Spec.meanK Cert.Spec.varK (aG1 m c) (aBe1 m c) (aW2 m c) (aB2 m c)

/-! The first stretch's edge data, still there when the third stretch reads it. -/
theorem dst_at4 (e : Fin 1600000) : (W4 m ρ c (Proc.devRef .tc main_v3) : S1600000.Idx → BitVec 32) (ix1 e) = Cert.Spec.dst (aEi m c) e := by
  rw [Trace.to4 m ρ c main_v3 (by decide) (by decide) (by decide)]
  exact Host0.v3_at (W0 m ρ c) e
theorem src_at4 (e : Fin 1600000) : (W4 m ρ c (Proc.devRef .tc main_v1) : S1600000.Idx → BitVec 32) (ix1 e) = Cert.Spec.src (aEi m c) e := by
  rw [Trace.to4 m ρ c main_v1 (by decide) (by decide) (by decide)]
  exact Host0.v1_at (W0 m ρ c) e
theorem nrm_at4 (e : Fin 1600000) : (W4 m ρ c (Proc.devRef .tc main_v25) : S1600000.Idx → EReal) (ix1 e) = Cert.Spec.nrm (aEi m c) (aEw m c) e := by
  rw [Trace.to4 m ρ c main_v25 (by decide) (by decide) (by decide)]
  exact Host0.nrm_eq (W0 m ρ c) e
theorem dinv2_at4 (i : Fin 100000) : (W4 m ρ c (Proc.devRef .tc main_v26) : S100000.Idx → EReal) (ix1 i) = Cert.Spec.dinv2 (aEi m c) (aEw m c) i := by
  rw [Trace.to4 m ρ c main_v26 (by decide) (by decide) (by decide)]
  exact Host0.dinv2_eq (W0 m ρ c) i

/-- THE SECOND CONVOLUTION the third region finds. -/
theorem conv2_at (n : Fin 100000) (q : Fin 64) :
    @Eq EReal ((W5 m ρ c (Proc.devRef .tc main_v88) : S100000x64.Idx → EReal) (ix2 n q))
      (Cert.Spec.conv (aEi m c) (aEw m c) (fun j : S100000x64.Idx => xw2 m c ⟨(j 0).val, (j 0).isLt⟩ ⟨(j 1).val, (j 1).isLt⟩) n q) := by
  refine (Host2.conv2_eq (W4 m ρ c) _ _ _ _ _ rfl rfl rfl rfl rfl n q).trans ?_
  unfold Cert.Spec.conv Cert.Spec.into Cert.Spec.from_
  refine congrArg₂ (fun a b : EReal => a + b) (congrArg (fun s : EReal => 0 + s) ?_) ?_
  · refine Finset.sum_congr (Finset.filter_congr fun e _ => by rw [dst_at4]) fun e _ => ?_
    refine congrArg₂ (fun a b : EReal => a * b) (nrm_at4 m ρ c e) ?_
    rw [src_at4]
    exact xw2_at m ρ c _ q
  · exact congrArg₂ (fun a b : EReal => a * b) (dinv2_at4 m ρ c n) (xw2_at m ρ c n q)

/-- The bias row the third region finds is the second bias. -/
theorem b2_at (q : Fin 64) : @Eq EReal ((W5 m ρ c (Proc.devRef .tc main_v89) : S1x64.Idx → EReal) (ix2 (0 : Fin 1) q)) (aB2 m c (ix1 q)) := by
  refine (Host2.b2_eq (W4 m ρ c) q).trans ?_
  rw [Trace.arg4 m ρ c main_arg6 (by decide) (by decide) (by decide) (by decide)]

/-- The third region's activation function at node `n`, column `q`. -/
theorem relu_at (n : Fin 100000) (q : Fin 64) : Layer2Act.reluV (V5 m ρ) c (ix2 n q) = a2 m c n q := by
  show Layer2Act.reluAt (V5 m ρ c main_v88) (V5 m ρ c main_v89) n q
    = Cert.Spec.a2 (aEi m c) (aEw m c) (a1 m c) Cert.Spec.meanK Cert.Spec.varK (aG1 m c) (aBe1 m c) (aW2 m c) (aB2 m c) n q
  unfold Layer2Act.reluAt Cert.Spec.a2
  exact congrArg (fun s : EReal => max s 0) (congrArg₂ (fun a b : EReal => a + b) (conv2_at m ρ c n q) (b2_at m ρ c q))

/-- THE SECOND LAYER'S ACTIVATIONS after the third region. -/
theorem a2_at (n : Fin 100000) (q : Fin 64) :
    (W6 m ρ c (Proc.devRef .tc main_v90_0) : S100000x64.Idx → EReal) (ix2 n q) = a2 m c n q := by
  have h : (W6 m ρ c (Proc.devRef .tc main_v90_0) : S100000x64.Idx → EReal) = Layer2Act.reluV (V5 m ρ) c :=
    (Trace.out2_at6 m ρ c 2).trans (Layer2Act.final_act (V5 m ρ) c)
  rw [h, relu_at]

/-- THE FIRST STATISTIC after the third region. -/
theorem sum2_at (r : Fin 200) (q : Fin 64) :
    @Eq EReal ((W6 m ρ c (Proc.devRef .tc main_v90_1) : S200x64.Idx → EReal) (ix2 r q))
      (∑ p : Fin 4000, a2 m c ⟨4000 * (r.val / 8) + p.val, by have := r.isLt; omega⟩ q) := by
  have h : (W6 m ρ c (Proc.devRef .tc main_v90_1) : S200x64.Idx → EReal) = Layer1.tileSum (fun i => Layer2Act.reluV (V5 m ρ) c i) :=
    (Trace.out2_at6 m ρ c 3).trans (Layer2Act.final_sum (V5 m ρ) c)
  rw [h]
  unfold Layer1.tileSum
  exact Finset.sum_congr rfl fun p _ => relu_at m ρ c _ q

/-- THE SECOND STATISTIC after the third region. -/
theorem sumsq2_at (r : Fin 200) (q : Fin 64) :
    @Eq EReal ((W6 m ρ c (Proc.devRef .tc main_v90_2) : S200x64.Idx → EReal) (ix2 r q))
      (∑ p : Fin 4000, a2 m c ⟨4000 * (r.val / 8) + p.val, by have := r.isLt; omega⟩ q * a2 m c ⟨4000 * (r.val / 8) + p.val, by have := r.isLt; omega⟩ q) := by
  have h : (W6 m ρ c (Proc.devRef .tc main_v90_2) : S200x64.Idx → EReal)
      = Layer1.tileSum (fun i => Layer2Act.reluV (V5 m ρ) c i * Layer2Act.reluV (V5 m ρ) c i) :=
    (Trace.out2_at6 m ρ c 4).trans (Layer2Act.final_sumsq (V5 m ρ) c)
  rw [h]
  unfold Layer1.tileSum
  exact Finset.sum_congr rfl fun p _ => congrArg₂ (fun a b : EReal => a * b) (relu_at m ρ c _ q) (relu_at m ρ c _ q)

end Cert.KernelIdeal.Chain

end
-- ==== Proof.K3Layout.lean ====
/-
  The last region's layout operations at one element, on a tile of 2000 rows: the three matrix products into zero
  accumulators (128, 64 and 143 columns contracted) as plain sums, a bias row spread over the tile's rows, the three
  64-wide column bands of the 256 gate pre-activations that the body uses (the input gate at columns 0…63, the cell
  candidate at 128…191, the output gate at 192…255), two 64-wide blocks laid side by side, and two 64-wide blocks and
  a 15-wide block laid side by side.
-/
import proofs.«181908_j1778116460896_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Head

open Idealize.ShloMosaic Idealize.ShloMosaic.ValueIdx Cert.KernelIdeal Cert.KernelIdeal.Gen

/-! ## The first gate product: 128 columns contracted -/

abbrev DA := dot_S2000x128_S128x256_S2000x256_1_0_0_1_n_n

theorem DA_lhs_row (i : S2000x256.Idx) (q : DA.contr.Idx) : (DA.lhsIdx i q 0).val = (i 0).val := by
  unfold DotDims.lhsIdx
  rw [dif_neg (show ¬(0 : Fin S2000x128.rank) ∈ DA.lhsBatch by decide), dif_pos (show (0 : Fin S2000x128.rank) ∈ DA.lhsNonContracting by decide)]
  rfl
theorem DA_lhs_k (i : S2000x256.Idx) (q : DA.contr.Idx) : (DA.lhsIdx i q 1).val = (q ⟨0, by decide⟩).val :=
  DA.lhsIdx_val_of_single rfl i q
theorem DA_rhs_k (i : S2000x256.Idx) (q : DA.contr.Idx) : (DA.rhsIdx i q 0).val = (q ⟨0, by decide⟩).val :=
  DA.rhsIdx_val_of_single rfl i q
theorem DA_rhs_col (i : S2000x256.Idx) (q : DA.contr.Idx) : (DA.rhsIdx i q 1).val = (i 1).val := by
  unfold DotDims.rhsIdx
  rw [dif_neg (show ¬(1 : Fin S128x256.rank) ∈ DA.rhsBatch by decide), dif_pos (show (1 : Fin S128x256.rank) ∈ DA.rhsNonContracting by decide)]
  rfl

/-- The joined row against the first gate weight's column: the sum over 128 columns. -/
theorem productA_apply (x : FVec Ideal S2000x128 .bf16) (w : FVec Ideal S128x256 .bf16) (p : Fin 2000) (j : Fin 256) :
    matmul DA none x w (constant S2000x256 .f32 0x00000000#32) (ix2 p j) = ∑ k : Fin 128, x (ix2 p k) * w (ix2 k j) := by
  show FloatOps.matmul DA none x w (constant S2000x256 .f32 0x00000000#32) (ix2 p j) = _
  rw [Ideal.matmul_constant_zero_apply, ← Equiv.sum_comp (contrEquiv1 DA 128 rfl rfl).symm]
  refine Finset.sum_congr rfl fun k _ => ?_
  have hk := contrEquiv1_symm_val DA 128 rfl rfl k
  have el : DA.lhsIdx (ix2 p j) ((contrEquiv1 DA 128 rfl rfl).symm k) = ix2 p k := funext fun a => Fin.ext (by
    match a with
    | ⟨0, _⟩ => exact DA_lhs_row _ _
    | ⟨1, _⟩ => exact (DA_lhs_k _ _).trans hk)
  have er : DA.rhsIdx (ix2 p j) ((contrEquiv1 DA 128 rfl rfl).symm k) = ix2 k j := funext fun a => Fin.ext (by
    match a with
    | ⟨0, _⟩ => exact (DA_rhs_k _ _).trans hk
    | ⟨1, _⟩ => exact DA_rhs_col _ _)
  rw [el, er]

/-! ## The second gate product: 64 columns contracted -/

abbrev DB := dot_S2000x64_S64x256_S2000x256_1_0_0_1_n_n

theorem DB_lhs_row (i : S2000x256.Idx) (q : DB.contr.Idx) : (DB.lhsIdx i q 0).val = (i 0).val := by
  unfold DotDims.lhsIdx
  rw [dif_neg (show ¬(0 : Fin S2000x64.rank) ∈ DB.lhsBatch by decide), dif_pos (show (0 : Fin S2000x64.rank) ∈ DB.lhsNonContracting by decide)]
  rfl
theorem DB_lhs_k (i : S2000x256.Idx) (q : DB.contr.Idx) : (DB.lhsIdx i q 1).val = (q ⟨0, by decide⟩).val :=
  DB.lhsIdx_val_of_single rfl i q
theorem DB_rhs_k (i : S2000x256.Idx) (q : DB.contr.Idx) : (DB.rhsIdx i q 0).val = (q ⟨0, by decide⟩).val :=
  DB.rhsIdx_val_of_single rfl i q
theorem DB_rhs_col (i : S2000x256.Idx) (q : DB.contr.Idx) : (DB.rhsIdx i q 1).val = (i 1).val := by
  unfold DotDims.rhsIdx
  rw [dif_neg (show ¬(1 : Fin S64x256.rank) ∈ DB.rhsBatch by decide), dif_pos (show (1 : Fin S64x256.rank) ∈ DB.rhsNonContracting by decide)]
  rfl

/-- The first hidden row against the second gate weight's column: the sum over 64 columns. -/
theorem productB_apply (x : FVec Ideal S2000x64 .bf16) (w : FVec Ideal S64x256 .bf16) (p : Fin 2000) (j : Fin 256) :
    matmul DB none x w (constant S2000x256 .f32 0x00000000#32) (ix2 p j) = ∑ k : Fin 64, x (ix2 p k) * w (ix2 k j) := by
  show FloatOps.matmul DB none x w (constant S2000x256 .f32 0x00000000#32) (ix2 p j) = _
  rw [Ideal.matmul_constant_zero_apply, ← Equiv.sum_comp (contrEquiv1 DB 64 rfl rfl).symm]
  refine Finset.sum_congr rfl fun k _ => ?_
  have hk := contrEquiv1_symm_val DB 64 rfl rfl k
  have el : DB.lhsIdx (ix2 p j) ((contrEquiv1 DB 64 rfl rfl).symm k) = ix2 p k := funext fun a => Fin.ext (by
    match a with
    | ⟨0, _⟩ => exact DB_lhs_row _ _
    | ⟨1, _⟩ => exact (DB_lhs_k _ _).trans hk)
  have er : DB.rhsIdx (ix2 p j) ((contrEquiv1 DB 64 rfl rfl).symm k) = ix2 k j := funext fun a => Fin.ext (by
    match a with
    | ⟨0, _⟩ => exact (DB_rhs_k _ _).trans hk
    | ⟨1, _⟩ => exact DB_rhs_col _ _)
  rw [el, er]

/-! ## The read-out product: 143 columns contracted -/

abbrev DC := dot_S2000x143_S143x14_S2000x14_1_0_0_1_n_n

theorem DC_lhs_row (i : S2000x14.Idx) (q : DC.contr.Idx) : (DC.lhsIdx i q 0).val = (i 0).val := by
  unfold DotDims.lhsIdx
  rw [dif_neg (show ¬(0 : Fin S2000x143.rank) ∈ DC.lhsBatch by decide), dif_pos (show (0 : Fin S2000x143.rank) ∈ DC.lhsNonContracting by decide)]
  rfl
theorem DC_lhs_k (i : S2000x14.Idx) (q : DC.contr.Idx) : (DC.lhsIdx i q 1).val = (q ⟨0, by decide⟩).val :=
  DC.lhsIdx_val_of_single rfl i q
theorem DC_rhs_k (i : S2000x14.Idx) (q : DC.contr.Idx) : (DC.rhsIdx i q 0).val = (q ⟨0, by decide⟩).val :=
  DC.rhsIdx_val_of_single rfl i q
theorem DC_rhs_col (i : S2000x14.Idx) (q : DC.contr.Idx) : (DC.rhsIdx i q 1).val = (i 1).val := by
  unfold DotDims.rhsIdx
  rw [dif_neg (show ¬(1 : Fin S143x14.rank) ∈ DC.rhsBatch by decide), dif_pos (show (1 : Fin S143x14.rank) ∈ DC.rhsNonContracting by decide)]
  rfl

/-- The feature row against the read-out weight's column: the sum over 143 columns. -/
theorem productC_apply (x : FVec Ideal S2000x143 .bf16) (w : FVec Ideal S143x14 .bf16) (p : Fin 2000) (o : Fin 14) :
    matmul DC none x w (constant S2000x14 .f32 0x00000000#32) (ix2 p o) = ∑ k : Fin 143, x (ix2 p k) * w (ix2 k o) := by
  show FloatOps.matmul DC none x w (constant S2000x14 .f32 0x00000000#32) (ix2 p o) = _
  rw [Ideal.matmul_constant_zero_apply, ← Equiv.sum_comp (contrEquiv1 DC 143 rfl rfl).symm]
  refine Finset.sum_congr rfl fun k _ => ?_
  have hk := contrEquiv1_symm_val DC 143 rfl rfl k
  have el : DC.lhsIdx (ix2 p o) ((contrEquiv1 DC 143 rfl rfl).symm k) = ix2 p k := funext fun a => Fin.ext (by
    match a with
    | ⟨0, _⟩ => exact DC_lhs_row _ _
    | ⟨1, _⟩ => exact (DC_lhs_k _ _).trans hk)
  have er : DC.rhsIdx (ix2 p o) ((contrEquiv1 DC 143 rfl rfl).symm k) = ix2 k o := funext fun a => Fin.ext (by
    match a with
    | ⟨0, _⟩ => exact (DC_rhs_k _ _).trans hk
    | ⟨1, _⟩ => exact DC_rhs_col _ _)
  rw [el, er]

/-! ## Bias rows spread over the tile -/

theorem row256_apply (b : FVec Ideal S1x256 .f32) (p : Fin 2000) (j : Fin 256) :
    broadcastTo S2000x256 b broadcasts_S1x256_S2000x256 (ix2 p j) = b (ix2 0 j) :=
  broadcastTo_apply b _ (ix2 p j) (ix2 0 j) (fun a => by
    match a with
    | ⟨0, _⟩ => rfl
    | ⟨1, _⟩ => rfl)

theorem row14_apply (b : FVec Ideal S1x14 .f32) (p : Fin 2000) (o : Fin 14) :
    broadcastTo S2000x14 b broadcasts_S1x14_S2000x14 (ix2 p o) = b (ix2 0 o) :=
  broadcastTo_apply b _ (ix2 p o) (ix2 0 o) (fun a => by
    match a with
    | ⟨0, _⟩ => rfl
    | ⟨1, _⟩ => rfl)

theorem row64_apply (b : FVec Ideal S1x64 .f32) (p : Fin 2000) (q : Fin 64) :
    broadcastTo S2000x64 b broadcasts_S1x64_S2000x64 (ix2 p q) = b (ix2 0 q) :=
  broadcastTo_apply b _ (ix2 p q) (ix2 0 q) (fun a => by
    match a with
    | ⟨0, _⟩ => rfl
    | ⟨1, _⟩ => rfl)

/-! ## The three column bands of the gate pre-activations -/

theorem band0_apply (g : FVec Ideal S2000x256 .f32) (p : Fin 2000) (q : Fin 64) :
    extractStridedSlice S2000x64 ![0, 0] g slices_S2000x256_o0_0_S2000x64 (ix2 p q) = g (ix2 p ⟨q.val, by omega⟩) :=
  extractStridedSlice_apply _ g _ (ix2 p q) (ix2 p ⟨q.val, by omega⟩) (fun a => by
    match a with
    | ⟨0, _⟩ => show p.val = 0 + p.val; omega
    | ⟨1, _⟩ => show q.val = 0 + q.val; omega)

theorem band128_apply (g : FVec Ideal S2000x256 .f32) (p : Fin 2000) (q : Fin 64) :
    extractStridedSlice S2000x64 ![0, 128] g slices_S2000x256_o0_128_S2000x64 (ix2 p q) = g (ix2 p ⟨128 + q.val, by omega⟩) :=
  extractStridedSlice_apply _ g _ (ix2 p q) (ix2 p ⟨128 + q.val, by omega⟩) (fun a => by
    match a with
    | ⟨0, _⟩ => show p.val = 0 + p.val; omega
    | ⟨1, _⟩ => rfl)

theorem band192_apply (g : FVec Ideal S2000x256 .f32) (p : Fin 2000) (q : Fin 64) :
    extractStridedSlice S2000x64 ![0, 192] g slices_S2000x256_o0_192_S2000x64 (ix2 p q) = g (ix2 p ⟨192 + q.val, by omega⟩) :=
  extractStridedSlice_apply _ g _ (ix2 p q) (ix2 p ⟨192 + q.val, by omega⟩) (fun a => by
    match a with
    | ⟨0, _⟩ => show p.val = 0 + p.val; omega
    | ⟨1, _⟩ => rfl)

end Cert.KernelIdeal.Head

end
-- ==== Proof.K3Payload.lean ====
/-
  The last region's body at one element, over the row-level functions of the head. On a tile of 2000 rows the body
  normalises the second layer's activations by their column statistics, lays the first layer's normalised row and
  this one side by side (128 features), takes the first gate pre-activations, keeps the three gate bands, forms the
  first hidden row, takes the second gate pre-activations from it and forms the second hidden row, lays both hidden
  rows and the node's 15 input features side by side, clips below at zero and reads out 14 values. At the ideal
  values a change of float format is the identity and each product into a zero accumulator is the plain sum.
-/
import proofs.«181908_j1778116460896_2_alg».proof.Proof.K3Layout
import proofs.«181908_j1778116460896_2_alg».proof.Proof.SpecHead

noncomputable section

namespace Cert.KernelIdeal.Head

open Idealize.ShloMosaic Idealize.ShloMosaic.ValueIdx Cert.KernelIdeal Cert.KernelIdeal.Gen

/-! ## Blocks side by side -/

/-- Two 64-wide blocks side by side, at row `p`, column `k`. -/
theorem join2_apply (u v : FVec Ideal S2000x64 .f32) (p : Fin 2000) (k : Fin 128) :
    concatenate S2000x128 1 [⟨S2000x64, u⟩, ⟨S2000x64, v⟩] concatenates_S2000x64_S2000x64_S2000x128_d1 (ix2 p k)
      = Cert.Spec.join2 (fun q => u (ix2 p q)) (fun q => v (ix2 p q)) k := by
  unfold Cert.Spec.join2
  by_cases h : k.val < 64
  · rw [dif_pos h]
    exact concatenate_pair_apply_left 1 u v _ (ix2 p k) rfl (ix2 p ⟨k.val, h⟩) (fun b => by
      match b with
      | ⟨0, _⟩ => rfl
      | ⟨1, _⟩ => rfl)
  · rw [dif_neg h]
    exact concatenate_pair_apply_right 1 u v _ (ix2 p k) rfl rfl (ix2 p ⟨k.val - 64, by omega⟩) (fun b hb => by
      match b with
      | ⟨0, _⟩ => rfl
      | ⟨1, _⟩ => exact absurd rfl hb) (by show (k.val - 64) + 64 = k.val; omega)

/-- Two 64-wide blocks and a 15-wide block side by side, at row `p`, column `k`. -/
theorem join3_apply (u v : FVec Ideal S2000x64 .f32) (x : FVec Ideal S2000x15 .f32) (p : Fin 2000) (k : Fin 143) :
    concatenate S2000x143 1 [⟨S2000x64, u⟩, ⟨S2000x64, v⟩, ⟨S2000x15, x⟩] concatenates_S2000x64_S2000x64_S2000x15_S2000x143_d1 (ix2 p k)
      = Cert.Spec.join3 (fun q => u (ix2 p q)) (fun q => v (ix2 p q)) (fun q => x (ix2 p q)) k := by
  unfold Cert.Spec.join3
  by_cases h : k.val < 64
  · rw [dif_pos h]
    exact concatenate_apply_piece 1 _ _ (ix2 p k) 0 (by simp) S2000x64 u rfl rfl 0 rfl (ix2 p ⟨k.val, h⟩) (fun b hb => by
      match b with
      | ⟨0, _⟩ => rfl
      | ⟨1, _⟩ => exact absurd rfl hb) (by show 0 + k.val = k.val; omega)
  · rw [dif_neg h]
    by_cases h2 : k.val < 128
    · rw [dif_pos h2]
      exact concatenate_apply_piece 1 _ _ (ix2 p k) 1 (by simp) S2000x64 v rfl rfl 64 rfl (ix2 p ⟨k.val - 64, by omega⟩) (fun b hb => by
        match b with
        | ⟨0, _⟩ => rfl
        | ⟨1, _⟩ => exact absurd rfl hb) (by show 64 + (k.val - 64) = k.val; omega)
    · rw [dif_neg h2]
      have hk : k.val < 143 := k.isLt
      exact concatenate_apply_piece 1 _ _ (ix2 p k) 2 (by simp) S2000x15 x rfl rfl 128 rfl (ix2 p ⟨k.val - 128, by omega⟩) (fun b hb => by
        match b with
        | ⟨0, _⟩ => rfl
        | ⟨1, _⟩ => exact absurd rfl hb) (by show 128 + (k.val - 128) = k.val; omega)

/-! ## The normalisation of the second layer's activations -/

/-- The normalisation as the body spells it, on the tile and the four statistic rows. -/
def normTile (a : FVec Ideal S2000x64 .f32) (var mu gamma beta : FVec Ideal S1x64 .f32) : FVec Ideal S2000x64 .f32 :=
  addf (mulf (mulf (subf a (broadcastTo S2000x64 mu broadcasts_S1x64_S2000x64))
      (broadcastTo S2000x64 (rsqrt (addf var (broadcast S1x64 (Scalar.ofBits (F := Ideal) .f32 0x3727C5AC#32)))) broadcasts_S1x64_S2000x64))
      (broadcastTo S2000x64 gamma broadcasts_S1x64_S2000x64)) (broadcastTo S2000x64 beta broadcasts_S1x64_S2000x64)

theorem normTile_apply (a : FVec Ideal S2000x64 .f32) (var mu gamma beta : FVec Ideal S1x64 .f32) (p : Fin 2000) (q : Fin 64) :
    normTile a var mu gamma beta (ix2 p q)
      = Cert.Spec.normOf (a (ix2 p q)) (mu (ix2 0 q)) (var (ix2 0 q)) (gamma (ix2 0 q)) (beta (ix2 0 q)) := by
  unfold normTile
  rw [addf_apply, mulf_apply, mulf_apply, subf_apply, row64_apply, row64_apply, row64_apply, row64_apply]
  rfl

/-! ## The first gate pre-activations and their bands -/

/-- The joined row at `p`: the first layer's normalised row, then this layer's. -/
def joined (a : FVec Ideal S2000x64 .f32) (var mu gamma beta : FVec Ideal S1x64 .f32) (h1 : FVec Ideal S2000x64 .f32) (p : Fin 2000) : Fin 128 → EReal :=
  Cert.Spec.join2 (fun q => h1 (ix2 p q))
    (fun q => Cert.Spec.normOf (a (ix2 p q)) (mu (ix2 0 q)) (var (ix2 0 q)) (gamma (ix2 0 q)) (beta (ix2 0 q)))

/-- The first gate pre-activations of row `p`. -/
def gates1 (a : FVec Ideal S2000x64 .f32) (var mu gamma beta : FVec Ideal S1x64 .f32) (h1 : FVec Ideal S2000x64 .f32)
    (wt : FVec Ideal S128x256 .bf16) (b b' : FVec Ideal S1x256 .f32) (p : Fin 2000) : Fin 256 → EReal :=
  Cert.Spec.gates (joined a var mu gamma beta h1 p) (fun k j => wt (ix2 k j)) (fun j => b (ix2 0 j)) (fun j => b' (ix2 0 j))

theorem gates1_apply (a : Vec Ideal S2000x64 .f32) (var mu gamma beta : Vec Ideal S1x64 .f32) (h1 : Vec Ideal S2000x64 .f32)
    (wt : Vec Ideal S128x256 .bf16) (b b' : Vec Ideal S1x256 .f32) (p : Fin 2000) (j : Fin 256) :
    k3_pay2 (F := Ideal) a var mu gamma beta h1 wt b b' (ix2 p j) = gates1 a var mu gamma beta h1 wt b b' p j := by
  have e : k3_pay2 (F := Ideal) a var mu gamma beta h1 wt b b'
      = addf (addf (matmul (φ₂ := .bf16) DA none (truncf .bf16 (concatenate S2000x128 1 [⟨S2000x64, h1⟩, ⟨S2000x64, normTile a var mu gamma beta⟩]
          concatenates_S2000x64_S2000x64_S2000x128_d1) bitsLt_bf16_f32) wt (constant S2000x256 .f32 0x00000000#32))
          (broadcastTo S2000x256 b broadcasts_S1x256_S2000x256)) (broadcastTo S2000x256 b' broadcasts_S1x256_S2000x256) := by
    unfold k3_pay2 normTile
    simp only [shapeCast_self]
    rw [shapeCast_self h1, shapeCast_self a, shapeCast_self mu, shapeCast_self var, shapeCast_self gamma, shapeCast_self beta]
  rw [e, addf_apply, addf_apply, productA_apply, row256_apply, row256_apply]
  unfold gates1 Cert.Spec.gates
  congr 2
  refine Finset.sum_congr rfl fun k _ => ?_
  rw [truncf_apply, join2_apply]
  unfold joined
  congr 2
  funext q
  exact normTile_apply a var mu gamma beta p q

theorem gate_in_apply (a : Vec Ideal S2000x64 .f32) (var mu gamma beta : Vec Ideal S1x64 .f32) (h1 : Vec Ideal S2000x64 .f32)
    (wt : Vec Ideal S128x256 .bf16) (b b' : Vec Ideal S1x256 .f32) (p : Fin 2000) (q : Fin 64) :
    k3_pay3 (F := Ideal) a var mu gamma beta h1 wt b b' (ix2 p q) = gates1 a var mu gamma beta h1 wt b b' p ⟨q.val, by omega⟩ := by
  unfold k3_pay3
  exact (band0_apply _ p q).trans (gates1_apply a var mu gamma beta h1 wt b b' p _)

theorem gate_cand_apply (a : Vec Ideal S2000x64 .f32) (var mu gamma beta : Vec Ideal S1x64 .f32) (h1 : Vec Ideal S2000x64 .f32)
    (wt : Vec Ideal S128x256 .bf16) (b b' : Vec Ideal S1x256 .f32) (p : Fin 2000) (q : Fin 64) :
    k3_pay4 (F := Ideal) a var mu gamma beta h1 wt b b' (ix2 p q) = gates1 a var mu gamma beta h1 wt b b' p ⟨128 + q.val, by omega⟩ := by
  unfold k3_pay4
  exact (band128_apply _ p q).trans (gates1_apply a var mu gamma beta h1 wt b b' p _)

theorem gate_out_apply (a : Vec Ideal S2000x64 .f32) (var mu gamma beta : Vec Ideal S1x64 .f32) (h1 : Vec Ideal S2000x64 .f32)
    (wt : Vec Ideal S128x256 .bf16) (b b' : Vec Ideal S1x256 .f32) (p : Fin 2000) (q : Fin 64) :
    k3_pay5 (F := Ideal) a var mu gamma beta h1 wt b b' (ix2 p q) = gates1 a var mu gamma beta h1 wt b b' p ⟨192 + q.val, by omega⟩ := by
  unfold k3_pay5
  exact (band192_apply _ p q).trans (gates1_apply a var mu gamma beta h1 wt b b' p _)

/-! ## The hidden rows and the read-out -/

/-- One recurrent step from a zero state on a tile, from the three gate bands. -/
def hidTile (i c o : FVec Ideal S2000x64 .f32) : FVec Ideal S2000x64 .f32 :=
  mulf (logistic o) (tanh (mulf (logistic i) (tanh c)))

/-- The same at row `p`, entry `q`. -/
def hid (i c o : FVec Ideal S2000x64 .f32) (p : Fin 2000) (q : Fin 64) : EReal :=
  Ideal.logistic (o (ix2 p q)) * Ideal.tanh (Ideal.logistic (i (ix2 p q)) * Ideal.tanh (c (ix2 p q)))

theorem hidTile_apply (i c o : FVec Ideal S2000x64 .f32) (p : Fin 2000) (q : Fin 64) :
    hidTile i c o (ix2 p q) = hid i c o p q := rfl

/-- The second gate pre-activations on a tile, from the first hidden tile. -/
def gates2Tile (h : FVec Ideal S2000x64 .f32) (wt : FVec Ideal S64x256 .bf16) (b b' : FVec Ideal S1x256 .f32) : FVec Ideal S2000x256 .f32 :=
  addf (addf (matmul (φ₂ := .bf16) DB none (truncf .bf16 h bitsLt_bf16_f32) wt (constant S2000x256 .f32 0x00000000#32))
    (broadcastTo S2000x256 b broadcasts_S1x256_S2000x256)) (broadcastTo S2000x256 b' broadcasts_S1x256_S2000x256)

theorem gates2Tile_apply (h : FVec Ideal S2000x64 .f32) (wt : FVec Ideal S64x256 .bf16) (b b' : FVec Ideal S1x256 .f32) (p : Fin 2000) (j : Fin 256) :
    gates2Tile h wt b b' (ix2 p j)
      = Cert.Spec.gates (fun q => h (ix2 p q)) (fun k j => wt (ix2 k j)) (fun j => b (ix2 0 j)) (fun j => b' (ix2 0 j)) j := by
  unfold gates2Tile
  rw [addf_apply, addf_apply, productB_apply, row256_apply, row256_apply]
  rfl

/-- The second hidden row at `p`, from the first hidden tile. -/
theorem hidden2_apply (h : FVec Ideal S2000x64 .f32) (wt : FVec Ideal S64x256 .bf16) (b b' : FVec Ideal S1x256 .f32) (p : Fin 2000) (q : Fin 64) :
    hidTile (extractStridedSlice S2000x64 ![0, 0] (gates2Tile h wt b b') slices_S2000x256_o0_0_S2000x64)
        (extractStridedSlice S2000x64 ![0, 128] (gates2Tile h wt b b') slices_S2000x256_o0_128_S2000x64)
        (extractStridedSlice S2000x64 ![0, 192] (gates2Tile h wt b b') slices_S2000x256_o0_192_S2000x64) (ix2 p q)
      = Cert.Spec.hidden (Cert.Spec.gates (fun q => h (ix2 p q)) (fun k j => wt (ix2 k j)) (fun j => b (ix2 0 j)) (fun j => b' (ix2 0 j))) q := by
  rw [hidTile_apply]
  unfold hid Cert.Spec.hidden
  rw [band0_apply, band128_apply, band192_apply, gates2Tile_apply, gates2Tile_apply, gates2Tile_apply]

/-- THE READ-OUT at row `p`, output `o`, from the first layer's three gate bands. -/
theorem readout_apply (i1 c1 o1 : FVec Ideal S2000x64 .f32) (wt2 : Vec Ideal S64x256 .bf16) (b2 b2' : Vec Ideal S1x256 .f32)
    (x : Vec Ideal S2000x15 .f32) (wl : Vec Ideal S143x14 .bf16) (bl : Vec Ideal S1x14 .f32) (p : Fin 2000) (o : Fin 14) :
    k3_pay1 (F := Ideal) i1 c1 o1 wt2 b2 b2' x wl bl (ix2 p o)
      = Cert.Spec.readout
          (Cert.Spec.join3 (hid i1 c1 o1 p)
            (Cert.Spec.hidden (Cert.Spec.gates (hid i1 c1 o1 p) (fun k j => wt2 (ix2 k j)) (fun j => b2 (ix2 0 j)) (fun j => b2' (ix2 0 j))))
            (fun q => x (ix2 p q)))
          (fun k o => wl (ix2 k o)) (fun o => bl (ix2 0 o)) o := by
  have e : k3_pay1 (F := Ideal) i1 c1 o1 wt2 b2 b2' x wl bl
      = addf (matmul (φ₂ := .bf16) DC none (truncf .bf16 (maximumf
          (concatenate S2000x143 1 [⟨S2000x64, hidTile i1 c1 o1⟩,
            ⟨S2000x64, hidTile (extractStridedSlice S2000x64 ![0, 0] (gates2Tile (hidTile i1 c1 o1) wt2 b2 b2') slices_S2000x256_o0_0_S2000x64)
              (extractStridedSlice S2000x64 ![0, 128] (gates2Tile (hidTile i1 c1 o1) wt2 b2 b2') slices_S2000x256_o0_128_S2000x64)
              (extractStridedSlice S2000x64 ![0, 192] (gates2Tile (hidTile i1 c1 o1) wt2 b2 b2') slices_S2000x256_o0_192_S2000x64)⟩,
            ⟨S2000x15, x⟩] concatenates_S2000x64_S2000x64_S2000x15_S2000x143_d1)
          (broadcast S2000x143 (Scalar.ofBits (F := Ideal) .f32 0x00000000#32))) bitsLt_bf16_f32) wl (constant S2000x14 .f32 0x00000000#32))
          (broadcastTo S2000x14 bl broadcasts_S1x14_S2000x14) := by
    unfold k3_pay1 hidTile gates2Tile
    simp only [shapeCast_self]
    rw [shapeCast_self wt2, shapeCast_self b2, shapeCast_self b2']
  rw [e, addf_apply, productC_apply, row14_apply]
  unfold Cert.Spec.readout
  congr 1
  refine Finset.sum_congr rfl fun k _ => ?_
  rw [truncf_apply, maximumf_apply, join3_apply, broadcast_apply]
  congr 1
  congr 1
  · have hB : (fun q => hidTile (extractStridedSlice S2000x64 ![0, 0] (gates2Tile (hidTile i1 c1 o1) wt2 b2 b2') slices_S2000x256_o0_0_S2000x64)
          (extractStridedSlice S2000x64 ![0, 128] (gates2Tile (hidTile i1 c1 o1) wt2 b2 b2') slices_S2000x256_o0_128_S2000x64)
          (extractStridedSlice S2000x64 ![0, 192] (gates2Tile (hidTile i1 c1 o1) wt2 b2 b2') slices_S2000x256_o0_192_S2000x64) (ix2 p q))
        = Cert.Spec.hidden (Cert.Spec.gates (hid i1 c1 o1 p) (fun k j => wt2 (ix2 k j)) (fun j => b2 (ix2 0 j)) (fun j => b2' (ix2 0 j))) :=
      funext fun q => hidden2_apply (hidTile i1 c1 o1) wt2 b2 b2' p q
    exact congrArg (fun B => Cert.Spec.join3 (hid i1 c1 o1 p) B (fun q => x (ix2 p q)) k) hB
  · exact Ideal.ofBits_zero_f32

end Cert.KernelIdeal.Head

end
-- ==== Proof.K3Arrays.lean ====
/-
  The last region's output array as a function of the arrays it finds. The region runs its body at 50 grid points;
  point `t` reads rows `2000 t … 2000 t + 1999` of the second layer's activations, of the first layer's normalised
  activations and of the input features (the four statistic rows, the two gate weights with their bias rows and the
  read-out weight and bias whole) and writes the same rows of the result. The body is row-local, so after the run
  row `n` of the result is the head's function of row `n` of the three tiled arrays.
-/
import proofs.«181908_j1778116460896_2_alg».proof.Proof.Gen.KernelIdeal.Frame
import proofs.«181908_j1778116460896_2_alg».proof.Proof.K3Payload

set_option maxRecDepth 16384

noncomputable section

namespace Cert.KernelIdeal.Head

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

theorem lt_N (t : Fin cfg3.N) : t.val < 50 := lt_of_lt_of_eq t.isLt (show cfg3.N = 50 from N_3)

/-- The point whose blocks hold array row `n`. -/
def pointOf (n : Nat) (h : n / 2000 < 50) : Fin cfg3.N := ⟨n / 2000, lt_of_lt_of_eq h (show cfg3.N = 50 from N_3).symm⟩

/-! The printed index maps over the grid: the four row-tiled windows move with the point, the twelve others stay. -/
theorem idx_a2 : ∀ t : Fin cfg3.N, win3_0.index t (0 : Fin 2) = t.val ∧ win3_0.index t (1 : Fin 2) = 0 :=
  (by decide +kernel : ∀ t : Fin grid3.N, _)
theorem idx_mu : ∀ t : Fin cfg3.N, win3_1.index t (0 : Fin 2) = 0 ∧ win3_1.index t (1 : Fin 2) = 0 :=
  (by decide +kernel : ∀ t : Fin grid3.N, _)
theorem idx_var : ∀ t : Fin cfg3.N, win3_2.index t (0 : Fin 2) = 0 ∧ win3_2.index t (1 : Fin 2) = 0 :=
  (by decide +kernel : ∀ t : Fin grid3.N, _)
theorem idx_gamma : ∀ t : Fin cfg3.N, win3_3.index t (0 : Fin 2) = 0 ∧ win3_3.index t (1 : Fin 2) = 0 :=
  (by decide +kernel : ∀ t : Fin grid3.N, _)
theorem idx_beta : ∀ t : Fin cfg3.N, win3_4.index t (0 : Fin 2) = 0 ∧ win3_4.index t (1 : Fin 2) = 0 :=
  (by decide +kernel : ∀ t : Fin grid3.N, _)
theorem idx_h1 : ∀ t : Fin cfg3.N, win3_5.index t (0 : Fin 2) = t.val ∧ win3_5.index t (1 : Fin 2) = 0 :=
  (by decide +kernel : ∀ t : Fin grid3.N, _)
theorem idx_x : ∀ t : Fin cfg3.N, win3_6.index t (0 : Fin 2) = t.val ∧ win3_6.index t (1 : Fin 2) = 0 :=
  (by decide +kernel : ∀ t : Fin grid3.N, _)
theorem idx_wt1 : ∀ t : Fin cfg3.N, win3_7.index t (0 : Fin 2) = 0 ∧ win3_7.index t (1 : Fin 2) = 0 :=
  (by decide +kernel : ∀ t : Fin grid3.N, _)
theorem idx_b1 : ∀ t : Fin cfg3.N, win3_8.index t (0 : Fin 2) = 0 ∧ win3_8.index t (1 : Fin 2) = 0 :=
  (by decide +kernel : ∀ t : Fin grid3.N, _)
theorem idx_b1' : ∀ t : Fin cfg3.N, win3_9.index t (0 : Fin 2) = 0 ∧ win3_9.index t (1 : Fin 2) = 0 :=
  (by decide +kernel : ∀ t : Fin grid3.N, _)
theorem idx_wt2 : ∀ t : Fin cfg3.N, win3_10.index t (0 : Fin 2) = 0 ∧ win3_10.index t (1 : Fin 2) = 0 :=
  (by decide +kernel : ∀ t : Fin grid3.N, _)
theorem idx_b2 : ∀ t : Fin cfg3.N, win3_11.index t (0 : Fin 2) = 0 ∧ win3_11.index t (1 : Fin 2) = 0 :=
  (by decide +kernel : ∀ t : Fin grid3.N, _)
theorem idx_b2' : ∀ t : Fin cfg3.N, win3_12.index t (0 : Fin 2) = 0 ∧ win3_12.index t (1 : Fin 2) = 0 :=
  (by decide +kernel : ∀ t : Fin grid3.N, _)
theorem idx_wl : ∀ t : Fin cfg3.N, win3_13.index t (0 : Fin 2) = 0 ∧ win3_13.index t (1 : Fin 2) = 0 :=
  (by decide +kernel : ∀ t : Fin grid3.N, _)
theorem idx_bl : ∀ t : Fin cfg3.N, win3_14.index t (0 : Fin 2) = 0 ∧ win3_14.index t (1 : Fin 2) = 0 :=
  (by decide +kernel : ∀ t : Fin grid3.N, _)
theorem idx_out : ∀ t : Fin cfg3.N, win3_15.index t (0 : Fin 2) = t.val ∧ win3_15.index t (1 : Fin 2) = 0 :=
  (by decide +kernel : ∀ t : Fin grid3.N, _)

/-! ## The three row-tiled input blocks -/

/-- The second layer's activation block at point `t` is rows `2000 t …` of that array. -/
theorem a2_apply (c : Dev nD) (t : Fin cfg3.N) (x : S2000x64.Idx) (k : S100000x64.Idx)
    (hk0 : (k 0).val = 2000 * t.val + (x 0).val) (hk1 : (k 1).val = (x 1).val) :
    (iblk3 V c 0 t : Vec Ideal S2000x64 .f32) x = (V c main_v90_0 : S100000x64.Idx → EReal) k := by
  obtain ⟨h0, h1⟩ := idx_a2 t
  unfold iblk3
  rw [View.read_apply]
  show V c main_v90_0 _ = V c main_v90_0 _
  congr 1
  funext a
  apply Fin.ext
  match a with
  | ⟨0, _⟩ => show win3_0.index t 0 * 2000 + 1 * (x 0).val = (k 0).val; rw [h0, hk0]; omega
  | ⟨1, _⟩ => show win3_0.index t 1 * 64 + 1 * (x 1).val = (k 1).val; rw [h1, hk1]; omega

/-- The first layer's normalised block at point `t` is rows `2000 t …` of that array. -/
theorem h1_apply (c : Dev nD) (t : Fin cfg3.N) (x : S2000x64.Idx) (k : S100000x64.Idx)
    (hk0 : (k 0).val = 2000 * t.val + (x 0).val) (hk1 : (k 1).val = (x 1).val) :
    (iblk3 V c 5 t : Vec Ideal S2000x64 .f32) x = (V c main_v71_0 : S100000x64.Idx → EReal) k := by
  obtain ⟨h0, h1⟩ := idx_h1 t
  unfold iblk3
  rw [View.read_apply]
  show V c main_v71_0 _ = V c main_v71_0 _
  congr 1
  funext a
  apply Fin.ext
  match a with
  | ⟨0, _⟩ => show win3_5.index t 0 * 2000 + 1 * (x 0).val = (k 0).val; rw [h0, hk0]; omega
  | ⟨1, _⟩ => show win3_5.index t 1 * 64 + 1 * (x 1).val = (k 1).val; rw [h1, hk1]; omega

/-- The input-feature block at point `t` is rows `2000 t …` of the feature array. -/
theorem x_apply (c : Dev nD) (t : Fin cfg3.N) (x : S2000x15.Idx) (k : S100000x15.Idx)
    (hk0 : (k 0).val = 2000 * t.val + (x 0).val) (hk1 : (k 1).val = (x 1).val) :
    (iblk3 V c 6 t : Vec Ideal S2000x15 .f32) x = (V c main_arg0 : S100000x15.Idx → EReal) k := by
  obtain ⟨h0, h1⟩ := idx_x t
  unfold iblk3
  rw [View.read_apply]
  show V c main_arg0 _ = V c main_arg0 _
  congr 1
  funext a
  apply Fin.ext
  match a with
  | ⟨0, _⟩ => show win3_6.index t 0 * 2000 + 1 * (x 0).val = (k 0).val; rw [h0, hk0]; omega
  | ⟨1, _⟩ => show win3_6.index t 1 * 15 + 1 * (x 1).val = (k 1).val; rw [h1, hk1]; omega

/-! ## The twelve whole-array blocks -/

theorem mu_apply (c : Dev nD) (t : Fin cfg3.N) (x : S1x64.Idx) :
    (iblk3 V c 1 t : Vec Ideal S1x64 .f32) x = (V c main_v105 : S1x64.Idx → EReal) x := by
  obtain ⟨h0, h1⟩ := idx_mu t
  unfold iblk3
  rw [View.read_apply]
  show V c main_v105 _ = V c main_v105 _
  congr 1
  funext a
  apply Fin.ext
  match a with
  | ⟨0, _⟩ => show win3_1.index t 0 * 1 + 1 * (x 0).val = (x 0).val; rw [h0]; omega
  | ⟨1, _⟩ => show win3_1.index t 1 * 64 + 1 * (x 1).val = (x 1).val; rw [h1]; omega

theorem var_apply (c : Dev nD) (t : Fin cfg3.N) (x : S1x64.Idx) :
    (iblk3 V c 2 t : Vec Ideal S1x64 .f32) x = (V c main_v106 : S1x64.Idx → EReal) x := by
  obtain ⟨h0, h1⟩ := idx_var t
  unfold iblk3
  rw [View.read_apply]
  show V c main_v106 _ = V c main_v106 _
  congr 1
  funext a
  apply Fin.ext
  match a with
  | ⟨0, _⟩ => show win3_2.index t 0 * 1 + 1 * (x 0).val = (x 0).val; rw [h0]; omega
  | ⟨1, _⟩ => show win3_2.index t 1 * 64 + 1 * (x 1).val = (x 1).val; rw [h1]; omega

theorem gamma_apply (c : Dev nD) (t : Fin cfg3.N) (x : S1x64.Idx) :
    (iblk3 V c 3 t : Vec Ideal S1x64 .f32) x = (V c main_v107 : S1x64.Idx → EReal) x := by
  obtain ⟨h0, h1⟩ := idx_gamma t
  unfold iblk3
  rw [View.read_apply]
  show V c main_v107 _ = V c main_v107 _
  congr 1
  funext a
  apply Fin.ext
  match a with
  | ⟨0, _⟩ => show win3_3.index t 0 * 1 + 1 * (x 0).val = (x 0).val; rw [h0]; omega
  | ⟨1, _⟩ => show win3_3.index t 1 * 64 + 1 * (x 1).val = (x 1).val; rw [h1]; omega

theorem beta_apply (c : Dev nD) (t : Fin cfg3.N) (x : S1x64.Idx) :
    (iblk3 V c 4 t : Vec Ideal S1x64 .f32) x = (V c main_v108 : S1x64.Idx → EReal) x := by
  obtain ⟨h0, h1⟩ := idx_beta t
  unfold iblk3
  rw [View.read_apply]
  show V c main_v108 _ = V c main_v108 _
  congr 1
  funext a
  apply Fin.ext
  match a with
  | ⟨0, _⟩ => show win3_4.index t 0 * 1 + 1 * (x 0).val = (x 0).val; rw [h0]; omega
  | ⟨1, _⟩ => show win3_4.index t 1 * 64 + 1 * (x 1).val = (x 1).val; rw [h1]; omega

theorem wt1_apply (c : Dev nD) (t : Fin cfg3.N) (x : S128x256.Idx) :
    (iblk3 V c 7 t : Vec Ideal S128x256 .bf16) x = (V c main_v47 : S128x256.Idx → EReal) x := by
  obtain ⟨h0, h1⟩ := idx_wt1 t
  unfold iblk3
  rw [View.read_apply]
  show V c main_v47 _ = V c main_v47 _
  congr 1
  funext a
  apply Fin.ext
  match a with
  | ⟨0, _⟩ => show win3_7.index t 0 * 128 + 1 * (x 0).val = (x 0).val; rw [h0]; omega
  | ⟨1, _⟩ => show win3_7.index t 1 * 256 + 1 * (x 1).val = (x 1).val; rw [h1]; omega

theorem b1_apply (c : Dev nD) (t : Fin cfg3.N) (x : S1x256.Idx) :
    (iblk3 V c 8 t : Vec Ideal S1x256 .f32) x = (V c main_v109 : S1x256.Idx → EReal) x := by
  obtain ⟨h0, h1⟩ := idx_b1 t
  unfold iblk3
  rw [View.read_apply]
  show V c main_v109 _ = V c main_v109 _
  congr 1
  funext a
  apply Fin.ext
  match a with
  | ⟨0, _⟩ => show win3_8.index t 0 * 1 + 1 * (x 0).val = (x 0).val; rw [h0]; omega
  | ⟨1, _⟩ => show win3_8.index t 1 * 256 + 1 * (x 1).val = (x 1).val; rw [h1]; omega

theorem b1'_apply (c : Dev nD) (t : Fin cfg3.N) (x : S1x256.Idx) :
    (iblk3 V c 9 t : Vec Ideal S1x256 .f32) x = (V c main_v110 : S1x256.Idx → EReal) x := by
  obtain ⟨h0, h1⟩ := idx_b1' t
  unfold iblk3
  rw [View.read_apply]
  show V c main_v110 _ = V c main_v110 _
  congr 1
  funext a
  apply Fin.ext
  match a with
  | ⟨0, _⟩ => show win3_9.index t 0 * 1 + 1 * (x 0).val = (x 0).val; rw [h0]; omega
  | ⟨1, _⟩ => show win3_9.index t 1 * 256 + 1 * (x 1).val = (x 1).val; rw [h1]; omega

theorem wt2_apply (c : Dev nD) (t : Fin cfg3.N) (x : S64x256.Idx) :
    (iblk3 V c 10 t : Vec Ideal S64x256 .bf16) x = (V c main_v49 : S64x256.Idx → EReal) x := by
  obtain ⟨h0, h1⟩ := idx_wt2 t
  unfold iblk3
  rw [View.read_apply]
  show V c main_v49 _ = V c main_v49 _
  congr 1
  funext a
  apply Fin.ext
  match a with
  | ⟨0, _⟩ => show win3_10.index t 0 * 64 + 1 * (x 0).val = (x 0).val; rw [h0]; omega
  | ⟨1, _⟩ => show win3_10.index t 1 * 256 + 1 * (x 1).val = (x 1).val; rw [h1]; omega

theorem b2_apply (c : Dev nD) (t : Fin cfg3.N) (x : S1x256.Idx) :
    (iblk3 V c 11 t : Vec Ideal S1x256 .f32) x = (V c main_v111 : S1x256.Idx → EReal) x := by
  obtain ⟨h0, h1⟩ := idx_b2 t
  unfold iblk3
  rw [View.read_apply]
  show V c main_v111 _ = V c main_v111 _
  congr 1
  funext a
  apply Fin.ext
  match a with
  | ⟨0, _⟩ => show win3_11.index t 0 * 1 + 1 * (x 0).val = (x 0).val; rw [h0]; omega
  | ⟨1, _⟩ => show win3_11.index t 1 * 256 + 1 * (x 1).val = (x 1).val; rw [h1]; omega

theorem b2'_apply (c : Dev nD) (t : Fin cfg3.N) (x : S1x256.Idx) :
    (iblk3 V c 12 t : Vec Ideal S1x256 .f32) x = (V c main_v112 : S1x256.Idx → EReal) x := by
  obtain ⟨h0, h1⟩ := idx_b2' t
  unfold iblk3
  rw [View.read_apply]
  show V c main_v112 _ = V c main_v112 _
  congr 1
  funext a
  apply Fin.ext
  match a with
  | ⟨0, _⟩ => show win3_12.index t 0 * 1 + 1 * (x 0).val = (x 0).val; rw [h0]; omega
  | ⟨1, _⟩ => show win3_12.index t 1 * 256 + 1 * (x 1).val = (x 1).val; rw [h1]; omega

theorem wl_apply (c : Dev nD) (t : Fin cfg3.N) (x : S143x14.Idx) :
    (iblk3 V c 13 t : Vec Ideal S143x14 .bf16) x = (V c main_v50 : S143x14.Idx → EReal) x := by
  obtain ⟨h0, h1⟩ := idx_wl t
  unfold iblk3
  rw [View.read_apply]
  show V c main_v50 _ = V c main_v50 _
  congr 1
  funext a
  apply Fin.ext
  match a with
  | ⟨0, _⟩ => show win3_13.index t 0 * 143 + 1 * (x 0).val = (x 0).val; rw [h0]; omega
  | ⟨1, _⟩ => show win3_13.index t 1 * 14 + 1 * (x 1).val = (x 1).val; rw [h1]; omega

theorem bl_apply (c : Dev nD) (t : Fin cfg3.N) (x : S1x14.Idx) :
    (iblk3 V c 14 t : Vec Ideal S1x14 .f32) x = (V c main_v113 : S1x14.Idx → EReal) x := by
  obtain ⟨h0, h1⟩ := idx_bl t
  unfold iblk3
  rw [View.read_apply]
  show V c main_v113 _ = V c main_v113 _
  congr 1
  funext a
  apply Fin.ext
  match a with
  | ⟨0, _⟩ => show win3_14.index t 0 * 1 + 1 * (x 0).val = (x 0).val; rw [h0]; omega
  | ⟨1, _⟩ => show win3_14.index t 1 * 14 + 1 * (x 1).val = (x 1).val; rw [h1]; omega

/-! ## The result array -/

/-- The head at node `n`, output `o`, of the arrays the region finds. -/
def headAt (c : Dev nD) (n : Fin 100000) (o : Fin 14) : EReal :=
  Cert.Spec.headRow
    (fun q => (V c main_v71_0 : S100000x64.Idx → EReal) (ix2 n q))
    (fun q => (V c main_v90_0 : S100000x64.Idx → EReal) (ix2 n q))
    (fun q => (V c main_v105 : S1x64.Idx → EReal) (ix2 0 q)) (fun q => (V c main_v106 : S1x64.Idx → EReal) (ix2 0 q))
    (fun q => (V c main_v107 : S1x64.Idx → EReal) (ix2 0 q)) (fun q => (V c main_v108 : S1x64.Idx → EReal) (ix2 0 q))
    (fun k j => (V c main_v47 : S128x256.Idx → EReal) (ix2 k j))
    (fun j => (V c main_v109 : S1x256.Idx → EReal) (ix2 0 j)) (fun j => (V c main_v110 : S1x256.Idx → EReal) (ix2 0 j))
    (fun k j => (V c main_v49 : S64x256.Idx → EReal) (ix2 k j))
    (fun j => (V c main_v111 : S1x256.Idx → EReal) (ix2 0 j)) (fun j => (V c main_v112 : S1x256.Idx → EReal) (ix2 0 j))
    (fun q => (V c main_arg0 : S100000x15.Idx → EReal) (ix2 n q))
    (fun k o => (V c main_v50 : S143x14.Idx → EReal) (ix2 k o)) (fun o => (V c main_v113 : S1x14.Idx → EReal) (ix2 0 o)) o

/-- The result array's function. -/
def headV (c : Dev nD) : S100000x14.Idx → EReal :=
  fun i => headAt V c ⟨(i 0).val, (i 0).isLt⟩ ⟨(i 1).val, (i 1).isLt⟩

/-- The body's result at point `t`, tile row `p`, output `o` is the head at node `2000 t + p`. -/
theorem head_at (c : Dev nD) (t : Fin cfg3.N) (p : Fin 2000) (o : Fin 14) :
    k3_pay1 (F := Ideal)
        (k3_pay3 (F := Ideal) (iblk3 V c 0 t) (iblk3 V c 2 t) (iblk3 V c 1 t) (iblk3 V c 3 t) (iblk3 V c 4 t) (iblk3 V c 5 t) (iblk3 V c 7 t) (iblk3 V c 8 t) (iblk3 V c 9 t))
        (k3_pay4 (F := Ideal) (iblk3 V c 0 t) (iblk3 V c 2 t) (iblk3 V c 1 t) (iblk3 V c 3 t) (iblk3 V c 4 t) (iblk3 V c 5 t) (iblk3 V c 7 t) (iblk3 V c 8 t) (iblk3 V c 9 t))
        (k3_pay5 (F := Ideal) (iblk3 V c 0 t) (iblk3 V c 2 t) (iblk3 V c 1 t) (iblk3 V c 3 t) (iblk3 V c 4 t) (iblk3 V c 5 t) (iblk3 V c 7 t) (iblk3 V c 8 t) (iblk3 V c 9 t))
        (iblk3 V c 10 t) (iblk3 V c 11 t) (iblk3 V c 12 t) (iblk3 V c 6 t) (iblk3 V c 13 t) (iblk3 V c 14 t) (ix2 p o)
      = headAt V c ⟨2000 * t.val + p.val, by have := lt_N t; omega⟩ o := by
  refine (readout_apply _ _ _ _ _ _ _ _ _ p o).trans ?_
  have hh : hid (k3_pay3 (F := Ideal) (iblk3 V c 0 t) (iblk3 V c 2 t) (iblk3 V c 1 t) (iblk3 V c 3 t) (iblk3 V c 4 t) (iblk3 V c 5 t) (iblk3 V c 7 t) (iblk3 V c 8 t) (iblk3 V c 9 t))
      (k3_pay4 (F := Ideal) (iblk3 V c 0 t) (iblk3 V c 2 t) (iblk3 V c 1 t) (iblk3 V c 3 t) (iblk3 V c 4 t) (iblk3 V c 5 t) (iblk3 V c 7 t) (iblk3 V c 8 t) (iblk3 V c 9 t))
      (k3_pay5 (F := Ideal) (iblk3 V c 0 t) (iblk3 V c 2 t) (iblk3 V c 1 t) (iblk3 V c 3 t) (iblk3 V c 4 t) (iblk3 V c 5 t) (iblk3 V c 7 t) (iblk3 V c 8 t) (iblk3 V c 9 t)) p
      = Cert.Spec.hidden (gates1 (iblk3 V c 0 t) (iblk3 V c 2 t) (iblk3 V c 1 t) (iblk3 V c 3 t) (iblk3 V c 4 t) (iblk3 V c 5 t) (iblk3 V c 7 t) (iblk3 V c 8 t) (iblk3 V c 9 t) p) :=
    funext fun q => by
      unfold hid Cert.Spec.hidden
      rw [gate_out_apply, gate_in_apply, gate_cand_apply]
  rw [hh]
  unfold gates1 joined
  have hH1 : (fun q : Fin 64 => (iblk3 V c 5 t : Vec Ideal S2000x64 .f32) (ix2 p q))
      = fun q => (V c main_v71_0 : S100000x64.Idx → EReal) (ix2 ⟨2000 * t.val + p.val, by have := lt_N t; omega⟩ q) :=
    funext fun q => h1_apply V c t (ix2 p q) (ix2 ⟨2000 * t.val + p.val, by have := lt_N t; omega⟩ q) rfl rfl
  have hN2 : (fun q : Fin 64 => Cert.Spec.normOf ((iblk3 V c 0 t : Vec Ideal S2000x64 .f32) (ix2 p q)) ((iblk3 V c 1 t : Vec Ideal S1x64 .f32) (ix2 0 q))
        ((iblk3 V c 2 t : Vec Ideal S1x64 .f32) (ix2 0 q)) ((iblk3 V c 3 t : Vec Ideal S1x64 .f32) (ix2 0 q)) ((iblk3 V c 4 t : Vec Ideal S1x64 .f32) (ix2 0 q)))
      = fun q => Cert.Spec.normOf ((V c main_v90_0 : S100000x64.Idx → EReal) (ix2 ⟨2000 * t.val + p.val, by have := lt_N t; omega⟩ q))
          ((V c main_v105 : S1x64.Idx → EReal) (ix2 0 q)) ((V c main_v106 : S1x64.Idx → EReal) (ix2 0 q))
          ((V c main_v107 : S1x64.Idx → EReal) (ix2 0 q)) ((V c main_v108 : S1x64.Idx → EReal) (ix2 0 q)) :=
    funext fun q => by
      rw [a2_apply V c t (ix2 p q) (ix2 ⟨2000 * t.val + p.val, by have := lt_N t; omega⟩ q) rfl rfl, mu_apply V c t (ix2 0 q),
        var_apply V c t (ix2 0 q), gamma_apply V c t (ix2 0 q), beta_apply V c t (ix2 0 q)]
  have hWT1 : (fun (k : Fin 128) (j : Fin 256) => (iblk3 V c 7 t : Vec Ideal S128x256 .bf16) (ix2 k j))
      = fun k j => (V c main_v47 : S128x256.Idx → EReal) (ix2 k j) := funext fun k => funext fun j => wt1_apply V c t (ix2 k j)
  have hB1 : (fun j : Fin 256 => (iblk3 V c 8 t : Vec Ideal S1x256 .f32) (ix2 0 j)) = fun j => (V c main_v109 : S1x256.Idx → EReal) (ix2 0 j) :=
    funext fun j => b1_apply V c t (ix2 0 j)
  have hB1' : (fun j : Fin 256 => (iblk3 V c 9 t : Vec Ideal S1x256 .f32) (ix2 0 j)) = fun j => (V c main_v110 : S1x256.Idx → EReal) (ix2 0 j) :=
    funext fun j => b1'_apply V c t (ix2 0 j)
  have hWT2 : (fun (k : Fin 64) (j : Fin 256) => (iblk3 V c 10 t : Vec Ideal S64x256 .bf16) (ix2 k j))
      = fun k j => (V c main_v49 : S64x256.Idx → EReal) (ix2 k j) := funext fun k => funext fun j => wt2_apply V c t (ix2 k j)
  have hB2 : (fun j : Fin 256 => (iblk3 V c 11 t : Vec Ideal S1x256 .f32) (ix2 0 j)) = fun j => (V c main_v111 : S1x256.Idx → EReal) (ix2 0 j) :=
    funext fun j => b2_apply V c t (ix2 0 j)
  have hB2' : (fun j : Fin 256 => (iblk3 V c 12 t : Vec Ideal S1x256 .f32) (ix2 0 j)) = fun j => (V c main_v112 : S1x256.Idx → EReal) (ix2 0 j) :=
    funext fun j => b2'_apply V c t (ix2 0 j)
  have hX : (fun q : Fin 15 => (iblk3 V c 6 t : Vec Ideal S2000x15 .f32) (ix2 p q))
      = fun q => (V c main_arg0 : S100000x15.Idx → EReal) (ix2 ⟨2000 * t.val + p.val, by have := lt_N t; omega⟩ q) :=
    funext fun q => x_apply V c t (ix2 p q) (ix2 ⟨2000 * t.val + p.val, by have := lt_N t; omega⟩ q) rfl rfl
  have hWL : (fun (k : Fin 143) (o : Fin 14) => (iblk3 V c 13 t : Vec Ideal S143x14 .bf16) (ix2 k o))
      = fun k o => (V c main_v50 : S143x14.Idx → EReal) (ix2 k o) := funext fun k => funext fun o => wl_apply V c t (ix2 k o)
  have hBL : (fun o : Fin 14 => (iblk3 V c 14 t : Vec Ideal S1x14 .f32) (ix2 0 o)) = fun o => (V c main_v113 : S1x14.Idx → EReal) (ix2 0 o) :=
    funext fun o => bl_apply V c t (ix2 0 o)
  rw [hH1, hN2, hWT1, hB1, hB1', hWT2, hB2, hB2', hX, hWL, hBL]
  rfl

/-- WHAT POINT `t` WRITES BACK to the result array is block `t` of the head's function. -/
theorem flushed_out (c : Dev nD) (t : Fin cfg3.N) :
    (dat3 V c).flushed 15 t = ((cfg3.win 15).blk t).view.read (Elt Ideal) (headV V c) := by
  obtain ⟨h0, h1⟩ := idx_out t
  show (cfg3.win 15).cut (grid3.coords t) ((dat3 V c).after 15 t) = _
  rw [after3_15]
  unfold out3_15
  rw [View.canon_unit_zero hz]
  simp only [View.ld_unit_zero (S := S2000x64) hz, View.ld_unit_zero (S := S1x64) hz, View.ld_unit_zero (S := S2000x15) hz,
    View.ld_unit_zero (S := S128x256) hz, View.ld_unit_zero (S := S1x256) hz, View.ld_unit_zero (S := S64x256) hz,
    View.ld_unit_zero (S := S143x14) hz, View.ld_unit_zero (S := S1x14) hz]
  funext j
  obtain ⟨p, o, rfl⟩ : ∃ (p : Fin 2000) (o : Fin 14), j = ix2 p o := ⟨j 0, j 1, eq_ix2 j⟩
  refine (head_at V c t p o).trans ?_
  show _ = headV V c (((cfg3.win 15).blk t).view.emb (ix2 p o))
  unfold headV
  congr 1
  · apply Fin.ext
    show 2000 * t.val + p.val = win3_15.index t 0 * 2000 + 1 * p.val
    rw [h0]; omega
  · apply Fin.ext
    show o.val = win3_15.index t 1 * 14 + 1 * o.val
    rw [h1]; omega

theorem mem_out (t : Fin cfg3.N) (i : S100000x14.Idx) :
    i ∈ ((cfg3.win 15).blk t).view.set ↔ ∀ a : Fin 2, win3_15.index t a * S2000x14.size a ≤ (i a).val ∧ (i a).val < win3_15.index t a * S2000x14.size a + S2000x14.size a := by
  show i ∈ ((View.whole main_v114).slice (win3_15.rect t)).set ↔ _
  rw [View.set_slice_whole, Rect.mem_set_unit]
  exact Iff.rfl

/-- THE RESULT ARRAY after the region: the 50 row blocks tile it. -/
theorem final_out (c : Dev nD) : (dat3 V c).arrAt 15 cfg3.N = headV V c :=
  (dat3 V c).arrAt_eq_of_cover 15 _ (fun t _ => flushed_out V c t) fun i => by
    have hi0 : (i 0).val < 100000 := (i 0).isLt
    have hi1 : (i 1).val < 14 := (i 1).isLt
    refine ⟨pointOf (i 0).val (by omega), flush3_15 _, ?_⟩
    obtain ⟨h0, h1⟩ := idx_out (pointOf (i 0).val (by omega))
    rw [mem_out]
    intro a
    match a with
    | ⟨0, _⟩ =>
      show win3_15.index _ 0 * 2000 ≤ (i 0).val ∧ (i 0).val < win3_15.index _ 0 * 2000 + 2000
      rw [h0]; show (i 0).val / 2000 * 2000 ≤ (i 0).val ∧ (i 0).val < (i 0).val / 2000 * 2000 + 2000; omega
    | ⟨1, _⟩ =>
      show win3_15.index _ 1 * 14 ≤ (i 1).val ∧ (i 1).val < win3_15.index _ 1 * 14 + 14
      rw [h1]; omega

end Cert.KernelIdeal.Head

end
-- ==== Proof.KHost3.lean ====
/-
  UNTRUSTED — the host operations between the third and the fourth kernel, READ AT AN INDEX at the ideal instance.

  From the third kernel's two statistic arrays (per tile and column: the sum of the activations, and the sum of their squares;
  each a `[200, 64]` array whose rows `8 t … 8 t + 7` hold tile `t`'s values) the host computes the batch-normalisation rows:
  the mean row `[1, 64]` — the 25 tile sums added up and divided by 100000 — and the variance row — the same for the squares,
  minus the square of the mean; and it sets the scale and shift vectors as rows `[1, 64]`, four vectors of 256 entries as rows `[1, 256]` and one of
  14 entries as a row `[1, 14]`. For ARBITRARY contents `W` at the
  stretch's entry, the contents `A b` after the stretch satisfy: the mean row at `(0, q)` is `(∑ t < 25, S₁ (8 t, q)) / 100000`, the
  variance row is `(∑ t < 25, S₂ (8 t, q)) / 100000 − mean²`, and every vector set as a row reads the vector's entries.
-/
import proofs.«181908_j1778116460896_2_alg».proof.Proof.Gen.KernelIdeal.Launch
import proofs.«181908_j1778116460896_2_alg».proof.Proof.KHostStats
import Idealize.ShloMosaic.Lib.StableHlo.Run

set_option maxRecDepth 3404

noncomputable section

open scoped BigOperators

namespace Cert.KernelIdeal.Host3

open Idealize.ShloMosaic Idealize.ShloMosaic.TcCoe Idealize.ShloMosaic.ValueIdx Idealize.ShloMosaic.StableHlo
open Cert.KernelIdeal Cert.KernelIdeal.Gen Cert.KernelIdeal.HostStats

variable [Cert.KernelIdeal.Facts]
open Cert.KernelIdeal.Facts₀

variable (W : Valuation τ sig (Elt Ideal))

/-- The contents of TensorCore buffer `b` after the stretch, from the contents `W` at its entry. -/
abbrev A (b : Ref sig .tc) : (Proc.devRef (τ := τ) .tc b).ty.Contents (Elt Ideal) :=
  StableHlo.after (hostOps3 (F := Ideal)) W (Proc.devRef .tc b)

/-- The mean row is the first statistic's tile sums divided by the divisor row, set as a row. -/
theorem term_mean : (A W main_v105 : S1x64.Idx → EReal)
    = shapeCast S1x64 (Host.divf (sumRow (W main_v90_1)) nRow) Facts₀.shapeCasts_S64_S1x64 := by
  show StableHlo.after hostOps3 W (Proc.devRef .tc main_v105) = _
  after_results_simp
  rfl

/-- The variance row is the second statistic's quotient minus the square of the mean vector, set as a row. -/
theorem term_var : (A W main_v106 : S1x64.Idx → EReal)
    = shapeCast S1x64 (subf (Host.divf (sumRow (W main_v90_2)) nRow)
        (mulf (Host.divf (sumRow (W main_v90_1)) nRow) (Host.divf (sumRow (W main_v90_1)) nRow))) Facts₀.shapeCasts_S64_S1x64 := by
  show StableHlo.after hostOps3 W (Proc.devRef .tc main_v106) = _
  after_results_simp
  rfl

/-- The scale row is the scale vector set as a row. -/
theorem term_gamma : (A W main_v107 : S1x64.Idx → EReal) = shapeCast S1x64 (W main_arg9 : S64.Idx → EReal) Facts₀.shapeCasts_S64_S1x64 := by
  show StableHlo.after hostOps3 W (Proc.devRef .tc main_v107) = _
  after_results_simp
  rfl

/-- The shift row is the shift vector set as a row. -/
theorem term_beta : (A W main_v108 : S1x64.Idx → EReal) = shapeCast S1x64 (W main_arg10 : S64.Idx → EReal) Facts₀.shapeCasts_S64_S1x64 := by
  show StableHlo.after hostOps3 W (Proc.devRef .tc main_v108) = _
  after_results_simp
  rfl

/-- THE MEAN ROW AT `(0, q)`: the sum over the 25 tiles of the first statistic's entry `(8 t, q)`, divided by 100000. -/
theorem mean_eq (q : Fin 64) :
    (A W main_v105 : S1x64.Idx → EReal) (ix2 (0 : Fin 1) q)
      = Ideal.div (∑ t : Fin 25, (W main_v90_1 : S200x64.Idx → EReal) (ix2 (⟨8 * t.val, by omega⟩ : Fin 200) q))
          ((100000 : ℝ) : EReal) := by
  rw [term_mean, meanRow_apply]

/-- THE VARIANCE ROW AT `(0, q)`: the sum over the 25 tiles of the second statistic's entry `(8 t, q)`, divided by 100000,
    minus the square of the mean row's entry (the first statistic's sum divided by 100000). -/
theorem var_eq (q : Fin 64) :
    (A W main_v106 : S1x64.Idx → EReal) (ix2 (0 : Fin 1) q)
      = Ideal.div (∑ t : Fin 25, (W main_v90_2 : S200x64.Idx → EReal) (ix2 (⟨8 * t.val, by omega⟩ : Fin 200) q))
          ((100000 : ℝ) : EReal)
        - Ideal.div (∑ t : Fin 25, (W main_v90_1 : S200x64.Idx → EReal) (ix2 (⟨8 * t.val, by omega⟩ : Fin 200) q))
            ((100000 : ℝ) : EReal)
          * Ideal.div (∑ t : Fin 25, (W main_v90_1 : S200x64.Idx → EReal) (ix2 (⟨8 * t.val, by omega⟩ : Fin 200) q))
            ((100000 : ℝ) : EReal) := by
  rw [term_var, varRow_apply, meanRow_apply]

/-- The same with the mean row's entry named: if the mean row at `(0, q)` is `μ`, the variance row there is the second
    statistic's quotient minus `μ²`. -/
theorem var_eq_of_mean (q : Fin 64) (μ : EReal) (hμ : (A W main_v105 : S1x64.Idx → EReal) (ix2 (0 : Fin 1) q) = μ) :
    (A W main_v106 : S1x64.Idx → EReal) (ix2 (0 : Fin 1) q)
      = Ideal.div (∑ t : Fin 25, (W main_v90_2 : S200x64.Idx → EReal) (ix2 (⟨8 * t.val, by omega⟩ : Fin 200) q))
          ((100000 : ℝ) : EReal) - μ * μ := by
  rw [var_eq, ← hμ, mean_eq]

/-- THE SCALE ROW AT `(0, q)`: the scale vector's entry `q`. -/
theorem gamma_eq (q : Fin 64) :
    (A W main_v107 : S1x64.Idx → EReal) (ix2 (0 : Fin 1) q) = (W main_arg9 : S64.Idx → EReal) (ix1 q) := by
  rw [term_gamma, row_apply]

/-- THE SHIFT ROW AT `(0, q)`: the shift vector's entry `q`. -/
theorem beta_eq (q : Fin 64) :
    (A W main_v108 : S1x64.Idx → EReal) (ix2 (0 : Fin 1) q) = (W main_arg10 : S64.Idx → EReal) (ix1 q) := by
  rw [term_beta, row_apply]

/-- Buffer 109 is argument 13 set as a row. -/
theorem term_arg13 : (A W main_v109 : S1x256.Idx → EReal) = shapeCast S1x256 (W main_arg13 : S256.Idx → EReal) Facts₀.shapeCasts_S256_S1x256 := by
  show StableHlo.after hostOps3 W (Proc.devRef .tc main_v109) = _
  after_results_simp
  rfl

/-- ARGUMENT 13 SET AS A ROW, AT `(0, j)`: the vector's entry `j`. -/
theorem arg13_eq (j : Fin 256) :
    (A W main_v109 : S1x256.Idx → EReal) (ix2 (0 : Fin 1) j) = (W main_arg13 : S256.Idx → EReal) (ix1 j) := by
  rw [term_arg13]
  exact shapeCast_a_1a_apply _ _ 0 j

/-- Buffer 110 is argument 14 set as a row. -/
theorem term_arg14 : (A W main_v110 : S1x256.Idx → EReal) = shapeCast S1x256 (W main_arg14 : S256.Idx → EReal) Facts₀.shapeCasts_S256_S1x256 := by
  show StableHlo.after hostOps3 W (Proc.devRef .tc main_v110) = _
  after_results_simp
  rfl

/-- ARGUMENT 14 SET AS A ROW, AT `(0, j)`: the vector's entry `j`. -/
theorem arg14_eq (j : Fin 256) :
    (A W main_v110 : S1x256.Idx → EReal) (ix2 (0 : Fin 1) j) = (W main_arg14 : S256.Idx → EReal) (ix1 j) := by
  rw [term_arg14]
  exact shapeCast_a_1a_apply _ _ 0 j

/-- Buffer 111 is argument 17 set as a row. -/
theorem term_arg17 : (A W main_v111 : S1x256.Idx → EReal) = shapeCast S1x256 (W main_arg17 : S256.Idx → EReal) Facts₀.shapeCasts_S256_S1x256 := by
  show StableHlo.after hostOps3 W (Proc.devRef .tc main_v111) = _
  after_results_simp
  rfl

/-- ARGUMENT 17 SET AS A ROW, AT `(0, j)`: the vector's entry `j`. -/
theorem arg17_eq (j : Fin 256) :
    (A W main_v111 : S1x256.Idx → EReal) (ix2 (0 : Fin 1) j) = (W main_arg17 : S256.Idx → EReal) (ix1 j) := by
  rw [term_arg17]
  exact shapeCast_a_1a_apply _ _ 0 j

/-- Buffer 112 is argument 18 set as a row. -/
theorem term_arg18 : (A W main_v112 : S1x256.Idx → EReal) = shapeCast S1x256 (W main_arg18 : S256.Idx → EReal) Facts₀.shapeCasts_S256_S1x256 := by
  show StableHlo.after hostOps3 W (Proc.devRef .tc main_v112) = _
  after_results_simp
  rfl

/-- ARGUMENT 18 SET AS A ROW, AT `(0, j)`: the vector's entry `j`. -/
theorem arg18_eq (j : Fin 256) :
    (A W main_v112 : S1x256.Idx → EReal) (ix2 (0 : Fin 1) j) = (W main_arg18 : S256.Idx → EReal) (ix1 j) := by
  rw [term_arg18]
  exact shapeCast_a_1a_apply _ _ 0 j

/-- Buffer 113 is argument 20 set as a row. -/
theorem term_arg20 : (A W main_v113 : S1x14.Idx → EReal) = shapeCast S1x14 (W main_arg20 : S14.Idx → EReal) Facts₀.shapeCasts_S14_S1x14 := by
  show StableHlo.after hostOps3 W (Proc.devRef .tc main_v113) = _
  after_results_simp
  rfl

/-- ARGUMENT 20 SET AS A ROW, AT `(0, j)`: the vector's entry `j`. -/
theorem arg20_eq (j : Fin 14) :
    (A W main_v113 : S1x14.Idx → EReal) (ix2 (0 : Fin 1) j) = (W main_arg20 : S14.Idx → EReal) (ix1 j) := by
  rw [term_arg20]
  exact shapeCast_a_1a_apply _ _ 0 j

end Cert.KernelIdeal.Host3

end
-- ==== Proof.KChain4.lean ====
/-
  The kernel program's result as a function of the arguments, part 4: the fourth host stretch and the last region.
  The stretch turns the third region's statistics into the second layer's column mean and variance (tile by tile) and
  lays the second scale and shift, the four gate bias vectors and the read-out bias as rows. The last region finds
  these with the second layer's activations, the first layer's normalised activations, the input features, the two
  gate weights (transposed by the first stretch) and the read-out weight: its result is the network's output in the
  aggregate-then-multiply, tile-by-tile spelling.
-/
import proofs.«181908_j1778116460896_2_alg».proof.Proof.KChain3
import proofs.«181908_j1778116460896_2_alg».proof.Proof.K3Arrays
import proofs.«181908_j1778116460896_2_alg».proof.Proof.KHost3

set_option maxRecDepth 16384

noncomputable section

namespace Cert.KernelIdeal.Chain

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg) (c : Dev nD)

abbrev aG2 : S64.Idx → EReal := m ((c : Thread nD τ).loc main_arg9)
abbrev aBe2 : S64.Idx → EReal := m ((c : Thread nD τ).loc main_arg10)
abbrev aWih1 : S256x128.Idx → EReal := m ((c : Thread nD τ).loc main_arg11)
abbrev aBih1 : S256.Idx → EReal := m ((c : Thread nD τ).loc main_arg13)
abbrev aBhh1 : S256.Idx → EReal := m ((c : Thread nD τ).loc main_arg14)
abbrev aWih2 : S256x64.Idx → EReal := m ((c : Thread nD τ).loc main_arg15)
abbrev aBih2 : S256.Idx → EReal := m ((c : Thread nD τ).loc main_arg17)
abbrev aBhh2 : S256.Idx → EReal := m ((c : Thread nD τ).loc main_arg18)
abbrev aWl : S143x14.Idx → EReal := m ((c : Thread nD τ).loc main_arg19)
abbrev aBl : S14.Idx → EReal := m ((c : Thread nD τ).loc main_arg20)

/-- THE SECOND MEAN ROW the last region finds. -/
theorem mean2_at (q : Fin 64) :
    @Eq EReal ((W7 m ρ c (Proc.devRef .tc main_v105) : S1x64.Idx → EReal) (ix2 (0 : Fin 1) q)) (Cert.Spec.meanK (a2 m c) q) := by
  refine (Host3.mean_eq (W6 m ρ c) q).trans ?_
  unfold Cert.Spec.meanK
  rw [zero_add]
  refine congrArg (fun s : EReal => Ideal.div s Cert.Spec.nodes) ?_
  refine Finset.sum_congr rfl fun t _ => ?_
  refine (sum2_at m ρ c ⟨8 * t.val, by omega⟩ q).trans ?_
  exact Finset.sum_congr rfl fun p _ => by rw [tile_row]

/-- THE SECOND VARIANCE ROW the last region finds. -/
theorem var2_at (q : Fin 64) :
    @Eq EReal ((W7 m ρ c (Proc.devRef .tc main_v106) : S1x64.Idx → EReal) (ix2 (0 : Fin 1) q)) (Cert.Spec.varK (a2 m c) q) := by
  refine (Host3.var_eq_of_mean (W6 m ρ c) q (Cert.Spec.meanK (a2 m c) q) (mean2_at m ρ c q)).trans ?_
  unfold Cert.Spec.varK
  rw [zero_add]
  refine congrArg (fun s : EReal => Ideal.div s Cert.Spec.nodes - Cert.Spec.meanK (a2 m c) q * Cert.Spec.meanK (a2 m c) q) ?_
  refine Finset.sum_congr rfl fun t _ => ?_
  refine (sumsq2_at m ρ c ⟨8 * t.val, by omega⟩ q).trans ?_
  exact Finset.sum_congr rfl fun p _ => by rw [tile_row]

/-! The rows the fourth stretch lays from arguments. -/
theorem g2_at (j : Fin 64) : @Eq EReal ((W7 m ρ c (Proc.devRef .tc main_v107) : S1x64.Idx → EReal) (ix2 (0 : Fin 1) j)) (aG2 m c (ix1 j)) := by
  refine (Host3.gamma_eq (W6 m ρ c) j).trans ?_
  rw [Trace.arg6 m ρ c main_arg9 (by decide) (by decide) (by decide) (by decide) (by decide) (by decide)]
theorem be2_at (j : Fin 64) : @Eq EReal ((W7 m ρ c (Proc.devRef .tc main_v108) : S1x64.Idx → EReal) (ix2 (0 : Fin 1) j)) (aBe2 m c (ix1 j)) := by
  refine (Host3.beta_eq (W6 m ρ c) j).trans ?_
  rw [Trace.arg6 m ρ c main_arg10 (by decide) (by decide) (by decide) (by decide) (by decide) (by decide)]
theorem bih1_at (j : Fin 256) : @Eq EReal ((W7 m ρ c (Proc.devRef .tc main_v109) : S1x256.Idx → EReal) (ix2 (0 : Fin 1) j)) (aBih1 m c (ix1 j)) := by
  refine (Host3.arg13_eq (W6 m ρ c) j).trans ?_
  rw [Trace.arg6 m ρ c main_arg13 (by decide) (by decide) (by decide) (by decide) (by decide) (by decide)]
theorem bhh1_at (j : Fin 256) : @Eq EReal ((W7 m ρ c (Proc.devRef .tc main_v110) : S1x256.Idx → EReal) (ix2 (0 : Fin 1) j)) (aBhh1 m c (ix1 j)) := by
  refine (Host3.arg14_eq (W6 m ρ c) j).trans ?_
  rw [Trace.arg6 m ρ c main_arg14 (by decide) (by decide) (by decide) (by decide) (by decide) (by decide)]
theorem bih2_at (j : Fin 256) : @Eq EReal ((W7 m ρ c (Proc.devRef .tc main_v111) : S1x256.Idx → EReal) (ix2 (0 : Fin 1) j)) (aBih2 m c (ix1 j)) := by
  refine (Host3.arg17_eq (W6 m ρ c) j).trans ?_
  rw [Trace.arg6 m ρ c main_arg17 (by decide) (by decide) (by decide) (by decide) (by decide) (by decide)]
theorem bhh2_at (j : Fin 256) : @Eq EReal ((W7 m ρ c (Proc.devRef .tc main_v112) : S1x256.Idx → EReal) (ix2 (0 : Fin 1) j)) (aBhh2 m c (ix1 j)) := by
  refine (Host3.arg18_eq (W6 m ρ c) j).trans ?_
  rw [Trace.arg6 m ρ c main_arg18 (by decide) (by decide) (by decide) (by decide) (by decide) (by decide)]
theorem bl_at (j : Fin 14) : @Eq EReal ((W7 m ρ c (Proc.devRef .tc main_v113) : S1x14.Idx → EReal) (ix2 (0 : Fin 1) j)) (aBl m c (ix1 j)) := by
  refine (Host3.arg20_eq (W6 m ρ c) j).trans ?_
  rw [Trace.arg6 m ρ c main_arg20 (by decide) (by decide) (by decide) (by decide) (by decide) (by decide)]

/-! What earlier regions and the first stretch left, where the last region reads it. -/

theorem h1_at7 (n : Fin 100000) (q : Fin 64) :
    (W7 m ρ c (Proc.devRef .tc main_v71_0) : S100000x64.Idx → EReal) (ix2 n q) = h1 m c n q := by
  rw [Trace.step67 m ρ c (b := main_v71_0) (by decide), Trace.step56 m ρ c main_v71_0 (by decide), Trace.step45 m ρ c (b := main_v71_0) (by decide)]
  exact h1_at m ρ c n q

theorem a2_at7 (n : Fin 100000) (q : Fin 64) :
    (W7 m ρ c (Proc.devRef .tc main_v90_0) : S100000x64.Idx → EReal) (ix2 n q) = a2 m c n q := by
  rw [Trace.step67 m ρ c (b := main_v90_0) (by decide)]
  exact a2_at m ρ c n q

theorem x_at7 (i : S100000x15.Idx) : (W7 m ρ c (Proc.devRef .tc main_arg0) : S100000x15.Idx → EReal) i = aX m c i := by
  rw [Trace.arg7 m ρ c main_arg0 (by decide) (by decide) (by decide) (by decide) (by decide) (by decide) (by decide)]

theorem wt1_at7 (k : Fin 128) (j : Fin 256) :
    (W7 m ρ c (Proc.devRef .tc main_v47) : S128x256.Idx → EReal) (ix2 k j) = aWih1 m c (ix2 j k) := by
  rw [Trace.to7 m ρ c main_v47 (by decide) (by decide) (by decide) (by decide) (by decide) (by decide)]
  exact Host0.wih1_eq (W0 m ρ c) k j

theorem wt2_at7 (k : Fin 64) (j : Fin 256) :
    (W7 m ρ c (Proc.devRef .tc main_v49) : S64x256.Idx → EReal) (ix2 k j) = aWih2 m c (ix2 j k) := by
  rw [Trace.to7 m ρ c main_v49 (by decide) (by decide) (by decide) (by decide) (by decide) (by decide)]
  exact Host0.wih2_eq (W0 m ρ c) k j

theorem wl_at7 (i : S143x14.Idx) : (W7 m ρ c (Proc.devRef .tc main_v50) : S143x14.Idx → EReal) i = aWl m c i := by
  rw [Trace.to7 m ρ c main_v50 (by decide) (by decide) (by decide) (by decide) (by decide) (by decide)]
  exact congrFun (Host0.wl_eq (W0 m ρ c)) i

/-- THE NETWORK'S OUTPUT in the kernel's spelling, of the arguments. -/
abbrev netK : Fin 100000 → Fin 14 → EReal :=
  Cert.Spec.net (aEi m c) (aEw m c) (aX m c) (a1 m c) Cert.Spec.meanK Cert.Spec.varK (aG1 m c) (aBe1 m c) (aW2 m c) (aB2 m c) (aG2 m c) (aBe2 m c)
    (aWih1 m c) (aBih1 m c) (aBhh1 m c) (aWih2 m c) (aBih2 m c) (aBhh2 m c) (aWl m c) (aBl m c)

/-- The last region's head at node `n`, output `o`. -/
theorem head_at' (n : Fin 100000) (o : Fin 14) : Head.headAt (V7 m ρ) c n o = netK m c n o := by
  unfold Head.headAt
  show _ = Cert.Spec.net (aEi m c) (aEw m c) (aX m c) (a1 m c) Cert.Spec.meanK Cert.Spec.varK (aG1 m c) (aBe1 m c) (aW2 m c) (aB2 m c) (aG2 m c) (aBe2 m c)
    (aWih1 m c) (aBih1 m c) (aBhh1 m c) (aWih2 m c) (aBih2 m c) (aBhh2 m c) (aWl m c) (aBl m c) n o
  unfold Cert.Spec.net
  have e1 : (fun q : Fin 64 => (V7 m ρ c main_v71_0 : S100000x64.Idx → EReal) (ix2 n q)) = h1 m c n := funext fun q => h1_at7 m ρ c n q
  have e2 : (fun q : Fin 64 => (V7 m ρ c main_v90_0 : S100000x64.Idx → EReal) (ix2 n q)) = a2 m c n := funext fun q => a2_at7 m ρ c n q
  have e3 : (fun q : Fin 64 => (V7 m ρ c main_v105 : S1x64.Idx → EReal) (ix2 0 q)) = Cert.Spec.meanK (a2 m c) := funext fun q => mean2_at m ρ c q
  have e4 : (fun q : Fin 64 => (V7 m ρ c main_v106 : S1x64.Idx → EReal) (ix2 0 q)) = Cert.Spec.varK (a2 m c) := funext fun q => var2_at m ρ c q
  have e5 : (fun q : Fin 64 => (V7 m ρ c main_v107 : S1x64.Idx → EReal) (ix2 0 q)) = fun q => aG2 m c (ix1 q) := funext fun q => g2_at m ρ c q
  have e6 : (fun q : Fin 64 => (V7 m ρ c main_v108 : S1x64.Idx → EReal) (ix2 0 q)) = fun q => aBe2 m c (ix1 q) := funext fun q => be2_at m ρ c q
  have e7 : (fun (k : Fin 128) (j : Fin 256) => (V7 m ρ c main_v47 : S128x256.Idx → EReal) (ix2 k j)) = fun k j => aWih1 m c (ix2 j k) :=
    funext fun k => funext fun j => wt1_at7 m ρ c k j
  have e8 : (fun j : Fin 256 => (V7 m ρ c main_v109 : S1x256.Idx → EReal) (ix2 0 j)) = fun j => aBih1 m c (ix1 j) := funext fun j => bih1_at m ρ c j
  have e9 : (fun j : Fin 256 => (V7 m ρ c main_v110 : S1x256.Idx → EReal) (ix2 0 j)) = fun j => aBhh1 m c (ix1 j) := funext fun j => bhh1_at m ρ c j
  have e10 : (fun (k : Fin 64) (j : Fin 256) => (V7 m ρ c main_v49 : S64x256.Idx → EReal) (ix2 k j)) = fun k j => aWih2 m c (ix2 j k) :=
    funext fun k => funext fun j => wt2_at7 m ρ c k j
  have e11 : (fun j : Fin 256 => (V7 m ρ c main_v111 : S1x256.Idx → EReal) (ix2 0 j)) = fun j => aBih2 m c (ix1 j) := funext fun j => bih2_at m ρ c j
  have e12 : (fun j : Fin 256 => (V7 m ρ c main_v112 : S1x256.Idx → EReal) (ix2 0 j)) = fun j => aBhh2 m c (ix1 j) := funext fun j => bhh2_at m ρ c j
  have e13 : (fun q : Fin 15 => (V7 m ρ c main_arg0 : S100000x15.Idx → EReal) (ix2 n q)) = fun k => aX m c (ix2 n k) := funext fun q => x_at7 m ρ c (ix2 n q)
  have e14 : (fun (k : Fin 143) (o : Fin 14) => (V7 m ρ c main_v50 : S143x14.Idx → EReal) (ix2 k o)) = fun k o => aWl m c (ix2 k o) :=
    funext fun k => funext fun o => wl_at7 m ρ c (ix2 k o)
  have e15 : (fun o : Fin 14 => (V7 m ρ c main_v113 : S1x14.Idx → EReal) (ix2 0 o)) = fun o => aBl m c (ix1 o) := funext fun o => bl_at m ρ c o
  rw [e1, e2, e3, e4, e5, e6, e7, e8, e9, e10, e11, e12, e13, e14, e15]

/-- THE RESULT ARRAY of the kernel program, of the arguments. -/
theorem out_at (n : Fin 100000) (o : Fin 14) :
    (W8 m ρ c (Proc.devRef .tc main_v114) : S100000x14.Idx → EReal) (ix2 n o) = netK m c n o := by
  have h : (W8 m ρ c (Proc.devRef .tc main_v114) : S100000x14.Idx → EReal) = Head.headV (V7 m ρ) c :=
    (Trace.out3_at8 m ρ c 15).trans (Head.final_out (V7 m ρ) c)
  rw [h]
  exact head_at' m ρ c n o

end Cert.KernelIdeal.Chain

end
-- ==== Proof.RefStages1.lean ====
/- The reference program's stages read at an index, against the shared specification of the graph normalisation.

   R[b] is what buffer b holds once the whole program has run from contents V0. The program is in single-assignment form, so
   R satisfies the program's own equations (the read-back lemmas): R y = f (R x …) for the operation that writes y. Each
   lemma here reads one such equation at a symbolic index — a slice, a reshape, a broadcast, a pointwise operation, the
   segment sum of a scatter-add, the clamped row lookup of a gather, each by its own index lemma — and substitutes the
   readings of the operands already obtained. Nothing is evaluated: the arrays have 100000 nodes and 1600000 edges.

   Stage 1, the edge prefix. The two rows of the index array are the source and destination words. The degree is the
   scatter-add of the weights at the destination words into zeros, plus one; an out-of-range word lands nowhere, which is the
   specification's filter "the word read signed is the node". Its inverse square root is gathered at both endpoints after
   the word is wrapped (a negative word has the node count added) and the gather clamps the wrapped word into the node range:
   the specification's rowOf ∘ wrap. The edge's normaliser is the product of the two gathered values and the weight, the
   node's own normaliser the square of its inverse root degree.

   Stage 2, the first layer up to its activation: the features times the first weights (a sum over the 15 input features),
   one graph-convolution step of that product in the specification's form, the bias, and the rectifier.

   Stage 3, the first layer's batch statistics: the activation's column mean (the column sums over the nodes divided by the
   node count) and the variance the module-local function computes — the centred squares' column sums over the node count
   less a converted integer 0, guarded by a select whose condition (the divisor is positive) is decided here.

   Stage 4, the first layer in the names of the shared network specification: the mean and variance as meanR and varR of the
   activation, the activation as a1R, and the first normalisation's result as h1. -/
import proofs.«181908_j1778116460896_2_alg».proof.Proof.RefRunB
import proofs.«181908_j1778116460896_2_alg».proof.Proof.Spec
import proofs.«181908_j1778116460896_2_alg».proof.Proof.SpecNet
import proofs.«181908_j1778116460896_2_alg».proof.Proof.LibScatterGatherAt
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefStages

open Cert.ReferenceIdeal Cert.ReferenceIdeal.Gen Cert.ReferenceIdeal.RefRun Idealize.ShloMosaic Idealize.ShloMosaic.TcCoe
open Idealize.ShloMosaic.StableHlo Idealize.ShloMosaic.ValueIdx Cert.ReadBack Cert.Lib.ScatterGatherAt

/-! ## Pointwise operations read at an index, and two float words -/

theorem cmpi_apply {s : Shape} {w : Nat} (p : CmpIPredicate) (x y : IVec s w) (i : s.Idx) :
    cmpi p x y i = IntOp.cmpi p (x i) (y i) := rfl
theorem addi_apply {s : Shape} {w : Nat} (x y : IVec s w) (i : s.Idx) : addi x y i = IntOp.addi (x i) (y i) := rfl
theorem rsqrt_apply {s : Shape} {φ : FTy} (x : FVec Ideal s φ) (i : s.Idx) : Host.rsqrt x i = Ideal.rsqrt (x i) := rfl

/-- The float word of 1.0 is the number one: 2^23 · 2^(−23). -/
theorem ofBits_one_f32 : Ideal.ofBits .f32 0x3F800000#32 = 1 := by
  simp [Ideal.ofBits, Ideal.ieee]
  rw [← EReal.coe_mul]
  norm_num

variable (V0 : Valuation τ sig (Elt Ideal))

/-! Notation: R[b] is the contents of buffer b after the whole program run from the contents V0. -/
set_option quotPrecheck false in
local notation "R[" b "]" => after (ops (F := Ideal)) V0 (Proc.devRef (τ := τ) Proc.tc b)

/-- The edge index array, as V0 holds it. -/
abbrev ei : S2x1600000.Idx → BitVec 32 := V0 (Proc.devRef .tc main_arg1)
/-- The edge weights, as V0 holds them. -/
abbrev ew : S1600000.Idx → EReal := V0 (Proc.devRef .tc main_arg2)

/-! ## The edge list's two rows -/

set_option maxRecDepth 8192 in
/-- Row 0 of the index array, still as a one-row matrix. -/
theorem v0_at (e : Fin 1600000) : R[main_v0] (ix2 (0 : Fin 1) e) = ei V0 (ix2 0 e) := by
  refine (congrFun (readback_unary ops_writes V0 0 (x := main_arg1) (y := main_v0) rfl (by decide) (by decide)) _).trans ?_
  refine (slice2_axis0_apply 0 _ _ (0 : Fin 1) e (0 : Fin 2) rfl).trans ?_
  exact congrFun (after_keep ops_writes V0 (by decide)) _

set_option maxRecDepth 8192 in
/-- The source words. -/
theorem src_at (e : Fin 1600000) : R[main_v1] (ix1 e) = Spec.src (ei V0) e := by
  refine (congrFun ((readback_reshape ops_writes V0 1 (x := main_v0) (y := main_v1) rfl (by decide) (by decide)).trans rfl
    : R[main_v1] = shapeCast S1600000 R[main_v0] shapeCasts_S1x1600000_S1600000) _).trans ?_
  refine (shapeCast_1a_a_apply _ _ e).trans ?_
  exact v0_at V0 e

set_option maxRecDepth 8192 in
/-- Row 1 of the index array, still as a one-row matrix. -/
theorem v2_at (e : Fin 1600000) : R[main_v2] (ix2 (0 : Fin 1) e) = ei V0 (ix2 1 e) := by
  refine (congrFun (readback_unary ops_writes V0 2 (x := main_arg1) (y := main_v2) rfl (by decide) (by decide)) _).trans ?_
  refine (slice2_axis0_apply 1 _ _ (0 : Fin 1) e (1 : Fin 2) rfl).trans ?_
  exact congrFun (after_keep ops_writes V0 (by decide)) _

set_option maxRecDepth 8192 in
/-- The destination words. -/
theorem dst_at (e : Fin 1600000) : R[main_v3] (ix1 e) = Spec.dst (ei V0) e := by
  refine (congrFun ((readback_reshape ops_writes V0 3 (x := main_v2) (y := main_v3) rfl (by decide) (by decide)).trans rfl
    : R[main_v3] = shapeCast S1600000 R[main_v2] shapeCasts_S1x1600000_S1600000) _).trans ?_
  refine (shapeCast_1a_a_apply _ _ e).trans ?_
  exact v2_at V0 e

/-! ## The degree: a segment sum of the weights over the destination words, plus one -/

set_option maxRecDepth 8192 in
/-- The zero array the weights are summed into. -/
theorem v4_at (i : Fin 100000) : R[main_v4] (ix1 i) = (0 : EReal) := by
  refine (congrFun (readback_unary ops_writes V0 5 (x := main_cst) (y := main_v4) rfl (by decide) (by decide)) _).trans ?_
  refine (broadcastInDim_apply _ _ _ _ ix0 (fun a => a.elim0)).trans ?_
  refine (congrFun (readback_nullary ops_writes V0 4 (y := main_cst) rfl (by decide)) _).trans ?_
  exact Ideal.ofBits_zero_f32

set_option maxRecDepth 8192 in
/-- The destination words as the scatter's index column. -/
theorem v5_at (e : Fin 1600000) : R[main_v5] (ix2 e (0 : Fin 1)) = Spec.dst (ei V0) e := by
  refine (congrFun (readback_unary ops_writes V0 6 (x := main_v3) (y := main_v5) rfl (by decide) (by decide)) _).trans ?_
  refine (broadcastInDim_apply _ _ _ _ (ix1 e) (fun a => by match a with | ⟨0, _⟩ => rfl)).trans ?_
  exact dst_at V0 e

set_option maxRecDepth 8192 in
/-- The weights summed by destination word. -/
theorem v6_at (i : Fin 100000) : R[main_v6] (ix1 i) = 0 + ∑ e ∈ Spec.into (ei V0) i, ew V0 (ix1 e) := by
  refine (congrFun (readback_ternary ops_writes V0 7 (c := main_v4) (a := main_v5) (b := main_arg2) (y := main_v6) rfl
    (by decide) (by decide) (by decide) (by decide)) _).trans ?_
  refine (hostScatterAdd_flat_apply scatter_S100000_S1600000x1_S1600000_n_0_0_1 rfl rfl rfl rfl _ _ _ i).trans ?_
  refine congrArg₂ (· + ·) (v4_at V0 i) ?_
  refine Finset.sum_congr (Finset.filter_congr fun e _ => ?_) fun e _ => ?_
  · rw [v5_at V0 e]
  · exact congrFun (after_keep ops_writes V0 (by decide)) _

set_option maxRecDepth 8192 in
/-- The array of ones. -/
theorem v7_at (i : Fin 100000) : R[main_v7] (ix1 i) = (1 : EReal) := by
  refine (congrFun (readback_unary ops_writes V0 9 (x := main_cst_0) (y := main_v7) rfl (by decide) (by decide)) _).trans ?_
  refine (broadcastInDim_apply _ _ _ _ ix0 (fun a => a.elim0)).trans ?_
  refine (congrFun (readback_nullary ops_writes V0 8 (y := main_cst_0) rfl (by decide)) _).trans ?_
  exact ofBits_one_f32

set_option maxRecDepth 8192 in
/-- The degree. -/
theorem deg_eq (i : Fin 100000) : R[main_v8] (ix1 i) = Spec.deg (ei V0) (ew V0) i := by
  refine (congrFun (readback_binary ops_writes V0 10 (a := main_v6) (b := main_v7) (y := main_v8) rfl
    (by decide) (by decide) (by decide)) _).trans ?_
  refine (addf_apply _ _ _).trans ?_
  refine (congrArg₂ (fun a b : EReal => a + b) (v6_at V0 i) (v7_at V0 i)).trans ?_
  exact congrArg (fun a : EReal => a + 1) (zero_add _)

set_option maxRecDepth 8192 in
/-- Its inverse square root. -/
theorem dinv_eq (i : Fin 100000) : R[main_v9] (ix1 i) = Spec.dinv (ei V0) (ew V0) i := by
  refine (congrFun (readback_unary ops_writes V0 11 (x := main_v8) (y := main_v9) rfl (by decide) (by decide)) _).trans ?_
  exact (rsqrt_apply _ _).trans (congrArg Ideal.rsqrt (deg_eq V0 i))

/-! ## Wrapping an endpoint word before it is used to read a node's value, and reading the node's inverse root degree -/

set_option maxRecDepth 8192 in
theorem v10_at (e : Fin 1600000) : R[main_v10] (ix1 e) = 0#32 := by
  refine (congrFun (readback_unary ops_writes V0 13 (x := main_c) (y := main_v10) rfl (by decide) (by decide)) _).trans ?_
  refine (broadcastInDim_apply _ _ _ _ ix0 (fun a => a.elim0)).trans ?_
  exact congrFun (readback_nullary ops_writes V0 12 (y := main_c) rfl (by decide)) _

set_option maxRecDepth 8192 in
theorem v11_at (e : Fin 1600000) : R[main_v11] (ix1 e) = IntOp.cmpi .slt (Spec.src (ei V0) e) 0#32 := by
  refine (congrFun (readback_binary ops_writes V0 14 (a := main_v1) (b := main_v10) (y := main_v11) rfl
    (by decide) (by decide) (by decide)) _).trans ?_
  exact (cmpi_apply _ _ _ _).trans (congrArg₂ (IntOp.cmpi .slt) (src_at V0 e) (v10_at V0 e))

set_option maxRecDepth 8192 in
theorem v12_at (e : Fin 1600000) : R[main_v12] (ix1 e) = 100000#32 := by
  refine (congrFun (readback_unary ops_writes V0 16 (x := main_c_1) (y := main_v12) rfl (by decide) (by decide)) _).trans ?_
  refine (broadcastInDim_apply _ _ _ _ ix0 (fun a => a.elim0)).trans ?_
  exact congrFun (readback_nullary ops_writes V0 15 (y := main_c_1) rfl (by decide)) _

set_option maxRecDepth 8192 in
theorem v13_at (e : Fin 1600000) : R[main_v13] (ix1 e) = IntOp.addi (Spec.src (ei V0) e) 100000#32 := by
  refine (congrFun (readback_binary ops_writes V0 17 (a := main_v1) (b := main_v12) (y := main_v13) rfl
    (by decide) (by decide) (by decide)) _).trans ?_
  exact (addi_apply _ _ _).trans (congrArg₂ IntOp.addi (src_at V0 e) (v12_at V0 e))

set_option maxRecDepth 8192 in
/-- The wrapped source word. -/
theorem v14_at (e : Fin 1600000) : R[main_v14] (ix1 e) = Spec.wrap (Spec.src (ei V0) e) := by
  refine (congrFun (readback_ternary ops_writes V0 18 (c := main_v11) (a := main_v13) (b := main_v1) (y := main_v14) rfl
    (by decide) (by decide) (by decide) (by decide)) _).trans ?_
  refine (select_apply _ _ _ _).trans ?_
  rw [v11_at V0 e, v13_at V0 e, src_at V0 e]
  rfl

set_option maxRecDepth 8192 in
/-- The wrapped source words as a gather's index column. -/
theorem v15_at (e : Fin 1600000) : R[main_v15] (ix2 e (0 : Fin 1)) = Spec.wrap (Spec.src (ei V0) e) := by
  refine (congrFun (readback_unary ops_writes V0 19 (x := main_v14) (y := main_v15) rfl (by decide) (by decide)) _).trans ?_
  refine (broadcastInDim_apply _ _ _ _ (ix1 e) (fun a => by match a with | ⟨0, _⟩ => rfl)).trans ?_
  exact v14_at V0 e

set_option maxRecDepth 8192 in
/-- The inverse square root of the degree at the node the source word reads: the gather clamps the wrapped word. -/
theorem v16_at (e : Fin 1600000) :
    R[main_v16] (ix1 e) = Spec.dinv (ei V0) (ew V0) (Spec.rowOf (Spec.wrap (Spec.src (ei V0) e))) := by
  refine (congrFun (readback_binary ops_writes V0 20 (a := main_v9) (b := main_v15) (y := main_v16) rfl
    (by decide) (by decide) (by decide)) _).trans ?_
  refine (gather1_apply (by decide) gather_S100000_S1600000x1_S1600000_n_0_n_n_0_1_1 rfl rfl rfl rfl rfl rfl rfl _ _ e).trans ?_
  have hrow : gatherRow (N := 100000) (by decide) R[main_v15] e = Spec.rowOf (Spec.wrap (Spec.src (ei V0) e)) :=
    Fin.ext (congrArg (fun b : BitVec 32 => min b.toInt.toNat 99999) (v15_at V0 e))
  exact (congrArg (fun r => R[main_v9] (ix1 r)) hrow).trans (dinv_eq V0 _)

set_option maxRecDepth 8192 in
/-- That, times the edge's weight. -/
theorem v17_at (e : Fin 1600000) :
    R[main_v17] (ix1 e) = Spec.dinv (ei V0) (ew V0) (Spec.rowOf (Spec.wrap (Spec.src (ei V0) e))) * ew V0 (ix1 e) := by
  refine (congrFun (readback_binary ops_writes V0 21 (a := main_v16) (b := main_arg2) (y := main_v17) rfl
    (by decide) (by decide) (by decide)) _).trans ?_
  refine (mulf_apply _ _ _).trans ?_
  exact congrArg₂ (· * ·) (v16_at V0 e) (congrFun (after_keep ops_writes V0 (by decide)) _)

/-! The same for the destination word: the program repeats the seven operations on the other row. -/

set_option maxRecDepth 8192 in
theorem v18_at (e : Fin 1600000) : R[main_v18] (ix1 e) = 0#32 := by
  refine (congrFun (readback_unary ops_writes V0 23 (x := main_c_2) (y := main_v18) rfl (by decide) (by decide)) _).trans ?_
  refine (broadcastInDim_apply _ _ _ _ ix0 (fun a => a.elim0)).trans ?_
  exact congrFun (readback_nullary ops_writes V0 22 (y := main_c_2) rfl (by decide)) _

set_option maxRecDepth 8192 in
theorem v19_at (e : Fin 1600000) : R[main_v19] (ix1 e) = IntOp.cmpi .slt (Spec.dst (ei V0) e) 0#32 := by
  refine (congrFun (readback_binary ops_writes V0 24 (a := main_v3) (b := main_v18) (y := main_v19) rfl
    (by decide) (by decide) (by decide)) _).trans ?_
  exact (cmpi_apply _ _ _ _).trans (congrArg₂ (IntOp.cmpi .slt) (dst_at V0 e) (v18_at V0 e))

set_option maxRecDepth 8192 in
theorem v20_at (e : Fin 1600000) : R[main_v20] (ix1 e) = 100000#32 := by
  refine (congrFun (readback_unary ops_writes V0 26 (x := main_c_3) (y := main_v20) rfl (by decide) (by decide)) _).trans ?_
  refine (broadcastInDim_apply _ _ _ _ ix0 (fun a => a.elim0)).trans ?_
  exact congrFun (readback_nullary ops_writes V0 25 (y := main_c_3) rfl (by decide)) _

set_option maxRecDepth 8192 in
theorem v21_at (e : Fin 1600000) : R[main_v21] (ix1 e) = IntOp.addi (Spec.dst (ei V0) e) 100000#32 := by
  refine (congrFun (readback_binary ops_writes V0 27 (a := main_v3) (b := main_v20) (y := main_v21) rfl
    (by decide) (by decide) (by decide)) _).trans ?_
  exact (addi_apply _ _ _).trans (congrArg₂ IntOp.addi (dst_at V0 e) (v20_at V0 e))

set_option maxRecDepth 8192 in
/-- The wrapped destination word. -/
theorem v22_at (e : Fin 1600000) : R[main_v22] (ix1 e) = Spec.wrap (Spec.dst (ei V0) e) := by
  refine (congrFun (readback_ternary ops_writes V0 28 (c := main_v19) (a := main_v21) (b := main_v3) (y := main_v22) rfl
    (by decide) (by decide) (by decide) (by decide)) _).trans ?_
  refine (select_apply _ _ _ _).trans ?_
  rw [v19_at V0 e, v21_at V0 e, dst_at V0 e]
  rfl

set_option maxRecDepth 8192 in
/-- The wrapped destination words as a gather's index column. -/
theorem v23_at (e : Fin 1600000) : R[main_v23] (ix2 e (0 : Fin 1)) = Spec.wrap (Spec.dst (ei V0) e) := by
  refine (congrFun (readback_unary ops_writes V0 29 (x := main_v22) (y := main_v23) rfl (by decide) (by decide)) _).trans ?_
  refine (broadcastInDim_apply _ _ _ _ (ix1 e) (fun a => by match a with | ⟨0, _⟩ => rfl)).trans ?_
  exact v22_at V0 e

set_option maxRecDepth 8192 in
/-- The inverse square root of the degree at the node the destination word reads. -/
theorem v24_at (e : Fin 1600000) :
    R[main_v24] (ix1 e) = Spec.dinv (ei V0) (ew V0) (Spec.rowOf (Spec.wrap (Spec.dst (ei V0) e))) := by
  refine (congrFun (readback_binary ops_writes V0 30 (a := main_v9) (b := main_v23) (y := main_v24) rfl
    (by decide) (by decide) (by decide)) _).trans ?_
  refine (gather1_apply (by decide) gather_S100000_S1600000x1_S1600000_n_0_n_n_0_1_1 rfl rfl rfl rfl rfl rfl rfl _ _ e).trans ?_
  have hrow : gatherRow (N := 100000) (by decide) R[main_v23] e = Spec.rowOf (Spec.wrap (Spec.dst (ei V0) e)) :=
    Fin.ext (congrArg (fun b : BitVec 32 => min b.toInt.toNat 99999) (v23_at V0 e))
  exact (congrArg (fun r => R[main_v9] (ix1 r)) hrow).trans (dinv_eq V0 _)

/-! ## The normalisers -/

set_option maxRecDepth 8192 in
/-- An edge's normaliser. -/
theorem nrm_eq (e : Fin 1600000) : R[main_v25] (ix1 e) = Spec.nrm (ei V0) (ew V0) e := by
  refine (congrFun (readback_binary ops_writes V0 31 (a := main_v17) (b := main_v24) (y := main_v25) rfl
    (by decide) (by decide) (by decide)) _).trans ?_
  refine (mulf_apply _ _ _).trans ?_
  exact congrArg₂ (· * ·) (v17_at V0 e) (v24_at V0 e)

set_option maxRecDepth 8192 in
/-- A node's own normaliser. -/
theorem dinv2_eq (i : Fin 100000) : R[main_v26] (ix1 i) = Spec.dinv2 (ei V0) (ew V0) i := by
  refine (congrFun (readback_binary ops_writes V0 32 (a := main_v9) (b := main_v9) (y := main_v26) rfl
    (by decide) (by decide) (by decide)) _).trans ?_
  refine (mulf_apply _ _ _).trans ?_
  exact congrArg₂ (· * ·) (dinv_eq V0 i) (dinv_eq V0 i)

/-! ## Stage 2: the first layer up to its activation

The node features times the first weight matrix; one graph-convolution step of that product (gather the product's rows at
the wrapped source words, scale by the edge normalisers, scatter-add at the destination words into zeros, add the node's own
share); the bias; the rectifier, which is a module-local function called on the sum. -/

/-- The node features, the first weight matrix and the first bias: three of the program's arguments as V0 holds them. -/
abbrev xin : S100000x15.Idx → EReal := V0 (Proc.devRef .tc main_arg0)
abbrev W1 : S15x64.Idx → EReal := V0 (Proc.devRef .tc main_arg3)
abbrev b1 : S64.Idx → EReal := V0 (Proc.devRef .tc main_arg4)

/-- The contraction record of the first product: rows of the features against columns of the weights over the 15 features. -/
abbrev D1 := dot_S100000x15_S15x64_S100000x64_1_0_0_1_n_n

theorem D1_lhs_row (j : S100000x64.Idx) (k : D1.contr.Idx) : (D1.lhsIdx j k 0).val = (j 0).val := by
  unfold DotDims.lhsIdx
  rw [dif_neg (show ¬(0 : Fin S100000x15.rank) ∈ D1.lhsBatch by decide),
    dif_pos (show (0 : Fin S100000x15.rank) ∈ D1.lhsNonContracting by decide)]
  rfl
theorem D1_lhs_feat (j : S100000x64.Idx) (k : D1.contr.Idx) : (D1.lhsIdx j k 1).val = (k ⟨0, by decide⟩).val :=
  D1.lhsIdx_val_of_single rfl j k
theorem D1_rhs_feat (j : S100000x64.Idx) (k : D1.contr.Idx) : (D1.rhsIdx j k 0).val = (k ⟨0, by decide⟩).val :=
  D1.rhsIdx_val_of_single rfl j k
theorem D1_rhs_col (j : S100000x64.Idx) (k : D1.contr.Idx) : (D1.rhsIdx j k 1).val = (j 1).val := by
  unfold DotDims.rhsIdx
  rw [dif_neg (show ¬(1 : Fin S15x64.rank) ∈ D1.rhsBatch by decide),
    dif_pos (show (1 : Fin S15x64.rank) ∈ D1.rhsNonContracting by decide)]
  rfl

set_option maxRecDepth 8192 in
/-- The features times the first weights, at node i and column q: the sum over the 15 input features. -/
theorem xw_eq (i : Fin 100000) (q : Fin 64) :
    R[main_v27] (ix2 i q) = ∑ k : Fin 15, xin V0 (ix2 i k) * W1 V0 (ix2 k q) := by
  refine (congrFun (readback_binary ops_writes V0 33 (a := main_arg0) (b := main_arg3) (y := main_v27) rfl
    (by decide) (by decide) (by decide)) _).trans ?_
  refine (Ideal.dotGeneral_apply D1 none _ _ _ (ix2 i q)).trans ?_
  refine (Equiv.sum_comp (contrEquiv1 D1 15 rfl rfl).symm _).symm.trans ?_
  refine Finset.sum_congr rfl fun k _ => ?_
  have hk := contrEquiv1_symm_val D1 15 rfl rfl k
  have el : D1.lhsIdx (ix2 i q) ((contrEquiv1 D1 15 rfl rfl).symm k) = ix2 i k := funext fun a => Fin.ext (by
    match a with
    | ⟨0, _⟩ => exact D1_lhs_row _ _
    | ⟨1, _⟩ => exact (D1_lhs_feat _ _).trans hk)
  have er : D1.rhsIdx (ix2 i q) ((contrEquiv1 D1 15 rfl rfl).symm k) = ix2 k q := funext fun a => Fin.ext (by
    match a with
    | ⟨0, _⟩ => exact (D1_rhs_feat _ _).trans hk
    | ⟨1, _⟩ => exact D1_rhs_col _ _)
  rw [el, er]
  exact congrArg₂ (fun a b : EReal => a * b) (congrFun (after_keep ops_writes V0 (by decide)) _)
    (congrFun (after_keep ops_writes V0 (by decide)) _)

set_option maxRecDepth 8192 in
/-- The edge normalisers as a column. -/
theorem v28_at (e : Fin 1600000) : R[main_v28] (ix2 e (0 : Fin 1)) = Spec.nrm (ei V0) (ew V0) e := by
  refine (congrFun (readback_unary ops_writes V0 34 (x := main_v25) (y := main_v28) rfl (by decide) (by decide)) _).trans ?_
  refine (broadcastInDim_apply _ _ _ _ (ix1 e) (fun a => by match a with | ⟨0, _⟩ => rfl)).trans ?_
  exact nrm_eq V0 e

/-! The source word is wrapped once more (the program recomputes the seven operations for each use). -/

set_option maxRecDepth 8192 in
theorem v29_at (e : Fin 1600000) : R[main_v29] (ix1 e) = 0#32 := by
  refine (congrFun (readback_unary ops_writes V0 36 (x := main_c_4) (y := main_v29) rfl (by decide) (by decide)) _).trans ?_
  refine (broadcastInDim_apply _ _ _ _ ix0 (fun a => a.elim0)).trans ?_
  exact congrFun (readback_nullary ops_writes V0 35 (y := main_c_4) rfl (by decide)) _

set_option maxRecDepth 8192 in
theorem v30_at (e : Fin 1600000) : R[main_v30] (ix1 e) = IntOp.cmpi .slt (Spec.src (ei V0) e) 0#32 := by
  refine (congrFun (readback_binary ops_writes V0 37 (a := main_v1) (b := main_v29) (y := main_v30) rfl
    (by decide) (by decide) (by decide)) _).trans ?_
  exact (cmpi_apply _ _ _ _).trans (congrArg₂ (IntOp.cmpi .slt) (src_at V0 e) (v29_at V0 e))

set_option maxRecDepth 8192 in
theorem v31_at (e : Fin 1600000) : R[main_v31] (ix1 e) = 100000#32 := by
  refine (congrFun (readback_unary ops_writes V0 39 (x := main_c_5) (y := main_v31) rfl (by decide) (by decide)) _).trans ?_
  refine (broadcastInDim_apply _ _ _ _ ix0 (fun a => a.elim0)).trans ?_
  exact congrFun (readback_nullary ops_writes V0 38 (y := main_c_5) rfl (by decide)) _

set_option maxRecDepth 8192 in
theorem v32_at (e : Fin 1600000) : R[main_v32] (ix1 e) = IntOp.addi (Spec.src (ei V0) e) 100000#32 := by
  refine (congrFun (readback_binary ops_writes V0 40 (a := main_v1) (b := main_v31) (y := main_v32) rfl
    (by decide) (by decide) (by decide)) _).trans ?_
  exact (addi_apply _ _ _).trans (congrArg₂ IntOp.addi (src_at V0 e) (v31_at V0 e))

set_option maxRecDepth 8192 in
theorem v33_at (e : Fin 1600000) : R[main_v33] (ix1 e) = Spec.wrap (Spec.src (ei V0) e) := by
  refine (congrFun (readback_ternary ops_writes V0 41 (c := main_v30) (a := main_v32) (b := main_v1) (y := main_v33) rfl
    (by decide) (by decide) (by decide) (by decide)) _).trans ?_
  refine (select_apply _ _ _ _).trans ?_
  rw [v30_at V0 e, v32_at V0 e, src_at V0 e]
  rfl

set_option maxRecDepth 8192 in
theorem v34_at (e : Fin 1600000) : R[main_v34] (ix2 e (0 : Fin 1)) = Spec.wrap (Spec.src (ei V0) e) := by
  refine (congrFun (readback_unary ops_writes V0 42 (x := main_v33) (y := main_v34) rfl (by decide) (by decide)) _).trans ?_
  refine (broadcastInDim_apply _ _ _ _ (ix1 e) (fun a => by match a with | ⟨0, _⟩ => rfl)).trans ?_
  exact v33_at V0 e

set_option maxRecDepth 8192 in
/-- The product's row at the node each edge reads from. -/
theorem v35_at (e : Fin 1600000) (q : Fin 64) : R[main_v35] (ix2 e q) = R[main_v27] (ix2 (Spec.from_ (ei V0) e) q) := by
  refine (congrFun (readback_binary ops_writes V0 43 (a := main_v27) (b := main_v34) (y := main_v35) rfl
    (by decide) (by decide) (by decide)) _).trans ?_
  refine (gatherRows_apply (by decide) gather_S100000x64_S1600000x1_S1600000x64_1_0_n_n_0_1_164 rfl rfl rfl rfl rfl rfl rfl _ _ e q).trans ?_
  have hrow : gatherRow (N := 100000) (by decide) R[main_v34] e = Spec.from_ (ei V0) e :=
    Fin.ext (congrArg (fun b : BitVec 32 => min b.toInt.toNat 99999) (v34_at V0 e))
  exact congrArg (fun r => R[main_v27] (ix2 r q)) hrow

set_option maxRecDepth 8192 in
/-- The edge normalisers spread over the 64 columns. -/
theorem v36_at (e : Fin 1600000) (q : Fin 64) : R[main_v36] (ix2 e q) = Spec.nrm (ei V0) (ew V0) e := by
  refine (congrFun (readback_unary ops_writes V0 44 (x := main_v28) (y := main_v36) rfl (by decide) (by decide)) _).trans ?_
  refine (broadcastInDim_apply _ _ _ _ (ix2 e (0 : Fin 1)) (fun a => by
    match a with
    | ⟨0, _⟩ => rfl
    | ⟨1, _⟩ => rfl)).trans ?_
  exact v28_at V0 e

set_option maxRecDepth 8192 in
/-- What each edge brings: its normaliser times the product's row at its source node. -/
theorem v37_at (e : Fin 1600000) (q : Fin 64) :
    R[main_v37] (ix2 e q) = Spec.nrm (ei V0) (ew V0) e * R[main_v27] (ix2 (Spec.from_ (ei V0) e) q) := by
  refine (congrFun (readback_binary ops_writes V0 45 (a := main_v36) (b := main_v35) (y := main_v37) rfl
    (by decide) (by decide) (by decide)) _).trans ?_
  refine (mulf_apply _ _ _).trans ?_
  exact congrArg₂ (fun a b : EReal => a * b) (v36_at V0 e q) (v35_at V0 e q)

set_option maxRecDepth 8192 in
theorem v38_at (i : Fin 100000) (q : Fin 64) : R[main_v38] (ix2 i q) = (0 : EReal) := by
  refine (congrFun (readback_unary ops_writes V0 47 (x := main_cst_6) (y := main_v38) rfl (by decide) (by decide)) _).trans ?_
  refine (broadcastInDim_apply _ _ _ _ ix0 (fun a => a.elim0)).trans ?_
  refine (congrFun (readback_nullary ops_writes V0 46 (y := main_cst_6) rfl (by decide)) _).trans ?_
  exact Ideal.ofBits_zero_f32

set_option maxRecDepth 8192 in
theorem v39_at (e : Fin 1600000) : R[main_v39] (ix2 e (0 : Fin 1)) = Spec.dst (ei V0) e := by
  refine (congrFun (readback_unary ops_writes V0 48 (x := main_v3) (y := main_v39) rfl (by decide) (by decide)) _).trans ?_
  refine (broadcastInDim_apply _ _ _ _ (ix1 e) (fun a => by match a with | ⟨0, _⟩ => rfl)).trans ?_
  exact dst_at V0 e

set_option maxRecDepth 8192 in
/-- What the edges landing on node i bring, summed. -/
theorem v40_at (i : Fin 100000) (q : Fin 64) :
    R[main_v40] (ix2 i q)
      = 0 + ∑ e ∈ Spec.into (ei V0) i, Spec.nrm (ei V0) (ew V0) e * R[main_v27] (ix2 (Spec.from_ (ei V0) e) q) := by
  refine (congrFun (readback_ternary ops_writes V0 49 (c := main_v38) (a := main_v39) (b := main_v37) (y := main_v40) rfl
    (by decide) (by decide) (by decide) (by decide)) _).trans ?_
  refine (hostScatterAdd_rows_apply scatter_S100000x64_S1600000x1_S1600000x64_1_0_0_1 rfl rfl rfl rfl _ _ _ i q).trans ?_
  refine congrArg₂ (fun a b : EReal => a + b) (v38_at V0 i q) ?_
  refine Finset.sum_congr (Finset.filter_congr fun e _ => ?_) fun e _ => ?_
  · rw [v39_at V0 e]
  · exact v37_at V0 e q

set_option maxRecDepth 8192 in
theorem v41_at (i : Fin 100000) : R[main_v41] (ix2 i (0 : Fin 1)) = Spec.dinv2 (ei V0) (ew V0) i := by
  refine (congrFun (readback_unary ops_writes V0 50 (x := main_v26) (y := main_v41) rfl (by decide) (by decide)) _).trans ?_
  refine (broadcastInDim_apply _ _ _ _ (ix1 i) (fun a => by match a with | ⟨0, _⟩ => rfl)).trans ?_
  exact dinv2_eq V0 i

set_option maxRecDepth 8192 in
theorem v42_at (i : Fin 100000) (q : Fin 64) : R[main_v42] (ix2 i q) = Spec.dinv2 (ei V0) (ew V0) i := by
  refine (congrFun (readback_unary ops_writes V0 51 (x := main_v41) (y := main_v42) rfl (by decide) (by decide)) _).trans ?_
  refine (broadcastInDim_apply _ _ _ _ (ix2 i (0 : Fin 1)) (fun a => by
    match a with
    | ⟨0, _⟩ => rfl
    | ⟨1, _⟩ => rfl)).trans ?_
  exact v41_at V0 i

set_option maxRecDepth 8192 in
/-- The node's own share. -/
theorem v43_at (i : Fin 100000) (q : Fin 64) :
    R[main_v43] (ix2 i q) = Spec.dinv2 (ei V0) (ew V0) i * R[main_v27] (ix2 i q) := by
  refine (congrFun (readback_binary ops_writes V0 52 (a := main_v42) (b := main_v27) (y := main_v43) rfl
    (by decide) (by decide) (by decide)) _).trans ?_
  refine (mulf_apply _ _ _).trans ?_
  exact congrArg (fun a : EReal => a * R[main_v27] (ix2 i q)) (v42_at V0 i q)

set_option maxRecDepth 8192 in
/-- One graph-convolution step of the product. -/
theorem conv1_eq (i : Fin 100000) (q : Fin 64) :
    R[main_v44] (ix2 i q) = Spec.conv (C := 64) (ei V0) (ew V0) R[main_v27] i q := by
  refine (congrFun (readback_binary ops_writes V0 53 (a := main_v40) (b := main_v43) (y := main_v44) rfl
    (by decide) (by decide) (by decide)) _).trans ?_
  refine (addf_apply _ _ _).trans ?_
  exact congrArg₂ (fun a b : EReal => a + b) (v40_at V0 i q) (v43_at V0 i q)

set_option maxRecDepth 8192 in
theorem v45_at (q : Fin 64) : R[main_v45] (ix2 (0 : Fin 1) q) = b1 V0 (ix1 q) := by
  refine (congrFun (readback_unary ops_writes V0 54 (x := main_arg4) (y := main_v45) rfl (by decide) (by decide)) _).trans ?_
  refine (broadcastInDim_apply _ _ _ _ (ix1 q) (fun a => by match a with | ⟨0, _⟩ => rfl)).trans ?_
  exact congrFun (after_keep ops_writes V0 (by decide)) _

set_option maxRecDepth 8192 in
theorem v46_at (i : Fin 100000) (q : Fin 64) : R[main_v46] (ix2 i q) = b1 V0 (ix1 q) := by
  refine (congrFun (readback_unary ops_writes V0 55 (x := main_v45) (y := main_v46) rfl (by decide) (by decide)) _).trans ?_
  refine (broadcastInDim_apply _ _ _ _ (ix2 (0 : Fin 1) q) (fun a => by
    match a with
    | ⟨0, _⟩ => rfl
    | ⟨1, _⟩ => rfl)).trans ?_
  exact v45_at V0 q

set_option maxRecDepth 8192 in
/-- The step plus the bias: the rectifier's operand. -/
theorem v47_at (i : Fin 100000) (q : Fin 64) :
    R[main_v47] (ix2 i q) = Spec.conv (C := 64) (ei V0) (ew V0) R[main_v27] i q + b1 V0 (ix1 q) := by
  refine (congrFun (readback_binary ops_writes V0 56 (a := main_v44) (b := main_v46) (y := main_v47) rfl
    (by decide) (by decide) (by decide)) _).trans ?_
  refine (addf_apply _ _ _).trans ?_
  exact congrArg₂ (fun a b : EReal => a + b) (conv1_eq V0 i q) (v46_at V0 i q)

set_option maxRecDepth 8192 in
/-- The rectifier's zero array (the first two operations of its body at this call). -/
theorem relu0_zero_at (i : Fin 100000) (q : Fin 64) : R[main_call0_v0] (ix2 i q) = (0 : EReal) := by
  refine (congrFun (readback_unary ops_writes V0 58 (x := main_call0_cst) (y := main_call0_v0)
    (f := broadcastInDim S100000x64 ![] bcast_S_S100000x64) rfl (by decide) (by decide)) _).trans ?_
  refine (broadcastInDim_apply _ _ _ _ ix0 (fun a => a.elim0)).trans ?_
  refine (congrFun (readback_nullary ops_writes V0 57 (y := main_call0_cst) (v := (constant S_ .f32 0x00000000#32 : FVec Ideal S_ .f32)) rfl (by decide)) _).trans ?_
  exact Ideal.ofBits_zero_f32

set_option maxRecDepth 8192 in
/-- The first layer's activation. -/
theorem a1_eq (i : Fin 100000) (q : Fin 64) :
    R[main_v48] (ix2 i q) = max (Spec.conv (C := 64) (ei V0) (ew V0) R[main_v27] i q + b1 V0 (ix1 q)) 0 := by
  refine (congrFun (readback_binary ops_writes V0 59 (a := main_v47) (b := main_call0_v0) (y := main_v48)
    (f := (maximumf : FVec Ideal S100000x64 .f32 → FVec Ideal S100000x64 .f32 → FVec Ideal S100000x64 .f32)) rfl
    (by decide) (by decide) (by decide)) _).trans ?_
  refine (maximumf_apply _ _ _).trans ?_
  exact congrArg₂ (fun a b : EReal => max a b) (v47_at V0 i q) (relu0_zero_at V0 i q)

/-! ## Stage 3: the first layer's batch statistics

The mean of the activation over the nodes, column by column: the column sums (a sum over the node axis from zero) divided by
the node count as a float constant. The variance is a module-local function called on the activation and the integer 0: it
recomputes the mean, subtracts it, squares, sums over the nodes, and divides by the node count less the integer converted to
a float; a select on "that divisor is positive" guards the quotient against a not-a-number constant. -/

theorem hdivf_apply {s : Shape} {φ : FTy} (x y : FVec Ideal s φ) (i : s.Idx) : Host.divf x y i = Ideal.div (x i) (y i) := rfl
theorem cmpf_ogt_apply {s : Shape} {φ : FTy} (x y : FVec Ideal s φ) (i : s.Idx) :
    cmpf .ogt x y i = FloatOps.cmpf .ogt (x i) (y i) := rfl

/-- The node axis of a node-by-feature array reduces away to the feature axis. -/
theorem reduces_col : S100000x64.Reduces [0] S64 := by decide

/-- The index that reduces to column q at node k is (k, q). -/
theorem lift_col (q : Fin 64) (k : Fin (S100000x64.size 0)) :
    reduces_col.lift (ix1 q) k = ix2 (n0 := 100000) (n1 := 64) k q := by
  funext a
  apply Fin.ext
  match a with
  | ⟨0, _⟩ => rfl
  | ⟨1, _⟩ => rfl

/-- A column's sum over the 100000 nodes, from the initial value. -/
theorem colsum_apply (a : FVec Ideal S100000x64 .f32) (init : FVec Ideal S_ .f32) (q : Fin 64) :
    Host.reduceAdd a init reducesTo_S100000x64_S64_d0 h_S_ (ix1 q) = init ix0 + ∑ p : Fin 100000, a (ix2 p q) := by
  refine (Ideal.hostReduceAdd_single reducesTo_S100000x64_S64_d0 reduces_col a _ (ix1 q)).trans ?_
  refine congrArg₂ (fun u v : EReal => u + v) (congrArg init (eq_ix0 _)) ?_
  exact Finset.sum_congr rfl fun k _ => congrArg a (lift_col q k)

/-- The first layer's activation as a typed array, and the node count as the float word the program divides by. -/
abbrev a1 : S100000x64.Idx → EReal := R[main_v48]
abbrev n1e5 : EReal := Ideal.ofBits .f32 0x47C35000#32
/-- The activation's column mean. -/
abbrev mu1 (q : Fin 64) : EReal := Ideal.div (0 + ∑ i : Fin 100000, a1 V0 (ix2 i q)) n1e5

set_option maxRecDepth 8192 in
theorem cst7_at : R[main_cst_7] ix0 = (0 : EReal) :=
  (congrFun (readback_nullary ops_writes V0 60 (y := main_cst_7) rfl (by decide)) _).trans Ideal.ofBits_zero_f32

set_option maxRecDepth 8192 in
/-- The activation's column sums. -/
theorem v49_at (q : Fin 64) : R[main_v49] (ix1 q) = 0 + ∑ i : Fin 100000, a1 V0 (ix2 i q) := by
  refine (congrFun (readback_binary ops_writes V0 61 (a := main_v48) (b := main_cst_7) (y := main_v49)
    (f := ((fun x v => Host.reduceAdd x v reducesTo_S100000x64_S64_d0 h_S_)
      : FVec Ideal S100000x64 .f32 → FVec Ideal S_ .f32 → FVec Ideal S64 .f32))
    rfl (by decide) (by decide) (by decide)) _).trans ?_
  refine (colsum_apply _ _ q).trans ?_
  exact congrArg (fun u : EReal => u + ∑ i : Fin 100000, a1 V0 (ix2 i q)) (cst7_at V0)

set_option maxRecDepth 8192 in
theorem v50_at (q : Fin 64) : R[main_v50] (ix1 q) = n1e5 := by
  refine (congrFun (readback_unary ops_writes V0 63 (x := main_cst_8) (y := main_v50) rfl (by decide) (by decide)) _).trans ?_
  refine (broadcastInDim_apply _ _ _ _ ix0 (fun a => a.elim0)).trans ?_
  exact congrFun (readback_nullary ops_writes V0 62 (y := main_cst_8) rfl (by decide)) _

set_option maxRecDepth 8192 in
/-- The mean. -/
theorem mean1_word_eq (q : Fin 64) : R[main_v51] (ix1 q) = mu1 V0 q := by
  refine (congrFun (readback_binary ops_writes V0 64 (a := main_v49) (b := main_v50) (y := main_v51) rfl
    (by decide) (by decide) (by decide)) _).trans ?_
  refine (hdivf_apply _ _ _).trans ?_
  exact congrArg₂ Ideal.div (v49_at V0 q) (v50_at V0 q)

/-! ### The variance function's body at its first call (its operands: the activation and the integer 0) -/

set_option maxRecDepth 8192 in
theorem c1cst_at : R[main_call1_cst] ix0 = (0 : EReal) :=
  (congrFun (readback_nullary ops_writes V0 66 (y := main_call1_cst)
    (v := (constant S_ .f32 0x00000000#32 : FVec Ideal S_ .f32)) rfl (by decide)) _).trans Ideal.ofBits_zero_f32

set_option maxRecDepth 8192 in
theorem c1v0_at (q : Fin 64) : R[main_call1_v0] (ix1 q) = 0 + ∑ i : Fin 100000, a1 V0 (ix2 i q) := by
  refine (congrFun (readback_binary ops_writes V0 67 (a := main_v48) (b := main_call1_cst) (y := main_call1_v0)
    (f := ((fun x v => Host.reduceAdd x v reducesTo_S100000x64_S64_d0 h_S_)
      : FVec Ideal S100000x64 .f32 → FVec Ideal S_ .f32 → FVec Ideal S64 .f32))
    rfl (by decide) (by decide) (by decide)) _).trans ?_
  refine (colsum_apply _ _ q).trans ?_
  exact congrArg (fun u : EReal => u + ∑ i : Fin 100000, a1 V0 (ix2 i q)) (c1cst_at V0)

set_option maxRecDepth 8192 in
theorem c1v1_at (q : Fin 64) : R[main_call1_v1] (ix2 (0 : Fin 1) q) = 0 + ∑ i : Fin 100000, a1 V0 (ix2 i q) := by
  refine (congrFun (readback_unary ops_writes V0 68 (x := main_call1_v0) (y := main_call1_v1)
    (f := (broadcastInDim S1x64 ![1] bcast_S64_S1x64_1 : FVec Ideal S64 .f32 → FVec Ideal S1x64 .f32))
    rfl (by decide) (by decide)) _).trans ?_
  refine (broadcastInDim_apply _ _ _ _ (ix1 q) (fun a => by match a with | ⟨0, _⟩ => rfl)).trans ?_
  exact c1v0_at V0 q

set_option maxRecDepth 8192 in
theorem c1v2_at (q : Fin 64) : R[main_call1_v2] (ix2 (0 : Fin 1) q) = n1e5 := by
  refine (congrFun (readback_unary ops_writes V0 70 (x := main_call1_cst_0) (y := main_call1_v2)
    (f := (broadcastInDim S1x64 ![] bcast_S_S1x64 : FVec Ideal S_ .f32 → FVec Ideal S1x64 .f32))
    rfl (by decide) (by decide)) _).trans ?_
  refine (broadcastInDim_apply _ _ _ _ ix0 (fun a => a.elim0)).trans ?_
  exact congrFun (readback_nullary ops_writes V0 69 (y := main_call1_cst_0)
    (v := (constant S_ .f32 0x47C35000#32 : FVec Ideal S_ .f32)) rfl (by decide)) _

set_option maxRecDepth 8192 in
/-- The mean again, as a row. -/
theorem c1v3_at (q : Fin 64) : R[main_call1_v3] (ix2 (0 : Fin 1) q) = mu1 V0 q := by
  refine (congrFun (readback_binary ops_writes V0 71 (a := main_call1_v1) (b := main_call1_v2) (y := main_call1_v3)
    (f := (Host.divf : FVec Ideal S1x64 .f32 → FVec Ideal S1x64 .f32 → FVec Ideal S1x64 .f32))
    rfl (by decide) (by decide) (by decide)) _).trans ?_
  refine (hdivf_apply _ _ _).trans ?_
  exact congrArg₂ Ideal.div (c1v1_at V0 q) (c1v2_at V0 q)

set_option maxRecDepth 8192 in
theorem c1v4_at (i : Fin 100000) (q : Fin 64) : R[main_call1_v4] (ix2 i q) = mu1 V0 q := by
  refine (congrFun (readback_unary ops_writes V0 72 (x := main_call1_v3) (y := main_call1_v4)
    (f := (broadcastInDim S100000x64 ![0, 1] bcast_S1x64_S100000x64_0_1 : FVec Ideal S1x64 .f32 → FVec Ideal S100000x64 .f32))
    rfl (by decide) (by decide)) _).trans ?_
  refine (broadcastInDim_apply _ _ _ _ (ix2 (0 : Fin 1) q) (fun a => by
    match a with
    | ⟨0, _⟩ => rfl
    | ⟨1, _⟩ => rfl)).trans ?_
  exact c1v3_at V0 q

set_option maxRecDepth 8192 in
/-- The centred activation. -/
theorem c1v5_at (i : Fin 100000) (q : Fin 64) : R[main_call1_v5] (ix2 i q) = a1 V0 (ix2 i q) - mu1 V0 q := by
  refine (congrFun (readback_binary ops_writes V0 73 (a := main_v48) (b := main_call1_v4) (y := main_call1_v5)
    (f := (subf : FVec Ideal S100000x64 .f32 → FVec Ideal S100000x64 .f32 → FVec Ideal S100000x64 .f32))
    rfl (by decide) (by decide) (by decide)) _).trans ?_
  refine (subf_apply _ _ _).trans ?_
  exact congrArg (fun u : EReal => a1 V0 (ix2 i q) - u) (c1v4_at V0 i q)

set_option maxRecDepth 8192 in
/-- Its square: the product with itself. -/
theorem c1v6_at (i : Fin 100000) (q : Fin 64) :
    R[main_call1_v6] (ix2 i q) = (a1 V0 (ix2 i q) - mu1 V0 q) * (a1 V0 (ix2 i q) - mu1 V0 q) := by
  refine (congrFun (readback_binary ops_writes V0 74 (a := main_call1_v5) (b := main_call1_v5) (y := main_call1_v6)
    (f := (mulf : FVec Ideal S100000x64 .f32 → FVec Ideal S100000x64 .f32 → FVec Ideal S100000x64 .f32))
    rfl (by decide) (by decide) (by decide)) _).trans ?_
  refine (mulf_apply _ _ _).trans ?_
  exact congrArg₂ (fun u v : EReal => u * v) (c1v5_at V0 i q) (c1v5_at V0 i q)

set_option maxRecDepth 8192 in
/-- The integer operand 0 converted to a float. -/
theorem c1v7_at : R[main_call1_v7] ix0 = (FloatOps.sitofp (F := Ideal) .f32 (0#32 : BitVec 32) : EReal) := by
  refine (congrFun (readback_unary ops_writes V0 75 (x := main_c_9) (y := main_call1_v7)
    (f := (sitofp .f32 : IVec S_ 32 → FVec Ideal S_ .f32)) rfl (by decide) (by decide)) _).trans ?_
  refine (sitofp_apply _ _).trans ?_
  exact congrArg (fun b : BitVec 32 => (FloatOps.sitofp (F := Ideal) .f32 b : EReal))
    (congrFun (readback_nullary ops_writes V0 65 (y := main_c_9) rfl (by decide)) _)

set_option maxRecDepth 8192 in
/-- The variance's divisor: the node count less the converted integer. -/
theorem c1v8_at : R[main_call1_v8] ix0 = n1e5 - (FloatOps.sitofp (F := Ideal) .f32 (0#32 : BitVec 32) : EReal) := by
  refine (congrFun (readback_binary ops_writes V0 77 (a := main_call1_cst_1) (b := main_call1_v7) (y := main_call1_v8)
    (f := (subf : FVec Ideal S_ .f32 → FVec Ideal S_ .f32 → FVec Ideal S_ .f32))
    rfl (by decide) (by decide) (by decide)) _).trans ?_
  refine (subf_apply _ _ _).trans ?_
  exact congrArg₂ (fun u v : EReal => u - v)
    (congrFun (readback_nullary ops_writes V0 76 (y := main_call1_cst_1)
      (v := (constant S_ .f32 0x47C35000#32 : FVec Ideal S_ .f32)) rfl (by decide)) _)
    (c1v7_at V0)

set_option maxRecDepth 8192 in
theorem c1cst2_at : R[main_call1_cst_2] ix0 = (0 : EReal) :=
  (congrFun (readback_nullary ops_writes V0 78 (y := main_call1_cst_2)
    (v := (constant S_ .f32 0x00000000#32 : FVec Ideal S_ .f32)) rfl (by decide)) _).trans Ideal.ofBits_zero_f32

set_option maxRecDepth 8192 in
/-- The column sums of the squares. -/
theorem c1v9_at (q : Fin 64) :
    R[main_call1_v9] (ix1 q) = 0 + ∑ i : Fin 100000, (a1 V0 (ix2 i q) - mu1 V0 q) * (a1 V0 (ix2 i q) - mu1 V0 q) := by
  refine (congrFun (readback_binary ops_writes V0 79 (a := main_call1_v6) (b := main_call1_cst_2) (y := main_call1_v9)
    (f := ((fun x v => Host.reduceAdd x v reducesTo_S100000x64_S64_d0 h_S_)
      : FVec Ideal S100000x64 .f32 → FVec Ideal S_ .f32 → FVec Ideal S64 .f32))
    rfl (by decide) (by decide) (by decide)) _).trans ?_
  refine (colsum_apply _ _ q).trans ?_
  refine congrArg₂ (fun u v : EReal => u + v) (c1cst2_at V0) ?_
  exact Finset.sum_congr rfl fun i _ => c1v6_at V0 i q

set_option maxRecDepth 8192 in
theorem c1v10_at (q : Fin 64) :
    R[main_call1_v10] (ix1 q) = n1e5 - (FloatOps.sitofp (F := Ideal) .f32 (0#32 : BitVec 32) : EReal) := by
  refine (congrFun (readback_unary ops_writes V0 80 (x := main_call1_v8) (y := main_call1_v10)
    (f := (broadcastInDim S64 ![] bcast_S_S64 : FVec Ideal S_ .f32 → FVec Ideal S64 .f32))
    rfl (by decide) (by decide)) _).trans ?_
  refine (broadcastInDim_apply _ _ _ _ ix0 (fun a => a.elim0)).trans ?_
  exact c1v8_at V0

set_option maxRecDepth 8192 in
/-- The quotient the select guards. -/
theorem c1v11_at (q : Fin 64) :
    R[main_call1_v11] (ix1 q)
      = Ideal.div (0 + ∑ i : Fin 100000, (a1 V0 (ix2 i q) - mu1 V0 q) * (a1 V0 (ix2 i q) - mu1 V0 q))
          (n1e5 - (FloatOps.sitofp (F := Ideal) .f32 (0#32 : BitVec 32) : EReal)) := by
  refine (congrFun (readback_binary ops_writes V0 81 (a := main_call1_v9) (b := main_call1_v10) (y := main_call1_v11)
    (f := (Host.divf : FVec Ideal S64 .f32 → FVec Ideal S64 .f32 → FVec Ideal S64 .f32))
    rfl (by decide) (by decide) (by decide)) _).trans ?_
  refine (hdivf_apply _ _ _).trans ?_
  exact congrArg₂ Ideal.div (c1v9_at V0 q) (c1v10_at V0 q)

set_option maxRecDepth 8192 in
/-- The guard: the divisor compared with zero, ordered greater-than. -/
theorem c1v12_at :
    R[main_call1_v12] ix0
      = FloatOps.cmpf (F := Ideal) (φ := .f32) .ogt (n1e5 - (FloatOps.sitofp (F := Ideal) .f32 (0#32 : BitVec 32) : EReal)) (0 : EReal) := by
  refine (congrFun (readback_binary ops_writes V0 83 (a := main_call1_v8) (b := main_call1_cst_3) (y := main_call1_v12)
    (f := (cmpf .ogt : FVec Ideal S_ .f32 → FVec Ideal S_ .f32 → IVec S_ 1))
    rfl (by decide) (by decide) (by decide)) _).trans ?_
  refine (cmpf_ogt_apply _ _ _).trans ?_
  exact congrArg₂ (fun u v : EReal => FloatOps.cmpf (F := Ideal) (φ := .f32) .ogt u v) (c1v8_at V0)
    ((congrFun (readback_nullary ops_writes V0 82 (y := main_call1_cst_3)
      (v := (constant S_ .f32 0x00000000#32 : FVec Ideal S_ .f32)) rfl (by decide)) _).trans Ideal.ofBits_zero_f32)

set_option maxRecDepth 8192 in
/-- The not-a-number constant of the guard's other branch, through the inner function's convert and broadcast. -/
theorem c1nan_at (q : Fin 64) : R[main_call1_call0_v1] (ix1 q) = Ideal.ofBits .f32 0x7FC00000#32 := by
  refine (congrFun (readback_unary ops_writes V0 86 (x := main_call1_call0_v0) (y := main_call1_call0_v1)
    (f := (broadcastInDim S64 ![] bcast_S_S64 : FVec Ideal S_ .f32 → FVec Ideal S64 .f32))
    rfl (by decide) (by decide)) _).trans ?_
  refine (broadcastInDim_apply _ _ _ _ ix0 (fun a => a.elim0)).trans ?_
  refine (congrFun (readback_unary ops_writes V0 85 (x := main_call1_cst_4) (y := main_call1_call0_v0)
    (f := (id : FVec Ideal S_ .f32 → FVec Ideal S_ .f32)) rfl (by decide) (by decide)) _).trans ?_
  exact congrFun (readback_nullary ops_writes V0 84 (y := main_call1_cst_4)
    (v := (constant S_ .f32 0x7FC00000#32 : FVec Ideal S_ .f32)) rfl (by decide)) _

set_option maxRecDepth 8192 in
/-- The variance function's result, before the guard is decided. -/
theorem var1_raw (q : Fin 64) :
    R[main_v52] (ix1 q)
      = Scalar.select
          (FloatOps.cmpf (F := Ideal) (φ := .f32) .ogt (n1e5 - (FloatOps.sitofp (F := Ideal) .f32 (0#32 : BitVec 32) : EReal)) (0 : EReal))
          (Ideal.div (0 + ∑ i : Fin 100000, (a1 V0 (ix2 i q) - mu1 V0 q) * (a1 V0 (ix2 i q) - mu1 V0 q))
            (n1e5 - (FloatOps.sitofp (F := Ideal) .f32 (0#32 : BitVec 32) : EReal)))
          (Ideal.ofBits .f32 0x7FC00000#32) := by
  refine (congrFun (readback_ternary ops_writes V0 87 (c := main_call1_v12) (a := main_call1_v11) (b := main_call1_call0_v1)
    (y := main_v52)
    (f := ((fun p a b => select (broadcastInDim S64 ![] bcast_S_S64 p) a b)
      : IVec S_ 1 → FVec Ideal S64 .f32 → FVec Ideal S64 .f32 → FVec Ideal S64 .f32))
    rfl (by decide) (by decide) (by decide) (by decide)) _).trans ?_
  refine (select_apply _ _ _ _).trans ?_
  refine congr (congr (congrArg Scalar.select ?_) (c1v11_at V0 q)) (c1nan_at V0 q)
  refine (broadcastInDim_apply _ _ _ _ ix0 (fun a => a.elim0)).trans ?_
  exact c1v12_at V0

/-! ### The guard decided -/

/-- The converted integer 0 is the number zero. -/
theorem sitofp_zero : (FloatOps.sitofp (F := Ideal) .f32 (0#32 : BitVec 32) : EReal) = 0 := by
  show (((0#32 : BitVec 32).toInt : ℝ) : EReal) = 0
  norm_num

/-- The node count's float word is the number 100000: (2^23 + 4411392) · 2^(16 − 23). -/
theorem n1e5_eq : n1e5 = ((100000 : ℝ) : EReal) := by
  show Ideal.ofBits .f32 0x47C35000#32 = _
  simp [Ideal.ofBits, Ideal.ieee]
  rw [← EReal.coe_mul]
  norm_num

/-- The divisor 100000 − 0 is positive, so the guard is on. -/
theorem guard1 :
    FloatOps.cmpf (F := Ideal) (φ := .f32) .ogt (n1e5 - (FloatOps.sitofp (F := Ideal) .f32 (0#32 : BitVec 32) : EReal)) (0 : EReal)
      = 1#1 := by
  rw [sitofp_zero, sub_zero, n1e5_eq]
  show BitVec.ofBool (decide ((0 : EReal) < ((100000 : ℝ) : EReal))) = 1#1
  have h : (0 : EReal) < ((100000 : ℝ) : EReal) := by exact_mod_cast (by norm_num : (0 : ℝ) < 100000)
  rw [decide_eq_true h]
  rfl

/-- The first layer's batch variance: the centred squares' column sums over the node count. -/
theorem var1_word_eq (q : Fin 64) :
    R[main_v52] (ix1 q)
      = Ideal.div (0 + ∑ i : Fin 100000, (a1 V0 (ix2 i q) - mu1 V0 q) * (a1 V0 (ix2 i q) - mu1 V0 q)) n1e5 := by
  refine (var1_raw V0 q).trans ?_
  rw [guard1, select_one, sitofp_zero, sub_zero]

/-! ## Stage 4: the first layer in the names of the shared network specification

With A1 the first layer's activation by node and column: its column mean and variance are the specification's meanR and
varR of A1 (the programs' divisor word is the number 100000); A1 itself is the specification's a1R, since the
graph-convolution step reads its operand only at whole indices, where the product is the sum over the 15 input features.
The first normalisation subtracts the mean, multiplies by the inverse root of the variance plus a small constant, scales and
shifts, in that order: the specification's normOf, hence h1. -/

/-- The first layer's activation by node and column. -/
abbrev A1 : Fin 100000 → Fin 64 → EReal := fun n q => R[main_v48] (ix2 n q)
/-- The first normalisation's scale and shift: two more of the program's arguments as V0 holds them. -/
abbrev g1 : S64.Idx → EReal := V0 (Proc.devRef .tc main_arg7)
abbrev be1 : S64.Idx → EReal := V0 (Proc.devRef .tc main_arg8)

/-! ## The first layer's statistics and activation in the specification's names -/

theorem mu1_eq (q : Fin 64) : mu1 V0 q = Spec.meanR (A1 V0) q :=
  congrArg (Ideal.div (0 + ∑ i : Fin 100000, a1 V0 (ix2 i q))) n1e5_eq

/-- The first layer's column mean. -/
theorem mean1_eq (q : Fin 64) : R[main_v51] (ix1 q) = Spec.meanR (A1 V0) q :=
  (mean1_word_eq V0 q).trans (mu1_eq V0 q)

/-- The first layer's column variance. -/
theorem var1_eq (q : Fin 64) : R[main_v52] (ix1 q) = Spec.varR (A1 V0) q := by
  refine (var1_word_eq V0 q).trans ?_
  rw [mu1_eq V0 q, n1e5_eq]
  rfl

/-- The features times the first weights as a whole array: at every index the sum over the 15 input features. -/
theorem xw_fun :
    R[main_v27] = fun j : S100000x64.Idx =>
      ∑ k : Fin 15, xin V0 (ix2 ⟨(j 0).val, (j 0).isLt⟩ k) * W1 V0 (ix2 k ⟨(j 1).val, (j 1).isLt⟩) := by
  funext j
  exact (congrArg R[main_v27] (eq_ix2 j)).trans (xw_eq V0 (j 0) (j 1))

/-- The first layer's activation is the specification's, the features multiplied first. -/
theorem a1R_eq (n : Fin 100000) (q : Fin 64) :
    R[main_v48] (ix2 n q) = Spec.a1R (ei V0) (ew V0) (xin V0) (W1 V0) (b1 V0) n q :=
  (a1_eq V0 n q).trans
    (congrArg (fun y : S100000x64.Idx → EReal => max (Spec.conv (C := 64) (ei V0) (ew V0) y n q + b1 V0 (ix1 q)) 0) (xw_fun V0))

theorem A1_eq : A1 V0 = Spec.a1R (ei V0) (ew V0) (xin V0) (W1 V0) (b1 V0) :=
  funext fun n => funext fun q => a1R_eq V0 n q

/-! ## The first normalisation: (a − mean) · rsqrt(var + ε) · scale + shift -/

set_option maxRecDepth 8192 in
theorem v53_at (q : Fin 64) : R[main_v53] (ix2 (0 : Fin 1) q) = Spec.meanR (A1 V0) q := by
  refine (congrFun (readback_unary ops_writes V0 88 (x := main_v51) (y := main_v53) rfl (by decide) (by decide)) _).trans ?_
  refine (broadcastInDim_apply _ _ _ _ (ix1 q) (fun a => by match a with | ⟨0, _⟩ => rfl)).trans ?_
  exact mean1_eq V0 q

set_option maxRecDepth 8192 in
theorem v54_at (n : Fin 100000) (q : Fin 64) : R[main_v54] (ix2 n q) = Spec.meanR (A1 V0) q := by
  refine (congrFun (readback_unary ops_writes V0 89 (x := main_v53) (y := main_v54) rfl (by decide) (by decide)) _).trans ?_
  refine (broadcastInDim_apply _ _ _ _ (ix2 (0 : Fin 1) q) (fun a => by
    match a with
    | ⟨0, _⟩ => rfl
    | ⟨1, _⟩ => rfl)).trans ?_
  exact v53_at V0 q

set_option maxRecDepth 8192 in
/-- The activation less its column mean. -/
theorem v55_at (n : Fin 100000) (q : Fin 64) : R[main_v55] (ix2 n q) = A1 V0 n q - Spec.meanR (A1 V0) q := by
  refine (congrFun (readback_binary ops_writes V0 90 (a := main_v48) (b := main_v54) (y := main_v55) rfl
    (by decide) (by decide) (by decide)) _).trans ?_
  refine (subf_apply _ _ _).trans ?_
  exact congrArg (fun u : EReal => A1 V0 n q - u) (v54_at V0 n q)

set_option maxRecDepth 8192 in
/-- The small constant added to the variance, as its word. -/
theorem v56_at (q : Fin 64) : R[main_v56] (ix1 q) = Ideal.ofBits .f32 0x3727C5AC#32 := by
  refine (congrFun (readback_unary ops_writes V0 92 (x := main_cst_10) (y := main_v56) rfl (by decide) (by decide)) _).trans ?_
  refine (broadcastInDim_apply _ _ _ _ ix0 (fun a => a.elim0)).trans ?_
  exact congrFun (readback_nullary ops_writes V0 91 (y := main_cst_10) rfl (by decide)) _

set_option maxRecDepth 8192 in
theorem v57_at (q : Fin 64) : R[main_v57] (ix1 q) = Spec.varR (A1 V0) q + Ideal.ofBits .f32 0x3727C5AC#32 := by
  refine (congrFun (readback_binary ops_writes V0 93 (a := main_v52) (b := main_v56) (y := main_v57) rfl
    (by decide) (by decide) (by decide)) _).trans ?_
  refine (addf_apply _ _ _).trans ?_
  exact congrArg₂ (fun u v : EReal => u + v) (var1_eq V0 q) (v56_at V0 q)

set_option maxRecDepth 8192 in
theorem v58_at (q : Fin 64) :
    R[main_v58] (ix1 q) = Ideal.rsqrt (Spec.varR (A1 V0) q + Ideal.ofBits .f32 0x3727C5AC#32) := by
  refine (congrFun (readback_unary ops_writes V0 94 (x := main_v57) (y := main_v58) rfl (by decide) (by decide)) _).trans ?_
  exact (rsqrt_apply _ _).trans (congrArg Ideal.rsqrt (v57_at V0 q))

set_option maxRecDepth 8192 in
theorem v59_at (q : Fin 64) :
    R[main_v59] (ix2 (0 : Fin 1) q) = Ideal.rsqrt (Spec.varR (A1 V0) q + Ideal.ofBits .f32 0x3727C5AC#32) := by
  refine (congrFun (readback_unary ops_writes V0 95 (x := main_v58) (y := main_v59) rfl (by decide) (by decide)) _).trans ?_
  refine (broadcastInDim_apply _ _ _ _ (ix1 q) (fun a => by match a with | ⟨0, _⟩ => rfl)).trans ?_
  exact v58_at V0 q

set_option maxRecDepth 8192 in
theorem v60_at (n : Fin 100000) (q : Fin 64) :
    R[main_v60] (ix2 n q) = Ideal.rsqrt (Spec.varR (A1 V0) q + Ideal.ofBits .f32 0x3727C5AC#32) := by
  refine (congrFun (readback_unary ops_writes V0 96 (x := main_v59) (y := main_v60) rfl (by decide) (by decide)) _).trans ?_
  refine (broadcastInDim_apply _ _ _ _ (ix2 (0 : Fin 1) q) (fun a => by
    match a with
    | ⟨0, _⟩ => rfl
    | ⟨1, _⟩ => rfl)).trans ?_
  exact v59_at V0 q

set_option maxRecDepth 8192 in
theorem v61_at (n : Fin 100000) (q : Fin 64) :
    R[main_v61] (ix2 n q)
      = (A1 V0 n q - Spec.meanR (A1 V0) q) * Ideal.rsqrt (Spec.varR (A1 V0) q + Ideal.ofBits .f32 0x3727C5AC#32) := by
  refine (congrFun (readback_binary ops_writes V0 97 (a := main_v55) (b := main_v60) (y := main_v61) rfl
    (by decide) (by decide) (by decide)) _).trans ?_
  refine (mulf_apply _ _ _).trans ?_
  exact congrArg₂ (fun u v : EReal => u * v) (v55_at V0 n q) (v60_at V0 n q)

set_option maxRecDepth 8192 in
theorem v62_at (q : Fin 64) : R[main_v62] (ix2 (0 : Fin 1) q) = g1 V0 (ix1 q) := by
  refine (congrFun (readback_unary ops_writes V0 98 (x := main_arg7) (y := main_v62) rfl (by decide) (by decide)) _).trans ?_
  refine (broadcastInDim_apply _ _ _ _ (ix1 q) (fun a => by match a with | ⟨0, _⟩ => rfl)).trans ?_
  exact congrFun (after_keep ops_writes V0 (by decide)) _

set_option maxRecDepth 8192 in
theorem v63_at (n : Fin 100000) (q : Fin 64) : R[main_v63] (ix2 n q) = g1 V0 (ix1 q) := by
  refine (congrFun (readback_unary ops_writes V0 99 (x := main_v62) (y := main_v63) rfl (by decide) (by decide)) _).trans ?_
  refine (broadcastInDim_apply _ _ _ _ (ix2 (0 : Fin 1) q) (fun a => by
    match a with
    | ⟨0, _⟩ => rfl
    | ⟨1, _⟩ => rfl)).trans ?_
  exact v62_at V0 q

set_option maxRecDepth 8192 in
theorem v64_at (n : Fin 100000) (q : Fin 64) :
    R[main_v64] (ix2 n q)
      = (A1 V0 n q - Spec.meanR (A1 V0) q) * Ideal.rsqrt (Spec.varR (A1 V0) q + Ideal.ofBits .f32 0x3727C5AC#32)
          * g1 V0 (ix1 q) := by
  refine (congrFun (readback_binary ops_writes V0 100 (a := main_v61) (b := main_v63) (y := main_v64) rfl
    (by decide) (by decide) (by decide)) _).trans ?_
  refine (mulf_apply _ _ _).trans ?_
  exact congrArg₂ (fun u v : EReal => u * v) (v61_at V0 n q) (v63_at V0 n q)

set_option maxRecDepth 8192 in
theorem v65_at (q : Fin 64) : R[main_v65] (ix2 (0 : Fin 1) q) = be1 V0 (ix1 q) := by
  refine (congrFun (readback_unary ops_writes V0 101 (x := main_arg8) (y := main_v65) rfl (by decide) (by decide)) _).trans ?_
  refine (broadcastInDim_apply _ _ _ _ (ix1 q) (fun a => by match a with | ⟨0, _⟩ => rfl)).trans ?_
  exact congrFun (after_keep ops_writes V0 (by decide)) _

set_option maxRecDepth 8192 in
theorem v66_at (n : Fin 100000) (q : Fin 64) : R[main_v66] (ix2 n q) = be1 V0 (ix1 q) := by
  refine (congrFun (readback_unary ops_writes V0 102 (x := main_v65) (y := main_v66) rfl (by decide) (by decide)) _).trans ?_
  refine (broadcastInDim_apply _ _ _ _ (ix2 (0 : Fin 1) q) (fun a => by
    match a with
    | ⟨0, _⟩ => rfl
    | ⟨1, _⟩ => rfl)).trans ?_
  exact v65_at V0 q

set_option maxRecDepth 8192 in
/-- The first layer's normalised activation, over A1. -/
theorem h1A_eq (n : Fin 100000) (q : Fin 64) :
    R[main_v67] (ix2 n q) = Spec.h1 (A1 V0) Spec.meanR Spec.varR (g1 V0) (be1 V0) n q := by
  refine (congrFun (readback_binary ops_writes V0 103 (a := main_v64) (b := main_v66) (y := main_v67) rfl
    (by decide) (by decide) (by decide)) _).trans ?_
  refine (addf_apply _ _ _).trans ?_
  exact congrArg₂ (fun u v : EReal => u + v) (v64_at V0 n q) (v66_at V0 n q)

/-- The first layer's normalised activation. -/
theorem h1_eq (n : Fin 100000) (q : Fin 64) :
    R[main_v67] (ix2 n q)
      = Spec.h1 (Spec.a1R (ei V0) (ew V0) (xin V0) (W1 V0) (b1 V0)) Spec.meanR Spec.varR (g1 V0) (be1 V0) n q :=
  (h1A_eq V0 n q).trans (congrArg (fun a => Spec.h1 a Spec.meanR Spec.varR (g1 V0) (be1 V0) n q) (A1_eq V0))

end Cert.ReferenceIdeal.RefStages

end
-- ==== Proof.RefStages2.lean ====
/- The reference program's second layer read at an index, against the shared specification.

   R[b] is what buffer b holds once the whole program has run from contents V0; the program is in single-assignment
   form, so R satisfies the program's own equations, one per operation (the read-back lemmas). The second layer takes
   the first layer's normalised activations H1 as given: their product with the second weight matrix (a sum over the
   64 hidden features); one graph-convolution step of that product in the specification's form (the product's rows
   gathered at the wrapped and clamped source words, scaled by the edge normalisers, summed per destination word into
   zeros, plus the node's own share); the bias and the rectifier; and the activation's column mean and variance over
   the 100000 nodes, the variance by the module-local function whose guard (its divisor is positive) is decided. The
   edge normalisers, the nodes' own normalisers and the source and destination words are the first stage's buffers,
   used again. -/
import proofs.«181908_j1778116460896_2_alg».proof.Proof.RefStages1
import proofs.«181908_j1778116460896_2_alg».proof.Proof.SpecNet

set_option maxRecDepth 8192

noncomputable section

open scoped BigOperators

namespace Cert.ReferenceIdeal.RefStages2

open Cert.ReferenceIdeal Cert.ReferenceIdeal.Gen Cert.ReferenceIdeal.RefRun Idealize.ShloMosaic Idealize.ShloMosaic.TcCoe
open Idealize.ShloMosaic.StableHlo Idealize.ShloMosaic.ValueIdx Cert.ReadBack Cert.Lib.ScatterGatherAt
open Cert.ReferenceIdeal.RefStages

variable (V0 : Valuation τ sig (Elt Ideal))

/-! Notation: R[b] is the contents of buffer b after the whole program run from the contents V0. -/
set_option quotPrecheck false in
local notation "R[" b "]" => after (ops (F := Ideal)) V0 (Proc.devRef (τ := τ) Proc.tc b)

/-- The second weight matrix and the second bias: two of the program's arguments as V0 holds them. -/
abbrev W2 : S64x64.Idx → EReal := V0 (Proc.devRef .tc main_arg5)
abbrev b2 : S64.Idx → EReal := V0 (Proc.devRef .tc main_arg6)

/-! ## The product of the normalised activations with the second weights -/

/-- The contraction record of the second product: rows of the activations against columns of the weights over the 64
    hidden features. -/
abbrev D2 := dot_S100000x64_S64x64_S100000x64_1_0_0_1_n_n

theorem D2_lhs_row (j : S100000x64.Idx) (k : D2.contr.Idx) : (D2.lhsIdx j k 0).val = (j 0).val := by
  unfold DotDims.lhsIdx
  rw [dif_neg (show ¬(0 : Fin S100000x64.rank) ∈ D2.lhsBatch by decide),
    dif_pos (show (0 : Fin S100000x64.rank) ∈ D2.lhsNonContracting by decide)]
  rfl
theorem D2_lhs_feat (j : S100000x64.Idx) (k : D2.contr.Idx) : (D2.lhsIdx j k 1).val = (k ⟨0, by decide⟩).val :=
  D2.lhsIdx_val_of_single rfl j k
theorem D2_rhs_feat (j : S100000x64.Idx) (k : D2.contr.Idx) : (D2.rhsIdx j k 0).val = (k ⟨0, by decide⟩).val :=
  D2.rhsIdx_val_of_single rfl j k
theorem D2_rhs_col (j : S100000x64.Idx) (k : D2.contr.Idx) : (D2.rhsIdx j k 1).val = (j 1).val := by
  unfold DotDims.rhsIdx
  rw [dif_neg (show ¬(1 : Fin S64x64.rank) ∈ D2.rhsBatch by decide),
    dif_pos (show (1 : Fin S64x64.rank) ∈ D2.rhsNonContracting by decide)]
  rfl

/-- The first layer's normalised activations (taken as given here), as a typed array. -/
abbrev H1v : S100000x64.Idx → EReal := R[main_v67]

/-- THE PRODUCT: the normalised activations times the second weights, at node n and column q — the sum over the 64
    hidden features. -/
theorem xw2_eq (n : Fin 100000) (q : Fin 64) :
    @Eq EReal (R[main_v68] (ix2 n q)) (∑ k : Fin 64, H1v V0 (ix2 n k) * W2 V0 (ix2 k q)) := by
  refine (congrFun (readback_binary ops_writes V0 104 (a := main_v67) (b := main_arg5) (y := main_v68) rfl
    (by decide) (by decide) (by decide)) _).trans ?_
  refine (Ideal.dotGeneral_apply D2 none _ _ _ (ix2 n q)).trans ?_
  refine (Equiv.sum_comp (contrEquiv1 D2 64 rfl rfl).symm _).symm.trans ?_
  refine Finset.sum_congr rfl fun k _ => ?_
  have hk := contrEquiv1_symm_val D2 64 rfl rfl k
  have el : D2.lhsIdx (ix2 n q) ((contrEquiv1 D2 64 rfl rfl).symm k) = ix2 n k := funext fun a => Fin.ext (by
    match a with
    | ⟨0, _⟩ => exact D2_lhs_row _ _
    | ⟨1, _⟩ => exact (D2_lhs_feat _ _).trans hk)
  have er : D2.rhsIdx (ix2 n q) ((contrEquiv1 D2 64 rfl rfl).symm k) = ix2 k q := funext fun a => Fin.ext (by
    match a with
    | ⟨0, _⟩ => exact (D2_rhs_feat _ _).trans hk
    | ⟨1, _⟩ => exact D2_rhs_col _ _)
  rw [el, er]
  exact congrArg (fun b : EReal => H1v V0 (ix2 n k) * b) (congrFun (after_keep ops_writes V0 (by decide)) _)

/-! ## The second layer: the same convolution, bias and rectifier, on the product with the second weights -/

set_option maxRecDepth 8192 in
/-- The edge normalisers as a column. -/
theorem v69_at (e : Fin 1600000) : R[main_v69] (ix2 e (0 : Fin 1)) = Spec.nrm (ei V0) (ew V0) e := by
  refine (congrFun (readback_unary ops_writes V0 105 (x := main_v25) (y := main_v69) rfl (by decide) (by decide)) _).trans ?_
  refine (broadcastInDim_apply _ _ _ _ (ix1 e) (fun a => by match a with | ⟨0, _⟩ => rfl)).trans ?_
  exact nrm_eq V0 e

/-! The source word is wrapped once more (the program recomputes the seven operations for each use). -/

set_option maxRecDepth 8192 in
theorem v70_at (e : Fin 1600000) : R[main_v70] (ix1 e) = 0#32 := by
  refine (congrFun (readback_unary ops_writes V0 107 (x := main_c_11) (y := main_v70) rfl (by decide) (by decide)) _).trans ?_
  refine (broadcastInDim_apply _ _ _ _ ix0 (fun a => a.elim0)).trans ?_
  exact congrFun (readback_nullary ops_writes V0 106 (y := main_c_11) rfl (by decide)) _

set_option maxRecDepth 8192 in
theorem v71_at (e : Fin 1600000) : R[main_v71] (ix1 e) = IntOp.cmpi .slt (Spec.src (ei V0) e) 0#32 := by
  refine (congrFun (readback_binary ops_writes V0 108 (a := main_v1) (b := main_v70) (y := main_v71) rfl
    (by decide) (by decide) (by decide)) _).trans ?_
  exact (cmpi_apply _ _ _ _).trans (congrArg₂ (IntOp.cmpi .slt) (src_at V0 e) (v70_at V0 e))

set_option maxRecDepth 8192 in
theorem v72_at (e : Fin 1600000) : R[main_v72] (ix1 e) = 100000#32 := by
  refine (congrFun (readback_unary ops_writes V0 110 (x := main_c_12) (y := main_v72) rfl (by decide) (by decide)) _).trans ?_
  refine (broadcastInDim_apply _ _ _ _ ix0 (fun a => a.elim0)).trans ?_
  exact congrFun (readback_nullary ops_writes V0 109 (y := main_c_12) rfl (by decide)) _

set_option maxRecDepth 8192 in
theorem v73_at (e : Fin 1600000) : R[main_v73] (ix1 e) = IntOp.addi (Spec.src (ei V0) e) 100000#32 := by
  refine (congrFun (readback_binary ops_writes V0 111 (a := main_v1) (b := main_v72) (y := main_v73) rfl
    (by decide) (by decide) (by decide)) _).trans ?_
  exact (addi_apply _ _ _).trans (congrArg₂ IntOp.addi (src_at V0 e) (v72_at V0 e))

set_option maxRecDepth 8192 in
theorem v74_at (e : Fin 1600000) : R[main_v74] (ix1 e) = Spec.wrap (Spec.src (ei V0) e) := by
  refine (congrFun (readback_ternary ops_writes V0 112 (c := main_v71) (a := main_v73) (b := main_v1) (y := main_v74) rfl
    (by decide) (by decide) (by decide) (by decide)) _).trans ?_
  refine (select_apply _ _ _ _).trans ?_
  rw [v71_at V0 e, v73_at V0 e, src_at V0 e]
  rfl

set_option maxRecDepth 8192 in
theorem v75_at (e : Fin 1600000) : R[main_v75] (ix2 e (0 : Fin 1)) = Spec.wrap (Spec.src (ei V0) e) := by
  refine (congrFun (readback_unary ops_writes V0 113 (x := main_v74) (y := main_v75) rfl (by decide) (by decide)) _).trans ?_
  refine (broadcastInDim_apply _ _ _ _ (ix1 e) (fun a => by match a with | ⟨0, _⟩ => rfl)).trans ?_
  exact v74_at V0 e

set_option maxRecDepth 8192 in
/-- The product's row at the node each edge reads from. -/
theorem v76_at (e : Fin 1600000) (q : Fin 64) : R[main_v76] (ix2 e q) = R[main_v68] (ix2 (Spec.from_ (ei V0) e) q) := by
  refine (congrFun (readback_binary ops_writes V0 114 (a := main_v68) (b := main_v75) (y := main_v76) rfl
    (by decide) (by decide) (by decide)) _).trans ?_
  refine (gatherRows_apply (by decide) gather_S100000x64_S1600000x1_S1600000x64_1_0_n_n_0_1_164 rfl rfl rfl rfl rfl rfl rfl _ _ e q).trans ?_
  have hrow : gatherRow (N := 100000) (by decide) R[main_v75] e = Spec.from_ (ei V0) e :=
    Fin.ext (congrArg (fun b : BitVec 32 => min b.toInt.toNat 99999) (v75_at V0 e))
  exact congrArg (fun r => R[main_v68] (ix2 r q)) hrow

set_option maxRecDepth 8192 in
/-- The edge normalisers spread over the 64 columns. -/
theorem v77_at (e : Fin 1600000) (q : Fin 64) : R[main_v77] (ix2 e q) = Spec.nrm (ei V0) (ew V0) e := by
  refine (congrFun (readback_unary ops_writes V0 115 (x := main_v69) (y := main_v77) rfl (by decide) (by decide)) _).trans ?_
  refine (broadcastInDim_apply _ _ _ _ (ix2 e (0 : Fin 1)) (fun a => by
    match a with
    | ⟨0, _⟩ => rfl
    | ⟨1, _⟩ => rfl)).trans ?_
  exact v69_at V0 e

set_option maxRecDepth 8192 in
/-- What each edge brings: its normaliser times the product's row at its source node. -/
theorem v78_at (e : Fin 1600000) (q : Fin 64) :
    R[main_v78] (ix2 e q) = Spec.nrm (ei V0) (ew V0) e * R[main_v68] (ix2 (Spec.from_ (ei V0) e) q) := by
  refine (congrFun (readback_binary ops_writes V0 116 (a := main_v77) (b := main_v76) (y := main_v78) rfl
    (by decide) (by decide) (by decide)) _).trans ?_
  refine (mulf_apply _ _ _).trans ?_
  exact congrArg₂ (fun a b : EReal => a * b) (v77_at V0 e q) (v76_at V0 e q)

set_option maxRecDepth 8192 in
theorem v79_at (i : Fin 100000) (q : Fin 64) : R[main_v79] (ix2 i q) = (0 : EReal) := by
  refine (congrFun (readback_unary ops_writes V0 118 (x := main_cst_13) (y := main_v79) rfl (by decide) (by decide)) _).trans ?_
  refine (broadcastInDim_apply _ _ _ _ ix0 (fun a => a.elim0)).trans ?_
  refine (congrFun (readback_nullary ops_writes V0 117 (y := main_cst_13) rfl (by decide)) _).trans ?_
  exact Ideal.ofBits_zero_f32

set_option maxRecDepth 8192 in
theorem v80_at (e : Fin 1600000) : R[main_v80] (ix2 e (0 : Fin 1)) = Spec.dst (ei V0) e := by
  refine (congrFun (readback_unary ops_writes V0 119 (x := main_v3) (y := main_v80) rfl (by decide) (by decide)) _).trans ?_
  refine (broadcastInDim_apply _ _ _ _ (ix1 e) (fun a => by match a with | ⟨0, _⟩ => rfl)).trans ?_
  exact dst_at V0 e

set_option maxRecDepth 8192 in
/-- What the edges landing on node i bring, summed. -/
theorem v81_at (i : Fin 100000) (q : Fin 64) :
    R[main_v81] (ix2 i q)
      = 0 + ∑ e ∈ Spec.into (ei V0) i, Spec.nrm (ei V0) (ew V0) e * R[main_v68] (ix2 (Spec.from_ (ei V0) e) q) := by
  refine (congrFun (readback_ternary ops_writes V0 120 (c := main_v79) (a := main_v80) (b := main_v78) (y := main_v81) rfl
    (by decide) (by decide) (by decide) (by decide)) _).trans ?_
  refine (hostScatterAdd_rows_apply scatter_S100000x64_S1600000x1_S1600000x64_1_0_0_1 rfl rfl rfl rfl _ _ _ i q).trans ?_
  refine congrArg₂ (fun a b : EReal => a + b) (v79_at V0 i q) ?_
  refine Finset.sum_congr (Finset.filter_congr fun e _ => ?_) fun e _ => ?_
  · rw [v80_at V0 e]
  · exact v78_at V0 e q

set_option maxRecDepth 8192 in
theorem v82_at (i : Fin 100000) : R[main_v82] (ix2 i (0 : Fin 1)) = Spec.dinv2 (ei V0) (ew V0) i := by
  refine (congrFun (readback_unary ops_writes V0 121 (x := main_v26) (y := main_v82) rfl (by decide) (by decide)) _).trans ?_
  refine (broadcastInDim_apply _ _ _ _ (ix1 i) (fun a => by match a with | ⟨0, _⟩ => rfl)).trans ?_
  exact dinv2_eq V0 i

set_option maxRecDepth 8192 in
theorem v83_at (i : Fin 100000) (q : Fin 64) : R[main_v83] (ix2 i q) = Spec.dinv2 (ei V0) (ew V0) i := by
  refine (congrFun (readback_unary ops_writes V0 122 (x := main_v82) (y := main_v83) rfl (by decide) (by decide)) _).trans ?_
  refine (broadcastInDim_apply _ _ _ _ (ix2 i (0 : Fin 1)) (fun a => by
    match a with
    | ⟨0, _⟩ => rfl
    | ⟨1, _⟩ => rfl)).trans ?_
  exact v82_at V0 i

set_option maxRecDepth 8192 in
/-- The node's own share. -/
theorem v84_at (i : Fin 100000) (q : Fin 64) :
    R[main_v84] (ix2 i q) = Spec.dinv2 (ei V0) (ew V0) i * R[main_v68] (ix2 i q) := by
  refine (congrFun (readback_binary ops_writes V0 123 (a := main_v83) (b := main_v68) (y := main_v84) rfl
    (by decide) (by decide) (by decide)) _).trans ?_
  refine (mulf_apply _ _ _).trans ?_
  exact congrArg (fun a : EReal => a * R[main_v68] (ix2 i q)) (v83_at V0 i q)

set_option maxRecDepth 8192 in
/-- One graph-convolution step of the product. -/
theorem conv2_eq (i : Fin 100000) (q : Fin 64) :
    R[main_v85] (ix2 i q) = Spec.conv (C := 64) (ei V0) (ew V0) R[main_v68] i q := by
  refine (congrFun (readback_binary ops_writes V0 124 (a := main_v81) (b := main_v84) (y := main_v85) rfl
    (by decide) (by decide) (by decide)) _).trans ?_
  refine (addf_apply _ _ _).trans ?_
  exact congrArg₂ (fun a b : EReal => a + b) (v81_at V0 i q) (v84_at V0 i q)

set_option maxRecDepth 8192 in
theorem v86_at (q : Fin 64) : R[main_v86] (ix2 (0 : Fin 1) q) = b2 V0 (ix1 q) := by
  refine (congrFun (readback_unary ops_writes V0 125 (x := main_arg6) (y := main_v86) rfl (by decide) (by decide)) _).trans ?_
  refine (broadcastInDim_apply _ _ _ _ (ix1 q) (fun a => by match a with | ⟨0, _⟩ => rfl)).trans ?_
  exact congrFun (after_keep ops_writes V0 (by decide)) _

set_option maxRecDepth 8192 in
theorem v87_at (i : Fin 100000) (q : Fin 64) : R[main_v87] (ix2 i q) = b2 V0 (ix1 q) := by
  refine (congrFun (readback_unary ops_writes V0 126 (x := main_v86) (y := main_v87) rfl (by decide) (by decide)) _).trans ?_
  refine (broadcastInDim_apply _ _ _ _ (ix2 (0 : Fin 1) q) (fun a => by
    match a with
    | ⟨0, _⟩ => rfl
    | ⟨1, _⟩ => rfl)).trans ?_
  exact v86_at V0 q

set_option maxRecDepth 8192 in
/-- The step plus the bias: the rectifier's operand. -/
theorem v88_at (i : Fin 100000) (q : Fin 64) :
    R[main_v88] (ix2 i q) = Spec.conv (C := 64) (ei V0) (ew V0) R[main_v68] i q + b2 V0 (ix1 q) := by
  refine (congrFun (readback_binary ops_writes V0 127 (a := main_v85) (b := main_v87) (y := main_v88) rfl
    (by decide) (by decide) (by decide)) _).trans ?_
  refine (addf_apply _ _ _).trans ?_
  exact congrArg₂ (fun a b : EReal => a + b) (conv2_eq V0 i q) (v87_at V0 i q)

set_option maxRecDepth 8192 in
/-- The rectifier's zero array (the first two operations of its body at this call). -/
theorem relu2_zero_at (i : Fin 100000) (q : Fin 64) : R[main_call2_v0] (ix2 i q) = (0 : EReal) := by
  refine (congrFun (readback_unary ops_writes V0 129 (x := main_call2_cst) (y := main_call2_v0)
    (f := broadcastInDim S100000x64 ![] bcast_S_S100000x64) rfl (by decide) (by decide)) _).trans ?_
  refine (broadcastInDim_apply _ _ _ _ ix0 (fun a => a.elim0)).trans ?_
  refine (congrFun (readback_nullary ops_writes V0 128 (y := main_call2_cst) (v := (constant S_ .f32 0x00000000#32 : FVec Ideal S_ .f32)) rfl (by decide)) _).trans ?_
  exact Ideal.ofBits_zero_f32

set_option maxRecDepth 8192 in
/-- THE SECOND LAYER'S ACTIVATION: one graph-convolution step of the product, plus the bias, cut at zero. -/
theorem a2_eq (i : Fin 100000) (q : Fin 64) :
    @Eq EReal (R[main_v89] (ix2 i q)) (max (Spec.conv (C := 64) (ei V0) (ew V0) R[main_v68] i q + b2 V0 (ix1 q)) 0) := by
  refine (congrFun (readback_binary ops_writes V0 130 (a := main_v88) (b := main_call2_v0) (y := main_v89)
    (f := (maximumf : FVec Ideal S100000x64 .f32 → FVec Ideal S100000x64 .f32 → FVec Ideal S100000x64 .f32)) rfl
    (by decide) (by decide) (by decide)) _).trans ?_
  refine (maximumf_apply _ _ _).trans ?_
  exact congrArg₂ (fun a b : EReal => max a b) (v88_at V0 i q) (relu2_zero_at V0 i q)

/-! ## The second layer's batch statistics: the first layer's operations again, on the second activation -/

/-- The second activation as a typed array, and its column mean with the divisor as the program's word. -/
abbrev a2v : S100000x64.Idx → EReal := R[main_v89]
abbrev mu2 (q : Fin 64) : EReal := Ideal.div (0 + ∑ i : Fin 100000, a2v V0 (ix2 i q)) n1e5

set_option maxRecDepth 8192 in
theorem cst14_at : R[main_cst_14] ix0 = (0 : EReal) :=
  (congrFun (readback_nullary ops_writes V0 131 (y := main_cst_14) rfl (by decide)) _).trans Ideal.ofBits_zero_f32

set_option maxRecDepth 8192 in
/-- The activation's column sums. -/
theorem v90_at (q : Fin 64) : R[main_v90] (ix1 q) = 0 + ∑ i : Fin 100000, a2v V0 (ix2 i q) := by
  refine (congrFun (readback_binary ops_writes V0 132 (a := main_v89) (b := main_cst_14) (y := main_v90)
    (f := ((fun x v => Host.reduceAdd x v reducesTo_S100000x64_S64_d0 h_S_)
      : FVec Ideal S100000x64 .f32 → FVec Ideal S_ .f32 → FVec Ideal S64 .f32))
    rfl (by decide) (by decide) (by decide)) _).trans ?_
  refine (colsum_apply _ _ q).trans ?_
  exact congrArg (fun u : EReal => u + ∑ i : Fin 100000, a2v V0 (ix2 i q)) (cst14_at V0)

set_option maxRecDepth 8192 in
theorem v91_at (q : Fin 64) : R[main_v91] (ix1 q) = n1e5 := by
  refine (congrFun (readback_unary ops_writes V0 134 (x := main_cst_15) (y := main_v91) rfl (by decide) (by decide)) _).trans ?_
  refine (broadcastInDim_apply _ _ _ _ ix0 (fun a => a.elim0)).trans ?_
  exact congrFun (readback_nullary ops_writes V0 133 (y := main_cst_15) rfl (by decide)) _

set_option maxRecDepth 8192 in
/-- The mean. -/
theorem mean2_word_eq (q : Fin 64) : R[main_v92] (ix1 q) = mu2 V0 q := by
  refine (congrFun (readback_binary ops_writes V0 135 (a := main_v90) (b := main_v91) (y := main_v92) rfl
    (by decide) (by decide) (by decide)) _).trans ?_
  refine (hdivf_apply _ _ _).trans ?_
  exact congrArg₂ Ideal.div (v90_at V0 q) (v91_at V0 q)

/-! ### The variance function's body at its second call (its operands: the second activation and the integer 0) -/

set_option maxRecDepth 8192 in
theorem c3cst_at : R[main_call3_cst] ix0 = (0 : EReal) :=
  (congrFun (readback_nullary ops_writes V0 137 (y := main_call3_cst)
    (v := (constant S_ .f32 0x00000000#32 : FVec Ideal S_ .f32)) rfl (by decide)) _).trans Ideal.ofBits_zero_f32

set_option maxRecDepth 8192 in
theorem c3v0_at (q : Fin 64) : R[main_call3_v0] (ix1 q) = 0 + ∑ i : Fin 100000, a2v V0 (ix2 i q) := by
  refine (congrFun (readback_binary ops_writes V0 138 (a := main_v89) (b := main_call3_cst) (y := main_call3_v0)
    (f := ((fun x v => Host.reduceAdd x v reducesTo_S100000x64_S64_d0 h_S_)
      : FVec Ideal S100000x64 .f32 → FVec Ideal S_ .f32 → FVec Ideal S64 .f32))
    rfl (by decide) (by decide) (by decide)) _).trans ?_
  refine (colsum_apply _ _ q).trans ?_
  exact congrArg (fun u : EReal => u + ∑ i : Fin 100000, a2v V0 (ix2 i q)) (c3cst_at V0)

set_option maxRecDepth 8192 in
theorem c3v1_at (q : Fin 64) : R[main_call3_v1] (ix2 (0 : Fin 1) q) = 0 + ∑ i : Fin 100000, a2v V0 (ix2 i q) := by
  refine (congrFun (readback_unary ops_writes V0 139 (x := main_call3_v0) (y := main_call3_v1)
    (f := (broadcastInDim S1x64 ![1] bcast_S64_S1x64_1 : FVec Ideal S64 .f32 → FVec Ideal S1x64 .f32))
    rfl (by decide) (by decide)) _).trans ?_
  refine (broadcastInDim_apply _ _ _ _ (ix1 q) (fun a => by match a with | ⟨0, _⟩ => rfl)).trans ?_
  exact c3v0_at V0 q

set_option maxRecDepth 8192 in
theorem c3v2_at (q : Fin 64) : R[main_call3_v2] (ix2 (0 : Fin 1) q) = n1e5 := by
  refine (congrFun (readback_unary ops_writes V0 141 (x := main_call3_cst_0) (y := main_call3_v2)
    (f := (broadcastInDim S1x64 ![] bcast_S_S1x64 : FVec Ideal S_ .f32 → FVec Ideal S1x64 .f32))
    rfl (by decide) (by decide)) _).trans ?_
  refine (broadcastInDim_apply _ _ _ _ ix0 (fun a => a.elim0)).trans ?_
  exact congrFun (readback_nullary ops_writes V0 140 (y := main_call3_cst_0)
    (v := (constant S_ .f32 0x47C35000#32 : FVec Ideal S_ .f32)) rfl (by decide)) _

set_option maxRecDepth 8192 in
/-- The mean again, as a row. -/
theorem c3v3_at (q : Fin 64) : R[main_call3_v3] (ix2 (0 : Fin 1) q) = mu2 V0 q := by
  refine (congrFun (readback_binary ops_writes V0 142 (a := main_call3_v1) (b := main_call3_v2) (y := main_call3_v3)
    (f := (Host.divf : FVec Ideal S1x64 .f32 → FVec Ideal S1x64 .f32 → FVec Ideal S1x64 .f32))
    rfl (by decide) (by decide) (by decide)) _).trans ?_
  refine (hdivf_apply _ _ _).trans ?_
  exact congrArg₂ Ideal.div (c3v1_at V0 q) (c3v2_at V0 q)

set_option maxRecDepth 8192 in
theorem c3v4_at (i : Fin 100000) (q : Fin 64) : R[main_call3_v4] (ix2 i q) = mu2 V0 q := by
  refine (congrFun (readback_unary ops_writes V0 143 (x := main_call3_v3) (y := main_call3_v4)
    (f := (broadcastInDim S100000x64 ![0, 1] bcast_S1x64_S100000x64_0_1 : FVec Ideal S1x64 .f32 → FVec Ideal S100000x64 .f32))
    rfl (by decide) (by decide)) _).trans ?_
  refine (broadcastInDim_apply _ _ _ _ (ix2 (0 : Fin 1) q) (fun a => by
    match a with
    | ⟨0, _⟩ => rfl
    | ⟨1, _⟩ => rfl)).trans ?_
  exact c3v3_at V0 q

set_option maxRecDepth 8192 in
/-- The centred activation. -/
theorem c3v5_at (i : Fin 100000) (q : Fin 64) : R[main_call3_v5] (ix2 i q) = a2v V0 (ix2 i q) - mu2 V0 q := by
  refine (congrFun (readback_binary ops_writes V0 144 (a := main_v89) (b := main_call3_v4) (y := main_call3_v5)
    (f := (subf : FVec Ideal S100000x64 .f32 → FVec Ideal S100000x64 .f32 → FVec Ideal S100000x64 .f32))
    rfl (by decide) (by decide) (by decide)) _).trans ?_
  refine (subf_apply _ _ _).trans ?_
  exact congrArg (fun u : EReal => a2v V0 (ix2 i q) - u) (c3v4_at V0 i q)

set_option maxRecDepth 8192 in
/-- Its square: the product with itself. -/
theorem c3v6_at (i : Fin 100000) (q : Fin 64) :
    R[main_call3_v6] (ix2 i q) = (a2v V0 (ix2 i q) - mu2 V0 q) * (a2v V0 (ix2 i q) - mu2 V0 q) := by
  refine (congrFun (readback_binary ops_writes V0 145 (a := main_call3_v5) (b := main_call3_v5) (y := main_call3_v6)
    (f := (mulf : FVec Ideal S100000x64 .f32 → FVec Ideal S100000x64 .f32 → FVec Ideal S100000x64 .f32))
    rfl (by decide) (by decide) (by decide)) _).trans ?_
  refine (mulf_apply _ _ _).trans ?_
  exact congrArg₂ (fun u v : EReal => u * v) (c3v5_at V0 i q) (c3v5_at V0 i q)

set_option maxRecDepth 8192 in
/-- The integer operand 0 converted to a float. -/
theorem c3v7_at : R[main_call3_v7] ix0 = (FloatOps.sitofp (F := Ideal) .f32 (0#32 : BitVec 32) : EReal) := by
  refine (congrFun (readback_unary ops_writes V0 146 (x := main_c_16) (y := main_call3_v7)
    (f := (sitofp .f32 : IVec S_ 32 → FVec Ideal S_ .f32)) rfl (by decide) (by decide)) _).trans ?_
  refine (sitofp_apply _ _).trans ?_
  exact congrArg (fun b : BitVec 32 => (FloatOps.sitofp (F := Ideal) .f32 b : EReal))
    (congrFun (readback_nullary ops_writes V0 136 (y := main_c_16) rfl (by decide)) _)

set_option maxRecDepth 8192 in
/-- The variance's divisor: the node count less the converted integer. -/
theorem c3v8_at : R[main_call3_v8] ix0 = n1e5 - (FloatOps.sitofp (F := Ideal) .f32 (0#32 : BitVec 32) : EReal) := by
  refine (congrFun (readback_binary ops_writes V0 148 (a := main_call3_cst_1) (b := main_call3_v7) (y := main_call3_v8)
    (f := (subf : FVec Ideal S_ .f32 → FVec Ideal S_ .f32 → FVec Ideal S_ .f32))
    rfl (by decide) (by decide) (by decide)) _).trans ?_
  refine (subf_apply _ _ _).trans ?_
  exact congrArg₂ (fun u v : EReal => u - v)
    (congrFun (readback_nullary ops_writes V0 147 (y := main_call3_cst_1)
      (v := (constant S_ .f32 0x47C35000#32 : FVec Ideal S_ .f32)) rfl (by decide)) _)
    (c3v7_at V0)

set_option maxRecDepth 8192 in
theorem c3cst2_at : R[main_call3_cst_2] ix0 = (0 : EReal) :=
  (congrFun (readback_nullary ops_writes V0 149 (y := main_call3_cst_2)
    (v := (constant S_ .f32 0x00000000#32 : FVec Ideal S_ .f32)) rfl (by decide)) _).trans Ideal.ofBits_zero_f32

set_option maxRecDepth 8192 in
/-- The column sums of the squares. -/
theorem c3v9_at (q : Fin 64) :
    R[main_call3_v9] (ix1 q) = 0 + ∑ i : Fin 100000, (a2v V0 (ix2 i q) - mu2 V0 q) * (a2v V0 (ix2 i q) - mu2 V0 q) := by
  refine (congrFun (readback_binary ops_writes V0 150 (a := main_call3_v6) (b := main_call3_cst_2) (y := main_call3_v9)
    (f := ((fun x v => Host.reduceAdd x v reducesTo_S100000x64_S64_d0 h_S_)
      : FVec Ideal S100000x64 .f32 → FVec Ideal S_ .f32 → FVec Ideal S64 .f32))
    rfl (by decide) (by decide) (by decide)) _).trans ?_
  refine (colsum_apply _ _ q).trans ?_
  refine congrArg₂ (fun u v : EReal => u + v) (c3cst2_at V0) ?_
  exact Finset.sum_congr rfl fun i _ => c3v6_at V0 i q

set_option maxRecDepth 8192 in
theorem c3v10_at (q : Fin 64) :
    R[main_call3_v10] (ix1 q) = n1e5 - (FloatOps.sitofp (F := Ideal) .f32 (0#32 : BitVec 32) : EReal) := by
  refine (congrFun (readback_unary ops_writes V0 151 (x := main_call3_v8) (y := main_call3_v10)
    (f := (broadcastInDim S64 ![] bcast_S_S64 : FVec Ideal S_ .f32 → FVec Ideal S64 .f32))
    rfl (by decide) (by decide)) _).trans ?_
  refine (broadcastInDim_apply _ _ _ _ ix0 (fun a => a.elim0)).trans ?_
  exact c3v8_at V0

set_option maxRecDepth 8192 in
/-- The quotient the select guards. -/
theorem c3v11_at (q : Fin 64) :
    R[main_call3_v11] (ix1 q)
      = Ideal.div (0 + ∑ i : Fin 100000, (a2v V0 (ix2 i q) - mu2 V0 q) * (a2v V0 (ix2 i q) - mu2 V0 q))
          (n1e5 - (FloatOps.sitofp (F := Ideal) .f32 (0#32 : BitVec 32) : EReal)) := by
  refine (congrFun (readback_binary ops_writes V0 152 (a := main_call3_v9) (b := main_call3_v10) (y := main_call3_v11)
    (f := (Host.divf : FVec Ideal S64 .f32 → FVec Ideal S64 .f32 → FVec Ideal S64 .f32))
    rfl (by decide) (by decide) (by decide)) _).trans ?_
  refine (hdivf_apply _ _ _).trans ?_
  exact congrArg₂ Ideal.div (c3v9_at V0 q) (c3v10_at V0 q)

set_option maxRecDepth 8192 in
/-- The guard: the divisor compared with zero, ordered greater-than. -/
theorem c3v12_at :
    R[main_call3_v12] ix0
      = FloatOps.cmpf (F := Ideal) (φ := .f32) .ogt (n1e5 - (FloatOps.sitofp (F := Ideal) .f32 (0#32 : BitVec 32) : EReal)) (0 : EReal) := by
  refine (congrFun (readback_binary ops_writes V0 154 (a := main_call3_v8) (b := main_call3_cst_3) (y := main_call3_v12)
    (f := (cmpf .ogt : FVec Ideal S_ .f32 → FVec Ideal S_ .f32 → IVec S_ 1))
    rfl (by decide) (by decide) (by decide)) _).trans ?_
  refine (cmpf_ogt_apply _ _ _).trans ?_
  exact congrArg₂ (fun u v : EReal => FloatOps.cmpf (F := Ideal) (φ := .f32) .ogt u v) (c3v8_at V0)
    ((congrFun (readback_nullary ops_writes V0 153 (y := main_call3_cst_3)
      (v := (constant S_ .f32 0x00000000#32 : FVec Ideal S_ .f32)) rfl (by decide)) _).trans Ideal.ofBits_zero_f32)

set_option maxRecDepth 8192 in
/-- The not-a-number constant of the guard's other branch, through the inner function's convert and broadcast. -/
theorem c3nan_at (q : Fin 64) : R[main_call3_call0_v1] (ix1 q) = Ideal.ofBits .f32 0x7FC00000#32 := by
  refine (congrFun (readback_unary ops_writes V0 157 (x := main_call3_call0_v0) (y := main_call3_call0_v1)
    (f := (broadcastInDim S64 ![] bcast_S_S64 : FVec Ideal S_ .f32 → FVec Ideal S64 .f32))
    rfl (by decide) (by decide)) _).trans ?_
  refine (broadcastInDim_apply _ _ _ _ ix0 (fun a => a.elim0)).trans ?_
  refine (congrFun (readback_unary ops_writes V0 156 (x := main_call3_cst_4) (y := main_call3_call0_v0)
    (f := (id : FVec Ideal S_ .f32 → FVec Ideal S_ .f32)) rfl (by decide) (by decide)) _).trans ?_
  exact congrFun (readback_nullary ops_writes V0 155 (y := main_call3_cst_4)
    (v := (constant S_ .f32 0x7FC00000#32 : FVec Ideal S_ .f32)) rfl (by decide)) _

set_option maxRecDepth 8192 in
/-- The variance function's result, before the guard is decided. -/
theorem var2_raw (q : Fin 64) :
    R[main_v93] (ix1 q)
      = Scalar.select
          (FloatOps.cmpf (F := Ideal) (φ := .f32) .ogt (n1e5 - (FloatOps.sitofp (F := Ideal) .f32 (0#32 : BitVec 32) : EReal)) (0 : EReal))
          (Ideal.div (0 + ∑ i : Fin 100000, (a2v V0 (ix2 i q) - mu2 V0 q) * (a2v V0 (ix2 i q) - mu2 V0 q))
            (n1e5 - (FloatOps.sitofp (F := Ideal) .f32 (0#32 : BitVec 32) : EReal)))
          (Ideal.ofBits .f32 0x7FC00000#32) := by
  refine (congrFun (readback_ternary ops_writes V0 158 (c := main_call3_v12) (a := main_call3_v11) (b := main_call3_call0_v1)
    (y := main_v93)
    (f := ((fun p a b => select (broadcastInDim S64 ![] bcast_S_S64 p) a b)
      : IVec S_ 1 → FVec Ideal S64 .f32 → FVec Ideal S64 .f32 → FVec Ideal S64 .f32))
    rfl (by decide) (by decide) (by decide) (by decide)) _).trans ?_
  refine (select_apply _ _ _ _).trans ?_
  refine congr (congr (congrArg Scalar.select ?_) (c3v11_at V0 q)) (c3nan_at V0 q)
  refine (broadcastInDim_apply _ _ _ _ ix0 (fun a => a.elim0)).trans ?_
  exact c3v12_at V0

/-- The second layer's variance with the guard decided, the divisor still the program's word. -/
theorem var2_word_eq (q : Fin 64) :
    R[main_v93] (ix1 q)
      = Ideal.div (0 + ∑ i : Fin 100000, (a2v V0 (ix2 i q) - mu2 V0 q) * (a2v V0 (ix2 i q) - mu2 V0 q)) n1e5 := by
  refine (var2_raw V0 q).trans ?_
  rw [guard1, select_one, sitofp_zero, sub_zero]

/-! ## The statistics in the specification's names -/

/-- The second layer's activation by node and column. -/
abbrev A2 : Fin 100000 → Fin 64 → EReal := fun n q => R[main_v89] (ix2 n q)

/-- The mean with the divisor's word read as the number 100000 is the specification's mean of the activation. -/
theorem mu2_eq (q : Fin 64) : mu2 V0 q = Spec.meanR (A2 V0) q :=
  congrArg (Ideal.div (0 + ∑ i : Fin 100000, a2v V0 (ix2 i q))) n1e5_eq

/-- THE SECOND LAYER'S COLUMN MEAN: the column sums of the activation over the node count. -/
theorem mean2_eq (q : Fin 64) :
    @Eq EReal (R[main_v92] (ix1 q)) (Spec.meanR (fun n q => R[main_v89] (ix2 n q)) q) :=
  (mean2_word_eq V0 q).trans (mu2_eq V0 q)

/-- THE SECOND LAYER'S COLUMN VARIANCE: the column sums of the squared deviations from the mean over the node count. -/
theorem var2_eq (q : Fin 64) :
    @Eq EReal (R[main_v93] (ix1 q)) (Spec.varR (fun n q => R[main_v89] (ix2 n q)) q) := by
  refine (var2_word_eq V0 q).trans ?_
  rw [mu2_eq V0 q, n1e5_eq]
  rfl

end Cert.ReferenceIdeal.RefStages2

end
-- ==== Proof.RefCompose.lean ====
/-
  The reference program's stages put together, up to the head's two halves.

  The stages read at an index are put together. The product of the first layer's normalised activations with the
  second weights, read through the first layer's closed form, is the specification's; a graph-convolution step reads
  its operand only at whole indices, so the second layer's activation is the specification's, and with it the second
  layer's column mean and variance. The head then reads the two layers' rows, the second layer's statistics and the
  weights, which is the specification's head on those rows: the network.
-/
import proofs.«181908_j1778116460896_2_alg».proof.Proof.RefRunB
import proofs.«181908_j1778116460896_2_alg».proof.Proof.SpecNet
import proofs.«181908_j1778116460896_2_alg».proof.Proof.RefStages2

set_option maxRecDepth 16384

noncomputable section

open scoped BigOperators

namespace Cert.ReferenceIdeal.RefFinal

open Idealize.ShloMosaic Idealize.ShloMosaic.TcCoe Idealize.ShloMosaic.ValueIdx Idealize.SL.Sem Idealize.ShloMosaic.StableHlo
open Cert.ReferenceIdeal Cert.ReferenceIdeal.RefRun Cert.ReferenceIdeal.RefStages Cert.ReferenceIdeal.RefStages2

variable (V0 : Valuation τ sig (Elt Ideal))

/-! Notation: R[b] is the contents of buffer b after the whole program run from the contents V0. -/
set_option quotPrecheck false in
local notation "R[" b "]" => after (ops (F := Ideal)) V0 (Proc.devRef (τ := τ) Proc.tc b)

/-- The second normalisation's scale and shift, the two gate weights with their bias rows, and the read-out weight and
    bias: more of the program's arguments as V0 holds them. -/
abbrev g2 : S64.Idx → EReal := V0 (Proc.devRef .tc main_arg9)
abbrev be2 : S64.Idx → EReal := V0 (Proc.devRef .tc main_arg10)
abbrev Wih1 : S256x128.Idx → EReal := V0 (Proc.devRef .tc main_arg11)
abbrev bih1 : S256.Idx → EReal := V0 (Proc.devRef .tc main_arg13)
abbrev bhh1 : S256.Idx → EReal := V0 (Proc.devRef .tc main_arg14)
abbrev Wih2 : S256x64.Idx → EReal := V0 (Proc.devRef .tc main_arg15)
abbrev bih2 : S256.Idx → EReal := V0 (Proc.devRef .tc main_arg17)
abbrev bhh2 : S256.Idx → EReal := V0 (Proc.devRef .tc main_arg18)
abbrev Wl : S143x14.Idx → EReal := V0 (Proc.devRef .tc main_arg19)
abbrev bl : S14.Idx → EReal := V0 (Proc.devRef .tc main_arg20)

/-! ## The second layer in the specification's names -/

/-- The product of the normalised activations with the second weights is the specification's. -/
theorem xw2S_eq (n : Fin 100000) (q : Fin 64) :
    @Eq EReal (R[main_v68] (ix2 n q))
      (Spec.xw2 (Spec.a1R (ei V0) (ew V0) (xin V0) (W1 V0) (b1 V0)) Spec.meanR Spec.varR (g1 V0) (be1 V0) (W2 V0) n q) :=
  (xw2_eq V0 n q).trans
    (Finset.sum_congr rfl fun k _ => congrArg (fun a : EReal => a * W2 V0 (ix2 k q)) (h1_eq V0 n k))

/-- The product as a whole array, in the form the specification's second layer convolves. -/
theorem xw2S_fun :
    R[main_v68] = fun j : S100000x64.Idx =>
      Spec.xw2 (Spec.a1R (ei V0) (ew V0) (xin V0) (W1 V0) (b1 V0)) Spec.meanR Spec.varR (g1 V0) (be1 V0) (W2 V0)
        ⟨(j 0).val, (j 0).isLt⟩ ⟨(j 1).val, (j 1).isLt⟩ := by
  funext j
  exact (congrArg R[main_v68] (eq_ix2 j)).trans (xw2S_eq V0 (j 0) (j 1))

/-- The second layer's activation is the specification's. -/
theorem a2S_eq (n : Fin 100000) (q : Fin 64) :
    @Eq EReal (R[main_v89] (ix2 n q)) (Spec.a2 (ei V0) (ew V0) (Spec.a1R (ei V0) (ew V0) (xin V0) (W1 V0) (b1 V0)) Spec.meanR Spec.varR (g1 V0) (be1 V0) (W2 V0) (b2 V0) n q) :=
  (a2_eq V0 n q).trans
    (congrArg (fun y : S100000x64.Idx → EReal => max (Spec.conv (C := 64) (ei V0) (ew V0) y n q + b2 V0 (ix1 q)) 0)
      (xw2S_fun V0))

/-- The second layer's activation by node and column, as a whole. -/
theorem A2S_eq : @Eq (Fin 100000 → Fin 64 → EReal) (fun n q => R[main_v89] (ix2 n q)) (Spec.a2 (ei V0) (ew V0) (Spec.a1R (ei V0) (ew V0) (xin V0) (W1 V0) (b1 V0)) Spec.meanR Spec.varR (g1 V0) (be1 V0) (W2 V0) (b2 V0)) :=
  funext fun n => funext fun q => a2S_eq V0 n q

/-- The second layer's column mean is the specification's mean of the specification's activation. -/
theorem mean2S_eq (q : Fin 64) : @Eq EReal (R[main_v92] (ix1 q)) (Spec.meanR (Spec.a2 (ei V0) (ew V0) (Spec.a1R (ei V0) (ew V0) (xin V0) (W1 V0) (b1 V0)) Spec.meanR Spec.varR (g1 V0) (be1 V0) (W2 V0) (b2 V0)) q) :=
  (mean2_eq V0 q).trans (congrArg (fun a => Spec.meanR a q) (A2S_eq V0))

/-- The second layer's column variance is the specification's variance of the specification's activation. -/
theorem var2S_eq (q : Fin 64) : @Eq EReal (R[main_v93] (ix1 q)) (Spec.varR (Spec.a2 (ei V0) (ew V0) (Spec.a1R (ei V0) (ew V0) (xin V0) (W1 V0) (b1 V0)) Spec.meanR Spec.varR (g1 V0) (be1 V0) (W2 V0) (b2 V0)) q) :=
  (var2_eq V0 q).trans (congrArg (fun a => Spec.varR a q) (A2S_eq V0))

/-! ## The head on those rows is the network -/

/-- Given the two halves of the head read at an index — the first hidden row from the two layers' rows and the second
    layer's statistics, and the result from the first hidden row, the second hidden row and the node's features —
    the program's result is the network's output. -/
theorem out_of
    (hh1 : ∀ (n : Fin 100000) (q : Fin 64), @Eq EReal (R[main_v137] (ix2 n q))
      (Spec.hidden (Spec.gates (Spec.join2 (fun q => R[main_v67] (ix2 n q))
          (fun q => Spec.normOf (R[main_v89] (ix2 n q)) (R[main_v92] (ix1 q)) (R[main_v93] (ix1 q)) (g2 V0 (ix1 q)) (be2 V0 (ix1 q))))
        (fun k j => Wih1 V0 (ix2 j k)) (fun j => bih1 V0 (ix1 j)) (fun j => bhh1 V0 (ix1 j))) q))
    (tail : ∀ (n : Fin 100000) (o : Fin 14), @Eq EReal (R[main_v171] (ix2 n o))
      (Spec.readout (Spec.join3 (fun q => R[main_v137] (ix2 n q))
          (Spec.hidden (Spec.gates (fun q => R[main_v137] (ix2 n q)) (fun k j => Wih2 V0 (ix2 j k)) (fun j => bih2 V0 (ix1 j)) (fun j => bhh2 V0 (ix1 j))))
          (fun k => xin V0 (ix2 n k))) (fun k o => Wl V0 (ix2 k o)) (fun o => bl V0 (ix1 o)) o))
    (n : Fin 100000) (o : Fin 14) :
    @Eq EReal ((after (ops (F := Ideal)) V0 (Proc.devRef .tc main_v171) : S100000x14.Idx → EReal) (ix2 n o))
      (Cert.Spec.net (V0 (Proc.devRef .tc main_arg1)) (V0 (Proc.devRef .tc main_arg2)) (V0 (Proc.devRef .tc main_arg0))
        (Cert.Spec.a1R (V0 (Proc.devRef .tc main_arg1)) (V0 (Proc.devRef .tc main_arg2)) (V0 (Proc.devRef .tc main_arg0)) (V0 (Proc.devRef .tc main_arg3)) (V0 (Proc.devRef .tc main_arg4)))
        Cert.Spec.meanR Cert.Spec.varR (V0 (Proc.devRef .tc main_arg7)) (V0 (Proc.devRef .tc main_arg8)) (V0 (Proc.devRef .tc main_arg5)) (V0 (Proc.devRef .tc main_arg6))
        (V0 (Proc.devRef .tc main_arg9)) (V0 (Proc.devRef .tc main_arg10)) (V0 (Proc.devRef .tc main_arg11)) (V0 (Proc.devRef .tc main_arg13)) (V0 (Proc.devRef .tc main_arg14))
        (V0 (Proc.devRef .tc main_arg15)) (V0 (Proc.devRef .tc main_arg17)) (V0 (Proc.devRef .tc main_arg18)) (V0 (Proc.devRef .tc main_arg19)) (V0 (Proc.devRef .tc main_arg20)) n o) := by
  refine (tail n o).trans ?_
  have e0 : @Eq (Fin 64 → EReal) (fun q : Fin 64 => R[main_v137] (ix2 n q))
      (Spec.hidden (Spec.gates (Spec.join2 (fun q => R[main_v67] (ix2 n q))
          (fun q => Spec.normOf (R[main_v89] (ix2 n q)) (R[main_v92] (ix1 q)) (R[main_v93] (ix1 q)) (g2 V0 (ix1 q)) (be2 V0 (ix1 q))))
        (fun k j => Wih1 V0 (ix2 j k)) (fun j => bih1 V0 (ix1 j)) (fun j => bhh1 V0 (ix1 j)))) := funext fun q => hh1 n q
  have e1 : @Eq (Fin 64 → EReal) (fun q : Fin 64 => R[main_v67] (ix2 n q))
      (Spec.h1 (Spec.a1R (ei V0) (ew V0) (xin V0) (W1 V0) (b1 V0)) Spec.meanR Spec.varR (g1 V0) (be1 V0) n) := funext fun q => h1_eq V0 n q
  have eN : @Eq (Fin 64 → EReal)
      (fun q : Fin 64 => Spec.normOf (R[main_v89] (ix2 n q)) (R[main_v92] (ix1 q)) (R[main_v93] (ix1 q)) (g2 V0 (ix1 q)) (be2 V0 (ix1 q)))
      (fun q : Fin 64 => Spec.normOf (Spec.a2 (ei V0) (ew V0) (Spec.a1R (ei V0) (ew V0) (xin V0) (W1 V0) (b1 V0)) Spec.meanR Spec.varR (g1 V0) (be1 V0) (W2 V0) (b2 V0) n q) (Spec.meanR (Spec.a2 (ei V0) (ew V0) (Spec.a1R (ei V0) (ew V0) (xin V0) (W1 V0) (b1 V0)) Spec.meanR Spec.varR (g1 V0) (be1 V0) (W2 V0) (b2 V0)) q) (Spec.varR (Spec.a2 (ei V0) (ew V0) (Spec.a1R (ei V0) (ew V0) (xin V0) (W1 V0) (b1 V0)) Spec.meanR Spec.varR (g1 V0) (be1 V0) (W2 V0) (b2 V0)) q) (g2 V0 (ix1 q)) (be2 V0 (ix1 q))) :=
    funext fun q => by rw [a2S_eq V0 n q, mean2S_eq V0 q, var2S_eq V0 q]
  rw [e0, e1, eN]
  rfl

end Cert.ReferenceIdeal.RefFinal

end
-- ==== Proof.RefHeadR.lean ====
/- The reference program's operations 159 to 247, each read back as an equation between final buffer contents: with R[b] what
   buffer b holds once the whole program has run from contents V0, the operation that writes y from x (and x') by f gives
   R[y] = f R[x] (R[x']), because every buffer is written once and every operand before it is read (LibReadBack). One theorem per
   position, its statement the operation's own function, its proof the read-back lemma at that position. -/
import proofs.«181908_j1778116460896_2_alg».proof.Proof.RefRunB
import Idealize.ShloMosaic.Lib.ValueIdx
import Idealize.ShloMosaic.PureOps.Ideal.Laws

noncomputable section

open scoped BigOperators

namespace Cert.ReferenceIdeal.RefHead

open Cert.ReferenceIdeal Cert.ReferenceIdeal.Gen Cert.ReferenceIdeal.RefRun Idealize.ShloMosaic Idealize.ShloMosaic.TcCoe
open Idealize.ShloMosaic.StableHlo Idealize.ShloMosaic.ValueIdx Cert.ReadBack

variable (V0 : Valuation τ sig (Elt Ideal))

set_option quotPrecheck false in
local notation "R[" b "]" => after (ops (F := Ideal)) V0 (Proc.devRef (τ := τ) Proc.tc b)

set_option maxRecDepth 8192 in
/-- Operation 159 read back: what buffer `main_v94` holds, in the operands' final contents. -/
theorem R_main_v94 :
    R[main_v94] = broadcastInDim S1x64 ![1] bcast_S64_S1x64_1 R[main_v92] :=
  readback_unary ops_writes V0 159 (x := main_v92) (y := main_v94) rfl (by decide) (by decide)

set_option maxRecDepth 8192 in
/-- Operation 160 read back: what buffer `main_v95` holds, in the operands' final contents. -/
theorem R_main_v95 :
    R[main_v95] = broadcastInDim S100000x64 ![0, 1] bcast_S1x64_S100000x64_0_1 R[main_v94] :=
  readback_unary ops_writes V0 160 (x := main_v94) (y := main_v95) rfl (by decide) (by decide)

set_option maxRecDepth 8192 in
/-- Operation 161 read back: what buffer `main_v96` holds, in the operands' final contents. -/
theorem R_main_v96 :
    R[main_v96] = subf (F := Ideal) (s := S100000x64) (φ := .f32) R[main_v89] R[main_v95] :=
  readback_binary ops_writes V0 161 (a := main_v89) (b := main_v95) (y := main_v96) rfl (by decide) (by decide) (by decide)

set_option maxRecDepth 8192 in
/-- Operation 162 read back: what buffer `main_cst_17` holds, in the operands' final contents. -/
theorem R_main_cst_17 :
    R[main_cst_17] = constant (F := Ideal) S_ .f32 0x3727C5AC#32 :=
  readback_nullary ops_writes V0 162 (y := main_cst_17) rfl (by decide)

set_option maxRecDepth 8192 in
/-- Operation 163 read back: what buffer `main_v97` holds, in the operands' final contents. -/
theorem R_main_v97 :
    R[main_v97] = broadcastInDim S64 ![] bcast_S_S64 R[main_cst_17] :=
  readback_unary ops_writes V0 163 (x := main_cst_17) (y := main_v97) rfl (by decide) (by decide)

set_option maxRecDepth 8192 in
/-- Operation 164 read back: what buffer `main_v98` holds, in the operands' final contents. -/
theorem R_main_v98 :
    R[main_v98] = addf (F := Ideal) (s := S64) (φ := .f32) R[main_v93] R[main_v97] :=
  readback_binary ops_writes V0 164 (a := main_v93) (b := main_v97) (y := main_v98) rfl (by decide) (by decide) (by decide)

set_option maxRecDepth 8192 in
/-- Operation 165 read back: what buffer `main_v99` holds, in the operands' final contents. -/
theorem R_main_v99 :
    R[main_v99] = Host.rsqrt (F := Ideal) (s := S64) (φ := .f32) R[main_v98] :=
  readback_unary ops_writes V0 165 (x := main_v98) (y := main_v99) rfl (by decide) (by decide)

set_option maxRecDepth 8192 in
/-- Operation 166 read back: what buffer `main_v100` holds, in the operands' final contents. -/
theorem R_main_v100 :
    R[main_v100] = broadcastInDim S1x64 ![1] bcast_S64_S1x64_1 R[main_v99] :=
  readback_unary ops_writes V0 166 (x := main_v99) (y := main_v100) rfl (by decide) (by decide)

set_option maxRecDepth 8192 in
/-- Operation 167 read back: what buffer `main_v101` holds, in the operands' final contents. -/
theorem R_main_v101 :
    R[main_v101] = broadcastInDim S100000x64 ![0, 1] bcast_S1x64_S100000x64_0_1 R[main_v100] :=
  readback_unary ops_writes V0 167 (x := main_v100) (y := main_v101) rfl (by decide) (by decide)

set_option maxRecDepth 8192 in
/-- Operation 168 read back: what buffer `main_v102` holds, in the operands' final contents. -/
theorem R_main_v102 :
    R[main_v102] = mulf (F := Ideal) (s := S100000x64) (φ := .f32) R[main_v96] R[main_v101] :=
  readback_binary ops_writes V0 168 (a := main_v96) (b := main_v101) (y := main_v102) rfl (by decide) (by decide) (by decide)

set_option maxRecDepth 8192 in
/-- Operation 169 read back: what buffer `main_v103` holds, in the operands' final contents. -/
theorem R_main_v103 :
    R[main_v103] = broadcastInDim S1x64 ![1] bcast_S64_S1x64_1 R[main_arg9] :=
  readback_unary ops_writes V0 169 (x := main_arg9) (y := main_v103) rfl (by decide) (by decide)

set_option maxRecDepth 8192 in
/-- Operation 170 read back: what buffer `main_v104` holds, in the operands' final contents. -/
theorem R_main_v104 :
    R[main_v104] = broadcastInDim S100000x64 ![0, 1] bcast_S1x64_S100000x64_0_1 R[main_v103] :=
  readback_unary ops_writes V0 170 (x := main_v103) (y := main_v104) rfl (by decide) (by decide)

set_option maxRecDepth 8192 in
/-- Operation 171 read back: what buffer `main_v105` holds, in the operands' final contents. -/
theorem R_main_v105 :
    R[main_v105] = mulf (F := Ideal) (s := S100000x64) (φ := .f32) R[main_v102] R[main_v104] :=
  readback_binary ops_writes V0 171 (a := main_v102) (b := main_v104) (y := main_v105) rfl (by decide) (by decide) (by decide)

set_option maxRecDepth 8192 in
/-- Operation 172 read back: what buffer `main_v106` holds, in the operands' final contents. -/
theorem R_main_v106 :
    R[main_v106] = broadcastInDim S1x64 ![1] bcast_S64_S1x64_1 R[main_arg10] :=
  readback_unary ops_writes V0 172 (x := main_arg10) (y := main_v106) rfl (by decide) (by decide)

set_option maxRecDepth 8192 in
/-- Operation 173 read back: what buffer `main_v107` holds, in the operands' final contents. -/
theorem R_main_v107 :
    R[main_v107] = broadcastInDim S100000x64 ![0, 1] bcast_S1x64_S100000x64_0_1 R[main_v106] :=
  readback_unary ops_writes V0 173 (x := main_v106) (y := main_v107) rfl (by decide) (by decide)

set_option maxRecDepth 8192 in
/-- Operation 174 read back: what buffer `main_v108` holds, in the operands' final contents. -/
theorem R_main_v108 :
    R[main_v108] = addf (F := Ideal) (s := S100000x64) (φ := .f32) R[main_v105] R[main_v107] :=
  readback_binary ops_writes V0 174 (a := main_v105) (b := main_v107) (y := main_v108) rfl (by decide) (by decide) (by decide)

set_option maxRecDepth 8192 in
/-- Operation 175 read back: what buffer `main_v109` holds, in the operands' final contents. -/
theorem R_main_v109 :
    R[main_v109] = concatenate S100000x128 1 [⟨S100000x64, R[main_v67]⟩, ⟨S100000x64, R[main_v108]⟩] concatenates_S100000x64_S100000x64_S100000x128_d1 :=
  readback_binary ops_writes V0 175 (a := main_v67) (b := main_v108) (y := main_v109) rfl (by decide) (by decide) (by decide)

set_option maxRecDepth 8192 in
/-- Operation 176 read back: what buffer `main_v110` holds, in the operands' final contents. -/
theorem R_main_v110 :
    R[main_v110] = transpose S128x256 [1, 0] R[main_arg11] transposes_S256x128_S128x256_1_0 :=
  readback_unary ops_writes V0 176 (x := main_arg11) (y := main_v110) rfl (by decide) (by decide)

set_option maxRecDepth 8192 in
/-- Operation 177 read back: what buffer `main_v111` holds, in the operands' final contents. -/
theorem R_main_v111 :
    R[main_v111] = Host.dotGeneral (F := Ideal) (φ₁ := .f32) (φ₂ := .f32) dot_S100000x128_S128x256_S100000x256_1_0_0_1_n_n none R[main_v109] R[main_v110] :=
  readback_binary ops_writes V0 177 (a := main_v109) (b := main_v110) (y := main_v111) rfl (by decide) (by decide) (by decide)

set_option maxRecDepth 8192 in
/-- Operation 178 read back: what buffer `main_v112` holds, in the operands' final contents. -/
theorem R_main_v112 :
    R[main_v112] = broadcastInDim S1x256 ![1] bcast_S256_S1x256_1 R[main_arg13] :=
  readback_unary ops_writes V0 178 (x := main_arg13) (y := main_v112) rfl (by decide) (by decide)

set_option maxRecDepth 8192 in
/-- Operation 179 read back: what buffer `main_v113` holds, in the operands' final contents. -/
theorem R_main_v113 :
    R[main_v113] = broadcastInDim S100000x256 ![0, 1] bcast_S1x256_S100000x256_0_1 R[main_v112] :=
  readback_unary ops_writes V0 179 (x := main_v112) (y := main_v113) rfl (by decide) (by decide)

set_option maxRecDepth 8192 in
/-- Operation 180 read back: what buffer `main_v114` holds, in the operands' final contents. -/
theorem R_main_v114 :
    R[main_v114] = addf (F := Ideal) (s := S100000x256) (φ := .f32) R[main_v111] R[main_v113] :=
  readback_binary ops_writes V0 180 (a := main_v111) (b := main_v113) (y := main_v114) rfl (by decide) (by decide) (by decide)

set_option maxRecDepth 8192 in
/-- Operation 181 read back: what buffer `main_v115` holds, in the operands' final contents. -/
theorem R_main_v115 :
    R[main_v115] = broadcastInDim S1x256 ![1] bcast_S256_S1x256_1 R[main_arg14] :=
  readback_unary ops_writes V0 181 (x := main_arg14) (y := main_v115) rfl (by decide) (by decide)

set_option maxRecDepth 8192 in
/-- Operation 182 read back: what buffer `main_v116` holds, in the operands' final contents. -/
theorem R_main_v116 :
    R[main_v116] = broadcastInDim S100000x256 ![0, 1] bcast_S1x256_S100000x256_0_1 R[main_v115] :=
  readback_unary ops_writes V0 182 (x := main_v115) (y := main_v116) rfl (by decide) (by decide)

set_option maxRecDepth 8192 in
/-- Operation 183 read back: what buffer `main_v117` holds, in the operands' final contents. -/
theorem R_main_v117 :
    R[main_v117] = addf (F := Ideal) (s := S100000x256) (φ := .f32) R[main_v114] R[main_v116] :=
  readback_binary ops_writes V0 183 (a := main_v114) (b := main_v116) (y := main_v117) rfl (by decide) (by decide) (by decide)

set_option maxRecDepth 8192 in
/-- Operation 184 read back: what buffer `main_v118` holds, in the operands' final contents. -/
theorem R_main_v118 :
    R[main_v118] = extractStridedSlice S100000x64 ![0, 0] R[main_v117] slices_S100000x256_S100000x64_0_0 :=
  readback_unary ops_writes V0 184 (x := main_v117) (y := main_v118) rfl (by decide) (by decide)

set_option maxRecDepth 8192 in
/-- Operation 185 read back: what buffer `main_v119` holds, in the operands' final contents. -/
theorem R_main_v119 :
    R[main_v119] = extractStridedSlice S100000x64 ![0, 64] R[main_v117] slices_S100000x256_S100000x64_0_64 :=
  readback_unary ops_writes V0 185 (x := main_v117) (y := main_v119) rfl (by decide) (by decide)

set_option maxRecDepth 8192 in
/-- Operation 186 read back: what buffer `main_v120` holds, in the operands' final contents. -/
theorem R_main_v120 :
    R[main_v120] = extractStridedSlice S100000x64 ![0, 128] R[main_v117] slices_S100000x256_S100000x64_0_128 :=
  readback_unary ops_writes V0 186 (x := main_v117) (y := main_v120) rfl (by decide) (by decide)

set_option maxRecDepth 8192 in
/-- Operation 187 read back: what buffer `main_v121` holds, in the operands' final contents. -/
theorem R_main_v121 :
    R[main_v121] = extractStridedSlice S100000x64 ![0, 192] R[main_v117] slices_S100000x256_S100000x64_0_192 :=
  readback_unary ops_writes V0 187 (x := main_v117) (y := main_v121) rfl (by decide) (by decide)

set_option maxRecDepth 8192 in
/-- Operation 188 read back: what buffer `main_v122` holds, in the operands' final contents. -/
theorem R_main_v122 :
    R[main_v122] = Host.negf (F := Ideal) (s := S100000x64) (φ := .f32) R[main_v118] :=
  readback_unary ops_writes V0 188 (x := main_v118) (y := main_v122) rfl (by decide) (by decide)

set_option maxRecDepth 8192 in
/-- Operation 189 read back: what buffer `main_v123` holds, in the operands' final contents. -/
theorem R_main_v123 :
    R[main_v123] = Host.exp (F := Ideal) (s := S100000x64) (φ := .f32) R[main_v122] :=
  readback_unary ops_writes V0 189 (x := main_v122) (y := main_v123) rfl (by decide) (by decide)

set_option maxRecDepth 8192 in
/-- Operation 190 read back: what buffer `main_cst_18` holds, in the operands' final contents. -/
theorem R_main_cst_18 :
    R[main_cst_18] = constant (F := Ideal) S_ .f32 0x3F800000#32 :=
  readback_nullary ops_writes V0 190 (y := main_cst_18) rfl (by decide)

set_option maxRecDepth 8192 in
/-- Operation 191 read back: what buffer `main_v124` holds, in the operands' final contents. -/
theorem R_main_v124 :
    R[main_v124] = broadcastInDim S100000x64 ![] bcast_S_S100000x64 R[main_cst_18] :=
  readback_unary ops_writes V0 191 (x := main_cst_18) (y := main_v124) rfl (by decide) (by decide)

set_option maxRecDepth 8192 in
/-- Operation 192 read back: what buffer `main_v125` holds, in the operands' final contents. -/
theorem R_main_v125 :
    R[main_v125] = addf (F := Ideal) (s := S100000x64) (φ := .f32) R[main_v124] R[main_v123] :=
  readback_binary ops_writes V0 192 (a := main_v124) (b := main_v123) (y := main_v125) rfl (by decide) (by decide) (by decide)

set_option maxRecDepth 8192 in
/-- Operation 193 read back: what buffer `main_cst_19` holds, in the operands' final contents. -/
theorem R_main_cst_19 :
    R[main_cst_19] = constant (F := Ideal) S_ .f32 0x3F800000#32 :=
  readback_nullary ops_writes V0 193 (y := main_cst_19) rfl (by decide)

set_option maxRecDepth 8192 in
/-- Operation 194 read back: what buffer `main_v126` holds, in the operands' final contents. -/
theorem R_main_v126 :
    R[main_v126] = broadcastInDim S100000x64 ![] bcast_S_S100000x64 R[main_cst_19] :=
  readback_unary ops_writes V0 194 (x := main_cst_19) (y := main_v126) rfl (by decide) (by decide)

set_option maxRecDepth 8192 in
/-- Operation 195 read back: what buffer `main_v127` holds, in the operands' final contents. -/
theorem R_main_v127 :
    R[main_v127] = Host.divf (F := Ideal) (s := S100000x64) (φ := .f32) R[main_v126] R[main_v125] :=
  readback_binary ops_writes V0 195 (a := main_v126) (b := main_v125) (y := main_v127) rfl (by decide) (by decide) (by decide)

set_option maxRecDepth 8192 in
/-- Operation 196 read back: what buffer `main_v128` holds, in the operands' final contents. -/
theorem R_main_v128 :
    R[main_v128] = Host.tanh (F := Ideal) (s := S100000x64) (φ := .f32) R[main_v120] :=
  readback_unary ops_writes V0 196 (x := main_v120) (y := main_v128) rfl (by decide) (by decide)

set_option maxRecDepth 8192 in
/-- Operation 197 read back: what buffer `main_v129` holds, in the operands' final contents. -/
theorem R_main_v129 :
    R[main_v129] = mulf (F := Ideal) (s := S100000x64) (φ := .f32) R[main_v127] R[main_v128] :=
  readback_binary ops_writes V0 197 (a := main_v127) (b := main_v128) (y := main_v129) rfl (by decide) (by decide) (by decide)

set_option maxRecDepth 8192 in
/-- Operation 198 read back: what buffer `main_v130` holds, in the operands' final contents. -/
theorem R_main_v130 :
    R[main_v130] = Host.negf (F := Ideal) (s := S100000x64) (φ := .f32) R[main_v121] :=
  readback_unary ops_writes V0 198 (x := main_v121) (y := main_v130) rfl (by decide) (by decide)

set_option maxRecDepth 8192 in
/-- Operation 199 read back: what buffer `main_v131` holds, in the operands' final contents. -/
theorem R_main_v131 :
    R[main_v131] = Host.exp (F := Ideal) (s := S100000x64) (φ := .f32) R[main_v130] :=
  readback_unary ops_writes V0 199 (x := main_v130) (y := main_v131) rfl (by decide) (by decide)

set_option maxRecDepth 8192 in
/-- Operation 200 read back: what buffer `main_cst_20` holds, in the operands' final contents. -/
theorem R_main_cst_20 :
    R[main_cst_20] = constant (F := Ideal) S_ .f32 0x3F800000#32 :=
  readback_nullary ops_writes V0 200 (y := main_cst_20) rfl (by decide)

set_option maxRecDepth 8192 in
/-- Operation 201 read back: what buffer `main_v132` holds, in the operands' final contents. -/
theorem R_main_v132 :
    R[main_v132] = broadcastInDim S100000x64 ![] bcast_S_S100000x64 R[main_cst_20] :=
  readback_unary ops_writes V0 201 (x := main_cst_20) (y := main_v132) rfl (by decide) (by decide)

set_option maxRecDepth 8192 in
/-- Operation 202 read back: what buffer `main_v133` holds, in the operands' final contents. -/
theorem R_main_v133 :
    R[main_v133] = addf (F := Ideal) (s := S100000x64) (φ := .f32) R[main_v132] R[main_v131] :=
  readback_binary ops_writes V0 202 (a := main_v132) (b := main_v131) (y := main_v133) rfl (by decide) (by decide) (by decide)

set_option maxRecDepth 8192 in
/-- Operation 203 read back: what buffer `main_cst_21` holds, in the operands' final contents. -/
theorem R_main_cst_21 :
    R[main_cst_21] = constant (F := Ideal) S_ .f32 0x3F800000#32 :=
  readback_nullary ops_writes V0 203 (y := main_cst_21) rfl (by decide)

set_option maxRecDepth 8192 in
/-- Operation 204 read back: what buffer `main_v134` holds, in the operands' final contents. -/
theorem R_main_v134 :
    R[main_v134] = broadcastInDim S100000x64 ![] bcast_S_S100000x64 R[main_cst_21] :=
  readback_unary ops_writes V0 204 (x := main_cst_21) (y := main_v134) rfl (by decide) (by decide)

set_option maxRecDepth 8192 in
/-- Operation 205 read back: what buffer `main_v135` holds, in the operands' final contents. -/
theorem R_main_v135 :
    R[main_v135] = Host.divf (F := Ideal) (s := S100000x64) (φ := .f32) R[main_v134] R[main_v133] :=
  readback_binary ops_writes V0 205 (a := main_v134) (b := main_v133) (y := main_v135) rfl (by decide) (by decide) (by decide)

set_option maxRecDepth 8192 in
/-- Operation 206 read back: what buffer `main_v136` holds, in the operands' final contents. -/
theorem R_main_v136 :
    R[main_v136] = Host.tanh (F := Ideal) (s := S100000x64) (φ := .f32) R[main_v129] :=
  readback_unary ops_writes V0 206 (x := main_v129) (y := main_v136) rfl (by decide) (by decide)

set_option maxRecDepth 8192 in
/-- Operation 207 read back: what buffer `main_v137` holds, in the operands' final contents. -/
theorem R_main_v137 :
    R[main_v137] = mulf (F := Ideal) (s := S100000x64) (φ := .f32) R[main_v135] R[main_v136] :=
  readback_binary ops_writes V0 207 (a := main_v135) (b := main_v136) (y := main_v137) rfl (by decide) (by decide) (by decide)

set_option maxRecDepth 8192 in
/-- Operation 208 read back: what buffer `main_v138` holds, in the operands' final contents. -/
theorem R_main_v138 :
    R[main_v138] = transpose S64x256 [1, 0] R[main_arg15] transposes_S256x64_S64x256_1_0 :=
  readback_unary ops_writes V0 208 (x := main_arg15) (y := main_v138) rfl (by decide) (by decide)

set_option maxRecDepth 8192 in
/-- Operation 209 read back: what buffer `main_v139` holds, in the operands' final contents. -/
theorem R_main_v139 :
    R[main_v139] = Host.dotGeneral (F := Ideal) (φ₁ := .f32) (φ₂ := .f32) dot_S100000x64_S64x256_S100000x256_1_0_0_1_n_n none R[main_v137] R[main_v138] :=
  readback_binary ops_writes V0 209 (a := main_v137) (b := main_v138) (y := main_v139) rfl (by decide) (by decide) (by decide)

set_option maxRecDepth 8192 in
/-- Operation 210 read back: what buffer `main_v140` holds, in the operands' final contents. -/
theorem R_main_v140 :
    R[main_v140] = broadcastInDim S1x256 ![1] bcast_S256_S1x256_1 R[main_arg17] :=
  readback_unary ops_writes V0 210 (x := main_arg17) (y := main_v140) rfl (by decide) (by decide)

set_option maxRecDepth 8192 in
/-- Operation 211 read back: what buffer `main_v141` holds, in the operands' final contents. -/
theorem R_main_v141 :
    R[main_v141] = broadcastInDim S100000x256 ![0, 1] bcast_S1x256_S100000x256_0_1 R[main_v140] :=
  readback_unary ops_writes V0 211 (x := main_v140) (y := main_v141) rfl (by decide) (by decide)

set_option maxRecDepth 8192 in
/-- Operation 212 read back: what buffer `main_v142` holds, in the operands' final contents. -/
theorem R_main_v142 :
    R[main_v142] = addf (F := Ideal) (s := S100000x256) (φ := .f32) R[main_v139] R[main_v141] :=
  readback_binary ops_writes V0 212 (a := main_v139) (b := main_v141) (y := main_v142) rfl (by decide) (by decide) (by decide)

set_option maxRecDepth 8192 in
/-- Operation 213 read back: what buffer `main_v143` holds, in the operands' final contents. -/
theorem R_main_v143 :
    R[main_v143] = broadcastInDim S1x256 ![1] bcast_S256_S1x256_1 R[main_arg18] :=
  readback_unary ops_writes V0 213 (x := main_arg18) (y := main_v143) rfl (by decide) (by decide)

set_option maxRecDepth 8192 in
/-- Operation 214 read back: what buffer `main_v144` holds, in the operands' final contents. -/
theorem R_main_v144 :
    R[main_v144] = broadcastInDim S100000x256 ![0, 1] bcast_S1x256_S100000x256_0_1 R[main_v143] :=
  readback_unary ops_writes V0 214 (x := main_v143) (y := main_v144) rfl (by decide) (by decide)

set_option maxRecDepth 8192 in
/-- Operation 215 read back: what buffer `main_v145` holds, in the operands' final contents. -/
theorem R_main_v145 :
    R[main_v145] = addf (F := Ideal) (s := S100000x256) (φ := .f32) R[main_v142] R[main_v144] :=
  readback_binary ops_writes V0 215 (a := main_v142) (b := main_v144) (y := main_v145) rfl (by decide) (by decide) (by decide)

set_option maxRecDepth 8192 in
/-- Operation 216 read back: what buffer `main_v146` holds, in the operands' final contents. -/
theorem R_main_v146 :
    R[main_v146] = extractStridedSlice S100000x64 ![0, 0] R[main_v145] slices_S100000x256_S100000x64_0_0 :=
  readback_unary ops_writes V0 216 (x := main_v145) (y := main_v146) rfl (by decide) (by decide)

set_option maxRecDepth 8192 in
/-- Operation 217 read back: what buffer `main_v147` holds, in the operands' final contents. -/
theorem R_main_v147 :
    R[main_v147] = extractStridedSlice S100000x64 ![0, 64] R[main_v145] slices_S100000x256_S100000x64_0_64 :=
  readback_unary ops_writes V0 217 (x := main_v145) (y := main_v147) rfl (by decide) (by decide)

set_option maxRecDepth 8192 in
/-- Operation 218 read back: what buffer `main_v148` holds, in the operands' final contents. -/
theorem R_main_v148 :
    R[main_v148] = extractStridedSlice S100000x64 ![0, 128] R[main_v145] slices_S100000x256_S100000x64_0_128 :=
  readback_unary ops_writes V0 218 (x := main_v145) (y := main_v148) rfl (by decide) (by decide)

set_option maxRecDepth 8192 in
/-- Operation 219 read back: what buffer `main_v149` holds, in the operands' final contents. -/
theorem R_main_v149 :
    R[main_v149] = extractStridedSlice S100000x64 ![0, 192] R[main_v145] slices_S100000x256_S100000x64_0_192 :=
  readback_unary ops_writes V0 219 (x := main_v145) (y := main_v149) rfl (by decide) (by decide)

set_option maxRecDepth 8192 in
/-- Operation 220 read back: what buffer `main_v150` holds, in the operands' final contents. -/
theorem R_main_v150 :
    R[main_v150] = Host.negf (F := Ideal) (s := S100000x64) (φ := .f32) R[main_v146] :=
  readback_unary ops_writes V0 220 (x := main_v146) (y := main_v150) rfl (by decide) (by decide)

set_option maxRecDepth 8192 in
/-- Operation 221 read back: what buffer `main_v151` holds, in the operands' final contents. -/
theorem R_main_v151 :
    R[main_v151] = Host.exp (F := Ideal) (s := S100000x64) (φ := .f32) R[main_v150] :=
  readback_unary ops_writes V0 221 (x := main_v150) (y := main_v151) rfl (by decide) (by decide)

set_option maxRecDepth 8192 in
/-- Operation 222 read back: what buffer `main_cst_22` holds, in the operands' final contents. -/
theorem R_main_cst_22 :
    R[main_cst_22] = constant (F := Ideal) S_ .f32 0x3F800000#32 :=
  readback_nullary ops_writes V0 222 (y := main_cst_22) rfl (by decide)

set_option maxRecDepth 8192 in
/-- Operation 223 read back: what buffer `main_v152` holds, in the operands' final contents. -/
theorem R_main_v152 :
    R[main_v152] = broadcastInDim S100000x64 ![] bcast_S_S100000x64 R[main_cst_22] :=
  readback_unary ops_writes V0 223 (x := main_cst_22) (y := main_v152) rfl (by decide) (by decide)

set_option maxRecDepth 8192 in
/-- Operation 224 read back: what buffer `main_v153` holds, in the operands' final contents. -/
theorem R_main_v153 :
    R[main_v153] = addf (F := Ideal) (s := S100000x64) (φ := .f32) R[main_v152] R[main_v151] :=
  readback_binary ops_writes V0 224 (a := main_v152) (b := main_v151) (y := main_v153) rfl (by decide) (by decide) (by decide)

set_option maxRecDepth 8192 in
/-- Operation 225 read back: what buffer `main_cst_23` holds, in the operands' final contents. -/
theorem R_main_cst_23 :
    R[main_cst_23] = constant (F := Ideal) S_ .f32 0x3F800000#32 :=
  readback_nullary ops_writes V0 225 (y := main_cst_23) rfl (by decide)

set_option maxRecDepth 8192 in
/-- Operation 226 read back: what buffer `main_v154` holds, in the operands' final contents. -/
theorem R_main_v154 :
    R[main_v154] = broadcastInDim S100000x64 ![] bcast_S_S100000x64 R[main_cst_23] :=
  readback_unary ops_writes V0 226 (x := main_cst_23) (y := main_v154) rfl (by decide) (by decide)

set_option maxRecDepth 8192 in
/-- Operation 227 read back: what buffer `main_v155` holds, in the operands' final contents. -/
theorem R_main_v155 :
    R[main_v155] = Host.divf (F := Ideal) (s := S100000x64) (φ := .f32) R[main_v154] R[main_v153] :=
  readback_binary ops_writes V0 227 (a := main_v154) (b := main_v153) (y := main_v155) rfl (by decide) (by decide) (by decide)

set_option maxRecDepth 8192 in
/-- Operation 228 read back: what buffer `main_v156` holds, in the operands' final contents. -/
theorem R_main_v156 :
    R[main_v156] = Host.tanh (F := Ideal) (s := S100000x64) (φ := .f32) R[main_v148] :=
  readback_unary ops_writes V0 228 (x := main_v148) (y := main_v156) rfl (by decide) (by decide)

set_option maxRecDepth 8192 in
/-- Operation 229 read back: what buffer `main_v157` holds, in the operands' final contents. -/
theorem R_main_v157 :
    R[main_v157] = mulf (F := Ideal) (s := S100000x64) (φ := .f32) R[main_v155] R[main_v156] :=
  readback_binary ops_writes V0 229 (a := main_v155) (b := main_v156) (y := main_v157) rfl (by decide) (by decide) (by decide)

set_option maxRecDepth 8192 in
/-- Operation 230 read back: what buffer `main_v158` holds, in the operands' final contents. -/
theorem R_main_v158 :
    R[main_v158] = Host.negf (F := Ideal) (s := S100000x64) (φ := .f32) R[main_v149] :=
  readback_unary ops_writes V0 230 (x := main_v149) (y := main_v158) rfl (by decide) (by decide)

set_option maxRecDepth 8192 in
/-- Operation 231 read back: what buffer `main_v159` holds, in the operands' final contents. -/
theorem R_main_v159 :
    R[main_v159] = Host.exp (F := Ideal) (s := S100000x64) (φ := .f32) R[main_v158] :=
  readback_unary ops_writes V0 231 (x := main_v158) (y := main_v159) rfl (by decide) (by decide)

set_option maxRecDepth 8192 in
/-- Operation 232 read back: what buffer `main_cst_24` holds, in the operands' final contents. -/
theorem R_main_cst_24 :
    R[main_cst_24] = constant (F := Ideal) S_ .f32 0x3F800000#32 :=
  readback_nullary ops_writes V0 232 (y := main_cst_24) rfl (by decide)

set_option maxRecDepth 8192 in
/-- Operation 233 read back: what buffer `main_v160` holds, in the operands' final contents. -/
theorem R_main_v160 :
    R[main_v160] = broadcastInDim S100000x64 ![] bcast_S_S100000x64 R[main_cst_24] :=
  readback_unary ops_writes V0 233 (x := main_cst_24) (y := main_v160) rfl (by decide) (by decide)

set_option maxRecDepth 8192 in
/-- Operation 234 read back: what buffer `main_v161` holds, in the operands' final contents. -/
theorem R_main_v161 :
    R[main_v161] = addf (F := Ideal) (s := S100000x64) (φ := .f32) R[main_v160] R[main_v159] :=
  readback_binary ops_writes V0 234 (a := main_v160) (b := main_v159) (y := main_v161) rfl (by decide) (by decide) (by decide)

set_option maxRecDepth 8192 in
/-- Operation 235 read back: what buffer `main_cst_25` holds, in the operands' final contents. -/
theorem R_main_cst_25 :
    R[main_cst_25] = constant (F := Ideal) S_ .f32 0x3F800000#32 :=
  readback_nullary ops_writes V0 235 (y := main_cst_25) rfl (by decide)

set_option maxRecDepth 8192 in
/-- Operation 236 read back: what buffer `main_v162` holds, in the operands' final contents. -/
theorem R_main_v162 :
    R[main_v162] = broadcastInDim S100000x64 ![] bcast_S_S100000x64 R[main_cst_25] :=
  readback_unary ops_writes V0 236 (x := main_cst_25) (y := main_v162) rfl (by decide) (by decide)

set_option maxRecDepth 8192 in
/-- Operation 237 read back: what buffer `main_v163` holds, in the operands' final contents. -/
theorem R_main_v163 :
    R[main_v163] = Host.divf (F := Ideal) (s := S100000x64) (φ := .f32) R[main_v162] R[main_v161] :=
  readback_binary ops_writes V0 237 (a := main_v162) (b := main_v161) (y := main_v163) rfl (by decide) (by decide) (by decide)

set_option maxRecDepth 8192 in
/-- Operation 238 read back: what buffer `main_v164` holds, in the operands' final contents. -/
theorem R_main_v164 :
    R[main_v164] = Host.tanh (F := Ideal) (s := S100000x64) (φ := .f32) R[main_v157] :=
  readback_unary ops_writes V0 238 (x := main_v157) (y := main_v164) rfl (by decide) (by decide)

set_option maxRecDepth 8192 in
/-- Operation 239 read back: what buffer `main_v165` holds, in the operands' final contents. -/
theorem R_main_v165 :
    R[main_v165] = mulf (F := Ideal) (s := S100000x64) (φ := .f32) R[main_v163] R[main_v164] :=
  readback_binary ops_writes V0 239 (a := main_v163) (b := main_v164) (y := main_v165) rfl (by decide) (by decide) (by decide)

set_option maxRecDepth 8192 in
/-- Operation 240 read back: what buffer `main_v166` holds, in the operands' final contents. -/
theorem R_main_v166 :
    R[main_v166] = concatenate S100000x143 1 [⟨S100000x64, R[main_v137]⟩, ⟨S100000x64, R[main_v165]⟩, ⟨S100000x15, R[main_arg0]⟩] concatenates_S100000x64_S100000x64_S100000x15_S100000x143_d1 :=
  (readback_nary ops_writes V0 240 (xs := ![main_v137, main_v165, main_arg0]) (y := main_v166) rfl (by decide) (by decide)).trans rfl

set_option maxRecDepth 8192 in
/-- Operation 241 read back: what buffer `main_call4_cst` holds, in the operands' final contents. -/
theorem R_main_call4_cst :
    R[main_call4_cst] = constant (F := Ideal) S_ .f32 0x00000000#32 :=
  readback_nullary ops_writes V0 241 (y := main_call4_cst) rfl (by decide)

set_option maxRecDepth 8192 in
/-- Operation 242 read back: what buffer `main_call4_v0` holds, in the operands' final contents. -/
theorem R_main_call4_v0 :
    R[main_call4_v0] = broadcastInDim S100000x143 ![] bcast_S_S100000x143 R[main_call4_cst] :=
  readback_unary ops_writes V0 242 (x := main_call4_cst) (y := main_call4_v0) rfl (by decide) (by decide)

set_option maxRecDepth 8192 in
/-- Operation 243 read back: what buffer `main_v167` holds, in the operands' final contents. -/
theorem R_main_v167 :
    R[main_v167] = maximumf (F := Ideal) (s := S100000x143) (φ := .f32) R[main_v166] R[main_call4_v0] :=
  readback_binary ops_writes V0 243 (a := main_v166) (b := main_call4_v0) (y := main_v167) rfl (by decide) (by decide) (by decide)

set_option maxRecDepth 8192 in
/-- Operation 244 read back: what buffer `main_v168` holds, in the operands' final contents. -/
theorem R_main_v168 :
    R[main_v168] = Host.dotGeneral (F := Ideal) (φ₁ := .f32) (φ₂ := .f32) dot_S100000x143_S143x14_S100000x14_1_0_0_1_n_n none R[main_v167] R[main_arg19] :=
  readback_binary ops_writes V0 244 (a := main_v167) (b := main_arg19) (y := main_v168) rfl (by decide) (by decide) (by decide)

set_option maxRecDepth 8192 in
/-- Operation 245 read back: what buffer `main_v169` holds, in the operands' final contents. -/
theorem R_main_v169 :
    R[main_v169] = broadcastInDim S1x14 ![1] bcast_S14_S1x14_1 R[main_arg20] :=
  readback_unary ops_writes V0 245 (x := main_arg20) (y := main_v169) rfl (by decide) (by decide)

set_option maxRecDepth 8192 in
/-- Operation 246 read back: what buffer `main_v170` holds, in the operands' final contents. -/
theorem R_main_v170 :
    R[main_v170] = broadcastInDim S100000x14 ![0, 1] bcast_S1x14_S100000x14_0_1 R[main_v169] :=
  readback_unary ops_writes V0 246 (x := main_v169) (y := main_v170) rfl (by decide) (by decide)

set_option maxRecDepth 8192 in
/-- Operation 247 read back: what buffer `main_v171` holds, in the operands' final contents. -/
theorem R_main_v171 :
    R[main_v171] = addf (F := Ideal) (s := S100000x14) (φ := .f32) R[main_v168] R[main_v170] :=
  readback_binary ops_writes V0 247 (a := main_v168) (b := main_v170) (y := main_v171) rfl (by decide) (by decide) (by decide)

end Cert.ReferenceIdeal.RefHead

end
-- ==== Proof.RefHeadPure.lean ====
/-
  The reference program's head, stage by stage, as facts about ARRAYS read at an index (no program run in this file): a vector
  set as a row and spread over the nodes reads its entry; the normalised row is the specification's `normOf`; two or three arrays
  laid side by side read the specification's `join2` / `join3`; a matrix product at `(n, j)` is the sum over the contracted
  index; the gate pre-activations are the specification's `gates` (the weight enters transposed); `1 / (1 + exp (−x))` is the
  logistic function; the recurrent step from a zero state is the specification's `hidden`; the maximum with zero and the
  read-out are the specification's `readout`.
-/
import proofs.«181908_j1778116460896_2_alg».proof.ReferenceIdeal
import proofs.«181908_j1778116460896_2_alg».proof.Proof.Gen.ReferenceIdeal
import proofs.«181908_j1778116460896_2_alg».proof.Proof.SpecHead
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefHead

open Idealize.ShloMosaic Idealize.ShloMosaic.ValueIdx
open Cert.ReferenceIdeal

/-- The f32 pattern `0x3F800000` is 1. -/
theorem ofBits_one : Ideal.ofBits .f32 0x3F800000#32 = (1 : EReal) := by
  simp [Ideal.ofBits, Ideal.ieee, -EReal.coe_mul]; norm_num

section Broadcasts
variable {α : Type} {N C : Nat}

/-- A vector `[C]` set as a row `[1, C]` and spread over `N` rows reads, at `(n, q)`, the vector at `q`. -/
theorem rowBcast_apply (hC : C ≠ 1)
    (hb1 : (⟨1, ![C]⟩ : Shape).BroadcastsInDim ⟨2, ![1, C]⟩ (![1] : Fin 1 → Fin 2))
    (hb2 : (⟨2, ![1, C]⟩ : Shape).BroadcastsInDim ⟨2, ![N, C]⟩ (![0, 1] : Fin 2 → Fin 2))
    (x : (⟨1, ![C]⟩ : Shape).Idx → α) (n : Fin N) (q : Fin C) :
    broadcastInDim ⟨2, ![N, C]⟩ ![0, 1] hb2 (broadcastInDim ⟨2, ![1, C]⟩ ![1] hb1 x) (ix2 n q) = x (ix1 q) := by
  refine (broadcastInDim_apply ![0, 1] hb2 _ (ix2 n q) (ix2 (0 : Fin 1) q) ?_).trans ?_
  · intro a
    match a with
    | ⟨0, _⟩ => show (0 : ℕ) = if (1 : ℕ) = 1 then 0 else n.val; rw [if_pos rfl]
    | ⟨1, _⟩ => show q.val = if C = 1 then 0 else q.val; rw [if_neg hC]
  · exact broadcastInDim_apply ![1] hb1 x (ix2 (0 : Fin 1) q) (ix1 q) (by
      intro a
      match a with
      | ⟨0, _⟩ => show q.val = if C = 1 then 0 else q.val; rw [if_neg hC])

end Broadcasts

/-- A broadcast scalar constant reads, everywhere, the extended real its pattern denotes. -/
theorem bcastConst_apply {s : Shape} (hb : S_.BroadcastsInDim s (![] : Fin 0 → Fin s.rank)) (b : BitVec 32) (i : s.Idx) :
    broadcastInDim s ![] hb (constant (F := Ideal) S_ .f32 b) i = Ideal.ofBits .f32 b := rfl

/-- THE NORMALISED ROW at `(n, q)`: the entry less its column's mean, times the inverse root of the column's variance plus ε,
    times the scale, plus the shift — the specification's `normOf`. -/
theorem normRow_apply (hb0 : S_.BroadcastsInDim S64 (![] : Fin 0 → Fin S64.rank))
    (hb1 : S64.BroadcastsInDim S1x64 (![1] : Fin 1 → Fin S1x64.rank))
    (hb2 : S1x64.BroadcastsInDim S100000x64 (![0, 1] : Fin 2 → Fin S100000x64.rank))
    (A : FVec Ideal S100000x64 .f32) (MU VAR G B : FVec Ideal S64 .f32) (n : Fin 100000) (q : Fin 64) :
    addf (mulf (mulf (subf A (broadcastInDim S100000x64 ![0, 1] hb2 (broadcastInDim S1x64 ![1] hb1 MU)))
            (broadcastInDim S100000x64 ![0, 1] hb2 (broadcastInDim S1x64 ![1] hb1
              (Host.rsqrt (addf VAR (broadcastInDim S64 ![] hb0 (constant S_ .f32 0x3727C5AC#32)))))))
          (broadcastInDim S100000x64 ![0, 1] hb2 (broadcastInDim S1x64 ![1] hb1 G)))
        (broadcastInDim S100000x64 ![0, 1] hb2 (broadcastInDim S1x64 ![1] hb1 B)) (ix2 n q)
      = Cert.Spec.normOf (A (ix2 n q)) (MU (ix1 q)) (VAR (ix1 q)) (G (ix1 q)) (B (ix1 q)) := by
  rw [addf_apply, mulf_apply, mulf_apply, subf_apply,
    rowBcast_apply (by decide) hb1 hb2 MU, rowBcast_apply (by decide) hb1 hb2 G, rowBcast_apply (by decide) hb1 hb2 B,
    rowBcast_apply (by decide) hb1 hb2 (Host.rsqrt (addf VAR (broadcastInDim S64 ![] hb0 (constant S_ .f32 0x3727C5AC#32))))]
  rfl

/-- Two `[100000, 64]` arrays side by side read, at `(n, k)`, the specification's `join2` of their rows `n`. -/
theorem concat2_apply (h : Shape.Concatenates [S100000x64, S100000x64] S100000x128 1) (a b : S100000x64.Idx → EReal)
    (n : Fin 100000) (k : Fin 128) :
    concatenate S100000x128 1 [⟨S100000x64, a⟩, ⟨S100000x64, b⟩] h (ix2 n k)
      = Cert.Spec.join2 (fun q => a (ix2 n q)) (fun q => b (ix2 n q)) k := by
  unfold Cert.Spec.join2
  split
  · rename_i hk
    exact concatenate_pair_apply_left 1 a b h (ix2 n k) rfl (ix2 n (⟨k.val, hk⟩ : Fin 64)) (fun c => by
      match c with
      | ⟨0, _⟩ => rfl
      | ⟨1, _⟩ => rfl)
  · rename_i hk
    have hk' : k.val - 64 < 64 := by have := k.isLt; omega
    exact concatenate_pair_apply_right 1 a b h (ix2 n k) rfl rfl (ix2 n (⟨k.val - 64, hk'⟩ : Fin 64)) (fun c hc => by
      match c with
      | ⟨0, _⟩ => rfl
      | ⟨1, _⟩ => exact absurd rfl hc) (by show (k.val - 64) + 64 = k.val; omega)

/-- `1 / (1 + exp (−x))`, the two ones broadcast constants, is the logistic function at every index. -/
theorem sigmoid_apply {s : Shape} (hb : S_.BroadcastsInDim s (![] : Fin 0 → Fin s.rank)) (x : FVec Ideal s .f32) (i : s.Idx) :
    Host.divf (broadcastInDim s ![] hb (constant S_ .f32 0x3F800000#32))
        (addf (broadcastInDim s ![] hb (constant S_ .f32 0x3F800000#32)) (Host.exp (Host.negf x))) i
      = Ideal.logistic (x i) := by
  show Ideal.div (Ideal.ofBits .f32 0x3F800000#32) (Ideal.ofBits .f32 0x3F800000#32 + Ideal.exp (-(x i))) = _
  rw [ofBits_one]
  rfl

/-- The maximum with a broadcast zero is the maximum with 0 at every index. -/
theorem relu_apply {s : Shape} (hb : S_.BroadcastsInDim s (![] : Fin 0 → Fin s.rank)) (x : FVec Ideal s .f32) (i : s.Idx) :
    maximumf x (broadcastInDim s ![] hb (constant S_ .f32 0x00000000#32)) i = max (x i) 0 := by
  show max (x i) (Ideal.ofBits .f32 0x00000000#32) = _
  rw [Ideal.ofBits_zero_f32]

/-- The contraction record of the product `[100000, 128] · [128, 256]`. -/
abbrev DA := dot_S100000x128_S128x256_S100000x256_1_0_0_1_n_n

/-- At output index `j` and contraction index `k` the left operand is read in row `j 0` … -/
theorem DA_lhs_row (j : S100000x256.Idx) (k : DA.contr.Idx) : (DA.lhsIdx j k 0).val = (j 0).val := by
  unfold DotDims.lhsIdx
  rw [dif_neg (show ¬(0 : Fin S100000x128.rank) ∈ DA.lhsBatch by decide),
    dif_pos (show (0 : Fin S100000x128.rank) ∈ DA.lhsNonContracting by decide)]
  rfl
/-- … and in column `k`. -/
theorem DA_lhs_feat (j : S100000x256.Idx) (k : DA.contr.Idx) : (DA.lhsIdx j k 1).val = (k ⟨0, by decide⟩).val :=
  DA.lhsIdx_val_of_single rfl j k
/-- The right operand is read in row `k` … -/
theorem DA_rhs_feat (j : S100000x256.Idx) (k : DA.contr.Idx) : (DA.rhsIdx j k 0).val = (k ⟨0, by decide⟩).val :=
  DA.rhsIdx_val_of_single rfl j k
/-- … and in column `j 1`. -/
theorem DA_rhs_col (j : S100000x256.Idx) (k : DA.contr.Idx) : (DA.rhsIdx j k 1).val = (j 1).val := by
  unfold DotDims.rhsIdx
  rw [dif_neg (show ¬(1 : Fin S128x256.rank) ∈ DA.rhsBatch by decide),
    dif_pos (show (1 : Fin S128x256.rank) ∈ DA.rhsNonContracting by decide)]
  rfl

/-- The product `[100000, 128] · [128, 256]` at `(n, j)`: the sum over the 128 contracted entries. -/
theorem dotA_apply (l : FVec Ideal S100000x128 .f32) (r : FVec Ideal S128x256 .f32) (n : Fin 100000) (j : Fin 256) :
    Host.dotGeneral (F := Ideal) (φ₁ := .f32) (φ₂ := .f32) DA none l r (ix2 n j) = ∑ k : Fin 128, l (ix2 n k) * r (ix2 k j) := by
  refine (Ideal.dotGeneral_apply DA none _ l r (ix2 n j)).trans ?_
  refine (Equiv.sum_comp (contrEquiv1 DA 128 rfl rfl).symm _).symm.trans ?_
  refine Finset.sum_congr rfl fun k _ => ?_
  have hk := contrEquiv1_symm_val DA 128 rfl rfl k
  have el : DA.lhsIdx (ix2 n j) ((contrEquiv1 DA 128 rfl rfl).symm k) = ix2 n k := funext fun a => Fin.ext (by
    match a with
    | ⟨0, _⟩ => exact DA_lhs_row _ _
    | ⟨1, _⟩ => exact (DA_lhs_feat _ _).trans hk)
  have er : DA.rhsIdx (ix2 n j) ((contrEquiv1 DA 128 rfl rfl).symm k) = ix2 k j := funext fun a => Fin.ext (by
    match a with
    | ⟨0, _⟩ => exact (DA_rhs_feat _ _).trans hk
    | ⟨1, _⟩ => exact DA_rhs_col _ _)
  rw [el, er]

/-- The contraction record of the product `[100000, 64] · [64, 256]`. -/
abbrev DB := dot_S100000x64_S64x256_S100000x256_1_0_0_1_n_n

/-- At output index `j` and contraction index `k` the left operand is read in row `j 0` … -/
theorem DB_lhs_row (j : S100000x256.Idx) (k : DB.contr.Idx) : (DB.lhsIdx j k 0).val = (j 0).val := by
  unfold DotDims.lhsIdx
  rw [dif_neg (show ¬(0 : Fin S100000x64.rank) ∈ DB.lhsBatch by decide),
    dif_pos (show (0 : Fin S100000x64.rank) ∈ DB.lhsNonContracting by decide)]
  rfl
/-- … and in column `k`. -/
theorem DB_lhs_feat (j : S100000x256.Idx) (k : DB.contr.Idx) : (DB.lhsIdx j k 1).val = (k ⟨0, by decide⟩).val :=
  DB.lhsIdx_val_of_single rfl j k
/-- The right operand is read in row `k` … -/
theorem DB_rhs_feat (j : S100000x256.Idx) (k : DB.contr.Idx) : (DB.rhsIdx j k 0).val = (k ⟨0, by decide⟩).val :=
  DB.rhsIdx_val_of_single rfl j k
/-- … and in column `j 1`. -/
theorem DB_rhs_col (j : S100000x256.Idx) (k : DB.contr.Idx) : (DB.rhsIdx j k 1).val = (j 1).val := by
  unfold DotDims.rhsIdx
  rw [dif_neg (show ¬(1 : Fin S64x256.rank) ∈ DB.rhsBatch by decide),
    dif_pos (show (1 : Fin S64x256.rank) ∈ DB.rhsNonContracting by decide)]
  rfl

/-- The product `[100000, 64] · [64, 256]` at `(n, j)`: the sum over the 64 contracted entries. -/
theorem dotB_apply (l : FVec Ideal S100000x64 .f32) (r : FVec Ideal S64x256 .f32) (n : Fin 100000) (j : Fin 256) :
    Host.dotGeneral (F := Ideal) (φ₁ := .f32) (φ₂ := .f32) DB none l r (ix2 n j) = ∑ k : Fin 64, l (ix2 n k) * r (ix2 k j) := by
  refine (Ideal.dotGeneral_apply DB none _ l r (ix2 n j)).trans ?_
  refine (Equiv.sum_comp (contrEquiv1 DB 64 rfl rfl).symm _).symm.trans ?_
  refine Finset.sum_congr rfl fun k _ => ?_
  have hk := contrEquiv1_symm_val DB 64 rfl rfl k
  have el : DB.lhsIdx (ix2 n j) ((contrEquiv1 DB 64 rfl rfl).symm k) = ix2 n k := funext fun a => Fin.ext (by
    match a with
    | ⟨0, _⟩ => exact DB_lhs_row _ _
    | ⟨1, _⟩ => exact (DB_lhs_feat _ _).trans hk)
  have er : DB.rhsIdx (ix2 n j) ((contrEquiv1 DB 64 rfl rfl).symm k) = ix2 k j := funext fun a => Fin.ext (by
    match a with
    | ⟨0, _⟩ => exact (DB_rhs_feat _ _).trans hk
    | ⟨1, _⟩ => exact DB_rhs_col _ _)
  rw [el, er]

/-- The contraction record of the product `[100000, 143] · [143, 14]`. -/
abbrev DL := dot_S100000x143_S143x14_S100000x14_1_0_0_1_n_n

/-- At output index `j` and contraction index `k` the left operand is read in row `j 0` … -/
theorem DL_lhs_row (j : S100000x14.Idx) (k : DL.contr.Idx) : (DL.lhsIdx j k 0).val = (j 0).val := by
  unfold DotDims.lhsIdx
  rw [dif_neg (show ¬(0 : Fin S100000x143.rank) ∈ DL.lhsBatch by decide),
    dif_pos (show (0 : Fin S100000x143.rank) ∈ DL.lhsNonContracting by decide)]
  rfl
/-- … and in column `k`. -/
theorem DL_lhs_feat (j : S100000x14.Idx) (k : DL.contr.Idx) : (DL.lhsIdx j k 1).val = (k ⟨0, by decide⟩).val :=
  DL.lhsIdx_val_of_single rfl j k
/-- The right operand is read in row `k` … -/
theorem DL_rhs_feat (j : S100000x14.Idx) (k : DL.contr.Idx) : (DL.rhsIdx j k 0).val = (k ⟨0, by decide⟩).val :=
  DL.rhsIdx_val_of_single rfl j k
/-- … and in column `j 1`. -/
theorem DL_rhs_col (j : S100000x14.Idx) (k : DL.contr.Idx) : (DL.rhsIdx j k 1).val = (j 1).val := by
  unfold DotDims.rhsIdx
  rw [dif_neg (show ¬(1 : Fin S143x14.rank) ∈ DL.rhsBatch by decide),
    dif_pos (show (1 : Fin S143x14.rank) ∈ DL.rhsNonContracting by decide)]
  rfl

/-- The product `[100000, 143] · [143, 14]` at `(n, j)`: the sum over the 143 contracted entries. -/
theorem dotL_apply (l : FVec Ideal S100000x143 .f32) (r : FVec Ideal S143x14 .f32) (n : Fin 100000) (j : Fin 14) :
    Host.dotGeneral (F := Ideal) (φ₁ := .f32) (φ₂ := .f32) DL none l r (ix2 n j) = ∑ k : Fin 143, l (ix2 n k) * r (ix2 k j) := by
  refine (Ideal.dotGeneral_apply DL none _ l r (ix2 n j)).trans ?_
  refine (Equiv.sum_comp (contrEquiv1 DL 143 rfl rfl).symm _).symm.trans ?_
  refine Finset.sum_congr rfl fun k _ => ?_
  have hk := contrEquiv1_symm_val DL 143 rfl rfl k
  have el : DL.lhsIdx (ix2 n j) ((contrEquiv1 DL 143 rfl rfl).symm k) = ix2 n k := funext fun a => Fin.ext (by
    match a with
    | ⟨0, _⟩ => exact DL_lhs_row _ _
    | ⟨1, _⟩ => exact (DL_lhs_feat _ _).trans hk)
  have er : DL.rhsIdx (ix2 n j) ((contrEquiv1 DL 143 rfl rfl).symm k) = ix2 k j := funext fun a => Fin.ext (by
    match a with
    | ⟨0, _⟩ => exact (DL_rhs_feat _ _).trans hk
    | ⟨1, _⟩ => exact DL_rhs_col _ _)
  rw [el, er]

/-- THE GATE PRE-ACTIVATIONS of the first recurrent layer at `(n, j)`: the row times the weight (which enters transposed) plus
    the two bias rows — the specification's `gates`. -/
theorem gatesA_apply (hT : S256x128.Transposes [1, 0] S128x256)
    (hb1 : S256.BroadcastsInDim S1x256 (![1] : Fin 1 → Fin S1x256.rank))
    (hb2 : S1x256.BroadcastsInDim S100000x256 (![0, 1] : Fin 2 → Fin S100000x256.rank))
    (r : FVec Ideal S100000x128 .f32) (Wih : FVec Ideal S256x128 .f32) (b b' : FVec Ideal S256 .f32)
    (n : Fin 100000) (j : Fin 256) :
    addf (addf (Host.dotGeneral (F := Ideal) (φ₁ := .f32) (φ₂ := .f32) DA none r (transpose S128x256 [1, 0] Wih hT))
          (broadcastInDim S100000x256 ![0, 1] hb2 (broadcastInDim S1x256 ![1] hb1 b)))
        (broadcastInDim S100000x256 ![0, 1] hb2 (broadcastInDim S1x256 ![1] hb1 b')) (ix2 n j)
      = Cert.Spec.gates (fun k => r (ix2 n k)) (fun k j => Wih (ix2 j k)) (fun j => b (ix1 j)) (fun j => b' (ix1 j)) j := by
  rw [addf_apply, addf_apply, rowBcast_apply (by decide) hb1 hb2 b, rowBcast_apply (by decide) hb1 hb2 b', dotA_apply]
  unfold Cert.Spec.gates
  refine congrArg (fun s : EReal => (s + b (ix1 j)) + b' (ix1 j)) (Finset.sum_congr rfl fun k _ => ?_)
  rw [transpose_ix2_apply]

/-- The same for the second recurrent layer (a 64-wide row). -/
theorem gatesB_apply (hT : S256x64.Transposes [1, 0] S64x256)
    (hb1 : S256.BroadcastsInDim S1x256 (![1] : Fin 1 → Fin S1x256.rank))
    (hb2 : S1x256.BroadcastsInDim S100000x256 (![0, 1] : Fin 2 → Fin S100000x256.rank))
    (r : FVec Ideal S100000x64 .f32) (Wih : FVec Ideal S256x64 .f32) (b b' : FVec Ideal S256 .f32)
    (n : Fin 100000) (j : Fin 256) :
    addf (addf (Host.dotGeneral (F := Ideal) (φ₁ := .f32) (φ₂ := .f32) DB none r (transpose S64x256 [1, 0] Wih hT))
          (broadcastInDim S100000x256 ![0, 1] hb2 (broadcastInDim S1x256 ![1] hb1 b)))
        (broadcastInDim S100000x256 ![0, 1] hb2 (broadcastInDim S1x256 ![1] hb1 b')) (ix2 n j)
      = Cert.Spec.gates (fun k => r (ix2 n k)) (fun k j => Wih (ix2 j k)) (fun j => b (ix1 j)) (fun j => b' (ix1 j)) j := by
  rw [addf_apply, addf_apply, rowBcast_apply (by decide) hb1 hb2 b, rowBcast_apply (by decide) hb1 hb2 b', dotB_apply]
  unfold Cert.Spec.gates
  refine congrArg (fun s : EReal => (s + b (ix1 j)) + b' (ix1 j)) (Finset.sum_congr rfl fun k _ => ?_)
  rw [transpose_ix2_apply]

/-- THE RECURRENT STEP FROM A ZERO STATE at `(n, q)`: with the gate pre-activations `G`, the logistic of the output gate (columns
    192…) times the hyperbolic tangent of the logistic of the input gate (columns 0…) times the hyperbolic tangent of the cell
    candidate (columns 128…) — the specification's `hidden`. -/
theorem hidden_apply (hb : S_.BroadcastsInDim S100000x64 (![] : Fin 0 → Fin S100000x64.rank))
    (hs0 : S100000x256.Slices ![0, 0] S100000x64) (hs128 : S100000x256.Slices ![0, 128] S100000x64)
    (hs192 : S100000x256.Slices ![0, 192] S100000x64) (G : FVec Ideal S100000x256 .f32) (n : Fin 100000) (q : Fin 64) :
    mulf
        (Host.divf (broadcastInDim S100000x64 ![] hb (constant S_ .f32 0x3F800000#32))
          (addf (broadcastInDim S100000x64 ![] hb (constant S_ .f32 0x3F800000#32))
            (Host.exp (Host.negf (extractStridedSlice S100000x64 ![0, 192] G hs192)))))
        (Host.tanh
          (mulf
            (Host.divf (broadcastInDim S100000x64 ![] hb (constant S_ .f32 0x3F800000#32))
              (addf (broadcastInDim S100000x64 ![] hb (constant S_ .f32 0x3F800000#32))
                (Host.exp (Host.negf (extractStridedSlice S100000x64 ![0, 0] G hs0)))))
            (Host.tanh (extractStridedSlice S100000x64 ![0, 128] G hs128)))) (ix2 n q)
      = Cert.Spec.hidden (fun j => G (ix2 n j)) q := by
  have ht : ∀ X : FVec Ideal S100000x64 .f32, Host.tanh X (ix2 n q) = Ideal.tanh (X (ix2 n q)) := fun _ => rfl
  have hq := q.isLt
  rw [mulf_apply, sigmoid_apply hb, ht, mulf_apply, sigmoid_apply hb, ht, slice2_axis1_apply 192 G hs192 n q (⟨192 + q.val, by omega⟩ : Fin 256) rfl,
    slice2_axis1_apply 0 G hs0 n q (⟨q.val, by omega⟩ : Fin 256) (Nat.zero_add _).symm,
    slice2_axis1_apply 128 G hs128 n q (⟨128 + q.val, by omega⟩ : Fin 256) rfl]
  rfl

/-- Two `[100000, 64]` arrays and a `[100000, 15]` array side by side read, at `(n, k)`, the specification's `join3`. -/
theorem concat3_apply (h : Shape.Concatenates [S100000x64, S100000x64, S100000x15] S100000x143 1)
    (u v : S100000x64.Idx → EReal) (x : S100000x15.Idx → EReal) (n : Fin 100000) (k : Fin 143) :
    concatenate S100000x143 1 [⟨S100000x64, u⟩, ⟨S100000x64, v⟩, ⟨S100000x15, x⟩] h (ix2 n k)
      = Cert.Spec.join3 (fun q => u (ix2 n q)) (fun q => v (ix2 n q)) (fun c => x (ix2 n c)) k := by
  have hk143 := k.isLt
  unfold Cert.Spec.join3
  split
  · rename_i hk
    exact concatenate_apply_piece (t := S100000x143) 1 [⟨S100000x64, u⟩, ⟨S100000x64, v⟩, ⟨S100000x15, x⟩] h (ix2 n k) 0 (by show 0 < 3; omega) S100000x64 u rfl rfl 0 rfl (ix2 n (⟨k.val, hk⟩ : Fin 64))
      (fun c hc => by
        match c with
        | ⟨0, _⟩ => rfl
        | ⟨1, _⟩ => exact absurd rfl hc) (by show 0 + k.val = k.val; omega)
  · split
    · rename_i hk hk2
      exact concatenate_apply_piece (t := S100000x143) 1 [⟨S100000x64, u⟩, ⟨S100000x64, v⟩, ⟨S100000x15, x⟩] h (ix2 n k) 1 (by show 1 < 3; omega) S100000x64 v rfl rfl 64 rfl
        (ix2 n (⟨k.val - 64, by omega⟩ : Fin 64))
        (fun c hc => by
          match c with
          | ⟨0, _⟩ => rfl
          | ⟨1, _⟩ => exact absurd rfl hc) (by show 64 + (k.val - 64) = k.val; omega)
    · rename_i hk hk2
      exact concatenate_apply_piece (t := S100000x143) 1 [⟨S100000x64, u⟩, ⟨S100000x64, v⟩, ⟨S100000x15, x⟩] h (ix2 n k) 2 (by show 2 < 3; omega) S100000x15 x rfl rfl 128 rfl
        (ix2 n (⟨k.val - 128, by omega⟩ : Fin 15))
        (fun c hc => by
          match c with
          | ⟨0, _⟩ => rfl
          | ⟨1, _⟩ => exact absurd rfl hc) (by show 128 + (k.val - 128) = k.val; omega)

/-- THE READ-OUT at `(n, o)`: the features clipped below at zero times the read-out weight, plus the bias row — the
    specification's `readout`. -/
theorem readout_apply (hbz : S_.BroadcastsInDim S100000x143 (![] : Fin 0 → Fin S100000x143.rank))
    (hb1 : S14.BroadcastsInDim S1x14 (![1] : Fin 1 → Fin S1x14.rank))
    (hb2 : S1x14.BroadcastsInDim S100000x14 (![0, 1] : Fin 2 → Fin S100000x14.rank))
    (Fm : FVec Ideal S100000x143 .f32) (WL : FVec Ideal S143x14 .f32) (BL : FVec Ideal S14 .f32)
    (n : Fin 100000) (o : Fin 14) :
    addf (Host.dotGeneral (F := Ideal) (φ₁ := .f32) (φ₂ := .f32) DL none
          (maximumf Fm (broadcastInDim S100000x143 ![] hbz (constant S_ .f32 0x00000000#32))) WL)
        (broadcastInDim S100000x14 ![0, 1] hb2 (broadcastInDim S1x14 ![1] hb1 BL)) (ix2 n o)
      = Cert.Spec.readout (fun k => Fm (ix2 n k)) (fun k o => WL (ix2 k o)) (fun o => BL (ix1 o)) o := by
  rw [addf_apply, rowBcast_apply (by decide) hb1 hb2 BL, dotL_apply]
  unfold Cert.Spec.readout
  refine congrArg (fun s : EReal => s + BL (ix1 o)) (Finset.sum_congr rfl fun k _ => ?_)
  rw [relu_apply]

end Cert.ReferenceIdeal.RefHead

end
-- ==== Proof.RefHead.lean ====
/-
  The reference program's head up to the first recurrent step's result, READ AT AN INDEX at the ideal instance.

  With `R[b]` what buffer `b` holds once the whole program has run from contents `V0`, and taking as GIVEN the first layer's
  normalised activations (`main_v67`), the second layer's activations (`main_v89`) and their column mean (`main_v92`) and
  variance (`main_v93`): the second normalised row is the specification's `normOf` of these with the second scale and shift;
  the two normalised rows side by side are `join2`; times the first gate weight (transposed by the program before the product)
  plus the two bias rows they are the specification's `gates`; and the recurrent step from a zero state — the program spells the
  logistic function as `1 / (1 + exp (−x))` and reads the input, cell and output bands at columns 0, 128 and 192 — is `hidden`.
  Each stage substitutes the program's own equations (one per operation, the read-back table) and then reads one pure array fact
  at the index.
-/
import proofs.«181908_j1778116460896_2_alg».proof.Proof.RefHeadR
import proofs.«181908_j1778116460896_2_alg».proof.Proof.RefHeadPure

noncomputable section

open scoped BigOperators

namespace Cert.ReferenceIdeal.RefHead

open Cert.ReferenceIdeal Cert.ReferenceIdeal.Gen Cert.ReferenceIdeal.RefRun Idealize.ShloMosaic Idealize.ShloMosaic.TcCoe
open Idealize.ShloMosaic.StableHlo Idealize.ShloMosaic.ValueIdx Cert.ReadBack

variable (V0 : Valuation τ sig (Elt Ideal))

set_option quotPrecheck false in
local notation "R[" b "]" => after (ops (F := Ideal)) V0 (Proc.devRef (τ := τ) Proc.tc b)

/-- A buffer no operation writes — an argument of the program — holds at the end what it held at the start. -/
theorem R_arg {b : Ref sig .tc} (hb : b ∉ W) : R[b] = V0 (Proc.devRef .tc b) :=
  after_keep ops_writes V0 hb

set_option maxRecDepth 8192 in
/-- THE SECOND NORMALISED ROW at `(n, q)`: the specification's `normOf` of the second layer's activation, its column's mean and
    variance, and the second scale and shift. -/
theorem h2_eq (n : Fin 100000) (q : Fin 64) :
    @Eq EReal (R[main_v108] (ix2 n q))
      (Cert.Spec.normOf (R[main_v89] (ix2 n q)) (R[main_v92] (ix1 q)) (R[main_v93] (ix1 q))
        (V0 (Proc.devRef .tc main_arg9) (ix1 q)) (V0 (Proc.devRef .tc main_arg10) (ix1 q))) := by
  rw [R_main_v108 V0, R_main_v107 V0, R_main_v106 V0, R_main_v105 V0, R_main_v104 V0, R_main_v103 V0, R_main_v102 V0,
    R_main_v101 V0, R_main_v100 V0, R_main_v99 V0, R_main_v98 V0, R_main_v97 V0, R_main_cst_17 V0, R_main_v96 V0,
    R_main_v95 V0, R_main_v94 V0, R_arg V0 (b := main_arg9) (by decide), R_arg V0 (b := main_arg10) (by decide)]
  exact normRow_apply _ _ _ _ _ _ _ _ n q

set_option maxRecDepth 8192 in
/-- THE JOINED ROW at `(n, k)`: the first layer's normalised row and the second's side by side. -/
theorem joined_eq (n : Fin 100000) (k : Fin 128) :
    @Eq EReal (R[main_v109] (ix2 n k))
      (Cert.Spec.join2 (fun q => R[main_v67] (ix2 n q))
        (fun q => Cert.Spec.normOf (R[main_v89] (ix2 n q)) (R[main_v92] (ix1 q)) (R[main_v93] (ix1 q))
          (V0 (Proc.devRef .tc main_arg9) (ix1 q)) (V0 (Proc.devRef .tc main_arg10) (ix1 q))) k) := by
  rw [R_main_v109 V0]
  refine (concat2_apply _ _ _ n k).trans ?_
  exact congrArg (fun f : Fin 64 → EReal => Cert.Spec.join2 (fun q => R[main_v67] (ix2 n q)) f k)
    (funext fun q => h2_eq V0 n q)

set_option maxRecDepth 8192 in
/-- THE FIRST GATE PRE-ACTIVATIONS at `(n, j)`: the joined row against the first gate weight (transposed) plus the two bias
    rows. -/
theorem gates1_eq (n : Fin 100000) (j : Fin 256) :
    @Eq EReal (R[main_v117] (ix2 n j))
      (Cert.Spec.gates
        (Cert.Spec.join2 (fun q => R[main_v67] (ix2 n q))
          (fun q => Cert.Spec.normOf (R[main_v89] (ix2 n q)) (R[main_v92] (ix1 q)) (R[main_v93] (ix1 q))
            (V0 (Proc.devRef .tc main_arg9) (ix1 q)) (V0 (Proc.devRef .tc main_arg10) (ix1 q))))
        (fun k j => V0 (Proc.devRef .tc main_arg11) (ix2 j k)) (fun j => V0 (Proc.devRef .tc main_arg13) (ix1 j))
        (fun j => V0 (Proc.devRef .tc main_arg14) (ix1 j)) j) := by
  rw [R_main_v117 V0, R_main_v116 V0, R_main_v115 V0, R_main_v114 V0, R_main_v113 V0, R_main_v112 V0, R_main_v111 V0,
    R_main_v110 V0, R_arg V0 (b := main_arg11) (by decide), R_arg V0 (b := main_arg13) (by decide),
    R_arg V0 (b := main_arg14) (by decide)]
  refine (gatesA_apply _ _ _ _ _ _ _ n j).trans ?_
  exact congrArg (fun r : Fin 128 → EReal => Cert.Spec.gates r (fun k j => V0 (Proc.devRef .tc main_arg11) (ix2 j k))
      (fun j => V0 (Proc.devRef .tc main_arg13) (ix1 j)) (fun j => V0 (Proc.devRef .tc main_arg14) (ix1 j)) j)
    (funext fun k => joined_eq V0 n k)

set_option maxRecDepth 8192 in
/-- THE FIRST RECURRENT STEP'S RESULT at `(n, q)`: the specification's `hidden` of the first gate pre-activations. -/
theorem hh1_eq (n : Fin 100000) (q : Fin 64) :
    @Eq EReal (R[main_v137] (ix2 n q))
      (Cert.Spec.hidden
        (Cert.Spec.gates
          (Cert.Spec.join2 (fun q => R[main_v67] (ix2 n q))
            (fun q => Cert.Spec.normOf (R[main_v89] (ix2 n q)) (R[main_v92] (ix1 q)) (R[main_v93] (ix1 q))
              (V0 (Proc.devRef .tc main_arg9) (ix1 q)) (V0 (Proc.devRef .tc main_arg10) (ix1 q))))
          (fun k j => V0 (Proc.devRef .tc main_arg11) (ix2 j k)) (fun j => V0 (Proc.devRef .tc main_arg13) (ix1 j))
          (fun j => V0 (Proc.devRef .tc main_arg14) (ix1 j))) q) := by
  rw [R_main_v137 V0, R_main_v136 V0, R_main_v135 V0, R_main_v134 V0, R_main_cst_21 V0, R_main_v133 V0, R_main_v132 V0,
    R_main_cst_20 V0, R_main_v131 V0, R_main_v130 V0, R_main_v129 V0, R_main_v128 V0, R_main_v127 V0, R_main_v126 V0,
    R_main_cst_19 V0, R_main_v125 V0, R_main_v124 V0, R_main_cst_18 V0, R_main_v123 V0, R_main_v122 V0, R_main_v121 V0,
    R_main_v120 V0, R_main_v118 V0]
  refine (hidden_apply _ _ _ _ _ n q).trans ?_
  exact congrArg (fun g : Fin 256 → EReal => Cert.Spec.hidden g q) (funext fun j => gates1_eq V0 n j)

end Cert.ReferenceIdeal.RefHead

end
-- ==== Proof.RefTail.lean ====
/- The reference program's tail read at an index: from the second recurrent step to the result, the first step's hidden
   row taken as a given buffer.

   The second step multiplies the first hidden row by the transposed gate weights (the program transposes the weight array,
   then contracts the row's 64 entries with the transposed array's rows), adds the two bias rows in the program's order,
   and cuts the 256 gate pre-activations into four 64-wide bands, of which it uses the input gate, the cell candidate and the
   output gate: the hidden entry is sigmoid(o) · tanh(sigmoid(i) · tanh(ĉ)), the sigmoid spelled 1 / (1 + exp(−·)), which at
   the ideal values is the logistic function by definition. The two hidden rows and the node's input features are laid side
   by side, clipped below at zero by a module-local function, multiplied by the read-out weights and shifted by the read-out
   bias: the specification's readout of the specification's join3. -/
import proofs.«181908_j1778116460896_2_alg».proof.Proof.RefStages1
import proofs.«181908_j1778116460896_2_alg».proof.Proof.SpecHead
import proofs.«181908_j1778116460896_2_alg».proof.Proof.RefHeadR

noncomputable section

open scoped BigOperators

namespace Cert.ReferenceIdeal.RefTail

open Cert.ReferenceIdeal Cert.ReferenceIdeal.Gen Cert.ReferenceIdeal.RefRun Cert.ReferenceIdeal.RefStages
open Idealize.ShloMosaic Idealize.ShloMosaic.TcCoe
open Idealize.ShloMosaic.StableHlo Idealize.ShloMosaic.ValueIdx Cert.ReadBack

/-! ## Pointwise operations read at an index -/

theorem hnegf_apply {s : Shape} {φ : FTy} (x : FVec Ideal s φ) (i : s.Idx) : Host.negf x i = FloatOps.hostNegf (x i) := rfl
theorem hexp_apply {s : Shape} {φ : FTy} (x : FVec Ideal s φ) (i : s.Idx) : Host.exp x i = FloatOps.hostUnary .exp (x i) := rfl
theorem htanh_apply {s : Shape} {φ : FTy} (x : FVec Ideal s φ) (i : s.Idx) : Host.tanh x i = Ideal.tanh (x i) := rfl

/-- The program's spelling of the sigmoid is the logistic function. -/
theorem sigmoid_eq (x : EReal) :
    Ideal.div (1 : EReal) ((1 : EReal) + FloatOps.hostUnary (F := Ideal) (φ := .f32) .exp (FloatOps.hostNegf (F := Ideal) (φ := .f32) x))
      = Ideal.logistic x := rfl

variable (V0 : Valuation τ sig (Elt Ideal))

/-! Notation: R[b] is the contents of buffer b after the whole program run from the contents V0. -/
set_option quotPrecheck false in
local notation "R[" b "]" => after (ops (F := Ideal)) V0 (Proc.devRef (τ := τ) Proc.tc b)

/-- The first recurrent step's hidden rows (a given buffer here), the second step's gate weights and bias rows, and the
    read-out's weights and bias: arguments of the program as V0 holds them. -/
abbrev HH1 : Fin 100000 → Fin 64 → EReal := fun n q => R[main_v137] (ix2 n q)
abbrev Wih2 : S256x64.Idx → EReal := V0 (Proc.devRef .tc main_arg15)
abbrev bih2 : S256.Idx → EReal := V0 (Proc.devRef .tc main_arg17)
abbrev bhh2 : S256.Idx → EReal := V0 (Proc.devRef .tc main_arg18)
abbrev Wl : S143x14.Idx → EReal := V0 (Proc.devRef .tc main_arg19)
abbrev bl : S14.Idx → EReal := V0 (Proc.devRef .tc main_arg20)

/-! ## The second step's gate pre-activations -/

set_option maxRecDepth 8192 in
/-- The gate weights transposed: entry (k, j) of the transposed array is entry (j, k) of the weights. -/
theorem wt2_at (k : Fin 64) (j : Fin 256) : R[main_v138] (ix2 k j) = Wih2 V0 (ix2 j k) := by
  refine (congrFun (RefHead.R_main_v138 V0) _).trans ?_
  refine (transpose_apply _ _ _ (ix2 k j) (ix2 j k) (fun b => by
    match b with
    | ⟨0, _⟩ => rfl
    | ⟨1, _⟩ => rfl)).trans ?_
  exact congrFun (after_keep ops_writes V0 (by decide)) _

/-- The contraction record of the second step's product: the hidden row's 64 entries against the transposed weights' rows. -/
abbrev D3 := dot_S100000x64_S64x256_S100000x256_1_0_0_1_n_n

theorem D3_lhs_row (j : S100000x256.Idx) (k : D3.contr.Idx) : (D3.lhsIdx j k 0).val = (j 0).val := by
  unfold DotDims.lhsIdx
  rw [dif_neg (show ¬(0 : Fin S100000x64.rank) ∈ D3.lhsBatch by decide),
    dif_pos (show (0 : Fin S100000x64.rank) ∈ D3.lhsNonContracting by decide)]
  rfl
theorem D3_lhs_feat (j : S100000x256.Idx) (k : D3.contr.Idx) : (D3.lhsIdx j k 1).val = (k ⟨0, by decide⟩).val :=
  D3.lhsIdx_val_of_single rfl j k
theorem D3_rhs_feat (j : S100000x256.Idx) (k : D3.contr.Idx) : (D3.rhsIdx j k 0).val = (k ⟨0, by decide⟩).val :=
  D3.rhsIdx_val_of_single rfl j k
theorem D3_rhs_col (j : S100000x256.Idx) (k : D3.contr.Idx) : (D3.rhsIdx j k 1).val = (j 1).val := by
  unfold DotDims.rhsIdx
  rw [dif_neg (show ¬(1 : Fin S64x256.rank) ∈ D3.rhsBatch by decide),
    dif_pos (show (1 : Fin S64x256.rank) ∈ D3.rhsNonContracting by decide)]
  rfl

set_option maxRecDepth 8192 in
/-- The hidden row times the transposed gate weights. -/
theorem v139_at (n : Fin 100000) (j : Fin 256) :
    R[main_v139] (ix2 n j) = ∑ k : Fin 64, HH1 V0 n k * Wih2 V0 (ix2 j k) := by
  refine (congrFun (RefHead.R_main_v139 V0) _).trans ?_
  refine (Ideal.dotGeneral_apply D3 none _ _ _ (ix2 n j)).trans ?_
  refine (Equiv.sum_comp (contrEquiv1 D3 64 rfl rfl).symm _).symm.trans ?_
  refine Finset.sum_congr rfl fun k _ => ?_
  have hk := contrEquiv1_symm_val D3 64 rfl rfl k
  have el : D3.lhsIdx (ix2 n j) ((contrEquiv1 D3 64 rfl rfl).symm k) = ix2 n k := funext fun a => Fin.ext (by
    match a with
    | ⟨0, _⟩ => exact D3_lhs_row _ _
    | ⟨1, _⟩ => exact (D3_lhs_feat _ _).trans hk)
  have er : D3.rhsIdx (ix2 n j) ((contrEquiv1 D3 64 rfl rfl).symm k) = ix2 k j := funext fun a => Fin.ext (by
    match a with
    | ⟨0, _⟩ => exact (D3_rhs_feat _ _).trans hk
    | ⟨1, _⟩ => exact D3_rhs_col _ _)
  rw [el, er]
  exact congrArg (fun b : EReal => HH1 V0 n k * b) (wt2_at V0 k j)

set_option maxRecDepth 8192 in
theorem v140_at (j : Fin 256) : R[main_v140] (ix2 (0 : Fin 1) j) = bih2 V0 (ix1 j) := by
  refine (congrFun (RefHead.R_main_v140 V0) _).trans ?_
  refine (broadcastInDim_apply _ _ _ _ (ix1 j) (fun a => by match a with | ⟨0, _⟩ => rfl)).trans ?_
  exact congrFun (after_keep ops_writes V0 (by decide)) _

set_option maxRecDepth 8192 in
theorem v141_at (n : Fin 100000) (j : Fin 256) : R[main_v141] (ix2 n j) = bih2 V0 (ix1 j) := by
  refine (congrFun (RefHead.R_main_v141 V0) _).trans ?_
  refine (broadcastInDim_apply _ _ _ _ (ix2 (0 : Fin 1) j) (fun a => by
    match a with
    | ⟨0, _⟩ => rfl
    | ⟨1, _⟩ => rfl)).trans ?_
  exact v140_at V0 j

set_option maxRecDepth 8192 in
theorem v142_at (n : Fin 100000) (j : Fin 256) :
    R[main_v142] (ix2 n j) = (∑ k : Fin 64, HH1 V0 n k * Wih2 V0 (ix2 j k)) + bih2 V0 (ix1 j) := by
  refine (congrFun (RefHead.R_main_v142 V0) _).trans ?_
  refine (addf_apply _ _ _).trans ?_
  exact congrArg₂ (fun u v : EReal => u + v) (v139_at V0 n j) (v141_at V0 n j)

set_option maxRecDepth 8192 in
theorem v143_at (j : Fin 256) : R[main_v143] (ix2 (0 : Fin 1) j) = bhh2 V0 (ix1 j) := by
  refine (congrFun (RefHead.R_main_v143 V0) _).trans ?_
  refine (broadcastInDim_apply _ _ _ _ (ix1 j) (fun a => by match a with | ⟨0, _⟩ => rfl)).trans ?_
  exact congrFun (after_keep ops_writes V0 (by decide)) _

set_option maxRecDepth 8192 in
theorem v144_at (n : Fin 100000) (j : Fin 256) : R[main_v144] (ix2 n j) = bhh2 V0 (ix1 j) := by
  refine (congrFun (RefHead.R_main_v144 V0) _).trans ?_
  refine (broadcastInDim_apply _ _ _ _ (ix2 (0 : Fin 1) j) (fun a => by
    match a with
    | ⟨0, _⟩ => rfl
    | ⟨1, _⟩ => rfl)).trans ?_
  exact v143_at V0 j

/-- The second step's 256 gate pre-activations of node n, in the specification's form. -/
abbrev G2 (n : Fin 100000) : Fin 256 → EReal :=
  Spec.gates (fun q => HH1 V0 n q) (fun k j => Wih2 V0 (ix2 j k)) (fun j => bih2 V0 (ix1 j)) (fun j => bhh2 V0 (ix1 j))

set_option maxRecDepth 8192 in
theorem gates2_eq (n : Fin 100000) (j : Fin 256) : R[main_v145] (ix2 n j) = G2 V0 n j := by
  refine (congrFun (RefHead.R_main_v145 V0) _).trans ?_
  refine (addf_apply _ _ _).trans ?_
  exact congrArg₂ (fun u v : EReal => u + v) (v142_at V0 n j) (v144_at V0 n j)

/-! ## The second hidden row -/

set_option maxRecDepth 8192 in
/-- The program's sigmoid of an array, read at an index: with the two arrays of ones reading 1 there. -/
theorem sigmoid_apply {s : Shape} (x one one' : FVec Ideal s .f32) (i : s.Idx) (h1 : one i = (1 : EReal)) (h1' : one' i = (1 : EReal)) :
    Host.divf one' (addf one (Host.exp (Host.negf x))) i = Ideal.logistic (x i) := by
  refine (hdivf_apply _ _ _).trans ?_
  refine (congrArg₂ Ideal.div h1' ((addf_apply _ _ _).trans (congrArg₂ (fun u v : EReal => u + v) h1
    ((hexp_apply _ _).trans (congrArg (FloatOps.hostUnary (F := Ideal) (φ := .f32) .exp) (hnegf_apply _ _)))))).trans ?_
  exact sigmoid_eq (x i)

set_option maxRecDepth 8192 in
/-- An array of ones: the broadcast of the constant 1.0. -/
theorem ones_apply (c : FVec Ideal S_ .f32) (hc : c = constant S_ .f32 0x3F800000#32) (n : Fin 100000) (q : Fin 64) :
    broadcastInDim S100000x64 ![] bcast_S_S100000x64 c (ix2 n q) = (1 : EReal) := by
  refine (broadcastInDim_apply _ _ _ _ ix0 (fun a => a.elim0)).trans ?_
  rw [hc]
  exact ofBits_one_f32

set_option maxRecDepth 8192 in
theorem band0_at (n : Fin 100000) (q : Fin 64) : R[main_v146] (ix2 n q) = G2 V0 n ⟨q.val, by omega⟩ := by
  refine (congrFun (RefHead.R_main_v146 V0) _).trans ?_
  refine (extractStridedSlice_apply _ _ _ (ix2 n q) (ix2 n ⟨q.val, by omega⟩) (fun a => by
    match a with
    | ⟨0, _⟩ => exact (Nat.zero_add _).symm
    | ⟨1, _⟩ => exact (Nat.zero_add _).symm)).trans ?_
  exact gates2_eq V0 n _

set_option maxRecDepth 8192 in
theorem band128_at (n : Fin 100000) (q : Fin 64) : R[main_v148] (ix2 n q) = G2 V0 n ⟨128 + q.val, by omega⟩ := by
  refine (congrFun (RefHead.R_main_v148 V0) _).trans ?_
  refine (slice2_axis1_apply 128 _ _ n q ⟨128 + q.val, by omega⟩ rfl).trans ?_
  exact gates2_eq V0 n _

set_option maxRecDepth 8192 in
theorem band192_at (n : Fin 100000) (q : Fin 64) : R[main_v149] (ix2 n q) = G2 V0 n ⟨192 + q.val, by omega⟩ := by
  refine (congrFun (RefHead.R_main_v149 V0) _).trans ?_
  refine (slice2_axis1_apply 192 _ _ n q ⟨192 + q.val, by omega⟩ rfl).trans ?_
  exact gates2_eq V0 n _

set_option maxRecDepth 8192 in
/-- The input gate: the sigmoid of the first band. -/
theorem igate_at (n : Fin 100000) (q : Fin 64) : R[main_v155] (ix2 n q) = Ideal.logistic (G2 V0 n ⟨q.val, by omega⟩) := by
  have h : R[main_v155] = Host.divf (F := Ideal) (s := S100000x64) (φ := .f32) R[main_v154]
      (addf (F := Ideal) (s := S100000x64) (φ := .f32) R[main_v152] (Host.exp (Host.negf R[main_v146]))) := by
    rw [RefHead.R_main_v155 V0, RefHead.R_main_v153 V0, RefHead.R_main_v151 V0, RefHead.R_main_v150 V0]
  refine (congrFun h _).trans ?_
  refine (sigmoid_apply _ _ _ _ ?_ ?_).trans (congrArg Ideal.logistic (band0_at V0 n q))
  · exact (congrFun (RefHead.R_main_v152 V0) _).trans (ones_apply _ (RefHead.R_main_cst_22 V0) n q)
  · exact (congrFun (RefHead.R_main_v154 V0) _).trans (ones_apply _ (RefHead.R_main_cst_23 V0) n q)

set_option maxRecDepth 8192 in
/-- The cell: the input gate times the hyperbolic tangent of the candidate band. -/
theorem cell_at (n : Fin 100000) (q : Fin 64) :
    R[main_v157] (ix2 n q)
      = Ideal.logistic (G2 V0 n ⟨q.val, by omega⟩) * Ideal.tanh (G2 V0 n ⟨128 + q.val, by omega⟩) := by
  refine (congrFun (RefHead.R_main_v157 V0) _).trans ?_
  refine (mulf_apply _ _ _).trans ?_
  refine congrArg₂ (fun u v : EReal => u * v) (igate_at V0 n q) ?_
  refine (congrFun (RefHead.R_main_v156 V0) _).trans ?_
  exact (htanh_apply _ _).trans (congrArg Ideal.tanh (band128_at V0 n q))

set_option maxRecDepth 8192 in
/-- The output gate: the sigmoid of the fourth band. -/
theorem ogate_at (n : Fin 100000) (q : Fin 64) : R[main_v163] (ix2 n q) = Ideal.logistic (G2 V0 n ⟨192 + q.val, by omega⟩) := by
  have h : R[main_v163] = Host.divf (F := Ideal) (s := S100000x64) (φ := .f32) R[main_v162]
      (addf (F := Ideal) (s := S100000x64) (φ := .f32) R[main_v160] (Host.exp (Host.negf R[main_v149]))) := by
    rw [RefHead.R_main_v163 V0, RefHead.R_main_v161 V0, RefHead.R_main_v159 V0, RefHead.R_main_v158 V0]
  refine (congrFun h _).trans ?_
  refine (sigmoid_apply _ _ _ _ ?_ ?_).trans (congrArg Ideal.logistic (band192_at V0 n q))
  · exact (congrFun (RefHead.R_main_v160 V0) _).trans (ones_apply _ (RefHead.R_main_cst_24 V0) n q)
  · exact (congrFun (RefHead.R_main_v162 V0) _).trans (ones_apply _ (RefHead.R_main_cst_25 V0) n q)

set_option maxRecDepth 8192 in
/-- The second hidden row: the output gate times the hyperbolic tangent of the cell. -/
theorem hh2_eq (n : Fin 100000) (q : Fin 64) : R[main_v165] (ix2 n q) = Spec.hidden (G2 V0 n) q := by
  refine (congrFun (RefHead.R_main_v165 V0) _).trans ?_
  refine (mulf_apply _ _ _).trans ?_
  refine congrArg₂ (fun u v : EReal => u * v) (ogate_at V0 n q) ?_
  refine (congrFun (RefHead.R_main_v164 V0) _).trans ?_
  exact (htanh_apply _ _).trans (congrArg Ideal.tanh (cell_at V0 n q))

/-! ## The feature row, its clip, and the read-out -/

set_option maxRecDepth 8192 in
/-- Two 64-wide arrays and a 15-wide array side by side, at node p, column k. -/
theorem join3_apply (u v : FVec Ideal S100000x64 .f32) (x : FVec Ideal S100000x15 .f32) (p : Fin 100000) (k : Fin 143) :
    concatenate S100000x143 1 [⟨S100000x64, u⟩, ⟨S100000x64, v⟩, ⟨S100000x15, x⟩]
        concatenates_S100000x64_S100000x64_S100000x15_S100000x143_d1 (ix2 p k)
      = Spec.join3 (fun q => u (ix2 p q)) (fun q => v (ix2 p q)) (fun q => x (ix2 p q)) k := by
  unfold Spec.join3
  by_cases h : k.val < 64
  · rw [dif_pos h]
    exact concatenate_apply_piece 1 _ _ (ix2 p k) 0 (by simp) S100000x64 u rfl rfl 0 rfl (ix2 p ⟨k.val, h⟩) (fun b hb => by
      match b with
      | ⟨0, _⟩ => rfl
      | ⟨1, _⟩ => exact absurd rfl hb) (by show 0 + k.val = k.val; omega)
  · rw [dif_neg h]
    by_cases h2 : k.val < 128
    · rw [dif_pos h2]
      exact concatenate_apply_piece 1 _ _ (ix2 p k) 1 (by simp) S100000x64 v rfl rfl 64 rfl (ix2 p ⟨k.val - 64, by omega⟩) (fun b hb => by
        match b with
        | ⟨0, _⟩ => rfl
        | ⟨1, _⟩ => exact absurd rfl hb) (by show 64 + (k.val - 64) = k.val; omega)
    · rw [dif_neg h2]
      have hk : k.val < 143 := k.isLt
      exact concatenate_apply_piece 1 _ _ (ix2 p k) 2 (by simp) S100000x15 x rfl rfl 128 rfl (ix2 p ⟨k.val - 128, by omega⟩) (fun b hb => by
        match b with
        | ⟨0, _⟩ => rfl
        | ⟨1, _⟩ => exact absurd rfl hb) (by show 128 + (k.val - 128) = k.val; omega)

/-- Node n's 143-wide feature row in the specification's form: the two hidden rows and the input features. -/
abbrev feats (n : Fin 100000) : Fin 143 → EReal :=
  Spec.join3 (fun q => HH1 V0 n q) (Spec.hidden (G2 V0 n)) (fun k => xin V0 (ix2 n k))

set_option maxRecDepth 8192 in
theorem feats_at (n : Fin 100000) (k : Fin 143) : R[main_v166] (ix2 n k) = feats V0 n k := by
  refine (congrFun (RefHead.R_main_v166 V0) _).trans ?_
  refine (join3_apply _ _ _ n k).trans ?_
  have hB : (fun q => R[main_v165] (ix2 n q)) = Spec.hidden (G2 V0 n) := funext fun q => hh2_eq V0 n q
  have hX : (fun q => R[main_arg0] (ix2 n q)) = fun q => xin V0 (ix2 n q) :=
    funext fun q => congrFun (after_keep ops_writes V0 (by decide)) _
  exact congrArg₂ (fun (B : Fin 64 → EReal) (X : Fin 15 → EReal) => Spec.join3 (fun q => HH1 V0 n q) B X k) hB hX

set_option maxRecDepth 8192 in
/-- The rectified feature row (the rectifier is a module-local function: a zero array and a maximum). -/
theorem relu_at (n : Fin 100000) (k : Fin 143) : R[main_v167] (ix2 n k) = max (feats V0 n k) 0 := by
  refine (congrFun (RefHead.R_main_v167 V0) _).trans ?_
  refine (maximumf_apply _ _ _).trans ?_
  refine congrArg₂ (fun u v : EReal => max u v) (feats_at V0 n k) ?_
  refine (congrFun (RefHead.R_main_call4_v0 V0) _).trans ?_
  refine (broadcastInDim_apply _ _ _ _ ix0 (fun a => a.elim0)).trans ?_
  refine (congrFun (RefHead.R_main_call4_cst V0) _).trans ?_
  exact Ideal.ofBits_zero_f32

/-- The contraction record of the read-out: the 143 features against the read-out weights' rows. -/
abbrev D4 := dot_S100000x143_S143x14_S100000x14_1_0_0_1_n_n

set_option maxRecDepth 8192 in
theorem D4_lhs_row (j : S100000x14.Idx) (k : D4.contr.Idx) : (D4.lhsIdx j k 0).val = (j 0).val := by
  unfold DotDims.lhsIdx
  rw [dif_neg (show ¬(0 : Fin S100000x143.rank) ∈ D4.lhsBatch by decide),
    dif_pos (show (0 : Fin S100000x143.rank) ∈ D4.lhsNonContracting by decide)]
  rfl
set_option maxRecDepth 8192 in
theorem D4_lhs_feat (j : S100000x14.Idx) (k : D4.contr.Idx) : (D4.lhsIdx j k 1).val = (k ⟨0, by decide⟩).val :=
  D4.lhsIdx_val_of_single rfl j k
set_option maxRecDepth 8192 in
theorem D4_rhs_feat (j : S100000x14.Idx) (k : D4.contr.Idx) : (D4.rhsIdx j k 0).val = (k ⟨0, by decide⟩).val :=
  D4.rhsIdx_val_of_single rfl j k
set_option maxRecDepth 8192 in
theorem D4_rhs_col (j : S100000x14.Idx) (k : D4.contr.Idx) : (D4.rhsIdx j k 1).val = (j 1).val := by
  unfold DotDims.rhsIdx
  rw [dif_neg (show ¬(1 : Fin S143x14.rank) ∈ D4.rhsBatch by decide),
    dif_pos (show (1 : Fin S143x14.rank) ∈ D4.rhsNonContracting by decide)]
  rfl

set_option maxRecDepth 8192 in
/-- The rectified features times the read-out weights. -/
theorem v168_at (n : Fin 100000) (o : Fin 14) :
    R[main_v168] (ix2 n o) = ∑ k : Fin 143, max (feats V0 n k) 0 * Wl V0 (ix2 k o) := by
  refine (congrFun (RefHead.R_main_v168 V0) _).trans ?_
  refine (Ideal.dotGeneral_apply D4 none _ _ _ (ix2 n o)).trans ?_
  refine (Equiv.sum_comp (contrEquiv1 D4 143 rfl rfl).symm _).symm.trans ?_
  refine Finset.sum_congr rfl fun k _ => ?_
  have hk := contrEquiv1_symm_val D4 143 rfl rfl k
  have el : D4.lhsIdx (ix2 n o) ((contrEquiv1 D4 143 rfl rfl).symm k) = ix2 n k := funext fun a => Fin.ext (by
    match a with
    | ⟨0, _⟩ => exact D4_lhs_row _ _
    | ⟨1, _⟩ => exact (D4_lhs_feat _ _).trans hk)
  have er : D4.rhsIdx (ix2 n o) ((contrEquiv1 D4 143 rfl rfl).symm k) = ix2 k o := funext fun a => Fin.ext (by
    match a with
    | ⟨0, _⟩ => exact (D4_rhs_feat _ _).trans hk
    | ⟨1, _⟩ => exact D4_rhs_col _ _)
  rw [el, er]
  exact congrArg₂ (fun u v : EReal => u * v) (relu_at V0 n k) (congrFun (after_keep ops_writes V0 (by decide)) _)

set_option maxRecDepth 8192 in
theorem v169_at (o : Fin 14) : R[main_v169] (ix2 (0 : Fin 1) o) = bl V0 (ix1 o) := by
  refine (congrFun (RefHead.R_main_v169 V0) _).trans ?_
  refine (broadcastInDim_apply _ _ _ _ (ix1 o) (fun a => by match a with | ⟨0, _⟩ => rfl)).trans ?_
  exact congrFun (after_keep ops_writes V0 (by decide)) _

set_option maxRecDepth 8192 in
theorem v170_at (n : Fin 100000) (o : Fin 14) : R[main_v170] (ix2 n o) = bl V0 (ix1 o) := by
  refine (congrFun (RefHead.R_main_v170 V0) _).trans ?_
  refine (broadcastInDim_apply _ _ _ _ (ix2 (0 : Fin 1) o) (fun a => by
    match a with
    | ⟨0, _⟩ => rfl
    | ⟨1, _⟩ => rfl)).trans ?_
  exact v169_at V0 o

set_option maxRecDepth 8192 in
/-- THE TAIL: the program's result at node n, output o, from the first step's hidden row. -/
theorem tail_eq (n : Fin 100000) (o : Fin 14) :
    @Eq EReal (R[main_v171] (ix2 n o))
      (Spec.readout
        (Spec.join3 (fun q => R[main_v137] (ix2 n q))
          (Spec.hidden (Spec.gates (fun q => R[main_v137] (ix2 n q)) (fun k j => Wih2 V0 (ix2 j k)) (fun j => bih2 V0 (ix1 j))
            (fun j => bhh2 V0 (ix1 j))))
          (fun k => xin V0 (ix2 n k)))
        (fun k o => Wl V0 (ix2 k o)) (fun o => bl V0 (ix1 o)) o) := by
  refine (congrFun (RefHead.R_main_v171 V0) _).trans ?_
  refine (addf_apply _ _ _).trans ?_
  exact congrArg₂ (fun u v : EReal => u + v) (v168_at V0 n o) (v170_at V0 n o)

end Cert.ReferenceIdeal.RefTail

end
-- ==== Proof.RefFinal.lean ====
/-
  The reference program's result as a function of its arguments: the network's output in the
  multiply-then-aggregate, one-pass spelling.
-/
import proofs.«181908_j1778116460896_2_alg».proof.Proof.RefRunB
import proofs.«181908_j1778116460896_2_alg».proof.Proof.SpecNet
import proofs.«181908_j1778116460896_2_alg».proof.Proof.RefCompose
import proofs.«181908_j1778116460896_2_alg».proof.Proof.RefHead
import proofs.«181908_j1778116460896_2_alg».proof.Proof.RefTail

set_option maxRecDepth 16384

noncomputable section

namespace Cert.ReferenceIdeal.RefFinal

open Idealize.ShloMosaic Idealize.ShloMosaic.TcCoe Idealize.ShloMosaic.ValueIdx Idealize.SL.Sem Idealize.ShloMosaic.StableHlo
open Cert.ReferenceIdeal Cert.ReferenceIdeal.RefRun

variable (V0 : Valuation τ sig (Elt Ideal))

/-- THE REFERENCE PROGRAM'S RESULT at node `n`, output `o`: the network's output, the features multiplied first, the
    column sums taken at once, the variances as mean squared deviations — the two halves of the head, read at an index,
    put on top of the two layers in the specification's names. -/
theorem out_eq (n : Fin 100000) (o : Fin 14) :
    @Eq EReal ((after (ops (F := Ideal)) V0 (Proc.devRef .tc main_v171) : S100000x14.Idx → EReal) (ix2 n o))
      (Cert.Spec.net (V0 (Proc.devRef .tc main_arg1)) (V0 (Proc.devRef .tc main_arg2)) (V0 (Proc.devRef .tc main_arg0))
        (Cert.Spec.a1R (V0 (Proc.devRef .tc main_arg1)) (V0 (Proc.devRef .tc main_arg2)) (V0 (Proc.devRef .tc main_arg0)) (V0 (Proc.devRef .tc main_arg3)) (V0 (Proc.devRef .tc main_arg4)))
        Cert.Spec.meanR Cert.Spec.varR (V0 (Proc.devRef .tc main_arg7)) (V0 (Proc.devRef .tc main_arg8)) (V0 (Proc.devRef .tc main_arg5)) (V0 (Proc.devRef .tc main_arg6))
        (V0 (Proc.devRef .tc main_arg9)) (V0 (Proc.devRef .tc main_arg10)) (V0 (Proc.devRef .tc main_arg11)) (V0 (Proc.devRef .tc main_arg13)) (V0 (Proc.devRef .tc main_arg14))
        (V0 (Proc.devRef .tc main_arg15)) (V0 (Proc.devRef .tc main_arg17)) (V0 (Proc.devRef .tc main_arg18)) (V0 (Proc.devRef .tc main_arg19)) (V0 (Proc.devRef .tc main_arg20)) n o) :=
  out_of V0 (Cert.ReferenceIdeal.RefHead.hh1_eq V0) (Cert.ReferenceIdeal.RefTail.tail_eq V0) n o

end Cert.ReferenceIdeal.RefFinal

end
-- ==== Proof.LibRealSums.lean ====
/-
  General algebra of finite sums of real numbers read inside the extended reals.

  At the ideal instance a float is an extended real, and the ring laws that join a program which aggregates
  first and multiplies afterwards to one which multiplies first (distributivity, exchange of two finite sums,
  cancellation in a mean) fail at the two infinities. Every law here is therefore stated for entries that are
  coercions of real numbers: it is proved in the reals and the coercion is pushed through sums, products and
  differences.
-/
import Mathlib
import Idealize.ShloMosaic.PureOps.Ideal
import Idealize.ShloMosaic.PureOps.Ideal.Laws

noncomputable section

open scoped BigOperators
open Idealize.ShloMosaic

namespace LibRealSums

/-! ## 1. The coercion commutes with finite sums -/

/-- The coercion of the reals into the extended reals commutes with a finite sum:
    the coercion of `∑ i ∈ s, f i` is `∑ i ∈ s` of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same over a whole finite index type. -/
theorem coe_sum_univ {ι : Type*} [Fintype ι] (f : ι → ℝ) :
    ((∑ i, f i : ℝ) : EReal) = ∑ i, (f i : EReal) :=
  coe_sum Finset.univ f

/-! ## 3. Regrouping a sum over `m * n` indices into `m` tiles of `n` -/

/-- A sum over `Fin N` with `N = m * n` is the sum over the `m` tiles of the sums over the `n` positions of a
    tile, the index of position `r` of tile `t` being `t * n + r`. -/
theorem sum_tiles {M : Type*} [AddCommMonoid M] {m n N : ℕ} (h : m * n = N) (f : Fin N → M) :
    ∑ t : Fin m, ∑ r : Fin n,
        f ⟨t.val * n + r.val, by
          have := t.isLt; have := r.isLt
          calc t.val * n + r.val < t.val * n + n := by omega
            _ = (t.val + 1) * n := by ring
            _ ≤ m * n := Nat.mul_le_mul_right _ (by omega)
            _ = N := h⟩
      = ∑ i : Fin N, f i := by
  subst h
  rw [← (finProdFinEquiv (m := m) (n := n)).sum_comp f, Fintype.sum_prod_type]
  refine Finset.sum_congr rfl fun t _ => Finset.sum_congr rfl fun r _ => congrArg f (Fin.ext ?_)
  simp only [finProdFinEquiv, Equiv.coe_fn_mk]
  ring

/-- `100000 = 25 * 4000`: a sum over 100000 indices is the sum over 25 tiles of 4000. -/
theorem sum_tiles_25_4000 {M : Type*} [AddCommMonoid M] (f : Fin 100000 → M) :
    ∑ t : Fin 25, ∑ r : Fin 4000, f ⟨t.val * 4000 + r.val, by omega⟩ = ∑ i : Fin 100000, f i :=
  sum_tiles (m := 25) (n := 4000) (N := 100000) (by norm_num) f

/-- `100000 = 50 * 2000`: a sum over 100000 indices is the sum over 50 tiles of 2000. -/
theorem sum_tiles_50_2000 {M : Type*} [AddCommMonoid M] (f : Fin 100000 → M) :
    ∑ t : Fin 50, ∑ r : Fin 2000, f ⟨t.val * 2000 + r.val, by omega⟩ = ∑ i : Fin 100000, f i :=
  sum_tiles (m := 50) (n := 2000) (N := 100000) (by norm_num) f

/-! ## 5. Aggregate, then multiply by the weight = multiply by the weight, then aggregate -/

/-- In the reals: the weighted sum over `k` of an aggregate `∑ e ∈ S, nrm e * g e k + d * y k` is the aggregate
    of the weighted sums: distributivity and the exchange of the two finite sums. -/
theorem real_aggregate_mul {E K : Type*} [Fintype K] (S : Finset E) (nrm : E → ℝ) (g : E → K → ℝ) (d : ℝ)
    (y W : K → ℝ) :
    ∑ k, ((∑ e ∈ S, nrm e * g e k) + d * y k) * W k
      = (∑ e ∈ S, nrm e * ∑ k, g e k * W k) + d * ∑ k, y k * W k := by
  simp only [add_mul, Finset.sum_add_distrib, Finset.sum_mul, Finset.mul_sum, mul_assoc]
  rw [Finset.sum_comm]

/-- In the extended reals, for real entries: a row that is first aggregated over the edges `e ∈ S` landing on it
    (each scaled by `nrm e`), has `d` times its own entry added, and is then contracted with the weight `W`, equals
    the row whose edge features and own entry are contracted with `W` first and aggregated afterwards. The leading
    `0 +` on both sides is the zero the scatter-add starts from. -/
theorem aggregate_mul {E K : Type*} [Fintype K] (S : Finset E) (nrm : E → ℝ) (g : E → K → ℝ) (d : ℝ)
    (y W : K → ℝ) :
    ∑ k, (((0 : EReal) + ∑ e ∈ S, (nrm e : EReal) * (g e k : EReal)) + (d : EReal) * (y k : EReal)) * (W k : EReal)
      = ((0 : EReal) + ∑ e ∈ S, (nrm e : EReal) * ∑ k, (g e k : EReal) * (W k : EReal))
          + (d : EReal) * ∑ k, (y k : EReal) * (W k : EReal) := by
  simp only [zero_add, ← EReal.coe_mul, ← coe_sum, ← EReal.coe_add]
  rw [real_aggregate_mul]

/-- The same with the edges selected by a decidable predicate: the sums over `Finset.univ.filter p`. -/
theorem aggregate_mul_filter {E K : Type*} [Fintype E] [Fintype K] (p : E → Prop) [DecidablePred p]
    (nrm : E → ℝ) (g : E → K → ℝ) (d : ℝ) (y W : K → ℝ) :
    ∑ k, (((0 : EReal) + ∑ e ∈ Finset.univ.filter p, (nrm e : EReal) * (g e k : EReal))
            + (d : EReal) * (y k : EReal)) * (W k : EReal)
      = ((0 : EReal) + ∑ e ∈ Finset.univ.filter p, (nrm e : EReal) * ∑ k, (g e k : EReal) * (W k : EReal))
          + (d : EReal) * ∑ k, (y k : EReal) * (W k : EReal) :=
  aggregate_mul (Finset.univ.filter p) nrm g d y W

/-- The aggregate without the self term: contraction with the weight commutes with the scaled aggregation. -/
theorem aggregate_mul_noself {E K : Type*} [Fintype K] (S : Finset E) (nrm : E → ℝ) (g : E → K → ℝ)
    (W : K → ℝ) :
    ∑ k, ((0 : EReal) + ∑ e ∈ S, (nrm e : EReal) * (g e k : EReal)) * (W k : EReal)
      = (0 : EReal) + ∑ e ∈ S, (nrm e : EReal) * ∑ k, (g e k : EReal) * (W k : EReal) := by
  simp only [zero_add, ← EReal.coe_mul, ← coe_sum]
  congr 1
  simp only [Finset.sum_mul, Finset.mul_sum, mul_assoc]
  rw [Finset.sum_comm]

/-! ## 4. The variance: mean of the squares minus the squared mean = mean of the squared deviations -/

/-- The quotient of a real by a nonzero real, taken in the extended reals, is the coercion of the real quotient. -/
theorem div_coe_coe (x : ℝ) {n : ℝ} (hn : n ≠ 0) :
    Ideal.div (x : EReal) (n : EReal) = ((x / n : ℝ) : EReal) := by
  rw [Ideal.div_coe hn, ← EReal.coe_mul, mul_one_div]

/-- In the reals, over `n ≠ 0` entries with mean `m = (∑ a) / n`:
    `(∑ a²) / n - m² = (∑ (a - m)²) / n`, since `∑ (a - m)² = ∑ a² - 2 m ∑ a + n m²` and `∑ a = n m`. -/
theorem real_variance {ι : Type*} [Fintype ι] (a : ι → ℝ) {n : ℝ} (hcard : (Fintype.card ι : ℝ) = n)
    (hn : n ≠ 0) :
    (∑ i, a i * a i) / n - (∑ i, a i) / n * ((∑ i, a i) / n)
      = (∑ i, (a i - (∑ j, a j) / n) * (a i - (∑ j, a j) / n)) / n := by
  have key : ∀ m : ℝ, ∑ i, (a i - m) * (a i - m) = (∑ i, a i * a i) - 2 * m * (∑ i, a i) + n * (m * m) := by
    intro m
    have h : ∀ i, (a i - m) * (a i - m) = a i * a i - 2 * m * a i + m * m := fun i => by ring
    simp only [h, Finset.sum_add_distrib, Finset.sum_sub_distrib, ← Finset.mul_sum, Finset.sum_const,
      Finset.card_univ, nsmul_eq_mul, hcard]
    ring
  rw [key]
  field_simp
  ring

/-- In the extended reals, for real entries `a i` over an index type of `n ≠ 0` elements, with the mean
    `μ = (∑ a) / n`: the mean of the squares minus the square of the mean is the mean of the squared deviations
    from the mean. (The two-pass and the one-pass formula of a batch variance.) -/
theorem variance {ι : Type*} [Fintype ι] (a : ι → ℝ) {n : ℝ} (hcard : (Fintype.card ι : ℝ) = n) (hn : n ≠ 0) :
    Ideal.div (∑ i, (a i : EReal) * (a i : EReal)) (n : EReal)
        - Ideal.div (∑ i, (a i : EReal)) (n : EReal) * Ideal.div (∑ i, (a i : EReal)) (n : EReal)
      = Ideal.div (∑ i, ((a i : EReal) - Ideal.div (∑ j, (a j : EReal)) (n : EReal))
                        * ((a i : EReal) - Ideal.div (∑ j, (a j : EReal)) (n : EReal))) (n : EReal) := by
  have hμ : Ideal.div (∑ j, (a j : EReal)) (n : EReal) = (((∑ j, a j) / n : ℝ) : EReal) := by
    rw [← coe_sum_univ, div_coe_coe _ hn]
  rw [hμ]
  simp only [← EReal.coe_mul, ← EReal.coe_sub, ← coe_sum_univ, div_coe_coe _ hn]
  rw [real_variance a hcard hn]

/-- The same with the mean named: for `μ` equal to `(∑ a) / n`. -/
theorem variance' {ι : Type*} [Fintype ι] (a : ι → ℝ) {n : ℝ} (hcard : (Fintype.card ι : ℝ) = n) (hn : n ≠ 0)
    (μ : EReal) (hμ : μ = Ideal.div (∑ i, (a i : EReal)) (n : EReal)) :
    Ideal.div (∑ i, (a i : EReal) * (a i : EReal)) (n : EReal) - μ * μ
      = Ideal.div (∑ i, ((a i : EReal) - μ) * ((a i : EReal) - μ)) (n : EReal) := by
  subst hμ
  exact variance a hcard hn

/-- The mean of real entries is real: `(∑ a) / n` in the extended reals is the coercion of the real mean. -/
theorem mean_eq_coe {ι : Type*} [Fintype ι] (a : ι → ℝ) {n : ℝ} (hn : n ≠ 0) :
    Ideal.div (∑ i, (a i : EReal)) (n : EReal) = (((∑ i, a i) / n : ℝ) : EReal) := by
  rw [← coe_sum_univ, div_coe_coe _ hn]

/-- Both forms of the variance of real entries are the coercion of ONE real number `v ≥ 0` (so that adding an
    `ε > 0` gives a real `> 0`): `v` is the real mean of the squared deviations. -/
theorem variance_eq_coe_nonneg {ι : Type*} [Fintype ι] (a : ι → ℝ) {n : ℝ} (hcard : (Fintype.card ι : ℝ) = n)
    (hn : n ≠ 0) :
    ∃ v : ℝ, 0 ≤ v
      ∧ Ideal.div (∑ i, (a i : EReal) * (a i : EReal)) (n : EReal)
          - Ideal.div (∑ i, (a i : EReal)) (n : EReal) * Ideal.div (∑ i, (a i : EReal)) (n : EReal) = (v : EReal)
      ∧ Ideal.div (∑ i, ((a i : EReal) - Ideal.div (∑ j, (a j : EReal)) (n : EReal))
                        * ((a i : EReal) - Ideal.div (∑ j, (a j : EReal)) (n : EReal))) (n : EReal) = (v : EReal) := by
  have hnn : 0 ≤ n := hcard ▸ Nat.cast_nonneg _
  have h2 : Ideal.div (∑ i, ((a i : EReal) - Ideal.div (∑ j, (a j : EReal)) (n : EReal))
                        * ((a i : EReal) - Ideal.div (∑ j, (a j : EReal)) (n : EReal))) (n : EReal)
      = (((∑ i, (a i - (∑ j, a j) / n) * (a i - (∑ j, a j) / n)) / n : ℝ) : EReal) := by
    rw [mean_eq_coe a hn]
    simp only [← EReal.coe_mul, ← EReal.coe_sub, ← coe_sum_univ, div_coe_coe _ hn]
  refine ⟨(∑ i, (a i - (∑ j, a j) / n) * (a i - (∑ j, a j) / n)) / n,
    div_nonneg (Finset.sum_nonneg fun i _ => mul_self_nonneg _) hnn, ?_, h2⟩
  rw [variance a hcard hn, h2]

/-! ## 2. The reals are closed, inside the extended reals, under the operations of a program

  `IsReal x` says that `x` is the coercion of a real number. The arithmetic and lattice operations, finite sums,
  division by a nonzero real, the reciprocal square root of a positive real and the smooth unary functions all
  keep a value real. -/

/-- An extended real is *real* when it is the coercion of a real number, i.e. neither infinity. -/
def IsReal (x : EReal) : Prop := ∃ r : ℝ, x = (r : EReal)

namespace IsReal

/-- The coercion of a real number is real. -/
theorem coe (r : ℝ) : IsReal (r : EReal) := ⟨r, rfl⟩

/-- Zero is real. -/
theorem zero : IsReal (0 : EReal) := ⟨0, rfl⟩

/-- One is real. -/
theorem one : IsReal (1 : EReal) := ⟨1, rfl⟩

/-- A real value is not `⊤`. -/
theorem ne_top {x : EReal} (h : IsReal x) : x ≠ ⊤ := by
  obtain ⟨r, rfl⟩ := h; exact EReal.coe_ne_top r

/-- A real value is not `⊥`. -/
theorem ne_bot {x : EReal} (h : IsReal x) : x ≠ ⊥ := by
  obtain ⟨r, rfl⟩ := h; exact EReal.coe_ne_bot r

/-- An extended real is real exactly when it is neither `⊥` nor `⊤`. -/
theorem iff_ne {x : EReal} : IsReal x ↔ x ≠ ⊥ ∧ x ≠ ⊤ := by
  constructor
  · exact fun h => ⟨h.ne_bot, h.ne_top⟩
  · rintro ⟨hb, ht⟩
    induction x using EReal.rec with
    | bot => exact absurd rfl hb
    | coe r => exact ⟨r, rfl⟩
    | top => exact absurd rfl ht

/-- A real value is the coercion of its real part `x.toReal`. -/
theorem coe_toReal {x : EReal} (h : IsReal x) : ((x.toReal : ℝ) : EReal) = x := by
  obtain ⟨r, rfl⟩ := h; rfl

/-- The sum of two reals is real. -/
protected theorem add {x y : EReal} (hx : IsReal x) (hy : IsReal y) : IsReal (x + y) := by
  obtain ⟨a, rfl⟩ := hx; obtain ⟨b, rfl⟩ := hy; exact ⟨a + b, (EReal.coe_add a b).symm⟩

/-- The negation of a real is real. -/
protected theorem neg {x : EReal} (hx : IsReal x) : IsReal (-x) := by
  obtain ⟨a, rfl⟩ := hx; exact ⟨-a, (EReal.coe_neg a).symm⟩

/-- The difference of two reals is real. -/
protected theorem sub {x y : EReal} (hx : IsReal x) (hy : IsReal y) : IsReal (x - y) := by
  obtain ⟨a, rfl⟩ := hx; obtain ⟨b, rfl⟩ := hy; exact ⟨a - b, (EReal.coe_sub a b).symm⟩

/-- The product of two reals is real. -/
protected theorem mul {x y : EReal} (hx : IsReal x) (hy : IsReal y) : IsReal (x * y) := by
  obtain ⟨a, rfl⟩ := hx; obtain ⟨b, rfl⟩ := hy; exact ⟨a * b, (EReal.coe_mul a b).symm⟩

/-- The coercion commutes with the maximum (it is monotone). -/
theorem coe_max (a b : ℝ) : ((max a b : ℝ) : EReal) = max (a : EReal) (b : EReal) :=
  EReal.coe_strictMono.monotone.map_max

/-- The coercion commutes with the minimum (it is monotone). -/
theorem coe_min (a b : ℝ) : ((min a b : ℝ) : EReal) = min (a : EReal) (b : EReal) :=
  EReal.coe_strictMono.monotone.map_min

/-- The maximum of two reals is real. -/
protected theorem max {x y : EReal} (hx : IsReal x) (hy : IsReal y) : IsReal (max x y) := by
  obtain ⟨a, rfl⟩ := hx; obtain ⟨b, rfl⟩ := hy; exact ⟨Max.max a b, (coe_max a b).symm⟩

/-- The minimum of two reals is real. -/
protected theorem min {x y : EReal} (hx : IsReal x) (hy : IsReal y) : IsReal (min x y) := by
  obtain ⟨a, rfl⟩ := hx; obtain ⟨b, rfl⟩ := hy; exact ⟨Min.min a b, (coe_min a b).symm⟩

/-- A finite sum of reals is real. -/
protected theorem sum {ι : Type*} (s : Finset ι) (f : ι → EReal) (h : ∀ i ∈ s, IsReal (f i)) :
    IsReal (∑ i ∈ s, f i) := by
  classical
  induction s using Finset.induction_on with
  | empty => rw [Finset.sum_empty]; exact zero
  | insert a s ha ih =>
    rw [Finset.sum_insert ha]
    exact (h a (Finset.mem_insert_self a s)).add (ih fun i hi => h i (Finset.mem_insert_of_mem hi))

/-- A sum of reals over a whole finite index type is real. -/
protected theorem sum_univ {ι : Type*} [Fintype ι] (f : ι → EReal) (h : ∀ i, IsReal (f i)) :
    IsReal (∑ i, f i) :=
  IsReal.sum Finset.univ f fun i _ => h i

/-- The quotient of a real by a nonzero real is real: it is the coercion of the real quotient. -/
theorem div_coe {x : EReal} (hx : IsReal x) {n : ℝ} (hn : n ≠ 0) : IsReal (Ideal.div x (n : EReal)) := by
  obtain ⟨a, rfl⟩ := hx
  exact ⟨a * (1 / n), by rw [Ideal.div_coe hn, EReal.coe_mul]⟩

/-- The quotient of two reals with a nonzero divisor is real. -/
protected theorem div {x y : EReal} (hx : IsReal x) (hy : IsReal y) (h0 : y ≠ 0) : IsReal (Ideal.div x y) := by
  obtain ⟨b, rfl⟩ := hy
  exact hx.div_coe (fun hb => h0 (by rw [hb, EReal.coe_zero]))

/-- The reciprocal square root of a positive real `r` is the real `(√r)⁻¹`, which is positive. -/
theorem rsqrt_coe_pos {r : ℝ} (hr : 0 < r) :
    Ideal.rsqrt (r : EReal) = (((Real.sqrt r)⁻¹ : ℝ) : EReal) ∧ 0 < (Real.sqrt r)⁻¹ := by
  refine ⟨?_, inv_pos.mpr (Real.sqrt_pos.mpr hr)⟩
  rw [Ideal.rsqrt_coe, if_neg (not_lt.mpr hr.le), if_neg hr.ne']

/-- The reciprocal square root of a positive real is a positive real. -/
theorem rsqrt_pos {x : EReal} (hx : IsReal x) (h0 : 0 < x) :
    ∃ s : ℝ, 0 < s ∧ Ideal.rsqrt x = (s : EReal) := by
  obtain ⟨r, rfl⟩ := hx
  have hr : 0 < r := EReal.coe_pos.mp h0
  exact ⟨(Real.sqrt r)⁻¹, (rsqrt_coe_pos hr).2, (rsqrt_coe_pos hr).1⟩

/-- The reciprocal square root of a positive real is real. -/
protected theorem rsqrt {x : EReal} (hx : IsReal x) (h0 : 0 < x) : IsReal (Ideal.rsqrt x) := by
  obtain ⟨s, _, hs⟩ := rsqrt_pos hx h0
  exact ⟨s, hs⟩

/-- A real `≥ 0` plus a real `> 0` is a real `> 0` (a variance plus its `ε`). -/
theorem add_pos_of_nonneg_of_pos {v e : ℝ} (hv : 0 ≤ v) (he : 0 < e) :
    ∃ r : ℝ, 0 < r ∧ (v : EReal) + (e : EReal) = (r : EReal) :=
  ⟨v + e, by positivity, (EReal.coe_add v e).symm⟩

/-- The hyperbolic tangent of a real is real. -/
protected theorem tanh {x : EReal} (hx : IsReal x) : IsReal (Ideal.tanh x) := by
  obtain ⟨r, rfl⟩ := hx; exact ⟨Real.tanh r, Ideal.tanh_coe r⟩

/-- The exponential of a real is real (and positive). -/
protected theorem exp {x : EReal} (hx : IsReal x) : IsReal (Ideal.exp x) := by
  obtain ⟨r, rfl⟩ := hx; exact ⟨Real.exp r, Ideal.exp_coe r⟩

/-- The logistic function of a real is real. -/
protected theorem logistic {x : EReal} (hx : IsReal x) : IsReal (Ideal.logistic x) := by
  obtain ⟨r, rfl⟩ := hx; exact ⟨(1 + Real.exp (-r))⁻¹, Ideal.logistic_coe r⟩

end IsReal

end LibRealSums
-- ==== Proof.Bridge.lean ====
/-
  The two spellings of the network agree on real arguments.

  One program aggregates the 15-wide node features over the graph and then multiplies by the first weight, sums a
  column tile by tile, and takes a variance as mean square minus squared mean; the other multiplies first, sums at
  once, and takes the mean squared deviation. The tile regrouping of a sum holds unconditionally. Distributivity and
  the variance identity hold for real numbers, and every value the network forms from real arguments is real as long
  as every node's degree is positive (so that its inverse square root is real) — which is shown here layer by layer.
-/
import proofs.«181908_j1778116460896_2_alg».proof.Proof.SpecNet
import proofs.«181908_j1778116460896_2_alg».proof.Proof.LibRealSums

noncomputable section

open scoped BigOperators

namespace Cert.Bridge

open Idealize.ShloMosaic Idealize.ShloMosaic.ValueIdx Cert.Spec LibRealSums

/-! ## 1. A column's mean: 25 tiles of 4000 rows, or all rows at once -/

/-- A sum over 100000 rows is the sum over 25 tiles of the sums over the 4000 rows `4000 t + r` of tile `t`. -/
theorem tile_sum {M : Type*} [AddCommMonoid M] (f : Fin 100000 → M) :
    ∑ t : Fin 25, ∑ r : Fin 4000, f ⟨4000 * t.val + r.val, by omega⟩ = ∑ n : Fin 100000, f n := by
  rw [← sum_tiles_25_4000 f]
  refine Finset.sum_congr rfl fun t _ => Finset.sum_congr rfl fun r _ => congrArg f (Fin.ext ?_)
  show 4000 * t.val + r.val = t.val * 4000 + r.val
  omega

/-- The mean summed tile by tile is the mean summed at once. -/
theorem mean_eq (a : Fin 100000 → Fin 64 → EReal) (q : Fin 64) : meanK a q = meanR a q := by
  unfold meanK meanR
  rw [tile_sum (fun n => a n q)]

/-! ## 2. A column's variance: mean square minus squared mean, or mean squared deviation -/

/-- On real entries the two variances agree. -/
theorem var_eq (a : Fin 100000 → Fin 64 → EReal) (ha : ∀ n q, IsReal (a n q)) (q : Fin 64) : varK a q = varR a q := by
  choose r hr using fun n => (ha n q : ∃ r : ℝ, a n q = (r : EReal))
  unfold varK varR
  rw [mean_eq, tile_sum (fun n => a n q * a n q)]
  unfold meanR
  simp only [zero_add, hr]
  exact variance r (by simp) (by norm_num)

/-- On real entries the variance is a real number `≥ 0`. -/
theorem var_nonneg (a : Fin 100000 → Fin 64 → EReal) (ha : ∀ n q, IsReal (a n q)) (q : Fin 64) :
    ∃ v : ℝ, 0 ≤ v ∧ varR a q = (v : EReal) := by
  choose r hr using fun n => (ha n q : ∃ r : ℝ, a n q = (r : EReal))
  obtain ⟨v, hv0, -, hv⟩ := variance_eq_coe_nonneg r (n := 100000) (by simp) (by norm_num)
  refine ⟨v, hv0, ?_⟩
  unfold varR meanR
  simp only [zero_add, hr]
  exact hv

/-- On real entries the mean is real. -/
theorem mean_real (a : Fin 100000 → Fin 64 → EReal) (ha : ∀ n q, IsReal (a n q)) (q : Fin 64) : IsReal (meanR a q) :=
  (IsReal.zero.add (IsReal.sum_univ _ fun n => ha n q)).div_coe (by norm_num)

/-! ## 3. With positive degrees, the graph normalisation of real weights is real -/

section Graph

variable (ei : (⟨2, ![2, 1600000]⟩ : Shape).Idx → BitVec 32) (ew : (⟨1, ![1600000]⟩ : Shape).Idx → EReal)
  (hew : ∀ i, IsReal (ew i))
  (hdeg : ∀ i : Fin 100000, (0 : EReal)
    < (∑ e ∈ Finset.univ.filter (fun e : Fin 1600000 => (ei (ix2 1 e)).toInt = (i.val : ℤ)), ew (ix1 e)) + 1)

include hew in
/-- A node's degree is real: a finite sum of real weights plus one. -/
theorem deg_real (i : Fin 100000) : IsReal (deg ei ew i) :=
  (IsReal.sum _ _ fun e _ => hew (ix1 e)).add IsReal.one

include hew hdeg in
/-- The inverse square root of a positive real degree is real. -/
theorem dinv_real (i : Fin 100000) : IsReal (dinv ei ew i) :=
  IsReal.rsqrt (deg_real ei ew hew i) (show (0 : EReal) < deg ei ew i from hdeg i)

include hew hdeg in
/-- A node's own normaliser is real. -/
theorem dinv2_real (i : Fin 100000) : IsReal (dinv2 ei ew i) :=
  (dinv_real ei ew hew hdeg i).mul (dinv_real ei ew hew hdeg i)

include hew hdeg in
/-- An edge's normaliser is real. -/
theorem nrm_real (e : Fin 1600000) : IsReal (nrm ei ew e) :=
  ((dinv_real ei ew hew hdeg _).mul (hew (ix1 e))).mul (dinv_real ei ew hew hdeg _)

include hew hdeg in
/-- One graph-convolution step of real features is real. -/
theorem conv_real {C : Nat} (y : (⟨2, ![100000, C]⟩ : Shape).Idx → EReal) (hy : ∀ i, IsReal (y i))
    (i : Fin 100000) (k : Fin C) : IsReal (conv ei ew y i k) :=
  (IsReal.zero.add (IsReal.sum _ _ fun e _ => (nrm_real ei ew hew hdeg e).mul (hy _))).add
    ((dinv2_real ei ew hew hdeg i).mul (hy _))

/-! ## 4. The first layer: aggregate then multiply = multiply then aggregate -/

variable (x : (⟨2, ![100000, 15]⟩ : Shape).Idx → EReal) (W1 : (⟨2, ![15, 64]⟩ : Shape).Idx → EReal)
  (b1 : (⟨1, ![64]⟩ : Shape).Idx → EReal)

include hew hdeg in
/-- On real features and a real weight, aggregating the features over the graph and then contracting with the weight
    gives what contracting first and aggregating afterwards gives. -/
theorem a1_eq (hx : ∀ i, IsReal (x i)) (hW : ∀ i, IsReal (W1 i)) : a1K ei ew x W1 b1 = a1R ei ew x W1 b1 := by
  funext n q
  choose nr hnr using fun e => (nrm_real ei ew hew hdeg e : ∃ r : ℝ, nrm ei ew e = (r : EReal))
  obtain ⟨d, hd⟩ := dinv2_real ei ew hew hdeg n
  choose xr hxr using fun i => (hx i : ∃ r : ℝ, x i = (r : EReal))
  choose wr hwr using fun i => (hW i : ∃ r : ℝ, W1 i = (r : EReal))
  unfold a1K a1R
  refine congrArg (fun z => max (z + b1 (ix1 q)) 0) ?_
  unfold conv
  simp only [hnr, hd, hxr, hwr]
  exact aggregate_mul (into ei n) nr (fun e k => xr (ix2 (from_ ei e) k)) d (fun k => xr (ix2 n k))
    (fun k => wr (ix2 k q))

include hew hdeg in
/-- The first layer's activation of real arguments is real. -/
theorem a1_real (hx : ∀ i, IsReal (x i)) (hW : ∀ i, IsReal (W1 i)) (hb1 : ∀ i, IsReal (b1 i)) (n : Fin 100000)
    (q : Fin 64) : IsReal (a1R ei ew x W1 b1 n q) :=
  ((conv_real ei ew hew hdeg _ (fun j => IsReal.sum_univ _ fun k => (hx _).mul (hW _)) n q).add (hb1 _)).max
    IsReal.zero

end Graph

/-! ## 5. The normalisation of a real entry by real statistics is real -/

/-- The programs' `ε`: the word `0x3727C5AC` denotes `10995116 · 2⁻⁴⁰` (the float nearest `10⁻⁵`). -/
theorem eps_eq : Ideal.ofBits .f32 0x3727C5AC#32 = ((10995116 * (2 : ℝ) ^ (-40 : ℤ) : ℝ) : EReal) := by
  simp [Ideal.ofBits, Ideal.ieee]

/-- The programs' `ε` is a positive real number. -/
theorem eps_pos : ∃ r : ℝ, 0 < r ∧ Ideal.ofBits .f32 0x3727C5AC#32 = (r : EReal) :=
  ⟨_, by positivity, eps_eq⟩

/-- A real entry, centred by a real mean, scaled by the inverse square root of a real variance `≥ 0` plus `ε`, by a
    real scale and shifted by a real shift, is real. -/
theorem normOf_real {a mu var g b : EReal} (ha : IsReal a) (hmu : IsReal mu)
    (hv : ∃ v : ℝ, 0 ≤ v ∧ var = (v : EReal)) (hg : IsReal g) (hb : IsReal b) : IsReal (normOf a mu var g b) := by
  obtain ⟨v, hv0, rfl⟩ := hv
  obtain ⟨r, hr0, hr⟩ := eps_pos
  unfold normOf
  rw [hr, ← EReal.coe_add]
  exact (((ha.sub hmu).mul (IsReal.rsqrt (IsReal.coe _) (EReal.coe_pos.mpr (by positivity)))).mul hg).add hb

/-! ## 6. The bridge: the two spellings of the network agree -/

section Net

variable (g1 be1 : (⟨1, ![64]⟩ : Shape).Idx → EReal) (W2 : (⟨2, ![64, 64]⟩ : Shape).Idx → EReal)
  (b2 : (⟨1, ![64]⟩ : Shape).Idx → EReal)

/-- On a real first-layer activation the normalised activations do not depend on how the column statistics are
    spelt. -/
theorem h1_eq (a1 : Fin 100000 → Fin 64 → EReal) (ha1 : ∀ n q, IsReal (a1 n q)) :
    h1 a1 meanK varK g1 be1 = h1 a1 meanR varR g1 be1 := by
  funext n q
  unfold h1
  rw [mean_eq, var_eq a1 ha1]

/-- The first layer's normalised activations, of a real activation with real scale and shift, are real. -/
theorem h1_real (a1 : Fin 100000 → Fin 64 → EReal) (ha1 : ∀ n q, IsReal (a1 n q)) (hg1 : ∀ i, IsReal (g1 i))
    (hbe1 : ∀ i, IsReal (be1 i)) (n : Fin 100000) (q : Fin 64) : IsReal (h1 a1 meanR varR g1 be1 n q) :=
  normOf_real (ha1 n q) (mean_real a1 ha1 q) (var_nonneg a1 ha1 q) (hg1 _) (hbe1 _)

/-- The product of the normalised activations with the second weight, on a real first-layer activation, does not
    depend on how the column statistics are spelt. -/
theorem xw2_eq (a1 : Fin 100000 → Fin 64 → EReal) (ha1 : ∀ n q, IsReal (a1 n q)) :
    xw2 a1 meanK varK g1 be1 W2 = xw2 a1 meanR varR g1 be1 W2 := by
  funext n q
  unfold xw2
  rw [h1_eq g1 be1 a1 ha1]

/-- The product of the normalised activations with a real second weight is real. -/
theorem xw2_real (a1 : Fin 100000 → Fin 64 → EReal) (ha1 : ∀ n q, IsReal (a1 n q)) (hg1 : ∀ i, IsReal (g1 i))
    (hbe1 : ∀ i, IsReal (be1 i)) (hW2 : ∀ i, IsReal (W2 i)) (n : Fin 100000) (q : Fin 64) :
    IsReal (xw2 a1 meanR varR g1 be1 W2 n q) :=
  IsReal.sum_univ _ fun k => (h1_real g1 be1 a1 ha1 hg1 hbe1 n k).mul (hW2 _)

variable (ei : (⟨2, ![2, 1600000]⟩ : Shape).Idx → BitVec 32) (ew : (⟨1, ![1600000]⟩ : Shape).Idx → EReal)

/-- The second layer's activation, on a real first-layer activation, does not depend on how the first layer's
    column statistics are spelt. -/
theorem a2_eq (a1 : Fin 100000 → Fin 64 → EReal) (ha1 : ∀ n q, IsReal (a1 n q)) :
    a2 ei ew a1 meanK varK g1 be1 W2 b2 = a2 ei ew a1 meanR varR g1 be1 W2 b2 := by
  funext n q
  unfold a2
  rw [xw2_eq g1 be1 W2 a1 ha1]

/-- The second layer's activation is real when the degrees are positive and the edge weights, the first layer's
    activation, scale and shift, and the second layer's weight and bias are real. -/
theorem a2_real (hew : ∀ i, IsReal (ew i))
    (hdeg : ∀ i : Fin 100000, (0 : EReal)
      < (∑ e ∈ Finset.univ.filter (fun e : Fin 1600000 => (ei (ix2 1 e)).toInt = (i.val : ℤ)), ew (ix1 e)) + 1)
    (a1 : Fin 100000 → Fin 64 → EReal) (ha1 : ∀ n q, IsReal (a1 n q)) (hg1 : ∀ i, IsReal (g1 i))
    (hbe1 : ∀ i, IsReal (be1 i)) (hW2 : ∀ i, IsReal (W2 i)) (hb2 : ∀ i, IsReal (b2 i)) (n : Fin 100000) (q : Fin 64) :
    IsReal (a2 ei ew a1 meanR varR g1 be1 W2 b2 n q) :=
  ((conv_real ei ew hew hdeg _ (fun j => xw2_real g1 be1 W2 a1 ha1 hg1 hbe1 hW2 _ _) n q).add (hb2 _)).max IsReal.zero

end Net

/-- THE BRIDGE. On real node features, edge weights, first-layer weight, bias, scale and shift, and second-layer
    weight and bias, with every node's degree positive: the network with the features aggregated first, the column
    sums taken tile by tile and the variances as mean square minus squared mean IS the network with the features
    multiplied first, the sums taken at once and the variances as mean squared deviations. -/
theorem net_eq (ei : (⟨2, ![2, 1600000]⟩ : Shape).Idx → BitVec 32) (ew : (⟨1, ![1600000]⟩ : Shape).Idx → EReal)
    (x : (⟨2, ![100000, 15]⟩ : Shape).Idx → EReal) (W1 : (⟨2, ![15, 64]⟩ : Shape).Idx → EReal)
    (b1 : (⟨1, ![64]⟩ : Shape).Idx → EReal) (g1 be1 : (⟨1, ![64]⟩ : Shape).Idx → EReal)
    (W2 : (⟨2, ![64, 64]⟩ : Shape).Idx → EReal) (b2 g2 be2 : (⟨1, ![64]⟩ : Shape).Idx → EReal)
    (Wih1 : (⟨2, ![256, 128]⟩ : Shape).Idx → EReal) (bih1 bhh1 : (⟨1, ![256]⟩ : Shape).Idx → EReal)
    (Wih2 : (⟨2, ![256, 64]⟩ : Shape).Idx → EReal) (bih2 bhh2 : (⟨1, ![256]⟩ : Shape).Idx → EReal)
    (Wl : (⟨2, ![143, 14]⟩ : Shape).Idx → EReal) (bl : (⟨1, ![14]⟩ : Shape).Idx → EReal)
    (h_x : ∀ i, IsReal (x i)) (h_ew : ∀ i, IsReal (ew i))
    (hdeg : ∀ i : Fin 100000, (0 : EReal)
      < (∑ e ∈ Finset.univ.filter (fun e : Fin 1600000 => (ei (ix2 1 e)).toInt = (i.val : ℤ)), ew (ix1 e)) + 1)
    (h_W1 : ∀ i, IsReal (W1 i)) (h_b1 : ∀ i, IsReal (b1 i)) (h_g1 : ∀ i, IsReal (g1 i)) (h_be1 : ∀ i, IsReal (be1 i))
    (h_W2 : ∀ i, IsReal (W2 i)) (h_b2 : ∀ i, IsReal (b2 i)) :
    net ei ew x (a1K ei ew x W1 b1) meanK varK g1 be1 W2 b2 g2 be2 Wih1 bih1 bhh1 Wih2 bih2 bhh2 Wl bl
      = net ei ew x (a1R ei ew x W1 b1) meanR varR g1 be1 W2 b2 g2 be2 Wih1 bih1 bhh1 Wih2 bih2 bhh2 Wl bl := by
  rw [a1_eq ei ew h_ew hdeg x W1 b1 h_x h_W1]
  have ha1 : ∀ n q, IsReal (a1R ei ew x W1 b1 n q) := a1_real ei ew h_ew hdeg x W1 b1 h_x h_W1 h_b1
  have hA2 : ∀ n q, IsReal (a2 ei ew (a1R ei ew x W1 b1) meanR varR g1 be1 W2 b2 n q) :=
    a2_real g1 be1 W2 b2 ei ew h_ew hdeg _ ha1 h_g1 h_be1 h_W2 h_b2
  funext n o
  unfold net
  rw [h1_eq g1 be1 _ ha1, a2_eq g1 be1 W2 b2 ei ew _ ha1,
    (funext (mean_eq _) : meanK (a2 ei ew (a1R ei ew x W1 b1) meanR varR g1 be1 W2 b2) = meanR _),
    (funext (var_eq _ hA2) : varK (a2 ei ew (a1R ei ew x W1 b1) meanR varR g1 be1 W2 b2) = varR _)]

end Cert.Bridge

end
-- ==== Proof.PreFacts.lean ====
/-
  UNTRUSTED — THE PRECONDITION, DECODED into mathematical facts about the raw argument arrays at the ideal instance (floats are
  extended reals).

  The precondition is printed as one function of the 21 arguments returning a one-bit scalar, and a claim assumes that it
  returns 1. It is the `and` of 21 bits. Twenty of them are `all(|a| < +∞)`, one for each float argument `a`: the
  absolute value `max a (−a)` compared "less than" with the constant whose pattern `0x7F800000` denotes `+∞`, reduced by
  `and` over the whole array. The last is `all(segment_sum(a2, a1[1, :]) + 1 > 0)`: row 1 of the integer array `a1` is
  sliced, flattened and set as a column of start indices; the float array `a2` is scattered by addition into a zero array of
  100000 entries at those indices; 1 is added and the result compared "greater than" with 0, reduced by `and`.

  Read back: an `and` is 1 only if both bits are; a reduction by `and` that is 1 had a 1 at every index; an extended real
  whose absolute value is below `+∞` is neither infinity nor the junk value `⊥`, so it is a real number; and the scatter at
  entry `i` is the sum of `a2 e` over the edges `e` with `a1 (1, e) = i` (the segment-sum reading of the accumulating scatter).
-/
import proofs.«181908_j1778116460896_2_alg».proof.Pre_finite_inputs
import proofs.«181908_j1778116460896_2_alg».proof.Proof.LibScatterGatherAt
import Idealize.ShloMosaic.Lib.ReduceAll
import Idealize.ShloMosaic.Lib.ValueIdx
import Idealize.ShloMosaic.Lib.ValueLayout
import Idealize.ShloMosaic.PureOps.Ideal.Laws

noncomputable section

open scoped BigOperators

namespace Cert.PreFacts

open Idealize.ShloMosaic Idealize.ShloMosaic.ValueIdx Cert.Lib.ScatterGatherAt
open Cert.Pre_finite_inputs

/-- The scalar shape has one index. -/
instance : Subsingleton S_.Idx := ⟨fun a b => funext fun d => d.elim0⟩

/-- The f32 pattern `0x7F800000` is `+∞`. -/
theorem ofBits_inf : Ideal.ofBits .f32 0x7F800000#32 = (⊤ : EReal) := by simp [Ideal.ofBits, Ideal.ieee]

/-- An extended real whose absolute value `max x (−x)` is below `+∞` is a real number. -/
theorem real_of_abs_lt (x : EReal) (h : Ideal.cmp .olt (max x (-x)) (Ideal.ofBits .f32 0x7F800000#32) = 1#1) :
    ∃ r : ℝ, x = (r : EReal) := by
  rw [ofBits_inf] at h
  unfold Ideal.cmp at h
  have h' : max x (-x) < ⊤ := by
    by_contra hc
    simp [hc] at h
  induction x using EReal.rec with
  | bot => simp at h'
  | coe r => exact ⟨r, rfl⟩
  | top => simp at h'

/-- `jnp.all(|a| < +inf)` read back: every entry of `a` is a real number. -/
theorem finite_of_all {s : Shape} {axes : List (Fin s.rank)} (hr : s.ReducesTo axes S_) (hu : 0 < S_.numel)
    (hb : S_.BroadcastsInDim s (![] : Fin 0 → Fin s.rank)) (a : FVec Ideal s .f32) (j : S_.Idx)
    (h : Host.reduce IntOp.andi (cmpf .olt (Host.absf a) (broadcastInDim s ![] hb (constant S_ .f32 0x7F800000#32)))
      (constantI S_ 1 1#1) hr hu j = 1#1) :
    ∀ i, ∃ r : ℝ, a i = (r : EReal) := fun i =>
  real_of_abs_lt (a i) (Host.reduce_andi_all _ _ hr hu j h i)

variable [Cert.Pre_finite_inputs.Facts]

/-- The \`and\` of two integer arrays at an index is the \`and\` of the elements. -/
theorem andi_apply {s : Shape} {w : Nat} (x y : IVec s w) (i : s.Idx) : andi x y i = IntOp.andi (x i) (y i) := rfl

/-- The f32 pattern `0x3F800000` is 1. -/
theorem ofBits_one : Ideal.ofBits .f32 0x3F800000#32 = (1 : EReal) := by
  simp [Ideal.ofBits, Ideal.ieee, -EReal.coe_mul]; norm_num

/-- The comparison "greater than" is 1 exactly when the order says so. -/
theorem cmp_ogt_iff (x y : EReal) : Ideal.cmp .ogt x y = 1#1 ↔ y < x := by
  unfold Ideal.cmp
  by_cases hc : y < x <;> simp [hc]

/-- A broadcast scalar constant reads, everywhere, the extended real its pattern denotes. -/
theorem bcast_const_apply {s : Shape} (hb : S_.BroadcastsInDim s (![] : Fin 0 → Fin s.rank)) (b : BitVec 32) (i : s.Idx) :
    broadcastInDim s ![] hb (constant (F := Ideal) S_ .f32 b) i = Ideal.ofBits .f32 b := rfl

/-- Row 1 of a `[2, E]` integer array, flattened to `[E]` and set as a column `[E, 1]`, read at `(e, 0)`: the array at `(1, e)`. -/
theorem dstCol_apply (a1 : IVec S2x1600000 32) (hs : S2x1600000.Slices ![1, 0] S1x1600000) (hc : S1x1600000.ShapeCasts S1600000)
    (hb : S1600000.BroadcastsInDim S1600000x1 (![0] : Fin 1 → Fin S1600000x1.rank)) (e : Fin 1600000) :
    broadcastInDim S1600000x1 ![0] hb (shapeCast S1600000 (extractStridedSlice S1x1600000 ![1, 0] a1 hs) hc) (ix2 e 0)
      = a1 (ix2 1 e) := by
  rw [broadcastInDim_apply ![0] hb _ (ix2 e 0) (ix1 e) (by
    intro a
    match a with
    | ⟨0, _⟩ =>
      have hne : ¬ (S1600000.size ⟨0, by decide⟩ = 1) := by show ¬ ((1600000 : ℕ) = 1); decide
      rw [if_neg hne]; rfl)]
  rw [shapeCast_1a_a_apply]
  exact extractStridedSlice_apply ![1, 0] a1 hs (ix2 0 e) (ix2 1 e) (by
    intro a
    match a with
    | ⟨0, _⟩ => rfl
    | ⟨1, _⟩ => show e.val = 0 + e.val; omega)

/-- One element of the last conjunct read back: the degree of node `i` — the sum of the edge weights over the edges whose
    destination (row 1 of the index array, read as a signed integer) is `i` — plus 1 is positive. -/
theorem deg_elem (d : ScatterDims S100000 S1600000x1 S1600000)
    (hw : d.updateWindowDims = []) (hi : d.insertedWindowDims = [0]) (hsd : d.scatterDimsToOperandDims = [0])
    (hv : d.indexVectorDim = 1)
    (hbz : S_.BroadcastsInDim S100000 (![] : Fin 0 → Fin S100000.rank))
    (hs : S2x1600000.Slices ![1, 0] S1x1600000) (hc : S1x1600000.ShapeCasts S1600000)
    (hb : S1600000.BroadcastsInDim S1600000x1 (![0] : Fin 1 → Fin S1600000x1.rank))
    (a1 : IVec S2x1600000 32) (a2 : FVec Ideal S1600000 .f32) (i : Fin 100000)
    (h : cmpf .ogt
        (addf
          (Host.scatterAdd d (broadcastInDim S100000 ![] hbz (constant S_ .f32 0x00000000#32))
            (broadcastInDim S1600000x1 ![0] hb (shapeCast S1600000 (extractStridedSlice S1x1600000 ![1, 0] a1 hs) hc)) a2)
          (broadcastInDim S100000 ![] hbz (constant S_ .f32 0x3F800000#32)))
        (broadcastInDim S100000 ![] hbz (constant (F := Ideal) S_ .f32 0x00000000#32)) (ix1 i) = 1#1) :
    (0 : EReal) < (∑ e ∈ Finset.univ.filter (fun e : Fin 1600000 => (a1 (ix2 1 e)).toInt = (i.val : ℤ)), a2 (ix1 e)) + 1 := by
  rw [cmpf_apply, addf_apply, hostScatterAdd_flat_apply d hw hi hsd hv] at h
  rw [bcast_const_apply hbz, bcast_const_apply hbz] at h
  have hF : Finset.univ.filter (fun e : Fin 1600000 =>
        (broadcastInDim S1600000x1 ![0] hb (shapeCast S1600000 (extractStridedSlice S1x1600000 ![1, 0] a1 hs) hc)
          (ix2 e 0)).toInt = (i.val : ℤ))
      = Finset.univ.filter (fun e : Fin 1600000 => (a1 (ix2 1 e)).toInt = (i.val : ℤ)) :=
    Finset.filter_congr fun e _ => by rw [dstCol_apply a1 hs hc hb e]
  rw [hF, Ideal.ofBits_zero_f32, zero_add, ofBits_one] at h
  exact (cmp_ogt_iff _ _).1 h

section Decode
variable {a0 : FVec Ideal S100000x15 .f32}
  {a1 : IVec S2x1600000 32}
  {a2 : FVec Ideal S1600000 .f32}
  {a3 : FVec Ideal S15x64 .f32}
  {a4 : FVec Ideal S64 .f32}
  {a5 : FVec Ideal S64x64 .f32}
  {a6 : FVec Ideal S64 .f32}
  {a7 : FVec Ideal S64 .f32}
  {a8 : FVec Ideal S64 .f32}
  {a9 : FVec Ideal S64 .f32}
  {a10 : FVec Ideal S64 .f32}
  {a11 : FVec Ideal S256x128 .f32}
  {a12 : FVec Ideal S256x64 .f32}
  {a13 : FVec Ideal S256 .f32}
  {a14 : FVec Ideal S256 .f32}
  {a15 : FVec Ideal S256x64 .f32}
  {a16 : FVec Ideal S256x64 .f32}
  {a17 : FVec Ideal S256 .f32}
  {a18 : FVec Ideal S256 .f32}
  {a19 : FVec Ideal S143x14 .f32}
  {a20 : FVec Ideal S14 .f32}

set_option maxRecDepth 8192 in
/-- THE PRECONDITION DECODED. If the printed precondition is true of the 21 argument arrays, then every entry of each of the 20
    float arrays is a real number (`|a| < +∞` at every index, which excludes both infinities and the junk value), and for every
    node `i` the degree — the sum of the edge weights `a2 e` over the edges `e` whose destination `a1 (1, e)`, read as a signed
    integer, is `i` — plus 1 is positive. The precondition is the `and` of 21 reductions by `and`: it is 1 only if each is,
    and a reduction by `and` over a whole array is 1 only if every element is. -/
theorem of_pre (h : Cert.Pre_finite_inputs.fn (F := Ideal) a0 a1 a2 a3 a4 a5 a6 a7 a8 a9 a10 a11 a12 a13 a14 a15 a16 a17 a18 a19 a20 = fun _ => 1#1) :
    (∀ i, ∃ r : ℝ, a0 i = (r : EReal)) ∧
    (∀ i, ∃ r : ℝ, a2 i = (r : EReal)) ∧
    (∀ i, ∃ r : ℝ, a3 i = (r : EReal)) ∧
    (∀ i, ∃ r : ℝ, a4 i = (r : EReal)) ∧
    (∀ i, ∃ r : ℝ, a5 i = (r : EReal)) ∧
    (∀ i, ∃ r : ℝ, a6 i = (r : EReal)) ∧
    (∀ i, ∃ r : ℝ, a7 i = (r : EReal)) ∧
    (∀ i, ∃ r : ℝ, a8 i = (r : EReal)) ∧
    (∀ i, ∃ r : ℝ, a9 i = (r : EReal)) ∧
    (∀ i, ∃ r : ℝ, a10 i = (r : EReal)) ∧
    (∀ i, ∃ r : ℝ, a11 i = (r : EReal)) ∧
    (∀ i, ∃ r : ℝ, a12 i = (r : EReal)) ∧
    (∀ i, ∃ r : ℝ, a13 i = (r : EReal)) ∧
    (∀ i, ∃ r : ℝ, a14 i = (r : EReal)) ∧
    (∀ i, ∃ r : ℝ, a15 i = (r : EReal)) ∧
    (∀ i, ∃ r : ℝ, a16 i = (r : EReal)) ∧
    (∀ i, ∃ r : ℝ, a17 i = (r : EReal)) ∧
    (∀ i, ∃ r : ℝ, a18 i = (r : EReal)) ∧
    (∀ i, ∃ r : ℝ, a19 i = (r : EReal)) ∧
    (∀ i, ∃ r : ℝ, a20 i = (r : EReal)) ∧
    ∀ i : Fin 100000, (0 : EReal) <
        (∑ e ∈ Finset.univ.filter (fun e : Fin 1600000 => (a1 (ix2 1 e)).toInt = (i.val : ℤ)), a2 (ix1 e)) + 1 := by
  have e := congrFun h ix0
  unfold Cert.Pre_finite_inputs.fn Cert.Pre_finite_inputs.fn_part1 Cert.Pre_finite_inputs.fn_part2 Cert.Pre_finite_inputs.fn_part3
    Cert.Pre_finite_inputs.fn_part4 Cert.Pre_finite_inputs.fn_part5 Cert.Pre_finite_inputs.fn_part6 at e
  dsimp only at e
  simp only [andi_apply, IntOp.andi_eq_one] at e
  obtain ⟨⟨⟨⟨⟨⟨⟨⟨⟨⟨⟨⟨⟨⟨⟨⟨⟨⟨⟨⟨h0, h2⟩, h3⟩, h4⟩, h5⟩, h6⟩, h7⟩, h8⟩, h9⟩, h10⟩, h11⟩, h12⟩, h13⟩, h14⟩, h15⟩, h16⟩, h17⟩, h18⟩, h19⟩, h20⟩, hd⟩ := e
  exact ⟨finite_of_all _ _ _ a0 _ h0,
    finite_of_all _ _ _ a2 _ h2,
    finite_of_all _ _ _ a3 _ h3,
    finite_of_all _ _ _ a4 _ h4,
    finite_of_all _ _ _ a5 _ h5,
    finite_of_all _ _ _ a6 _ h6,
    finite_of_all _ _ _ a7 _ h7,
    finite_of_all _ _ _ a8 _ h8,
    finite_of_all _ _ _ a9 _ h9,
    finite_of_all _ _ _ a10 _ h10,
    finite_of_all _ _ _ a11 _ h11,
    finite_of_all _ _ _ a12 _ h12,
    finite_of_all _ _ _ a13 _ h13,
    finite_of_all _ _ _ a14 _ h14,
    finite_of_all _ _ _ a15 _ h15,
    finite_of_all _ _ _ a16 _ h16,
    finite_of_all _ _ _ a17 _ h17,
    finite_of_all _ _ _ a18 _ h18,
    finite_of_all _ _ _ a19 _ h19,
    finite_of_all _ _ _ a20 _ h20,
    fun i => deg_elem _ rfl rfl rfl rfl _ _ _ _ a1 a2 i (Host.reduce_andi_all _ _ _ _ _ hd (ix1 i))⟩

/-- Under the precondition every entry of argument 0 is a real number. -/
theorem finite_a0 (h : Cert.Pre_finite_inputs.fn (F := Ideal) a0 a1 a2 a3 a4 a5 a6 a7 a8 a9 a10 a11 a12 a13 a14 a15 a16 a17 a18 a19 a20 = fun _ => 1#1) : ∀ i, ∃ r : ℝ, a0 i = (r : EReal) :=
  (of_pre h).1

/-- Under the precondition every entry of argument 2 is a real number. -/
theorem finite_a2 (h : Cert.Pre_finite_inputs.fn (F := Ideal) a0 a1 a2 a3 a4 a5 a6 a7 a8 a9 a10 a11 a12 a13 a14 a15 a16 a17 a18 a19 a20 = fun _ => 1#1) : ∀ i, ∃ r : ℝ, a2 i = (r : EReal) :=
  (of_pre h).2.1

/-- Under the precondition every entry of argument 3 is a real number. -/
theorem finite_a3 (h : Cert.Pre_finite_inputs.fn (F := Ideal) a0 a1 a2 a3 a4 a5 a6 a7 a8 a9 a10 a11 a12 a13 a14 a15 a16 a17 a18 a19 a20 = fun _ => 1#1) : ∀ i, ∃ r : ℝ, a3 i = (r : EReal) :=
  (of_pre h).2.2.1

/-- Under the precondition every entry of argument 4 is a real number. -/
theorem finite_a4 (h : Cert.Pre_finite_inputs.fn (F := Ideal) a0 a1 a2 a3 a4 a5 a6 a7 a8 a9 a10 a11 a12 a13 a14 a15 a16 a17 a18 a19 a20 = fun _ => 1#1) : ∀ i, ∃ r : ℝ, a4 i = (r : EReal) :=
  (of_pre h).2.2.2.1

/-- Under the precondition every entry of argument 5 is a real number. -/
theorem finite_a5 (h : Cert.Pre_finite_inputs.fn (F := Ideal) a0 a1 a2 a3 a4 a5 a6 a7 a8 a9 a10 a11 a12 a13 a14 a15 a16 a17 a18 a19 a20 = fun _ => 1#1) : ∀ i, ∃ r : ℝ, a5 i = (r : EReal) :=
  (of_pre h).2.2.2.2.1

/-- Under the precondition every entry of argument 6 is a real number. -/
theorem finite_a6 (h : Cert.Pre_finite_inputs.fn (F := Ideal) a0 a1 a2 a3 a4 a5 a6 a7 a8 a9 a10 a11 a12 a13 a14 a15 a16 a17 a18 a19 a20 = fun _ => 1#1) : ∀ i, ∃ r : ℝ, a6 i = (r : EReal) :=
  (of_pre h).2.2.2.2.2.1

/-- Under the precondition every entry of argument 7 is a real number. -/
theorem finite_a7 (h : Cert.Pre_finite_inputs.fn (F := Ideal) a0 a1 a2 a3 a4 a5 a6 a7 a8 a9 a10 a11 a12 a13 a14 a15 a16 a17 a18 a19 a20 = fun _ => 1#1) : ∀ i, ∃ r : ℝ, a7 i = (r : EReal) :=
  (of_pre h).2.2.2.2.2.2.1

/-- Under the precondition every entry of argument 8 is a real number. -/
theorem finite_a8 (h : Cert.Pre_finite_inputs.fn (F := Ideal) a0 a1 a2 a3 a4 a5 a6 a7 a8 a9 a10 a11 a12 a13 a14 a15 a16 a17 a18 a19 a20 = fun _ => 1#1) : ∀ i, ∃ r : ℝ, a8 i = (r : EReal) :=
  (of_pre h).2.2.2.2.2.2.2.1

/-- Under the precondition every entry of argument 9 is a real number. -/
theorem finite_a9 (h : Cert.Pre_finite_inputs.fn (F := Ideal) a0 a1 a2 a3 a4 a5 a6 a7 a8 a9 a10 a11 a12 a13 a14 a15 a16 a17 a18 a19 a20 = fun _ => 1#1) : ∀ i, ∃ r : ℝ, a9 i = (r : EReal) :=
  (of_pre h).2.2.2.2.2.2.2.2.1

/-- Under the precondition every entry of argument 10 is a real number. -/
theorem finite_a10 (h : Cert.Pre_finite_inputs.fn (F := Ideal) a0 a1 a2 a3 a4 a5 a6 a7 a8 a9 a10 a11 a12 a13 a14 a15 a16 a17 a18 a19 a20 = fun _ => 1#1) : ∀ i, ∃ r : ℝ, a10 i = (r : EReal) :=
  (of_pre h).2.2.2.2.2.2.2.2.2.1

/-- Under the precondition every entry of argument 11 is a real number. -/
theorem finite_a11 (h : Cert.Pre_finite_inputs.fn (F := Ideal) a0 a1 a2 a3 a4 a5 a6 a7 a8 a9 a10 a11 a12 a13 a14 a15 a16 a17 a18 a19 a20 = fun _ => 1#1) : ∀ i, ∃ r : ℝ, a11 i = (r : EReal) :=
  (of_pre h).2.2.2.2.2.2.2.2.2.2.1

/-- Under the precondition every entry of argument 12 is a real number. -/
theorem finite_a12 (h : Cert.Pre_finite_inputs.fn (F := Ideal) a0 a1 a2 a3 a4 a5 a6 a7 a8 a9 a10 a11 a12 a13 a14 a15 a16 a17 a18 a19 a20 = fun _ => 1#1) : ∀ i, ∃ r : ℝ, a12 i = (r : EReal) :=
  (of_pre h).2.2.2.2.2.2.2.2.2.2.2.1

/-- Under the precondition every entry of argument 13 is a real number. -/
theorem finite_a13 (h : Cert.Pre_finite_inputs.fn (F := Ideal) a0 a1 a2 a3 a4 a5 a6 a7 a8 a9 a10 a11 a12 a13 a14 a15 a16 a17 a18 a19 a20 = fun _ => 1#1) : ∀ i, ∃ r : ℝ, a13 i = (r : EReal) :=
  (of_pre h).2.2.2.2.2.2.2.2.2.2.2.2.1

/-- Under the precondition every entry of argument 14 is a real number. -/
theorem finite_a14 (h : Cert.Pre_finite_inputs.fn (F := Ideal) a0 a1 a2 a3 a4 a5 a6 a7 a8 a9 a10 a11 a12 a13 a14 a15 a16 a17 a18 a19 a20 = fun _ => 1#1) : ∀ i, ∃ r : ℝ, a14 i = (r : EReal) :=
  (of_pre h).2.2.2.2.2.2.2.2.2.2.2.2.2.1

/-- Under the precondition every entry of argument 15 is a real number. -/
theorem finite_a15 (h : Cert.Pre_finite_inputs.fn (F := Ideal) a0 a1 a2 a3 a4 a5 a6 a7 a8 a9 a10 a11 a12 a13 a14 a15 a16 a17 a18 a19 a20 = fun _ => 1#1) : ∀ i, ∃ r : ℝ, a15 i = (r : EReal) :=
  (of_pre h).2.2.2.2.2.2.2.2.2.2.2.2.2.2.1

/-- Under the precondition every entry of argument 16 is a real number. -/
theorem finite_a16 (h : Cert.Pre_finite_inputs.fn (F := Ideal) a0 a1 a2 a3 a4 a5 a6 a7 a8 a9 a10 a11 a12 a13 a14 a15 a16 a17 a18 a19 a20 = fun _ => 1#1) : ∀ i, ∃ r : ℝ, a16 i = (r : EReal) :=
  (of_pre h).2.2.2.2.2.2.2.2.2.2.2.2.2.2.2.1

/-- Under the precondition every entry of argument 17 is a real number. -/
theorem finite_a17 (h : Cert.Pre_finite_inputs.fn (F := Ideal) a0 a1 a2 a3 a4 a5 a6 a7 a8 a9 a10 a11 a12 a13 a14 a15 a16 a17 a18 a19 a20 = fun _ => 1#1) : ∀ i, ∃ r : ℝ, a17 i = (r : EReal) :=
  (of_pre h).2.2.2.2.2.2.2.2.2.2.2.2.2.2.2.2.1

/-- Under the precondition every entry of argument 18 is a real number. -/
theorem finite_a18 (h : Cert.Pre_finite_inputs.fn (F := Ideal) a0 a1 a2 a3 a4 a5 a6 a7 a8 a9 a10 a11 a12 a13 a14 a15 a16 a17 a18 a19 a20 = fun _ => 1#1) : ∀ i, ∃ r : ℝ, a18 i = (r : EReal) :=
  (of_pre h).2.2.2.2.2.2.2.2.2.2.2.2.2.2.2.2.2.1

/-- Under the precondition every entry of argument 19 is a real number. -/
theorem finite_a19 (h : Cert.Pre_finite_inputs.fn (F := Ideal) a0 a1 a2 a3 a4 a5 a6 a7 a8 a9 a10 a11 a12 a13 a14 a15 a16 a17 a18 a19 a20 = fun _ => 1#1) : ∀ i, ∃ r : ℝ, a19 i = (r : EReal) :=
  (of_pre h).2.2.2.2.2.2.2.2.2.2.2.2.2.2.2.2.2.2.1

/-- Under the precondition every entry of argument 20 is a real number. -/
theorem finite_a20 (h : Cert.Pre_finite_inputs.fn (F := Ideal) a0 a1 a2 a3 a4 a5 a6 a7 a8 a9 a10 a11 a12 a13 a14 a15 a16 a17 a18 a19 a20 = fun _ => 1#1) : ∀ i, ∃ r : ℝ, a20 i = (r : EReal) :=
  (of_pre h).2.2.2.2.2.2.2.2.2.2.2.2.2.2.2.2.2.2.2.1

/-- Under the precondition every node's degree plus 1 is positive. -/
theorem deg_pos (h : Cert.Pre_finite_inputs.fn (F := Ideal) a0 a1 a2 a3 a4 a5 a6 a7 a8 a9 a10 a11 a12 a13 a14 a15 a16 a17 a18 a19 a20 = fun _ => 1#1) :
    ∀ i : Fin 100000, (0 : EReal) <
        (∑ e ∈ Finset.univ.filter (fun e : Fin 1600000 => (a1 (ix2 1 e)).toInt = (i.val : ℤ)), a2 (ix1 e)) + 1 :=
  (of_pre h).2.2.2.2.2.2.2.2.2.2.2.2.2.2.2.2.2.2.2.2

end Decode

end Cert.PreFacts

end
-- ==== Proof.Algebraic.lean ====
/-
  The value claim. Both idealized programs, run from memories that agree on the arguments and satisfy the
  precondition, end with equal result arrays. The kernel program's result is the last boundary's contents of its
  result buffer, which is the network's output in the aggregate-then-multiply, tile-by-tile spelling; the reference's
  result is the fold of its host operations, which is the network's output in the multiply-then-aggregate, one-pass
  spelling. Under the precondition every float argument is real and every node's degree is positive, so the two
  spellings are one function: the first layer's activations agree because multiplication by the weight distributes
  over the aggregation of real features, a tile-by-tile sum is the whole sum, and mean square minus squared mean is the
  mean squared deviation of real numbers.
-/
import proofs.«181908_j1778116460896_2_alg».proof.Defs
import proofs.«181908_j1778116460896_2_alg».proof.Proof.Gen.KernelIdeal
import proofs.«181908_j1778116460896_2_alg».proof.Proof.Gen.ReferenceIdeal
import proofs.«181908_j1778116460896_2_alg».proof.Proof.Gen.Pre_finite_inputs
import proofs.«181908_j1778116460896_2_alg».proof.Proof.KerRun
import proofs.«181908_j1778116460896_2_alg».proof.Proof.KChain4
import proofs.«181908_j1778116460896_2_alg».proof.Proof.RefFinal
import proofs.«181908_j1778116460896_2_alg».proof.Proof.Bridge
import proofs.«181908_j1778116460896_2_alg».proof.Proof.PreFacts

set_option maxRecDepth 16384

noncomputable section

namespace Cert.Proof.Value

open Idealize.ShloMosaic Idealize.ShloMosaic.TcCoe Idealize.ShloMosaic.ValueIdx Idealize.SL.Sem Idealize.ShloMosaic.StableHlo

theorem algebraic : Cert.algebraic_KernelIdeal_ReferenceIdeal := by
  intro m ρ m' ρ' hpre hagree
  refine ⟨fun c => Cert.KernelIdeal.Gen.W8 m ρ c (Proc.devRef .tc Cert.KernelIdeal.main_v114), Cert.KernelIdeal.KerRun.run m ρ, ?_⟩
  refine (θ_run (Cert.ReferenceIdeal.defs (F := Ideal)) _ _).mono (fun r h c => ⟨(h c).1.trans ?_, (h c).2⟩)
    (Cert.ReferenceIdeal.RefRun.run (F := Ideal) m' ρ')
  obtain ⟨g0, g1, g2, g3, g4, g5, g6, g7, g8, g9, g10, g11, g12, g13, g14, g15, g16, g17, g18, g19, g20⟩ := hagree c
  funext i
  obtain ⟨n, o, rfl⟩ : ∃ (n : Fin 100000) (o : Fin 14), i = ix2 n o := ⟨i 0, i 1, eq_ix2 i⟩
  refine (Cert.ReferenceIdeal.RefFinal.out_eq (launchContents m' c) n o).trans ?_
  have e0 : launchContents m' c (Proc.devRef .tc Cert.ReferenceIdeal.main_arg0) = m ((c.tc : Thread Cert.KernelIdeal.nD Cert.KernelIdeal.τ).loc Cert.KernelIdeal.main_arg0) := g0
  have e1 : launchContents m' c (Proc.devRef .tc Cert.ReferenceIdeal.main_arg1) = m ((c.tc : Thread Cert.KernelIdeal.nD Cert.KernelIdeal.τ).loc Cert.KernelIdeal.main_arg1) := g1
  have e2 : launchContents m' c (Proc.devRef .tc Cert.ReferenceIdeal.main_arg2) = m ((c.tc : Thread Cert.KernelIdeal.nD Cert.KernelIdeal.τ).loc Cert.KernelIdeal.main_arg2) := g2
  have e3 : launchContents m' c (Proc.devRef .tc Cert.ReferenceIdeal.main_arg3) = m ((c.tc : Thread Cert.KernelIdeal.nD Cert.KernelIdeal.τ).loc Cert.KernelIdeal.main_arg3) := g3
  have e4 : launchContents m' c (Proc.devRef .tc Cert.ReferenceIdeal.main_arg4) = m ((c.tc : Thread Cert.KernelIdeal.nD Cert.KernelIdeal.τ).loc Cert.KernelIdeal.main_arg4) := g4
  have e5 : launchContents m' c (Proc.devRef .tc Cert.ReferenceIdeal.main_arg5) = m ((c.tc : Thread Cert.KernelIdeal.nD Cert.KernelIdeal.τ).loc Cert.KernelIdeal.main_arg5) := g5
  have e6 : launchContents m' c (Proc.devRef .tc Cert.ReferenceIdeal.main_arg6) = m ((c.tc : Thread Cert.KernelIdeal.nD Cert.KernelIdeal.τ).loc Cert.KernelIdeal.main_arg6) := g6
  have e7 : launchContents m' c (Proc.devRef .tc Cert.ReferenceIdeal.main_arg7) = m ((c.tc : Thread Cert.KernelIdeal.nD Cert.KernelIdeal.τ).loc Cert.KernelIdeal.main_arg7) := g7
  have e8 : launchContents m' c (Proc.devRef .tc Cert.ReferenceIdeal.main_arg8) = m ((c.tc : Thread Cert.KernelIdeal.nD Cert.KernelIdeal.τ).loc Cert.KernelIdeal.main_arg8) := g8
  have e9 : launchContents m' c (Proc.devRef .tc Cert.ReferenceIdeal.main_arg9) = m ((c.tc : Thread Cert.KernelIdeal.nD Cert.KernelIdeal.τ).loc Cert.KernelIdeal.main_arg9) := g9
  have e10 : launchContents m' c (Proc.devRef .tc Cert.ReferenceIdeal.main_arg10) = m ((c.tc : Thread Cert.KernelIdeal.nD Cert.KernelIdeal.τ).loc Cert.KernelIdeal.main_arg10) := g10
  have e11 : launchContents m' c (Proc.devRef .tc Cert.ReferenceIdeal.main_arg11) = m ((c.tc : Thread Cert.KernelIdeal.nD Cert.KernelIdeal.τ).loc Cert.KernelIdeal.main_arg11) := g11
  have e13 : launchContents m' c (Proc.devRef .tc Cert.ReferenceIdeal.main_arg13) = m ((c.tc : Thread Cert.KernelIdeal.nD Cert.KernelIdeal.τ).loc Cert.KernelIdeal.main_arg13) := g13
  have e14 : launchContents m' c (Proc.devRef .tc Cert.ReferenceIdeal.main_arg14) = m ((c.tc : Thread Cert.KernelIdeal.nD Cert.KernelIdeal.τ).loc Cert.KernelIdeal.main_arg14) := g14
  have e15 : launchContents m' c (Proc.devRef .tc Cert.ReferenceIdeal.main_arg15) = m ((c.tc : Thread Cert.KernelIdeal.nD Cert.KernelIdeal.τ).loc Cert.KernelIdeal.main_arg15) := g15
  have e17 : launchContents m' c (Proc.devRef .tc Cert.ReferenceIdeal.main_arg17) = m ((c.tc : Thread Cert.KernelIdeal.nD Cert.KernelIdeal.τ).loc Cert.KernelIdeal.main_arg17) := g17
  have e18 : launchContents m' c (Proc.devRef .tc Cert.ReferenceIdeal.main_arg18) = m ((c.tc : Thread Cert.KernelIdeal.nD Cert.KernelIdeal.τ).loc Cert.KernelIdeal.main_arg18) := g18
  have e19 : launchContents m' c (Proc.devRef .tc Cert.ReferenceIdeal.main_arg19) = m ((c.tc : Thread Cert.KernelIdeal.nD Cert.KernelIdeal.τ).loc Cert.KernelIdeal.main_arg19) := g19
  have e20 : launchContents m' c (Proc.devRef .tc Cert.ReferenceIdeal.main_arg20) = m ((c.tc : Thread Cert.KernelIdeal.nD Cert.KernelIdeal.τ).loc Cert.KernelIdeal.main_arg20) := g20
  rw [e0, e1, e2, e3, e4, e5, e6, e7, e8, e9, e10, e11, e13, e14, e15, e17, e18, e19, e20]
  refine Eq.trans ?_ (Cert.KernelIdeal.Chain.out_at m ρ c n o).symm
  exact (congrFun (congrFun (Cert.Bridge.net_eq (Cert.KernelIdeal.Chain.aEi m c) (Cert.KernelIdeal.Chain.aEw m c) (Cert.KernelIdeal.Chain.aX m c)
    (Cert.KernelIdeal.Chain.aW1 m c) (Cert.KernelIdeal.Chain.aB1 m c) (Cert.KernelIdeal.Chain.aG1 m c) (Cert.KernelIdeal.Chain.aBe1 m c)
    (Cert.KernelIdeal.Chain.aW2 m c) (Cert.KernelIdeal.Chain.aB2 m c) (Cert.KernelIdeal.Chain.aG2 m c) (Cert.KernelIdeal.Chain.aBe2 m c)
    (Cert.KernelIdeal.Chain.aWih1 m c) (Cert.KernelIdeal.Chain.aBih1 m c) (Cert.KernelIdeal.Chain.aBhh1 m c)
    (Cert.KernelIdeal.Chain.aWih2 m c) (Cert.KernelIdeal.Chain.aBih2 m c) (Cert.KernelIdeal.Chain.aBhh2 m c)
    (Cert.KernelIdeal.Chain.aWl m c) (Cert.KernelIdeal.Chain.aBl m c)
    (Cert.PreFacts.finite_a0 (hpre c)) (Cert.PreFacts.finite_a2 (hpre c)) (Cert.PreFacts.deg_pos (hpre c))
    (Cert.PreFacts.finite_a3 (hpre c)) (Cert.PreFacts.finite_a4 (hpre c)) (Cert.PreFacts.finite_a7 (hpre c)) (Cert.PreFacts.finite_a8 (hpre c))
    (Cert.PreFacts.finite_a5 (hpre c)) (Cert.PreFacts.finite_a6 (hpre c))) n) o).symm

end Cert.Proof.Value

end
-- ==== Proof.lean ====
/-
  A two-layer graph convolution network with batch normalisation, two single-step recurrent cells and a linear
  read-out, as a kernel program of four grid regions among host operations, against its plain reference.

  The three frames: the two kernel programs' are their frame certificates; the reference's is its run with the result
  dropped. The idealization rewrote nothing, so its preservation states nothing.

  The value claim, at the ideal values, under the precondition that every float argument is finite and every node's
  degree (the weights of its incoming edges plus one) is positive. The kernel aggregates the 15 input features over
  the graph and multiplies by the first weight afterwards, and takes each batch-norm column mean and variance from
  per-tile partial sums, the variance as mean square minus squared mean; the reference multiplies first and
  aggregates the 64-wide product, and takes the mean at once and the variance as the mean squared deviation. Both
  programs are read, operation by operation, down to one description of the network over the argument arrays,
  parametrised by exactly these three spellings; the two instances agree because the edge normalisers, the inputs and
  the weights are real numbers — so multiplication distributes over the aggregation —, a sum over 25 tiles of 4000
  nodes is the sum over the nodes, and the two variance formulas agree on real numbers. Everything after the second
  batch normalisation — the gate products, the gate bands, logistic and tanh, the concatenations, the clipped
  read-out — is row by row the same function in both programs.
-/
import proofs.«181908_j1778116460896_2_alg».proof.Defs
import proofs.«181908_j1778116460896_2_alg».proof.Proof.Gen.Kernel
import proofs.«181908_j1778116460896_2_alg».proof.Proof.Gen.KernelIdeal
import proofs.«181908_j1778116460896_2_alg».proof.Proof.Gen.ReferenceIdeal
import proofs.«181908_j1778116460896_2_alg».proof.Proof.Gen.Pre_finite_inputs
import proofs.«181908_j1778116460896_2_alg».proof.Proof.Frames
import proofs.«181908_j1778116460896_2_alg».proof.Proof.Algebraic
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Frames.frame_kernel, Frames.frame_kernelIdeal, Frames.frame_referenceIdeal, Frames.preserves, Value.algebraic⟩

end Cert.Proof

end
